-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S16384 : Shape := ⟨1, ![16384]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x1 : S_.BroadcastsInDim S3x128x1 (![] : Fin 0 → Fin S3x128x1.rank)
  reducesTo_S3x128x1_S_d0_1_2 : S3x128x1.ReducesTo [0, 1, 2] S_
  bcast_S_S3x1 : S_.BroadcastsInDim S3x1 (![] : Fin 0 → Fin S3x1.rank)
  reducesTo_S3x1_S_d0_1 : S3x1.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x2 .f32) (main_arg14 : FVec F S2 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg13
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S3x1 .f32) (main_arg9 : FVec F S128x128 .f32) (main_arg10 : FVec F S128 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S3x1 .f32 := Host.absf main_arg8
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S3x128x128 .f32) (main_arg6 : FVec F S3x128 .f32) (main_arg7 : FVec F S3x128x1 .f32) (main_arg8 : FVec F S3x1 .f32) (main_arg9 : FVec F S128x128 .f32) (main_arg10 : FVec F S128 .f32) (main_arg11 : FVec F S128x64 .f32) (main_arg12 : FVec F S64 .f32) (main_arg13 : FVec F S64x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x1 .f32 := Host.absf main_arg7
  let main_cst_10 : FVec F S_ .f32 := constant S_ .f32 0x7F800000#32
  let main_v30 : FVec F S3x128x1 .f32 := broadcastInDim S3x128x1 ![] bcast_S_S3x128x1 main_cst_10
  let main_v31 : IVec S3x128x1 1 := cmpf .olt main_v29 main_v30
  let main_c_11 : IVec S_ 1 := constantI S_ 1 1#1
  let main_v32 : IVec S_ 1 := (fun x v => Host.reduce IntOp.andi x v reducesTo_S3x128x1_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S16384x64 .f32) (main_arg1 : FVec F S16384x16384 .f32) (main_arg2 : IVec S16384 32) (main_arg3 : FVec F S64x128 .f32) (main_arg4 : FVec F S128 .f32) (main_arg5 : FVec F S3x128x128 .f32) (main_arg6 : FVec F S3x128 .f32) (main_arg7 : FVec F S3x128x1 .f32) (main_arg8 : FVec F S3x1 .f32) (main_arg9 : FVec F S128x128 .f32) (main_arg10 : FVec F S128 .f32) (main_arg11 : FVec F S128x64 .f32) (main_arg12 : FVec F S64 .f32) (main_arg13 : FVec F S64x2 .f32) (main_arg14 : FVec F S2 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S16384x64 : Shape := ⟨2, ![16384, 64]⟩
abbrev S16384x16384 : Shape := ⟨2, ![16384, 16384]⟩
abbrev S16384 : Shape := ⟨1, ![16384]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S16384x128 : Shape := ⟨2, ![16384, 128]⟩
abbrev S1x128 : Shape := ⟨2, ![1, 128]⟩
abbrev S1x128x1 : Shape := ⟨3, ![1, 128, 1]⟩
abbrev S128x1 : Shape := ⟨2, ![128, 1]⟩
abbrev S16384x1 : Shape := ⟨2, ![16384, 1]⟩
abbrev S1x1 : Shape := ⟨2, ![1, 1]⟩
abbrev S1 : Shape := ⟨1, ![1]⟩
abbrev S_ : Shape := ⟨0, ![]⟩
abbrev S1x128x128 : Shape := ⟨3, ![1, 128, 128]⟩
abbrev S512x2048 : Shape := ⟨2, ![512, 2048]⟩
abbrev S512x1 : Shape := ⟨2, ![512, 1]⟩
abbrev S512x128 : Shape := ⟨2, ![512, 128]⟩
abbrev S2048x128 : Shape := ⟨2, ![2048, 128]⟩
abbrev S512x4096 : Shape := ⟨2, ![512, 4096]⟩
abbrev S4096x128 : Shape := ⟨2, ![4096, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 114
  | .vmem => 32
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .i32⟩
  | .hbm, ⟨3, _⟩ => ⟨S64x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S3x128x1, .f32⟩
  | .hbm, ⟨8, _⟩ => ⟨S3x1, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x2, .f32⟩
  | .hbm, ⟨14, _⟩ => ⟨S2, .f32⟩
  | .hbm, ⟨15, _⟩ => ⟨S16384x128, .f32⟩
  | .hbm, ⟨16, _⟩ => ⟨S1x128, .f32⟩
  | .hbm, ⟨17, _⟩ => ⟨S16384x128, .f32⟩
  | .hbm, ⟨18, _⟩ => ⟨S16384x128, .f32⟩
  | .hbm, ⟨19, _⟩ => ⟨S1x128x1, .f32⟩
  | .hbm, ⟨20, _⟩ => ⟨S128x1, .f32⟩
  | .hbm, ⟨21, _⟩ => ⟨S16384x1, .f32⟩
  | .hbm, ⟨22, _⟩ => ⟨S1x1, .f32⟩
  | .hbm, ⟨23, _⟩ => ⟨S1, .f32⟩
  | .hbm, ⟨24, _⟩ => ⟨S1x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S16384x128, .f32⟩
  | .hbm, ⟨41, _⟩ => ⟨S16384x16384, .bf16⟩
  | .hbm, ⟨42, _⟩ => ⟨S1x128x1, .f32⟩
  | .hbm, ⟨43, _⟩ => ⟨S128x1, .f32⟩
  | .hbm, ⟨44, _⟩ => ⟨S16384x1, .f32⟩
  | .hbm, ⟨45, _⟩ => ⟨S1x1, .f32⟩
  | .hbm, ⟨46, _⟩ => ⟨S1, .f32⟩
  | .hbm, ⟨47, _⟩ => ⟨S1x1, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S16384x128, .f32⟩
  | .hbm, ⟨64, _⟩ => ⟨S1x128x1, .f32⟩
  | .hbm, ⟨65, _⟩ => ⟨S128x1, .f32⟩
  | .hbm, ⟨66, _⟩ => ⟨S16384x1, .f32⟩
  | .hbm, ⟨67, _⟩ => ⟨S1x1, .f32⟩
  | .hbm, ⟨68, _⟩ => ⟨S1, .f32⟩
  | .hbm, ⟨69, _⟩ => ⟨S1x1, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S1x128x128, .f32⟩
  | .hbm, ⟨81, _⟩ => ⟨S128x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S16384x128, .f32⟩
  | .hbm, ⟨86, _⟩ => ⟨S_, .f32⟩
  | .hbm, ⟨87, _⟩ => ⟨S64x128, .f32⟩
  | .hbm, ⟨88, _⟩ => ⟨S16384x1, .i32⟩
  | .hbm, ⟨89, _⟩ => ⟨S64x128, .f32⟩
  | .hbm, ⟨90, _⟩ => ⟨S_, .f32⟩
  | .hbm, ⟨91, _⟩ => ⟨S16384x1, .f32⟩
  | .hbm, ⟨92, _⟩ => ⟨S_, .f32⟩
  | .hbm, ⟨93, _⟩ => ⟨S64x1, .f32⟩
  | .hbm, ⟨94, _⟩ => ⟨S16384x1, .i32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S64x128, .f32⟩
  | .hbm, ⟨99, _⟩ => ⟨S1x128, .f32⟩
  | .hbm, ⟨100, _⟩ => ⟨S64x128, .f32⟩
  | .hbm, ⟨101, _⟩ => ⟨S64x128, .f32⟩
  | .hbm, ⟨102, _⟩ => ⟨S64x128, .f32⟩
  | .hbm, ⟨103, _⟩ => ⟨S64x64, .f32⟩
  | .hbm, ⟨104, _⟩ => ⟨S1x64, .f32⟩
  | .hbm, ⟨105, _⟩ => ⟨S64x64, .f32⟩
  | .hbm, ⟨106, _⟩ => ⟨S64x64, .f32⟩
  | .hbm, ⟨107, _⟩ => ⟨S_, .f32⟩
  | .hbm, ⟨108, _⟩ => ⟨S64x64, .f32⟩
  | .hbm, ⟨109, _⟩ => ⟨S64x64, .f32⟩
  | .hbm, ⟨110, _⟩ => ⟨S64x2, .f32⟩
  | .hbm, ⟨111, _⟩ => ⟨S1x2, .f32⟩
  | .hbm, ⟨112, _⟩ => ⟨S64x2, .f32⟩
  | .hbm, ⟨113, _⟩ => ⟨S64x2, .f32⟩
  | .local _ .vmem, ⟨0, _⟩ => ⟨S512x2048, .f32⟩
  | .local _ .vmem, ⟨1, _⟩ => ⟨S512x2048, .f32⟩
  | .local _ .vmem, ⟨2, _⟩ => ⟨S16384x128, .f32⟩
  | .local _ .vmem, ⟨3, _⟩ => ⟨S512x1, .f32⟩
  | .local _ .vmem, ⟨4, _⟩ => ⟨S512x1, .f32⟩
  | .local _ .vmem, ⟨5, _⟩ => ⟨S128x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x4096, .bf16⟩
  | .local _ .vmem, ⟨13, _⟩ => ⟨S512x4096, .bf16⟩
  | .local _ .vmem, ⟨14, _⟩ => ⟨S16384x128, .f32⟩
  | .local _ .vmem, ⟨15, _⟩ => ⟨S512x1, .f32⟩
  | .local _ .vmem, ⟨16, _⟩ => ⟨S512x1, .f32⟩
  | .local _ .vmem, ⟨17, _⟩ => ⟨S128x128, .f32⟩
  | .local _ .vmem, ⟨18, _⟩ => ⟨S1x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x4096, .bf16⟩
  | .local _ .vmem, ⟨23, _⟩ => ⟨S512x4096, .bf16⟩
  | .local _ .vmem, ⟨24, _⟩ => ⟨S16384x128, .f32⟩
  | .local _ .vmem, ⟨25, _⟩ => ⟨S512x1, .f32⟩
  | .local _ .vmem, ⟨26, _⟩ => ⟨S512x1, .f32⟩
  | .local _ .vmem, ⟨27, _⟩ => ⟨S128x128, .f32⟩
  | .local _ .vmem, ⟨28, _⟩ => ⟨S1x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_v22_0 : Ref sig .tc := ⟨.hbm, 40, rfl⟩
abbrev main_v22_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_cst_2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call2_v0 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call3_cst : Ref sig .tc := ⟨.hbm, 107, rfl⟩
abbrev main_call3_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c2048_i32 : BitVec 32 := 2048#32
  let v6 : BitVec 32 := Scalar.muli arg1 c2048_i32
  v6
def k0_off1 (i : grid0.Coords) : Fin 2 → Nat :=
  let arg1 : BitVec 32 := BitVec.ofNat 32 (i 1).val
  let c2048_i32 : BitVec 32 := 2048#32
  let v6 : BitVec 32 := Scalar.muli arg1 c2048_i32
  let v7 : BitVec 32 := v6
  let v8 : Index := Scalar.indexCast v7
  let c0_4 : Index := 0#32
  ![v8.toNat, 0]
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_9 : BitVec 32 := 0#32
  let v20 : BitVec 1 := Scalar.cmpi .ne v19 c0_i32_9
  v20

def k0_mult2 (i : grid0.Coords) : BitVec 32 :=
  let arg0 : BitVec 32 := BitVec.ofNat 32 (i 0).val
  let c512_i32 : BitVec 32 := 512#32
  let v21 : BitVec 32 := Scalar.muli arg0 c512_i32
  v21
def k0_off2 (i : grid0.Coords) : Fin 2 → Nat :=
  let arg0 : BitVec 32 := BitVec.ofNat 32 (i 0).val
  let c512_i32 : BitVec 32 := 512#32
  let v21 : BitVec 32 := Scalar.muli arg0 c512_i32
  let v22 : BitVec 32 := v21
  let v23 : Index := Scalar.indexCast v22
  let c0_10 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 4], ![false, false]⟩

def k1_mult1 (i : grid1.Coords) : BitVec 32 :=
  let arg1 : BitVec 32 := BitVec.ofNat 32 (i 1).val
  let c4096_i32 : BitVec 32 := 4096#32
  let v5 : BitVec 32 := Scalar.muli arg1 c4096_i32
  v5
def k1_off1 (i : grid1.Coords) : Fin 2 → Nat :=
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def k1_mult2 (i : grid1.Coords) : BitVec 32 :=
  let arg0 : BitVec 32 := BitVec.ofNat 32 (i 0).val
  let c512_i32 : BitVec 32 := 512#32
  let v20 : BitVec 32 := Scalar.muli arg0 c512_i32
  v20
def k1_off2 (i : grid1.Coords) : Fin 2 → Nat :=
  let arg0 : BitVec 32 := BitVec.ofNat 32 (i 0).val
  let c512_i32 : BitVec 32 := 512#32
  let v20 : BitVec 32 := Scalar.muli arg0 c512_i32
  let v21 : BitVec 32 := v20
  let v22 : Index := Scalar.indexCast v21
  let c0_8 : Index := 0#32
  ![v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![32, 4], ![false, false]⟩

def k2_mult1 (i : grid2.Coords) : BitVec 32 :=
  let arg1 : BitVec 32 := BitVec.ofNat 32 (i 1).val
  let c4096_i32 : BitVec 32 := 4096#32
  let v5 : BitVec 32 := Scalar.muli arg1 c4096_i32
  v5
def k2_off1 (i : grid2.Coords) : Fin 2 → Nat :=
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def k2_mult2 (i : grid2.Coords) : BitVec 32 :=
  let arg0 : BitVec 32 := BitVec.ofNat 32 (i 0).val
  let c512_i32 : BitVec 32 := 512#32
  let v20 : BitVec 32 := Scalar.muli arg0 c512_i32
  v20
def k2_off2 (i : grid2.Coords) : Fin 2 → Nat :=
  let arg0 : BitVec 32 := BitVec.ofNat 32 (i 0).val
  let c512_i32 : BitVec 32 := 512#32
  let v20 : BitVec 32 := Scalar.muli arg0 c512_i32
  let v21 : BitVec 32 := v20
  let v22 : Index := Scalar.indexCast v21
  let c0_8 : Index := 0#32
  ![v22.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  h_S2048x128 : 0 < S2048x128.numel
  shapeCasts_S2048x128_S2048x128 : S2048x128.ShapeCasts S2048x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S3x128x1_S1x128x1_1_0_0 : S3x128x1.Slices ![1, 0, 0] S1x128x1
  slices_S3x1_S1x1_1_0 : S3x1.Slices ![1, 0] S1x1
  slices_S3x128x128_S1x128x128_1_0_0 : S3x128x128.Slices ![1, 0, 0] S1x128x128
  slices_S3x128_S1x128_1_0 : S3x128.Slices ![1, 0] S1x128
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  h_S4096x128 : 0 < S4096x128.numel
  shapeCasts_S4096x128_S4096x128 : S4096x128.ShapeCasts S4096x128
  slices_S3x128x1_S1x128x1_2_0_0 : S3x128x1.Slices ![2, 0, 0] S1x128x1
  slices_S3x1_S1x1_2_0 : S3x1.Slices ![2, 0] S1x1
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S16384_S16384x1_0 : S16384.BroadcastsInDim S16384x1 (![0] : Fin 1 → Fin S16384x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S16384x64_S64x128_S16384x128_1_0_0_1_n_n_wf : DotDims.WF S16384x64 S64x128 S16384x128 [1] [0] [0] [1] [] []
  dot_S16384x128_S128x1_S16384x1_1_0_0_1_n_n_wf : DotDims.WF S16384x128 S128x1 S16384x1 [1] [0] [0] [1] [] []
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  dot_S512x4096_S4096x128_S512x128_1_0_0_1_n_n_wf : DotDims.WF S512x4096 S4096x128 S512x128 [1] [0] [0] [1] [] []
  scatter_S64x128_S16384x1_S16384x128_1_0_0_1_wf : ScatterDims.WF S64x128 S16384x1 S16384x128 [1] [0] [0] 1
  scatter_S64x1_S16384x1_S16384x1_1_0_0_1_wf : ScatterDims.WF S64x1 S16384x1 S16384x1 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x16384.size a
  hwx0_0 : ∀ i : grid0.Coords, EltTy.bits .f32 = 32 ∨ (Rect.block (s := S16384x16384) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S16384x16384.size a
  hwx0_6 : ∀ i : grid0.Coords, EltTy.bits .bf16 = 32 ∨ (Rect.block (s := S16384x16384) S512x2048.size (cc0_transform_6 i) (hinb0_6 i)).WholeWords (EltTy.packing .bf16)
  hrank1 : 0 < grid1.rank
  k1_mult1_dvd : ∀ i : grid1.Coords, 4096 ∣ (k1_mult1 i).toNat
  k1_off1_inb : ∀ i : grid1.Coords, ∀ a, (k1_off1 i) a + S4096x128.size a ≤ S16384x128.size a
  k1_mult2_dvd : ∀ i : grid1.Coords, ∀ (k1_h2 : k1_cond2 i = 1#1), 512 ∣ (k1_mult2 i).toNat
  k1_off2_inb : ∀ i : grid1.Coords, ∀ (k1_h2 : k1_cond2 i = 1#1), ∀ a, (k1_off2 i) a + S512x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x16384.size a
  hwx1_0 : ∀ i : grid1.Coords, EltTy.bits .bf16 = 32 ∨ (Rect.block (s := S16384x16384) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S16384x128.size a
  hwx1_5 : ∀ i : grid1.Coords, EltTy.bits .f32 = 32 ∨ (Rect.block (s := S16384x128) S512x128.size (cc1_transform_5 i) (hinb1_5 i)).WholeWords (EltTy.packing .f32)
  hrank2 : 0 < grid2.rank
  k2_mult1_dvd : ∀ i : grid2.Coords, 4096 ∣ (k2_mult1 i).toNat
  k2_off1_inb : ∀ i : grid2.Coords, ∀ a, (k2_off1 i) a + S4096x128.size a ≤ S16384x128.size a
  k2_mult2_dvd : ∀ i : grid2.Coords, ∀ (k2_h2 : k2_cond2 i = 1#1), 512 ∣ (k2_mult2 i).toNat
  k2_off2_inb : ∀ i : grid2.Coords, ∀ (k2_h2 : k2_cond2 i = 1#1), ∀ a, (k2_off2 i) a + S512x128.size a ≤ S16384x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x16384.size a
  hwx2_0 : ∀ i : grid2.Coords, EltTy.bits .bf16 = 32 ∨ (Rect.block (s := S16384x16384) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S16384x128.size a
  hwx2_1 : ∀ i : grid2.Coords, EltTy.bits .f32 = 32 ∨ (Rect.block (s := S16384x128) S16384x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S16384x1.size a
  hwx2_2 : ∀ i : grid2.Coords, EltTy.bits .f32 = 32 ∨ (Rect.block (s := S16384x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S16384x128.size a
  hwx2_5 : ∀ i : grid2.Coords, EltTy.bits .f32 = 32 ∨ (Rect.block (s := S16384x128) S512x128.size (cc2_transform_5 i) (hinb2_5 i)).WholeWords (EltTy.packing .f32)

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def scatter_S64x128_S16384x1_S16384x128_1_0_0_1 : ScatterDims S64x128 S16384x1 S16384x128 where
  updateWindowDims := [1]
  insertedWindowDims := [0]
  scatterDimsToOperandDims := [0]
  indexVectorDim := 1
  wf := scatter_S64x128_S16384x1_S16384x128_1_0_0_1_wf
def scatter_S64x1_S16384x1_S16384x1_1_0_0_1 : ScatterDims S64x1 S16384x1 S16384x1 where
  updateWindowDims := [1]
  insertedWindowDims := [0]
  scatterDimsToOperandDims := [0]
  indexVectorDim := 1
  wf := scatter_S64x1_S16384x1_S16384x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

abbrev win1_0 : Pipeline.Window sig grid1 :=
  Pipeline.Window.ofSpec (Memref.whole main_v22_1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v22_1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S16384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call2_v0) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S16384 : Shape := ⟨1, ![16384]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S16384x128 : Shape := ⟨2, ![16384, 128]⟩
abbrev S1x128 : Shape := ⟨2, ![1, 128]⟩
abbrev S1x128x1 : Shape := ⟨3, ![1, 128, 1]⟩
abbrev S128x1 : Shape := ⟨2, ![128, 1]⟩
abbrev S16384x1 : Shape := ⟨2, ![16384, 1]⟩
abbrev S1x1 : Shape := ⟨2, ![1, 1]⟩
abbrev S1 : Shape := ⟨1, ![1]⟩
abbrev S_ : Shape := ⟨0, ![]⟩
abbrev S1x128x128 : Shape := ⟨3, ![1, 128, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S16384x64, .f32⟩
  | 1 => ⟨S16384x16384, .f32⟩
  | 2 => ⟨S16384, .i32⟩
  | 3 => ⟨S64x128, .f32⟩
  | 4 => ⟨S128, .f32⟩
  | 5 => ⟨S3x128x128, .f32⟩
  | 6 => ⟨S3x128, .f32⟩
  | 7 => ⟨S3x128x1, .f32⟩
  | 8 => ⟨S3x1, .f32⟩
  | 9 => ⟨S128x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S16384x128, .f32⟩
  | 16 => ⟨S1x128, .f32⟩
  | 17 => ⟨S16384x128, .f32⟩
  | 18 => ⟨S16384x128, .f32⟩
  | 19 => ⟨S1x128x1, .f32⟩
  | 20 => ⟨S128x1, .f32⟩
  | 21 => ⟨S16384x1, .f32⟩
  | 22 => ⟨S1x1, .f32⟩
  | 23 => ⟨S1, .f32⟩
  | 24 => ⟨S1x1, .f32⟩
  | 25 => ⟨S16384x1, .f32⟩
  | 26 => ⟨S16384x1, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x128, .f32⟩
  | 36 => ⟨S16384x128, .f32⟩
  | 37 => ⟨S16384x128, .f32⟩
  | 38 => ⟨S_, .f32⟩
  | 39 => ⟨S16384x1, .f32⟩
  | 40 => ⟨S16384x1, .f32⟩
  | 41 => ⟨S16384x128, .f32⟩
  | 42 => ⟨S16384x128, .f32⟩
  | 43 => ⟨S16384x128, .f32⟩
  | 44 => ⟨S1x128x128, .f32⟩
  | 45 => ⟨S128x128, .f32⟩
  | 46 => ⟨S16384x128, .f32⟩
  | 47 => ⟨S1x128, .f32⟩
  | 48 => ⟨S128, .f32⟩
  | 49 => ⟨S1x128, .f32⟩
  | 50 => ⟨S16384x128, .f32⟩
  | 51 => ⟨S16384x128, .f32⟩
  | 52 => ⟨S_, .f32⟩
  | 53 => ⟨S16384x128, .f32⟩
  | 54 => ⟨S16384x128, .f32⟩
  | 55 => ⟨S1x128x1, .f32⟩
  | 56 => ⟨S128x1, .f32⟩
  | 57 => ⟨S16384x1, .f32⟩
  | 58 => ⟨S1x1, .f32⟩
  | 59 => ⟨S1, .f32⟩
  | 60 => ⟨S1x1, .f32⟩
  | 61 => ⟨S16384x1, .f32⟩
  | 62 => ⟨S16384x1, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S16384x128, .f32⟩
  | 72 => ⟨S16384x128, .f32⟩
  | 73 => ⟨S16384x128, .f32⟩
  | 74 => ⟨S_, .f32⟩
  | 75 => ⟨S16384x1, .f32⟩
  | 76 => ⟨S16384x1, .f32⟩
  | 77 => ⟨S16384x128, .f32⟩
  | 78 => ⟨S16384x128, .f32⟩
  | 79 => ⟨S16384x128, .f32⟩
  | 80 => ⟨S1x128x128, .f32⟩
  | 81 => ⟨S128x128, .f32⟩
  | 82 => ⟨S16384x128, .f32⟩
  | 83 => ⟨S1x128, .f32⟩
  | 84 => ⟨S128, .f32⟩
  | 85 => ⟨S1x128, .f32⟩
  | 86 => ⟨S16384x128, .f32⟩
  | 87 => ⟨S16384x128, .f32⟩
  | 88 => ⟨S_, .f32⟩
  | 89 => ⟨S16384x128, .f32⟩
  | 90 => ⟨S16384x128, .f32⟩
  | 91 => ⟨S1x128x1, .f32⟩
  | 92 => ⟨S128x1, .f32⟩
  | 93 => ⟨S16384x1, .f32⟩
  | 94 => ⟨S1x1, .f32⟩
  | 95 => ⟨S1, .f32⟩
  | 96 => ⟨S1x1, .f32⟩
  | 97 => ⟨S16384x1, .f32⟩
  | 98 => ⟨S16384x1, .f32⟩
  | 99 => ⟨S16384x1, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S16384x128, .f32⟩
  | 108 => ⟨S16384x128, .f32⟩
  | 109 => ⟨S16384x128, .f32⟩
  | 110 => ⟨S_, .f32⟩
  | 111 => ⟨S16384x1, .f32⟩
  | 112 => ⟨S16384x1, .f32⟩
  | 113 => ⟨S16384x128, .f32⟩
  | 114 => ⟨S16384x128, .f32⟩
  | 115 => ⟨S16384x128, .f32⟩
  | 116 => ⟨S1x128x128, .f32⟩
  | 117 => ⟨S128x128, .f32⟩
  | 118 => ⟨S16384x128, .f32⟩
  | 119 => ⟨S1x128, .f32⟩
  | 120 => ⟨S128, .f32⟩
  | 121 => ⟨S1x128, .f32⟩
  | 122 => ⟨S16384x128, .f32⟩
  | 123 => ⟨S16384x128, .f32⟩
  | 124 => ⟨S_, .f32⟩
  | 125 => ⟨S16384x128, .f32⟩
  | 126 => ⟨S16384x128, .f32⟩
  | 127 => ⟨S_, .f32⟩
  | _ => ⟨S16384x64, .f32⟩

abbrev hbmTy0_1 (i : Nat) : BufTy := match i % 128 with
  | 0 => ⟨S64x128, .f32⟩
  | 1 => ⟨S16384x1, .i32⟩
  | 2 => ⟨S64x128, .f32⟩
  | 3 => ⟨S_, .f32⟩
  | 4 => ⟨S16384x1, .f32⟩
  | 5 => ⟨S_, .f32⟩
  | 6 => ⟨S64x1, .f32⟩
  | 7 => ⟨S16384x1, .i32⟩
  | 8 => ⟨S64x1, .f32⟩
  | 9 => ⟨S64x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S64x128, .f32⟩
  | 16 => ⟨S64x64, .f32⟩
  | 17 => ⟨S1x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S64x2, .f32⟩
  | 24 => ⟨S1x2, .f32⟩
  | 25 => ⟨S64x2, .f32⟩
  | 26 => ⟨S64x2, .f32⟩
  | _ => ⟨S16384x64, .f32⟩

abbrev hbmTy (i : Nat) : BufTy := match i / 128 with
  | 0 => hbmTy0_0 i
  | 1 => hbmTy0_1 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_5 : Ref sig .tc := ⟨.hbm, 101, rfl⟩
abbrev main_v76 : Ref sig .tc := ⟨.hbm, 102, rfl⟩
abbrev main_v77 : Ref sig .tc := ⟨.hbm, 103, rfl⟩
abbrev main_cst_6 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_7 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call2_cst : Ref sig .tc := ⟨.hbm, 124, rfl⟩
abbrev main_call2_v0 : Ref sig .tc := ⟨.hbm, 125, rfl⟩
abbrev main_v96 : Ref sig .tc := ⟨.hbm, 126, rfl⟩
abbrev main_cst_8 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_9 : Ref sig .tc := ⟨.hbm, 131, rfl⟩
abbrev main_v100 : Ref sig .tc := ⟨.hbm, 132, rfl⟩
abbrev main_cst_10 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call3_cst : Ref sig .tc := ⟨.hbm, 148, rfl⟩
abbrev main_call3_v0 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S16384x128 : S_.BroadcastsInDim S16384x128 (![] : Fin 0 → Fin S16384x128.rank)
  slices_S3x128x1_S1x128x1_1_0_0 : S3x128x1.Slices ![1, 0, 0] S1x128x1
  slices_S3x1_S1x1_1_0 : S3x1.Slices ![1, 0] S1x1
  slices_S3x128x128_S1x128x128_1_0_0 : S3x128x128.Slices ![1, 0, 0] S1x128x128
  slices_S3x128_S1x128_1_0 : S3x128.Slices ![1, 0] S1x128
  slices_S3x128x1_S1x128x1_2_0_0 : S3x128x1.Slices ![2, 0, 0] S1x128x1
  slices_S3x1_S1x1_2_0 : S3x1.Slices ![2, 0] S1x1
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S16384_S16384x1_0 : S16384.BroadcastsInDim S16384x1 (![0] : Fin 1 → Fin S16384x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S16384x64_S64x128_S16384x128_1_0_0_1_n_n_wf : DotDims.WF S16384x64 S64x128 S16384x128 [1] [0] [0] [1] [] []
  dot_S16384x128_S128x1_S16384x1_1_0_0_1_n_n_wf : DotDims.WF S16384x128 S128x1 S16384x1 [1] [0] [0] [1] [] []
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []
  scatter_S64x128_S16384x1_S16384x128_1_0_0_1_wf : ScatterDims.WF S64x128 S16384x1 S16384x128 [1] [0] [0] 1
  scatter_S64x1_S16384x1_S16384x1_1_0_0_1_wf : ScatterDims.WF S64x1 S16384x1 S16384x1 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def scatter_S64x128_S16384x1_S16384x128_1_0_0_1 : ScatterDims S64x128 S16384x1 S16384x128 where
  updateWindowDims := [1]
  insertedWindowDims := [0]
  scatterDimsToOperandDims := [0]
  indexVectorDim := 1
  wf := scatter_S64x128_S16384x1_S16384x128_1_0_0_1_wf
def scatter_S64x1_S16384x1_S16384x1_1_0_0_1 : ScatterDims S64x1 S16384x1 S16384x1 where
  updateWindowDims := [1]
  insertedWindowDims := [0]
  scatterDimsToOperandDims := [0]
  indexVectorDim := 1
  wf := scatter_S64x1_S16384x1_S16384x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.LayerRuns0.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's region (pallas_call 0): the body case by case

The grid is (row tile, K tile), the K tile the fast axis, 8 K tiles per row tile. At every point the body also
writes the adjacency tile, changed to the narrow float format, into a second result window (the later layers read
that copy); otherwise it is the layer's body: reset at the first K tile, accumulate at every K tile, combine and
store the row tile of the result at the last. -/

abbrev first0 (i : grid0.Coords) : Prop :=
  (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

abbrev acc0M : Memref sig .tc .vmem S512x128 .f32 := Memref.whole cc0_scratch0
abbrev acc0V : View sig .tc .vmem S512x128 .f32 := (acc0M).view
abbrev res0V : View sig .tc .vmem S512x128 .f32 := (Memref.whole cc0_stg5_0 : Memref sig .tc .vmem S512x128 .f32).view
/-- One staging buffer of the narrow copy's window. -/
abbrev cpy0V : View sig .tc .vmem S512x2048 .bf16 := (Memref.whole cc0_stg6_0 : Memref sig .tc .vmem S512x2048 .bf16).view

set_option maxHeartbeats 4000000 in
/-- FIRST K tile: the adjacency tile at `x0`, the feature matrix at `x1`, the copy's buffer and the accumulator at
    anything; left: the inputs as they were, the copy's buffer with `LB` written, the accumulator with `LS`. -/
noncomputable def run0_first (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) :
    Σ' (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%db, %fb, -, HB⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HB]; · iexists _; iexact HB
    iexists _; iexact HS

set_option maxHeartbeats 4000000 in
/-- A MIDDLE K tile: the accumulator comes in at what the point before left. -/
noncomputable def run0_mid (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) :
    Σ' (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ owns (c : Thread nD τ) arg9 fullShare xs
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%db, %fb, -, HB⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HB]; · iexists _; iexact HB
    iexists _; iexact HS

set_option maxHeartbeats 4000000 in
/-- The LAST K tile: every input at its contents, the accumulator at what the point before left, the result buffer
    and the copy's buffer at anything. -/
noncomputable def run0_last (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) :
    Σ' (LR : List (View.Piece (Elt F) S512x128 .f32)) (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%db, %fb, -, HB⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HB]; · iexists _; iexact HB
    iexists _; iexact HS

end Cert.KernelIdeal.Hand

end
-- ==== Proof.LayerData0.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerRuns0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's region (pallas_call 0): what the buffers hold point by point, the proof data, the body obligation -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .bf16 := win0_6.stage (cfg0.slots t 6)
abbrev hs0_6 (t : Fin cfg0.N) : (ms0_6 t).IsWhole := hstage0_6 ((cfg0.slots t 6).cast nbuf0_6)

theorem idle0_5 : ∀ t : Fin cfg0.N, ¬ t.val % 8 = 7 → cfg0.idle 5 (grid0.coords t) = true := by decide +kernel
theorem live0_5 : ∀ t : Fin cfg0.N, t.val % 8 = 7 → cfg0.idle 5 (grid0.coords t) = false := by decide +kernel
theorem noflush0_5 (t : Fin cfg0.N) (h : ¬ t.val % 8 = 7) : (cfg0.win 5).flush t = false := by
  cases hf : (cfg0.win 5).flush t
  · rfl
  · exact absurd ((flush0_5 t).mp hf) h

/-! ## What the runs leave -/

/-- The accumulator after a first K tile: the run's pieces read back; they cover it (whole-buffer stores). -/
def accFirst0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) : Vec F S512x128 .f32 :=
  acc0V.read (Elt F) (acc0V.writes (Elt F) acc0V.junk (run0_first c i arg2 harg2 arg3 harg3 arg4 harg4 arg5 harg5 arg6 harg6 arg7 harg7 arg8 harg8 arg9 harg9 hc0 hc1 x0 x1).2.1)
theorem accFirst0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) (y : S512x128.Idx) :
    ∃ pc ∈ (run0_first c i arg2 harg2 arg3 harg3 arg4 harg4 arg5 harg5 arg6 harg6 arg7 harg7 arg8 harg8 arg9 harg9 hc0 hc1 x0 x1).2.1, y ∈ pc.1.set :=
  View.cover_of_tiledL (run0_first c i arg2 harg2 arg3 harg3 arg4 harg4 arg5 harg5 arg6 harg6 arg7 harg7 arg8 harg8 arg9 harg9 hc0 hc1 x0 x1).2.1 S512x128.size (by sl_kernel_rfl) y

/-- The narrow copy's buffer after a first K tile. -/
def cpyFirst0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) : Vec F S512x2048 .bf16 :=
  cpy0V.read (Elt F) (cpy0V.writes (Elt F) cpy0V.junk (run0_first c i arg2 harg2 arg3 harg3 arg4 harg4 arg5 harg5 arg6 harg6 arg7 harg7 arg8 harg8 arg9 harg9 hc0 hc1 x0 x1).1)
theorem cpyFirst0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) (y : S512x2048.Idx) :
    ∃ pc ∈ (run0_first c i arg2 harg2 arg3 harg3 arg4 harg4 arg5 harg5 arg6 harg6 arg7 harg7 arg8 harg8 arg9 harg9 hc0 hc1 x0 x1).1, y ∈ pc.1.set :=
  View.cover_of_tiledL (run0_first c i arg2 harg2 arg3 harg3 arg4 harg4 arg5 harg5 arg6 harg6 arg7 harg7 arg8 harg8 arg9 harg9 hc0 hc1 x0 x1).1 S512x2048.size (by sl_kernel_rfl) y

def accMid0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) : Vec F S512x128 .f32 :=
  acc0V.read (Elt F) (acc0V.writes (Elt F) acc0V.junk (run0_mid c i arg2 harg2 arg3 harg3 arg4 harg4 arg5 harg5 arg6 harg6 arg7 harg7 arg8 harg8 arg9 harg9 hc0 hc1 x0 x1 xs).2.1)
theorem accMid0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) (y : S512x128.Idx) :
    ∃ pc ∈ (run0_mid c i arg2 harg2 arg3 harg3 arg4 harg4 arg5 harg5 arg6 harg6 arg7 harg7 arg8 harg8 arg9 harg9 hc0 hc1 x0 x1 xs).2.1, y ∈ pc.1.set :=
  View.cover_of_tiledL (run0_mid c i arg2 harg2 arg3 harg3 arg4 harg4 arg5 harg5 arg6 harg6 arg7 harg7 arg8 harg8 arg9 harg9 hc0 hc1 x0 x1 xs).2.1 S512x128.size (by sl_kernel_rfl) y

def cpyMid0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) : Vec F S512x2048 .bf16 :=
  cpy0V.read (Elt F) (cpy0V.writes (Elt F) cpy0V.junk (run0_mid c i arg2 harg2 arg3 harg3 arg4 harg4 arg5 harg5 arg6 harg6 arg7 harg7 arg8 harg8 arg9 harg9 hc0 hc1 x0 x1 xs).1)
theorem cpyMid0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) (y : S512x2048.Idx) :
    ∃ pc ∈ (run0_mid c i arg2 harg2 arg3 harg3 arg4 harg4 arg5 harg5 arg6 harg6 arg7 harg7 arg8 harg8 arg9 harg9 hc0 hc1 x0 x1 xs).1, y ∈ pc.1.set :=
  View.cover_of_tiledL (run0_mid c i arg2 harg2 arg3 harg3 arg4 harg4 arg5 harg5 arg6 harg6 arg7 harg7 arg8 harg8 arg9 harg9 hc0 hc1 x0 x1 xs).1 S512x2048.size (by sl_kernel_rfl) y

def accLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x128 .f32 :=
  acc0V.read (Elt F) (acc0V.writes (Elt F) acc0V.junk (run0_last c i arg2 harg2 arg3 harg3 arg4 harg4 arg5 harg5 arg6 harg6 arg7 harg7 arg8 harg8 arg9 harg9 hc0 hc1 x0 x1 x2 x3 x4 xs).2.2.1)
theorem accLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x128.Idx) :
    ∃ pc ∈ (run0_last c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).2.2.1 S512x128.size (by sl_kernel_rfl) y

def cpyLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x2048 .bf16 :=
  cpy0V.read (Elt F) (cpy0V.writes (Elt F) cpy0V.junk (run0_last c i arg2 harg2 arg3 harg3 arg4 harg4 arg5 harg5 arg6 harg6 arg7 harg7 arg8 harg8 arg9 harg9 hc0 hc1 x0 x1 x2 x3 x4 xs).2.1)
theorem cpyLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x2048.Idx) :
    ∃ pc ∈ (run0_last c i arg2 harg2 arg3 harg3 arg4 harg4 arg5 harg5 arg6 harg6 arg7 harg7 arg8 harg8 arg9 harg9 hc0 hc1 x0 x1 x2 x3 x4 xs).2.1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).2.1 S512x2048.size (by sl_kernel_rfl) y

/-- The result buffer after a last K tile. -/
def resLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x128 .f32 :=
  res0V.read (Elt F) (res0V.writes (Elt F) res0V.junk (run0_last c i arg2 harg2 arg3 harg3 arg4 harg4 arg5 harg5 arg6 harg6 arg7 harg7 arg8 harg8 arg9 harg9 hc0 hc1 x0 x1 x2 x3 x4 xs).1)
theorem resLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x128.Idx) :
    ∃ pc ∈ (run0_last c i arg2 harg2 arg3 harg3 arg4 harg4 arg5 harg5 arg6 harg6 arg7 harg7 arg8 harg8 arg9 harg9 hc0 hc1 x0 x1 x2 x3 x4 xs).1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).1 S512x128.size (by sl_kernel_rfl) y

/-! ## The accumulator point by point -/

def accAt0 (c : Dev nD) : (n : ℕ) → n < cfg0.N → Vec F S512x128 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) acc0M (Memref.isWhole_whole _) ((first0_iff ⟨0, hn⟩).mpr (Nat.zero_mod _)) (fun h => absurd ((last0_iff ⟨0, hn⟩).mp h) (show ¬ (0 % 8 = 7) by decide))
      (blk0 V c 0 ⟨0, hn⟩) (blk0 V c 1 ⟨0, hn⟩)
  | n + 1, hn =>
    if h0 : (n + 1) % 8 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) ((first0_iff ⟨n + 1, hn⟩).mpr h0) (fun h => by have := (last0_iff ⟨n + 1, hn⟩).mp h; (try dsimp only at this); omega)
        (blk0 V c 0 ⟨n + 1, hn⟩) (blk0 V c 1 ⟨n + 1, hn⟩)
    else if h1 : (n + 1) % 8 = 7 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) (fun h => h0 ((first0_iff ⟨n + 1, hn⟩).mp h)) ((last0_iff ⟨n + 1, hn⟩).mpr h1)
        (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (accAt0 c n (Nat.lt_of_succ_lt hn))
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) (fun h => h0 ((first0_iff ⟨n + 1, hn⟩).mp h)) (fun h => h1 ((last0_iff ⟨n + 1, hn⟩).mp h))
        (blk0 V c 0 ⟨n + 1, hn⟩) (blk0 V c 1 ⟨n + 1, hn⟩) (accAt0 c n (Nat.lt_of_succ_lt hn))

theorem accAt0_first (c : Dev nD) (t : Fin cfg0.N) (h0 : t.val % 8 = 0) (h1 : ¬ t.val % 8 = 7) :
    accAt0 V c t.val t.isLt = accFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) ((first0_iff t).mpr h0) (fun h => h1 ((last0_iff t).mp h))
      (blk0 V c 0 t) (blk0 V c 1 t) := by
  obtain ⟨n, hn⟩ := t
  cases n with
  | zero => rfl
  | succ n => exact (dif_pos h0).trans rfl

theorem accAt0_mid (c : Dev nD) (t : Fin cfg0.N) (h0 : ¬ t.val % 8 = 0) (h1 : ¬ t.val % 8 = 7) :
    accAt0 V c t.val t.isLt = accMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) (fun h => h1 ((last0_iff t).mp h))
      (blk0 V c 0 t) (blk0 V c 1 t) (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt0_last (c : Dev nD) (t : Fin cfg0.N) (h0 : ¬ t.val % 8 = 0) (h1 : t.val % 8 = 7) :
    accAt0 V c t.val t.isLt = accLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The result window's buffer after the body at a point (consulted only at a last K tile). -/
def resAt0 (c : Dev nD) (t : Fin cfg0.N) : Vec F S512x128 .f32 :=
  if h1 : t.val % 8 = 7 then
    resLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => by have := (first0_iff t).mp h; omega) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt))
  else res0V.read (Elt F) (res0V.junk)

/-- The narrow copy's buffer after the body at a point: written at every point. -/
def cpyAt0 (c : Dev nD) (t : Fin cfg0.N) : Vec F S512x2048 .bf16 :=
  if h1 : t.val % 8 = 7 then
    cpyLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => by have := (first0_iff t).mp h; omega) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt))
  else if h0 : t.val % 8 = 0 then
    cpyFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) ((first0_iff t).mpr h0) (fun h => h1 ((last0_iff t).mp h)) (blk0 V c 0 t) (blk0 V c 1 t)
  else
    cpyMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) (fun h => h1 ((last0_iff t).mp h)) (blk0 V c 0 t) (blk0 V c 1 t) (accAt0 V c (t.val - 1) (Nat.lt_of_le_of_lt (Nat.sub_le _ _) t.isLt))

/-! ## The invariant -/

def rest0 (c : Dev nD) : sProp 𝕄 :=
  iprop(bigSep ((((Finset.univ.filter fun b : Ref sig .tc => b.isScoped) \ Finset.univ.image (Pipeline.stageRef spec0)).erase cc0_scratch0))
      (fun b => iprop(∃ f : Buf (Elt F) ((c.tc : Thread nD τ).loc b), ((c.tc : Thread nD τ).loc b) ↦{fullShare} f))
    ∗ ∃ r, prngReg c r)

theorem acc0_mem : cc0_scratch0 ∈ ((Finset.univ.filter fun b : Ref sig .tc => b.isScoped) \ Finset.univ.image (Pipeline.stageRef spec0)) := by decide

theorem scoped0_split (c : Dev nD) :
    (Pipeline.scopedRest (Ix := Unit) (Name := ℕ) (U := Pipeline.UD sig nD τ) (Lvl := ℕ) (Val := Elt F) spec0 c : sProp 𝕄)
      = iprop((∃ f : Buf (Elt F) ((c.tc : Thread nD τ).loc cc0_scratch0), ((c.tc : Thread nD τ).loc cc0_scratch0) ↦{fullShare} f)
          ∗ bigSep ((((Finset.univ.filter fun b : Ref sig .tc => b.isScoped) \ Finset.univ.image (Pipeline.stageRef spec0)).erase cc0_scratch0))
              (fun b => iprop(∃ f : Buf (Elt F) ((c.tc : Thread nD τ).loc b), ((c.tc : Thread nD τ).loc b) ↦{fullShare} f))) := by
  unfold Pipeline.scopedRest; exact bigSep_erase acc0_mem

theorem PhiA0_open (c : Dev nD) : (Pipeline.ΦA spec0 c : sProp 𝕄) ⊢ iprop((∃ d, owns (c : Thread nD τ) acc0M fullShare d) ∗ rest0 (F := F) c) := by
  unfold Pipeline.ΦA rest0
  rw [scoped0_split]
  simp only [acc0M, owns_whole]
  iintro ⟨⟨Ha, Hb⟩, Hp⟩
  isplitl [Ha]; · iexact Ha
  isplitl [Hb]; · iexact Hb
  iexact Hp
theorem PhiA0_close (c : Dev nD) : iprop((∃ d, owns (c : Thread nD τ) acc0M fullShare d) ∗ rest0 (F := F) c) ⊢ (Pipeline.ΦA spec0 c : sProp 𝕄) := by
  unfold Pipeline.ΦA rest0
  rw [scoped0_split]
  simp only [acc0M, owns_whole]
  iintro ⟨Ha, Hb, Hp⟩
  isplitl [Ha Hb]
  · isplitl [Ha]; · iexact Ha
    iexact Hb
  iexact Hp

def Inv0 (c : Dev nD) : (n : ℕ) → n ≤ cfg0.N → sProp 𝕄
  | 0, _ => Pipeline.ΦA spec0 c
  | n + 1, hn => iprop(owns (c : Thread nD τ) acc0M fullShare (accAt0 V c n hn) ∗ rest0 (F := F) c)

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(owns (c : Thread nD τ) acc0M fullShare (accAt0 V c n hn) ∗ rest0 (F := F) c) := rfl
theorem Inv0_pos (c : Dev nD) (n : ℕ) (h : n ≤ cfg0.N) (hz : n ≠ 0) :
    Inv0 V c n h = iprop(owns (c : Thread nD τ) acc0M fullShare (accAt0 V c (n - 1) (by omega)) ∗ rest0 (F := F) c) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => resAt0 V c t
    | ⟨6, _⟩ => cpyAt0 V c t
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Inv0_castSucc (c : Dev nD) (t : Fin cfg0.N) :
    (dat0 V c).Φ t.castSucc = Inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = resAt0 V c t := by dsimp only [dat0]
theorem after0_6 (c : Dev nD) (t : Fin cfg0.N) : (dat0 V c).after 6 t = cpyAt0 V c t := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem leaves0_0 (c : Dev nD) (t : Fin cfg0.N) :
    (dat0 V c).leavesExact 0 t = owns (c : Thread nD τ) (ms0_0 t) fullShare (blk0 V c 0 t) := by
  rw [show (dat0 V c).leavesExact 0 t = owns (c : Thread nD τ) (ms0_0 t) fullShare ((dat0 V c).after 0 t) from rfl, after0_0]
theorem leaves0_1 (c : Dev nD) (t : Fin cfg0.N) :
    (dat0 V c).leavesExact 1 t = owns (c : Thread nD τ) (ms0_1 t) fullShare (blk0 V c 1 t) := by
  rw [show (dat0 V c).leavesExact 1 t = owns (c : Thread nD τ) (ms0_1 t) fullShare ((dat0 V c).after 1 t) from rfl, after0_1]
theorem leaves0_2 (c : Dev nD) (t : Fin cfg0.N) :
    (dat0 V c).leavesExact 2 t = owns (c : Thread nD τ) (ms0_2 t) fullShare (blk0 V c 2 t) := by
  rw [show (dat0 V c).leavesExact 2 t = owns (c : Thread nD τ) (ms0_2 t) fullShare ((dat0 V c).after 2 t) from rfl, after0_2]
theorem leaves0_3 (c : Dev nD) (t : Fin cfg0.N) :
    (dat0 V c).leavesExact 3 t = owns (c : Thread nD τ) (ms0_3 t) fullShare (blk0 V c 3 t) := by
  rw [show (dat0 V c).leavesExact 3 t = owns (c : Thread nD τ) (ms0_3 t) fullShare ((dat0 V c).after 3 t) from rfl, after0_3]
theorem leaves0_4 (c : Dev nD) (t : Fin cfg0.N) :
    (dat0 V c).leavesExact 4 t = owns (c : Thread nD τ) (ms0_4 t) fullShare (blk0 V c 4 t) := by
  rw [show (dat0 V c).leavesExact 4 t = owns (c : Thread nD τ) (ms0_4 t) fullShare ((dat0 V c).after 4 t) from rfl, after0_4]
theorem leaves0_6 (c : Dev nD) (t : Fin cfg0.N) :
    (dat0 V c).leavesExact 6 t = owns (c : Thread nD τ) (ms0_6 t) fullShare (cpyAt0 V c t) := by
  rw [show (dat0 V c).leavesExact 6 t = owns (c : Thread nD τ) (ms0_6 t) fullShare ((dat0 V c).after 6 t) from rfl, after0_6]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2, leaves0_3, leaves0_4, leaves0_6]
  have hN : t.val < 256 := lt_of_lt_of_eq t.isLt (show cfg0.N = 256 from N_0)
  by_cases h1 : t.val % 8 = 7
  · have h0 : ¬ t.val % 8 = 0 := by omega
    have hz : t.val ≠ 0 := by omega
    rw [show (dat0 V c).leavesExact 5 t = owns (c : Thread nD τ) (ms0_5 t) fullShare ((dat0 V c).after 5 t) from by
      unfold Dat.leavesExact; rw [live0_5 t h1], after0_5]
    rw [show resAt0 V c t = _ from dif_pos h1, show cpyAt0 V c t = _ from dif_pos h1]
    rw [accAt0_last V c t h0 h1]
    unfold resLast0 accLast0 cpyLast0; (try dsimp only)
    rw [Inv0_castSucc V c t, Inv0_pos V c _ _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply ((run0_last c (grid0.coords t) _ _ _ _ _ _ _ _ _ _ _ _ _ _ _ _ (fun h => h0 ((first0_iff t).mp h)) ((last0_iff t).mpr h1)
      (blk0 V c 0 t) (blk0 V c 1 t) (blk0 V c 2 t) (blk0 V c 3 t) (blk0 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%eb, HB⟩, ⟨%es, HS⟩⟩
    isplitl [HS Hr]
    · isplitl [HS]
      · unfold owns; iexists _; isplitr
        swap; · iexact HS
        ipureintro; exact View.read_writes_of_cover _ _ _ _ _ (accLast0_cover c _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (resLast0_cover c _ _ _ _ _ _ _ _ _ _ _ _ _ _ _ _ _ _ _ _ _ _ _ _ _)
    unfold owns; iexists _; isplitr
    swap; · iexact HB
    ipureintro; exact View.read_writes_of_cover _ _ _ _ _ (cpyLast0_cover c _ _ _ _ _ _ _ _ _ _ _ _ _ _ _ _ _ _ _ _ _ _ _ _ _)
  · rw [Dat.leavesExact_idle (dat0 V c) 5 t (idle0_5 t h1) (noflush0_5 t h1)]
    rw [show cpyAt0 V c t = _ from dif_neg h1]
    by_cases h0 : t.val % 8 = 0
    · rw [accAt0_first V c t h0 h1, dif_pos h0]
      unfold accFirst0 cpyFirst0; (try dsimp only)
      by_cases hz : t.val = 0
      · rw [Inv0_castSucc V c t, Inv0_zero V c _ _ hz]
        iintro ⟨HΦ, Ho, ⟨%d0, H0⟩, ⟨%d1, H1⟩, ⟨%d2, H2⟩, ⟨%d3, H3⟩, ⟨%d4, H4⟩, H5, ⟨%d6, H6⟩⟩
        ihave HΦ' := (PhiA0_open (F := F) c) $$ HΦ
        icases HΦ' with ⟨HS, Hr⟩
        iapply ((run0_first c (grid0.coords t) _ _ _ _ _ _ _ _ _ _ _ _ _ _ _ _ ((first0_iff t).mpr h0) (fun h => h1 ((last0_iff t).mp h))
          (blk0 V c 0 t) (blk0 V c 1 t)).2.2 Set.univ _)
        isplitl [H0]; · iexact H0
        isplitl [H1]; · iexact H1
        isplitl [H6]; · iexists _; iexact H6
        isplitl [HS]; · iexact HS
        iintro ⟨H0, H1, ⟨%eb, HB⟩, ⟨%es, HS⟩⟩
        isplitl [HS Hr]
        · isplitl [HS]
          · unfold owns; iexists _; isplitr
            swap; · iexact HS
            ipureintro; exact View.read_writes_of_cover _ _ _ _ _ (accFirst0_cover c _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact HB
        ipureintro; exact View.read_writes_of_cover _ _ _ _ _ (cpyFirst0_cover c _ _ _ _ _ _ _ _ _ _ _ _ _ _ _ _ _ _ _ _ _)
      · rw [Inv0_castSucc V c t, Inv0_pos V c _ _ hz]
        iintro ⟨⟨HS, Hr⟩, Ho, ⟨%d0, H0⟩, ⟨%d1, H1⟩, ⟨%d2, H2⟩, ⟨%d3, H3⟩, ⟨%d4, H4⟩, H5, ⟨%d6, H6⟩⟩
        iapply ((run0_first c (grid0.coords t) _ _ _ _ _ _ _ _ _ _ _ _ _ _ _ _ ((first0_iff t).mpr h0) (fun h => h1 ((last0_iff t).mp h))
          (blk0 V c 0 t) (blk0 V c 1 t)).2.2 Set.univ _)
        isplitl [H0]; · iexact H0
        isplitl [H1]; · iexact H1
        isplitl [H6]; · iexists _; iexact H6
        isplitl [HS]; · iexists _; iexact HS
        iintro ⟨H0, H1, ⟨%eb, HB⟩, ⟨%es, HS⟩⟩
        isplitl [HS Hr]
        · isplitl [HS]
          · unfold owns; iexists _; isplitr
            swap; · iexact HS
            ipureintro; exact View.read_writes_of_cover _ _ _ _ _ (accFirst0_cover c _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact HB
        ipureintro; exact View.read_writes_of_cover _ _ _ _ _ (cpyFirst0_cover c _ _ _ _ _ _ _ _ _ _ _ _ _ _ _ _ _ _ _ _ _)
    · have hz : t.val ≠ 0 := by omega
      rw [accAt0_mid V c t h0 h1, dif_neg h0]
      unfold accMid0 cpyMid0; (try dsimp only)
      rw [Inv0_castSucc V c t, Inv0_pos V c _ _ hz]
      iintro ⟨⟨HS, Hr⟩, Ho, ⟨%d0, H0⟩, ⟨%d1, H1⟩, ⟨%d2, H2⟩, ⟨%d3, H3⟩, ⟨%d4, H4⟩, H5, ⟨%d6, H6⟩⟩
      iapply ((run0_mid c (grid0.coords t) _ _ _ _ _ _ _ _ _ _ _ _ _ _ _ _ (fun h => h0 ((first0_iff t).mp h)) (fun h => h1 ((last0_iff t).mp h))
        (blk0 V c 0 t) (blk0 V c 1 t) _).2.2 Set.univ _)
      isplitl [H0]; · iexact H0
      isplitl [H1]; · iexact H1
      isplitl [H6]; · iexists _; iexact H6
      isplitl [HS]; · iexact HS
      iintro ⟨H0, H1, ⟨%eb, HB⟩, ⟨%es, HS⟩⟩
      isplitl [HS Hr]
      · isplitl [HS]
        · unfold owns; iexists _; isplitr
          swap; · iexact HS
          ipureintro; exact View.read_writes_of_cover _ _ _ _ _ (accMid0_cover c _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact HB
      ipureintro; exact View.read_writes_of_cover _ _ _ _ _ (cpyMid0_cover c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = Inv0 V c (Fin.last cfg0.N).val (Nat.le_of_lt_succ (Fin.last cfg0.N).isLt) from rfl,
    Inv0_pos V c _ _ hne]
  iintro ⟨HS, Hr⟩
  iapply (PhiA0_close (F := F) c)
  isplitl [HS]; · iexists _; iexact HS
  iexact Hr

end Cert.KernelIdeal.Hand

end
-- ==== Proof.LayerRuns1.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 1): the body case by case

The grid is (row tile, K tile), the K tile the fast axis, 4 K tiles per row tile. At the first K tile the body
resets the accumulator to zero; at every K tile it adds the product of the adjacency tile with the matching rows of
the resident feature matrix; at the last K tile it combines, multiplies by the layer's weights, adds the bias,
clamps at zero and stores the row tile of the result. -/

/-- The body's first branch (the K tile is the first): the printed scalar chain on the point's coordinates. -/
abbrev first1 (i : grid1.Coords) : Prop :=
  (Scalar.cmpi .ne (Scalar.extui (Scalar.cmpi .eq (BitVec.ofNat 32 (i 1).val) 0#32)) 0#32) = 1#1
/-- It holds exactly at the points whose K tile is 0. -/
theorem first1_iff : ∀ t : Fin cfg1.N, first1 (grid1.coords t) ↔ t.val % 4 = 0 :=
  (by decide +kernel : ∀ t : Fin grid1.N, first1 (grid1.coords t) ↔ t.val % 4 = 0)
/-- The body's second branch (the K tile is the last). -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-- The accumulator scratch, a whole scoped buffer of the kernel's own, and the view its contents are stated through. -/
abbrev acc1M : Memref sig .tc .vmem S512x128 .f32 := Memref.whole cc1_scratch0
abbrev acc1V : View sig .tc .vmem S512x128 .f32 := (acc1M).view
/-- One staging buffer of the result window, through which its contents are stated. -/
abbrev res1V : View sig .tc .vmem S512x128 .f32 := (Memref.whole cc1_stg5_0 : Memref sig .tc .vmem S512x128 .f32).view

set_option maxHeartbeats 4000000 in
/-- FIRST K tile (reset, accumulate, no result): on whole buffers — the adjacency tile at `x0`, the feature matrix at
    `x1`, the accumulator at anything — the body runs and leaves the two inputs as they were and the accumulator with
    the pieces `LS` written; the pieces are what the run finds. -/
noncomputable def run1_first (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, fun E K => ?run⟩
  case run =>
    simp only [cc1__layer_kernel_eq_skeleton]; unfold cc1__layer_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE K tile (accumulate only): the accumulator comes in at what the point before left, `xs`. -/
noncomputable def run1_mid (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, fun E K => ?run⟩
  case run =>
    simp only [cc1__layer_kernel_eq_skeleton]; unfold cc1__layer_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- The LAST K tile (accumulate, then the result): every input at its contents, the accumulator at what the point
    before left, the result buffer at anything; the accumulator is left with `LS` written and the result buffer with
    `LR` written. -/
noncomputable def run1_last (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) :
    Σ' (LR : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.LayerData1.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerRuns1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 1): what the buffers hold point by point, the proof data, the body obligation -/

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: an unfetched
    window's block index has not moved since the point before. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Each window's current staging memref at a point, as the pipeline passes it to the body. -/
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)

/-! ## Where the result window is idle -/

theorem idle1_5 : ∀ t : Fin cfg1.N, ¬ t.val % 4 = 3 → cfg1.idle 5 (grid1.coords t) = true := by decide +kernel
theorem live1_5 : ∀ t : Fin cfg1.N, t.val % 4 = 3 → cfg1.idle 5 (grid1.coords t) = false := by decide +kernel
theorem noflush1_5 (t : Fin cfg1.N) (h : ¬ t.val % 4 = 3) : (cfg1.win 5).flush t = false := by
  cases hf : (cfg1.win 5).flush t
  · rfl
  · exact absurd ((flush1_5 t).mp hf) h

/-! ## What the runs leave -/

/-- The accumulator after a first K tile: the run's pieces read back. -/
def accFirst1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) : Vec F S512x128 .f32 :=
  acc1V.read (Elt F) (acc1V.writes (Elt F) acc1V.junk (run1_first c i arg2 harg2 arg3 harg3 arg4 harg4 arg5 harg5 arg6 harg6 arg7 harg7 arg8 harg8 hc0 hc1 x0 x1).1)
/-- Its pieces cover the accumulator (whole-buffer stores). -/
theorem accFirst1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) (y : S512x128.Idx) :
    ∃ pc ∈ (run1_first c i arg2 harg2 arg3 harg3 arg4 harg4 arg5 harg5 arg6 harg6 arg7 harg7 arg8 harg8 hc0 hc1 x0 x1).1, y ∈ pc.1.set :=
  View.cover_of_tiledL (run1_first c i arg2 harg2 arg3 harg3 arg4 harg4 arg5 harg5 arg6 harg6 arg7 harg7 arg8 harg8 hc0 hc1 x0 x1).1 S512x128.size (by sl_kernel_rfl) y

def accMid1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) : Vec F S512x128 .f32 :=
  acc1V.read (Elt F) (acc1V.writes (Elt F) acc1V.junk (run1_mid c i arg2 harg2 arg3 harg3 arg4 harg4 arg5 harg5 arg6 harg6 arg7 harg7 arg8 harg8 hc0 hc1 x0 x1 xs).1)
theorem accMid1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) (y : S512x128.Idx) :
    ∃ pc ∈ (run1_mid c i arg2 harg2 arg3 harg3 arg4 harg4 arg5 harg5 arg6 harg6 arg7 harg7 arg8 harg8 hc0 hc1 x0 x1 xs).1, y ∈ pc.1.set :=
  View.cover_of_tiledL (run1_mid c i arg2 harg2 arg3 harg3 arg4 harg4 arg5 harg5 arg6 harg6 arg7 harg7 arg8 harg8 hc0 hc1 x0 x1 xs).1 S512x128.size (by sl_kernel_rfl) y

def accLast1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  acc1V.read (Elt F) (acc1V.writes (Elt F) acc1V.junk (run1_last c i arg2 harg2 arg3 harg3 arg4 harg4 arg5 harg5 arg6 harg6 arg7 harg7 arg8 harg8 hc0 hc1 x0 x1 x2 x3 x4 xs).2.1)
theorem accLast1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run1_last c i arg2 harg2 arg3 harg3 arg4 harg4 arg5 harg5 arg6 harg6 arg7 harg7 arg8 harg8 hc0 hc1 x0 x1 x2 x3 x4 xs).2.1, y ∈ pc.1.set :=
  View.cover_of_tiledL (run1_last c i arg2 harg2 arg3 harg3 arg4 harg4 arg5 harg5 arg6 harg6 arg7 harg7 arg8 harg8 hc0 hc1 x0 x1 x2 x3 x4 xs).2.1 S512x128.size (by sl_kernel_rfl) y

/-- The result buffer after a last K tile. -/
def resLast1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  res1V.read (Elt F) (res1V.writes (Elt F) res1V.junk (run1_last c i arg2 harg2 arg3 harg3 arg4 harg4 arg5 harg5 arg6 harg6 arg7 harg7 arg8 harg8 hc0 hc1 x0 x1 x2 x3 x4 xs).1)
theorem resLast1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run1_last c i arg2 harg2 arg3 harg3 arg4 harg4 arg5 harg5 arg6 harg6 arg7 harg7 arg8 harg8 hc0 hc1 x0 x1 x2 x3 x4 xs).1, y ∈ pc.1.set :=
  View.cover_of_tiledL (run1_last c i arg2 harg2 arg3 harg3 arg4 harg4 arg5 harg5 arg6 harg6 arg7 harg7 arg8 harg8 hc0 hc1 x0 x1 x2 x3 x4 xs).1 S512x128.size (by sl_kernel_rfl) y

/-! ## The accumulator point by point -/

/-- What the accumulator holds after the body at position `n`: reset and one product at a first K tile, the point
    before's contents plus one product otherwise. -/
def accAt1 (c : Dev nD) : (n : ℕ) → n < cfg1.N → Vec F S512x128 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) acc1M (Memref.isWhole_whole _) ((first1_iff ⟨0, hn⟩).mpr (Nat.zero_mod _)) (fun h => absurd ((last1_iff ⟨0, hn⟩).mp h) (show ¬ (0 % 4 = 3) by decide))
      (blk1 V c 0 ⟨0, hn⟩) (blk1 V c 1 ⟨0, hn⟩)
  | n + 1, hn =>
    if h0 : (n + 1) % 4 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) ((first1_iff ⟨n + 1, hn⟩).mpr h0) (fun h => by have := (last1_iff ⟨n + 1, hn⟩).mp h; (try dsimp only at this); omega)
        (blk1 V c 0 ⟨n + 1, hn⟩) (blk1 V c 1 ⟨n + 1, hn⟩)
    else if h1 : (n + 1) % 4 = 3 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) (fun h => h0 ((first1_iff ⟨n + 1, hn⟩).mp h)) ((last1_iff ⟨n + 1, hn⟩).mpr h1)
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) (fun h => h0 ((first1_iff ⟨n + 1, hn⟩).mp h)) (fun h => h1 ((last1_iff ⟨n + 1, hn⟩).mp h))
        (blk1 V c 0 ⟨n + 1, hn⟩) (blk1 V c 1 ⟨n + 1, hn⟩) (accAt1 c n (Nat.lt_of_succ_lt hn))

theorem accAt1_first (c : Dev nD) (t : Fin cfg1.N) (h0 : t.val % 4 = 0) (h1 : ¬ t.val % 4 = 3) :
    accAt1 V c t.val t.isLt = accFirst1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) ((first1_iff t).mpr h0) (fun h => h1 ((last1_iff t).mp h))
      (blk1 V c 0 t) (blk1 V c 1 t) := by
  obtain ⟨n, hn⟩ := t
  cases n with
  | zero => rfl
  | succ n => exact (dif_pos h0).trans rfl

theorem accAt1_mid (c : Dev nD) (t : Fin cfg1.N) (h0 : ¬ t.val % 4 = 0) (h1 : ¬ t.val % 4 = 3) :
    accAt1 V c t.val t.isLt = accMid1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) (fun h => h1 ((last1_iff t).mp h))
      (blk1 V c 0 t) (blk1 V c 1 t) (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_last (c : Dev nD) (t : Fin cfg1.N) (h0 : ¬ t.val % 4 = 0) (h1 : t.val % 4 = 3) :
    accAt1 V c t.val t.isLt = accLast1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) ((last1_iff t).mpr h1)
      (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the result window's buffer holds after the body at a point: at a last K tile the row tile of the result;
    elsewhere the window is idle and nothing consults this. -/
def resAt1 (c : Dev nD) (t : Fin cfg1.N) : Vec F S512x128 .f32 :=
  if h1 : t.val % 4 = 3 then
    resLast1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => by have := (first1_iff t).mp h; omega) ((last1_iff t).mpr h1)
      (blk1 V c 0 t) (blk1 V c 1 t) (blk1 V c 2 t) (blk1 V c 3 t) (blk1 V c 4 t) (accAt1 V c (t.val - 1) (Nat.lt_of_le_of_lt (Nat.sub_le _ _) t.isLt))
  else res1V.read (Elt F) (res1V.junk)

/-! ## The invariant: the accumulator named, the other scoped buffers and the generator register at anything -/

/-- The core's scoped buffers that are neither a staging buffer of this region nor its accumulator, each at some
    contents, and the generator register at some state. -/
def rest1 (c : Dev nD) : sProp 𝕄 :=
  iprop(bigSep ((((Finset.univ.filter fun b : Ref sig .tc => b.isScoped) \ Finset.univ.image (Pipeline.stageRef spec1)).erase cc1_scratch0))
      (fun b => iprop(∃ f : Buf (Elt F) ((c.tc : Thread nD τ).loc b), ((c.tc : Thread nD τ).loc b) ↦{fullShare} f))
    ∗ ∃ r, prngReg c r)

theorem acc1_mem : cc1_scratch0 ∈ ((Finset.univ.filter fun b : Ref sig .tc => b.isScoped) \ Finset.univ.image (Pipeline.stageRef spec1)) := by decide

/-- The scoped rest, split at the accumulator. -/
theorem scoped1_split (c : Dev nD) :
    (Pipeline.scopedRest (Ix := Unit) (Name := ℕ) (U := Pipeline.UD sig nD τ) (Lvl := ℕ) (Val := Elt F) spec1 c : sProp 𝕄)
      = iprop((∃ f : Buf (Elt F) ((c.tc : Thread nD τ).loc cc1_scratch0), ((c.tc : Thread nD τ).loc cc1_scratch0) ↦{fullShare} f)
          ∗ bigSep ((((Finset.univ.filter fun b : Ref sig .tc => b.isScoped) \ Finset.univ.image (Pipeline.stageRef spec1)).erase cc1_scratch0))
              (fun b => iprop(∃ f : Buf (Elt F) ((c.tc : Thread nD τ).loc b), ((c.tc : Thread nD τ).loc b) ↦{fullShare} f))) := by
  unfold Pipeline.scopedRest; exact bigSep_erase acc1_mem

/-- The class's invariant hands over the accumulator at some contents beside the rest, -/
theorem PhiA1_open (c : Dev nD) : (Pipeline.ΦA spec1 c : sProp 𝕄) ⊢ iprop((∃ d, owns (c : Thread nD τ) acc1M fullShare d) ∗ rest1 (F := F) c) := by
  unfold Pipeline.ΦA rest1
  rw [scoped1_split]
  simp only [acc1M, owns_whole]
  iintro ⟨⟨Ha, Hb⟩, Hp⟩
  isplitl [Ha]; · iexact Ha
  isplitl [Hb]; · iexact Hb
  iexact Hp
/-- and takes it back at any contents. -/
theorem PhiA1_close (c : Dev nD) : iprop((∃ d, owns (c : Thread nD τ) acc1M fullShare d) ∗ rest1 (F := F) c) ⊢ (Pipeline.ΦA spec1 c : sProp 𝕄) := by
  unfold Pipeline.ΦA rest1
  rw [scoped1_split]
  simp only [acc1M, owns_whole]
  iintro ⟨Ha, Hb, Hp⟩
  isplitl [Ha Hb]
  · isplitl [Ha]; · iexact Ha
    iexact Hb
  iexact Hp

/-- The region's invariant before position `n`: before the first point the class's; afterwards the accumulator at
    what the point before left, beside the rest. -/
def Inv1 (c : Dev nD) : (n : ℕ) → n ≤ cfg1.N → sProp 𝕄
  | 0, _ => Pipeline.ΦA spec1 c
  | n + 1, hn => iprop(owns (c : Thread nD τ) acc1M fullShare (accAt1 V c n hn) ∗ rest1 (F := F) c)

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(owns (c : Thread nD τ) acc1M fullShare (accAt1 V c n hn) ∗ rest1 (F := F) c) := rfl
theorem Inv1_pos (c : Dev nD) (n : ℕ) (h : n ≤ cfg1.N) (hz : n ≠ 0) :
    Inv1 V c n h = iprop(owns (c : Thread nD τ) acc1M fullShare (accAt1 V c (n - 1) (by omega)) ∗ rest1 (F := F) c) := by
  cases n with
  | zero => exact absurd rfl hz
  | succ n => rfl

/-! ## The proof data -/

/-- The region's proof data on core `c`: the arrays as the region finds them; after the body each input's buffer at
    its block, the result's at `resAt`; the invariant `Inv`; nothing owed; full shares. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => resAt1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = resAt1 V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem leaves1_0 (c : Dev nD) (t : Fin cfg1.N) :
    (dat1 V c).leavesExact 0 t = owns (c : Thread nD τ) (ms1_0 t) fullShare (blk1 V c 0 t) := by
  rw [show (dat1 V c).leavesExact 0 t = owns (c : Thread nD τ) (ms1_0 t) fullShare ((dat1 V c).after 0 t) from rfl, after1_0]
theorem leaves1_1 (c : Dev nD) (t : Fin cfg1.N) :
    (dat1 V c).leavesExact 1 t = owns (c : Thread nD τ) (ms1_1 t) fullShare (blk1 V c 1 t) := by
  rw [show (dat1 V c).leavesExact 1 t = owns (c : Thread nD τ) (ms1_1 t) fullShare ((dat1 V c).after 1 t) from rfl, after1_1]
theorem leaves1_2 (c : Dev nD) (t : Fin cfg1.N) :
    (dat1 V c).leavesExact 2 t = owns (c : Thread nD τ) (ms1_2 t) fullShare (blk1 V c 2 t) := by
  rw [show (dat1 V c).leavesExact 2 t = owns (c : Thread nD τ) (ms1_2 t) fullShare ((dat1 V c).after 2 t) from rfl, after1_2]
theorem leaves1_3 (c : Dev nD) (t : Fin cfg1.N) :
    (dat1 V c).leavesExact 3 t = owns (c : Thread nD τ) (ms1_3 t) fullShare (blk1 V c 3 t) := by
  rw [show (dat1 V c).leavesExact 3 t = owns (c : Thread nD τ) (ms1_3 t) fullShare ((dat1 V c).after 3 t) from rfl, after1_3]
theorem leaves1_4 (c : Dev nD) (t : Fin cfg1.N) :
    (dat1 V c).leavesExact 4 t = owns (c : Thread nD τ) (ms1_4 t) fullShare (blk1 V c 4 t) := by
  rw [show (dat1 V c).leavesExact 4 t = owns (c : Thread nD τ) (ms1_4 t) fullShare ((dat1 V c).after 4 t) from rfl, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's K tile says which case it is in; the
    invariant hands the body the accumulator (at anything at the first point, else at what the point before left)
    and takes it back at this point's contents; the result window is handed back untouched where it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2, leaves1_3, leaves1_4]
  have hN : t.val < 128 := lt_of_lt_of_eq t.isLt (show cfg1.N = 128 from N_1)
  by_cases h1 : t.val % 4 = 3
  · have h0 : ¬ t.val % 4 = 0 := by omega
    have hz : t.val ≠ 0 := by omega
    rw [show (dat1 V c).leavesExact 5 t = owns (c : Thread nD τ) (ms1_5 t) fullShare ((dat1 V c).after 5 t) from by
      unfold Dat.leavesExact; rw [live1_5 t h1], after1_5]
    rw [show resAt1 V c t = _ from dif_pos h1]
    rw [accAt1_last V c t h0 h1]
    unfold resLast1 accLast1; (try dsimp only)
    rw [Inv1_castSucc V c t, Inv1_pos V c _ _ hz]
    iintro ⟨⟨HS, Hr⟩, Ho, ⟨%d0, H0⟩, ⟨%d1, H1⟩, ⟨%d2, H2⟩, ⟨%d3, H3⟩, ⟨%d4, H4⟩, ⟨%d5, H5⟩⟩
    iapply ((run1_last c (grid1.coords t) _ _ _ _ _ _ _ _ _ _ _ _ _ _ (fun h => h0 ((first1_iff t).mp h)) ((last1_iff t).mpr h1)
      (blk1 V c 0 t) (blk1 V c 1 t) (blk1 V c 2 t) (blk1 V c 3 t) (blk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr]
    · isplitl [HS]
      · unfold owns; iexists _; isplitr
        swap; · iexact HS
        ipureintro; exact View.read_writes_of_cover _ _ _ _ _ (accLast1_cover c _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resLast1_cover c _ _ _ _ _ _ _ _ _ _ _ _ _ _ _ _ _ _ _ _ _ _ _)
  · rw [Dat.leavesExact_idle (dat1 V c) 5 t (idle1_5 t h1) (noflush1_5 t h1)]
    by_cases h0 : t.val % 4 = 0
    · rw [accAt1_first V c t h0 h1]
      unfold accFirst1; (try dsimp only)
      by_cases hz : t.val = 0
      · rw [Inv1_castSucc V c t, Inv1_zero V c _ _ hz]
        iintro ⟨HΦ, Ho, ⟨%d0, H0⟩, ⟨%d1, H1⟩, ⟨%d2, H2⟩, ⟨%d3, H3⟩, ⟨%d4, H4⟩, H5⟩
        ihave HΦ' := (PhiA1_open (F := F) c) $$ HΦ
        icases HΦ' with ⟨HS, Hr⟩
        iapply ((run1_first c (grid1.coords t) _ _ _ _ _ _ _ _ _ _ _ _ _ _ ((first1_iff t).mpr h0) (fun h => h1 ((last1_iff t).mp h))
          (blk1 V c 0 t) (blk1 V c 1 t)).2 Set.univ _)
        isplitl [H0]; · iexact H0
        isplitl [H1]; · iexact H1
        isplitl [HS]; · iexact HS
        iintro ⟨H0, H1, ⟨%es, HS⟩⟩
        isplitl [HS Hr]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
      · rw [Inv1_castSucc V c t, Inv1_pos V c _ _ hz]
        iintro ⟨⟨HS, Hr⟩, Ho, ⟨%d0, H0⟩, ⟨%d1, H1⟩, ⟨%d2, H2⟩, ⟨%d3, H3⟩, ⟨%d4, H4⟩, H5⟩
        iapply ((run1_first c (grid1.coords t) _ _ _ _ _ _ _ _ _ _ _ _ _ _ ((first1_iff t).mpr h0) (fun h => h1 ((last1_iff t).mp h))
          (blk1 V c 0 t) (blk1 V c 1 t)).2 Set.univ _)
        isplitl [H0]; · iexact H0
        isplitl [H1]; · iexact H1
        isplitl [HS]; · iexists _; iexact HS
        iintro ⟨H0, H1, ⟨%es, HS⟩⟩
        isplitl [HS Hr]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [accAt1_mid V c t h0 h1]
      unfold accMid1; (try dsimp only)
      rw [Inv1_castSucc V c t, Inv1_pos V c _ _ hz]
      iintro ⟨⟨HS, Hr⟩, Ho, ⟨%d0, H0⟩, ⟨%d1, H1⟩, ⟨%d2, H2⟩, ⟨%d3, H3⟩, ⟨%d4, H4⟩, H5⟩
      iapply ((run1_mid c (grid1.coords t) _ _ _ _ _ _ _ _ _ _ _ _ _ _ (fun h => h0 ((first1_iff t).mp h)) (fun h => h1 ((last1_iff t).mp h))
        (blk1 V c 0 t) (blk1 V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid1_cover c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = Inv1 V c (Fin.last cfg1.N).val (Nat.le_of_lt_succ (Fin.last cfg1.N).isLt) from rfl,
    Inv1_pos V c _ _ hne]
  iintro ⟨HS, Hr⟩
  iapply (PhiA1_close (F := F) c)
  isplitl [HS]; · iexists _; iexact HS
  iexact Hr

end Cert.KernelIdeal.Hand

end
-- ==== Proof.LayerRuns2.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 2): the body case by case

The grid is (row tile, K tile), the K tile the fast axis, 4 K tiles per row tile. At the first K tile the body
resets the accumulator to zero; at every K tile it adds the product of the adjacency tile with the matching rows of
the resident feature matrix; at the last K tile it combines, multiplies by the layer's weights, adds the bias,
clamps at zero and stores the row tile of the result. -/

/-- The body's first branch (the K tile is the first): the printed scalar chain on the point's coordinates. -/
abbrev first2 (i : grid2.Coords) : Prop :=
  (Scalar.cmpi .ne (Scalar.extui (Scalar.cmpi .eq (BitVec.ofNat 32 (i 1).val) 0#32)) 0#32) = 1#1
/-- It holds exactly at the points whose K tile is 0. -/
theorem first2_iff : ∀ t : Fin cfg2.N, first2 (grid2.coords t) ↔ t.val % 4 = 0 :=
  (by decide +kernel : ∀ t : Fin grid2.N, first2 (grid2.coords t) ↔ t.val % 4 = 0)
/-- The body's second branch (the K tile is the last). -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- The accumulator scratch, a whole scoped buffer of the kernel's own, and the view its contents are stated through. -/
abbrev acc2M : Memref sig .tc .vmem S512x128 .f32 := Memref.whole cc2_scratch0
abbrev acc2V : View sig .tc .vmem S512x128 .f32 := (acc2M).view
/-- One staging buffer of the result window, through which its contents are stated. -/
abbrev res2V : View sig .tc .vmem S512x128 .f32 := (Memref.whole cc2_stg5_0 : Memref sig .tc .vmem S512x128 .f32).view

set_option maxHeartbeats 4000000 in
/-- FIRST K tile (reset, accumulate, no result): on whole buffers — the adjacency tile at `x0`, the feature matrix at
    `x1`, the accumulator at anything — the body runs and leaves the two inputs as they were and the accumulator with
    the pieces `LS` written; the pieces are what the run finds. -/
noncomputable def run2_first (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, fun E K => ?run⟩
  case run =>
    simp only [cc2__layer_kernel_eq_skeleton]; unfold cc2__layer_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE K tile (accumulate only): the accumulator comes in at what the point before left, `xs`. -/
noncomputable def run2_mid (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, fun E K => ?run⟩
  case run =>
    simp only [cc2__layer_kernel_eq_skeleton]; unfold cc2__layer_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- The LAST K tile (accumulate, then the result): every input at its contents, the accumulator at what the point
    before left, the result buffer at anything; the accumulator is left with `LS` written and the result buffer with
    `LR` written. -/
noncomputable def run2_last (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) :
    Σ' (LR : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, ?_, fun E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.LayerData2.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerRuns2
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 2): what the buffers hold point by point, the proof data, the body obligation -/

-- the TensorCore's buffer contents when the region is entered
variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: an unfetched
    window's block index has not moved since the point before. -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Each window's current staging memref at a point, as the pipeline passes it to the body. -/
abbrev ms2_0 (t : Fin cfg2.N) : Memref sig .tc .vmem S512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16384x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)

/-! ## Where the result window is idle -/

theorem idle2_5 : ∀ t : Fin cfg2.N, ¬ t.val % 4 = 3 → cfg2.idle 5 (grid2.coords t) = true := by decide +kernel
theorem live2_5 : ∀ t : Fin cfg2.N, t.val % 4 = 3 → cfg2.idle 5 (grid2.coords t) = false := by decide +kernel
theorem noflush2_5 (t : Fin cfg2.N) (h : ¬ t.val % 4 = 3) : (cfg2.win 5).flush t = false := by
  cases hf : (cfg2.win 5).flush t
  · rfl
  · exact absurd ((flush2_5 t).mp hf) h

/-! ## What the runs leave -/

/-- The accumulator after a first K tile: the run's pieces read back. -/
def accFirst2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) : Vec F S512x128 .f32 :=
  acc2V.read (Elt F) (acc2V.writes (Elt F) acc2V.junk (run2_first c i arg2 harg2 arg3 harg3 arg4 harg4 arg5 harg5 arg6 harg6 arg7 harg7 arg8 harg8 hc0 hc1 x0 x1).1)
/-- Its pieces cover the accumulator (whole-buffer stores). -/
theorem accFirst2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) (y : S512x128.Idx) :
    ∃ pc ∈ (run2_first c i arg2 harg2 arg3 harg3 arg4 harg4 arg5 harg5 arg6 harg6 arg7 harg7 arg8 harg8 hc0 hc1 x0 x1).1, y ∈ pc.1.set :=
  View.cover_of_tiledL (run2_first c i arg2 harg2 arg3 harg3 arg4 harg4 arg5 harg5 arg6 harg6 arg7 harg7 arg8 harg8 hc0 hc1 x0 x1).1 S512x128.size (by sl_kernel_rfl) y

def accMid2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) : Vec F S512x128 .f32 :=
  acc2V.read (Elt F) (acc2V.writes (Elt F) acc2V.junk (run2_mid c i arg2 harg2 arg3 harg3 arg4 harg4 arg5 harg5 arg6 harg6 arg7 harg7 arg8 harg8 hc0 hc1 x0 x1 xs).1)
theorem accMid2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) (y : S512x128.Idx) :
    ∃ pc ∈ (run2_mid c i arg2 harg2 arg3 harg3 arg4 harg4 arg5 harg5 arg6 harg6 arg7 harg7 arg8 harg8 hc0 hc1 x0 x1 xs).1, y ∈ pc.1.set :=
  View.cover_of_tiledL (run2_mid c i arg2 harg2 arg3 harg3 arg4 harg4 arg5 harg5 arg6 harg6 arg7 harg7 arg8 harg8 hc0 hc1 x0 x1 xs).1 S512x128.size (by sl_kernel_rfl) y

def accLast2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  acc2V.read (Elt F) (acc2V.writes (Elt F) acc2V.junk (run2_last c i arg2 harg2 arg3 harg3 arg4 harg4 arg5 harg5 arg6 harg6 arg7 harg7 arg8 harg8 hc0 hc1 x0 x1 x2 x3 x4 xs).2.1)
theorem accLast2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run2_last c i arg2 harg2 arg3 harg3 arg4 harg4 arg5 harg5 arg6 harg6 arg7 harg7 arg8 harg8 hc0 hc1 x0 x1 x2 x3 x4 xs).2.1, y ∈ pc.1.set :=
  View.cover_of_tiledL (run2_last c i arg2 harg2 arg3 harg3 arg4 harg4 arg5 harg5 arg6 harg6 arg7 harg7 arg8 harg8 hc0 hc1 x0 x1 x2 x3 x4 xs).2.1 S512x128.size (by sl_kernel_rfl) y

/-- The result buffer after a last K tile. -/
def resLast2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  res2V.read (Elt F) (res2V.writes (Elt F) res2V.junk (run2_last c i arg2 harg2 arg3 harg3 arg4 harg4 arg5 harg5 arg6 harg6 arg7 harg7 arg8 harg8 hc0 hc1 x0 x1 x2 x3 x4 xs).1)
theorem resLast2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run2_last c i arg2 harg2 arg3 harg3 arg4 harg4 arg5 harg5 arg6 harg6 arg7 harg7 arg8 harg8 hc0 hc1 x0 x1 x2 x3 x4 xs).1, y ∈ pc.1.set :=
  View.cover_of_tiledL (run2_last c i arg2 harg2 arg3 harg3 arg4 harg4 arg5 harg5 arg6 harg6 arg7 harg7 arg8 harg8 hc0 hc1 x0 x1 x2 x3 x4 xs).1 S512x128.size (by sl_kernel_rfl) y

/-! ## The accumulator point by point -/

/-- What the accumulator holds after the body at position `n`: reset and one product at a first K tile, the point
    before's contents plus one product otherwise. -/
def accAt2 (c : Dev nD) : (n : ℕ) → n < cfg2.N → Vec F S512x128 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) acc2M (Memref.isWhole_whole _) ((first2_iff ⟨0, hn⟩).mpr (Nat.zero_mod _)) (fun h => absurd ((last2_iff ⟨0, hn⟩).mp h) (show ¬ (0 % 4 = 3) by decide))
      (blk2 V c 0 ⟨0, hn⟩) (blk2 V c 1 ⟨0, hn⟩)
  | n + 1, hn =>
    if h0 : (n + 1) % 4 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) ((first2_iff ⟨n + 1, hn⟩).mpr h0) (fun h => by have := (last2_iff ⟨n + 1, hn⟩).mp h; (try dsimp only at this); omega)
        (blk2 V c 0 ⟨n + 1, hn⟩) (blk2 V c 1 ⟨n + 1, hn⟩)
    else if h1 : (n + 1) % 4 = 3 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) (fun h => h0 ((first2_iff ⟨n + 1, hn⟩).mp h)) ((last2_iff ⟨n + 1, hn⟩).mpr h1)
        (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (accAt2 c n (Nat.lt_of_succ_lt hn))
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) (fun h => h0 ((first2_iff ⟨n + 1, hn⟩).mp h)) (fun h => h1 ((last2_iff ⟨n + 1, hn⟩).mp h))
        (blk2 V c 0 ⟨n + 1, hn⟩) (blk2 V c 1 ⟨n + 1, hn⟩) (accAt2 c n (Nat.lt_of_succ_lt hn))

theorem accAt2_first (c : Dev nD) (t : Fin cfg2.N) (h0 : t.val % 4 = 0) (h1 : ¬ t.val % 4 = 3) :
    accAt2 V c t.val t.isLt = accFirst2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) ((first2_iff t).mpr h0) (fun h => h1 ((last2_iff t).mp h))
      (blk2 V c 0 t) (blk2 V c 1 t) := by
  obtain ⟨n, hn⟩ := t
  cases n with
  | zero => rfl
  | succ n => exact (dif_pos h0).trans rfl

theorem accAt2_mid (c : Dev nD) (t : Fin cfg2.N) (h0 : ¬ t.val % 4 = 0) (h1 : ¬ t.val % 4 = 3) :
    accAt2 V c t.val t.isLt = accMid2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) (fun h => h1 ((last2_iff t).mp h))
      (blk2 V c 0 t) (blk2 V c 1 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt2_last (c : Dev nD) (t : Fin cfg2.N) (h0 : ¬ t.val % 4 = 0) (h1 : t.val % 4 = 3) :
    accAt2 V c t.val t.isLt = accLast2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) ((last2_iff t).mpr h1)
      (blk2 V c 0 t) (blk2 V c 1 t) (blk2 V c 2 t) (blk2 V c 3 t) (blk2 V c 4 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the result window's buffer holds after the body at a point: at a last K tile the row tile of the result;
    elsewhere the window is idle and nothing consults this. -/
def resAt2 (c : Dev nD) (t : Fin cfg2.N) : Vec F S512x128 .f32 :=
  if h1 : t.val % 4 = 3 then
    resLast2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => by have := (first2_iff t).mp h; omega) ((last2_iff t).mpr h1)
      (blk2 V c 0 t) (blk2 V c 1 t) (blk2 V c 2 t) (blk2 V c 3 t) (blk2 V c 4 t) (accAt2 V c (t.val - 1) (Nat.lt_of_le_of_lt (Nat.sub_le _ _) t.isLt))
  else res2V.read (Elt F) (res2V.junk)

/-! ## The invariant: the accumulator named, the other scoped buffers and the generator register at anything -/

/-- The core's scoped buffers that are neither a staging buffer of this region nor its accumulator, each at some
    contents, and the generator register at some state. -/
def rest2 (c : Dev nD) : sProp 𝕄 :=
  iprop(bigSep ((((Finset.univ.filter fun b : Ref sig .tc => b.isScoped) \ Finset.univ.image (Pipeline.stageRef spec2)).erase cc2_scratch0))
      (fun b => iprop(∃ f : Buf (Elt F) ((c.tc : Thread nD τ).loc b), ((c.tc : Thread nD τ).loc b) ↦{fullShare} f))
    ∗ ∃ r, prngReg c r)

theorem acc2_mem : cc2_scratch0 ∈ ((Finset.univ.filter fun b : Ref sig .tc => b.isScoped) \ Finset.univ.image (Pipeline.stageRef spec2)) := by decide

/-- The scoped rest, split at the accumulator. -/
theorem scoped2_split (c : Dev nD) :
    (Pipeline.scopedRest (Ix := Unit) (Name := ℕ) (U := Pipeline.UD sig nD τ) (Lvl := ℕ) (Val := Elt F) spec2 c : sProp 𝕄)
      = iprop((∃ f : Buf (Elt F) ((c.tc : Thread nD τ).loc cc2_scratch0), ((c.tc : Thread nD τ).loc cc2_scratch0) ↦{fullShare} f)
          ∗ bigSep ((((Finset.univ.filter fun b : Ref sig .tc => b.isScoped) \ Finset.univ.image (Pipeline.stageRef spec2)).erase cc2_scratch0))
              (fun b => iprop(∃ f : Buf (Elt F) ((c.tc : Thread nD τ).loc b), ((c.tc : Thread nD τ).loc b) ↦{fullShare} f))) := by
  unfold Pipeline.scopedRest; exact bigSep_erase acc2_mem

/-- The class's invariant hands over the accumulator at some contents beside the rest, -/
theorem PhiA2_open (c : Dev nD) : (Pipeline.ΦA spec2 c : sProp 𝕄) ⊢ iprop((∃ d, owns (c : Thread nD τ) acc2M fullShare d) ∗ rest2 (F := F) c) := by
  unfold Pipeline.ΦA rest2
  rw [scoped2_split]
  simp only [acc2M, owns_whole]
  iintro ⟨⟨Ha, Hb⟩, Hp⟩
  isplitl [Ha]; · iexact Ha
  isplitl [Hb]; · iexact Hb
  iexact Hp
/-- and takes it back at any contents. -/
theorem PhiA2_close (c : Dev nD) : iprop((∃ d, owns (c : Thread nD τ) acc2M fullShare d) ∗ rest2 (F := F) c) ⊢ (Pipeline.ΦA spec2 c : sProp 𝕄) := by
  unfold Pipeline.ΦA rest2
  rw [scoped2_split]
  simp only [acc2M, owns_whole]
  iintro ⟨Ha, Hb, Hp⟩
  isplitl [Ha Hb]
  · isplitl [Ha]; · iexact Ha
    iexact Hb
  iexact Hp

/-- The region's invariant before position `n`: before the first point the class's; afterwards the accumulator at
    what the point before left, beside the rest. -/
def Inv2 (c : Dev nD) : (n : ℕ) → n ≤ cfg2.N → sProp 𝕄
  | 0, _ => Pipeline.ΦA spec2 c
  | n + 1, hn => iprop(owns (c : Thread nD τ) acc2M fullShare (accAt2 V c n hn) ∗ rest2 (F := F) c)

theorem Inv2_zero (c : Dev nD) (n : ℕ) (h : n ≤ cfg2.N) (hz : n = 0) : Inv2 V c n h = Pipeline.ΦA spec2 c := by
  subst hz; rfl
theorem Inv2_succ (c : Dev nD) (n : ℕ) (hn : n < cfg2.N) :
    Inv2 V c (n + 1) hn = iprop(owns (c : Thread nD τ) acc2M fullShare (accAt2 V c n hn) ∗ rest2 (F := F) c) := rfl
theorem Inv2_pos (c : Dev nD) (n : ℕ) (h : n ≤ cfg2.N) (hz : n ≠ 0) :
    Inv2 V c n h = iprop(owns (c : Thread nD τ) acc2M fullShare (accAt2 V c (n - 1) (by omega)) ∗ rest2 (F := F) c) := by
  cases n with
  | zero => exact absurd rfl hz
  | succ n => rfl

/-! ## The proof data -/

/-- The region's proof data on core `c`: the arrays as the region finds them; after the body each input's buffer at
    its block, the result's at `resAt`; the invariant `Inv`; nothing owed; full shares. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => resAt2 V c t
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Inv2_castSucc (c : Dev nD) (t : Fin cfg2.N) :
    (dat2 V c).Φ t.castSucc = Inv2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = resAt2 V c t := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem leaves2_0 (c : Dev nD) (t : Fin cfg2.N) :
    (dat2 V c).leavesExact 0 t = owns (c : Thread nD τ) (ms2_0 t) fullShare (blk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (blk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (blk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (blk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (blk2 V c 4 t) := by
  rw [show (dat2 V c).leavesExact 4 t = owns (c : Thread nD τ) (ms2_4 t) fullShare ((dat2 V c).after 4 t) from rfl, after2_4]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4800000 in
/-- The body at any point: the inputs' memrefs hold their blocks; the point's K tile says which case it is in; the
    invariant hands the body the accumulator (at anything at the first point, else at what the point before left)
    and takes it back at this point's contents; the result window is handed back untouched where it is idle. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Inv2 V c (t.val + 1) t.isLt from rfl, Inv2_succ]
  rw [leaves2_0, leaves2_1, leaves2_2, leaves2_3, leaves2_4]
  have hN : t.val < 128 := lt_of_lt_of_eq t.isLt (show cfg2.N = 128 from N_2)
  by_cases h1 : t.val % 4 = 3
  · have h0 : ¬ t.val % 4 = 0 := by omega
    have hz : t.val ≠ 0 := by omega
    rw [show (dat2 V c).leavesExact 5 t = owns (c : Thread nD τ) (ms2_5 t) fullShare ((dat2 V c).after 5 t) from by
      unfold Dat.leavesExact; rw [live2_5 t h1], after2_5]
    rw [show resAt2 V c t = _ from dif_pos h1]
    rw [accAt2_last V c t h0 h1]
    unfold resLast2 accLast2; (try dsimp only)
    rw [Inv2_castSucc V c t, Inv2_pos V c _ _ hz]
    iintro ⟨⟨HS, Hr⟩, Ho, ⟨%d0, H0⟩, ⟨%d1, H1⟩, ⟨%d2, H2⟩, ⟨%d3, H3⟩, ⟨%d4, H4⟩, ⟨%d5, H5⟩⟩
    iapply ((run2_last c (grid2.coords t) _ _ _ _ _ _ _ _ _ _ _ _ _ _ (fun h => h0 ((first2_iff t).mp h)) ((last2_iff t).mpr h1)
      (blk2 V c 0 t) (blk2 V c 1 t) (blk2 V c 2 t) (blk2 V c 3 t) (blk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr]
    · isplitl [HS]
      · unfold owns; iexists _; isplitr
        swap; · iexact HS
        ipureintro; exact View.read_writes_of_cover _ _ _ _ _ (accLast2_cover c _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resLast2_cover c _ _ _ _ _ _ _ _ _ _ _ _ _ _ _ _ _ _ _ _ _ _ _)
  · rw [Dat.leavesExact_idle (dat2 V c) 5 t (idle2_5 t h1) (noflush2_5 t h1)]
    by_cases h0 : t.val % 4 = 0
    · rw [accAt2_first V c t h0 h1]
      unfold accFirst2; (try dsimp only)
      by_cases hz : t.val = 0
      · rw [Inv2_castSucc V c t, Inv2_zero V c _ _ hz]
        iintro ⟨HΦ, Ho, ⟨%d0, H0⟩, ⟨%d1, H1⟩, ⟨%d2, H2⟩, ⟨%d3, H3⟩, ⟨%d4, H4⟩, H5⟩
        ihave HΦ' := (PhiA2_open (F := F) c) $$ HΦ
        icases HΦ' with ⟨HS, Hr⟩
        iapply ((run2_first c (grid2.coords t) _ _ _ _ _ _ _ _ _ _ _ _ _ _ ((first2_iff t).mpr h0) (fun h => h1 ((last2_iff t).mp h))
          (blk2 V c 0 t) (blk2 V c 1 t)).2 Set.univ _)
        isplitl [H0]; · iexact H0
        isplitl [H1]; · iexact H1
        isplitl [HS]; · iexact HS
        iintro ⟨H0, H1, ⟨%es, HS⟩⟩
        isplitl [HS Hr]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
      · rw [Inv2_castSucc V c t, Inv2_pos V c _ _ hz]
        iintro ⟨⟨HS, Hr⟩, Ho, ⟨%d0, H0⟩, ⟨%d1, H1⟩, ⟨%d2, H2⟩, ⟨%d3, H3⟩, ⟨%d4, H4⟩, H5⟩
        iapply ((run2_first c (grid2.coords t) _ _ _ _ _ _ _ _ _ _ _ _ _ _ ((first2_iff t).mpr h0) (fun h => h1 ((last2_iff t).mp h))
          (blk2 V c 0 t) (blk2 V c 1 t)).2 Set.univ _)
        isplitl [H0]; · iexact H0
        isplitl [H1]; · iexact H1
        isplitl [HS]; · iexists _; iexact HS
        iintro ⟨H0, H1, ⟨%es, HS⟩⟩
        isplitl [HS Hr]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [accAt2_mid V c t h0 h1]
      unfold accMid2; (try dsimp only)
      rw [Inv2_castSucc V c t, Inv2_pos V c _ _ hz]
      iintro ⟨⟨HS, Hr⟩, Ho, ⟨%d0, H0⟩, ⟨%d1, H1⟩, ⟨%d2, H2⟩, ⟨%d3, H3⟩, ⟨%d4, H4⟩, H5⟩
      iapply ((run2_mid c (grid2.coords t) _ _ _ _ _ _ _ _ _ _ _ _ _ _ (fun h => h0 ((first2_iff t).mp h)) (fun h => h1 ((last2_iff t).mp h))
        (blk2 V c 0 t) (blk2 V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid2_cover c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 128 := N_2; omega
  rw [show (dat2 V c).Φ (Fin.last cfg2.N) = Inv2 V c (Fin.last cfg2.N).val (Nat.le_of_lt_succ (Fin.last cfg2.N).isLt) from rfl,
    Inv2_pos V c _ _ hne]
  iintro ⟨HS, Hr⟩
  iapply (PhiA2_close (F := F) c)
  isplitl [HS]; · iexists _; iexact HS
  iexact Hr

end Cert.KernelIdeal.Hand

end
-- ==== Proof.RunI.lean ====
/- THE RUN of @main over its twelve items, at any float instance `F` and for ANY three region halves.

   @main is: two host stretches, kernel call 0, two host stretches, kernel call 1, two host stretches, kernel call 2,
   three host stretches. Between two items every unscoped buffer of a core is held whole at known contents: the launch
   memory `W0`, then after a host stretch the stretch's results over the contents before it (`StableHlo.after`), and
   after a region the contents before it with the region's arrays replaced by what its write-backs leave
   (`Pipeline.withArrays` of `Dat.arrAt … N`). The fold ends at `W12`, the contents at the return.

   A region's half (`RegionHalf`) is a parameter: its proof data at any entry contents, with the arrays' entry contents
   read off those contents, the body obligation, the invariant at the two ends of the grid against the scoped rest and
   the generator register, every input array whole, nothing owed. From three halves: each region as a segment of the run
   (its arrays split out of the unscoped buffers at entry, put back at the exit contents), the run itself (`run_all`:
   every final memory holds every unscoped buffer at `W12`), each argument read back through the fold to the launch
   memory (`W12_main_argJ`: no host stretch writes an argument; the adjacency argument is region 0's first input window,
   whose array an input window never writes back; every other argument bypasses all three regions), and the frame
   statement (`frame_all`). -/
import proofs.«103405_j58265526337970_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents on every core, read at the TensorCore's references: what a region's half is
    stated at (the contents the region is entered from). -/
abbrev Ent : Type := (c : Dev nD) → (b : Ref sig .tc) → Buf (Elt F) ((c : Thread nD τ).loc b)

/-- ONE REGION'S HALF, at any entry contents `V`: its proof data, the arrays' entry contents read off `V`, the body
    obligation, the invariant at the two ends of the grid against the region invariant (the scoped rest and the
    generator register), every input array held whole, nothing owed at any point, no bound on
    the recorded pairs at the first point. -/
structure RegionHalf (cfg : Pipeline.Cfg sig Λ₀) where
  dat : Ent (F := F) → (c : Dev nD) → Dat τ (Elt F) Unit ℕ (Pipeline.UD sig nD τ) ℕ cfg c
  hA : ∀ V c w, (dat V c).A w = V c (Pipeline.arrRef cfg.spec w)
  hbody : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
  hq : ∀ V c w, (dat V c).q w = fullShare
  howed : ∀ V c t, (dat V c).owed t = 0
  hrec : ∀ V c, (dat V c).recorded 0 = Set.univ

variable (m : (ℓ : Loc nD τ sig) → Buf (Elt F) ℓ) (ρ : Dev nD → PrngReg)
variable (h0 : RegionHalf (F := F) cfg0) (h1 : RegionHalf (F := F) cfg1) (h2 : RegionHalf (F := F) cfg2)

/-! # The buffer contents at each boundary between two items of @main: a fold from the launch memory -/

/-- Core `c`'s buffers at launch. -/
abbrev W0 (c : Dev nD) : Valuation τ sig (Elt F) := fun b => m (c, b)
/-- After the first host stretch. -/
abbrev W1 (c : Dev nD) : Valuation τ sig (Elt F) := StableHlo.after hostOps0 (W0 m c)
/-- After the second host stretch: what region 0 is entered from. -/
abbrev W2 (c : Dev nD) : Valuation τ sig (Elt F) := StableHlo.after hostOps0_1 (W1 m c)
/-- Region 0's entry contents at the TensorCore's references. -/
abbrev En0 : Ent (F := F) := fun c b => W2 m c b
/-- At region 0's exit: its arrays at what the write-backs leave, every other buffer as entered. -/
def W3 (c : Dev nD) : Valuation τ sig (Elt F) :=
  Pipeline.withArrays spec0 c (W2 m c) fun w => (h0.dat (En0 m) c).arrAt w cfg0.N
abbrev W4 (c : Dev nD) : Valuation τ sig (Elt F) := StableHlo.after hostOps1 (W3 m h0 c)
/-- What region 1 is entered from. -/
abbrev W5 (c : Dev nD) : Valuation τ sig (Elt F) := StableHlo.after hostOps1_1 (W4 m h0 c)
abbrev En1 : Ent (F := F) := fun c b => W5 m h0 c b
/-- At region 1's exit. -/
def W6 (c : Dev nD) : Valuation τ sig (Elt F) :=
  Pipeline.withArrays spec1 c (W5 m h0 c) fun w => (h1.dat (En1 m h0) c).arrAt w cfg1.N
abbrev W7 (c : Dev nD) : Valuation τ sig (Elt F) := StableHlo.after hostOps2 (W6 m h0 h1 c)
/-- What region 2 is entered from. -/
abbrev W8 (c : Dev nD) : Valuation τ sig (Elt F) := StableHlo.after hostOps2_1 (W7 m h0 h1 c)
abbrev En2 : Ent (F := F) := fun c b => W8 m h0 h1 c b
/-- At region 2's exit. -/
def W9 (c : Dev nD) : Valuation τ sig (Elt F) :=
  Pipeline.withArrays spec2 c (W8 m h0 h1 c) fun w => (h2.dat (En2 m h0 h1) c).arrAt w cfg2.N
abbrev W10 (c : Dev nD) : Valuation τ sig (Elt F) := StableHlo.after hostOps3 (W9 m h0 h1 h2 c)
abbrev W11 (c : Dev nD) : Valuation τ sig (Elt F) := StableHlo.after hostOps3_1 (W10 m h0 h1 h2 c)
/-- At the return: the last host stretch's results, the result buffer among them. -/
abbrev W12 (c : Dev nD) : Valuation τ sig (Elt F) := StableHlo.after hostOps3_2 (W11 m h0 h1 h2 c)

theorem W3_arr (c : Dev nD) (w : Fin cfg0.W) :
    W3 m h0 c (Proc.devRef .tc (Pipeline.arrRef spec0 w)) = (h0.dat (En0 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m h0 c (Proc.devRef .tc b) = W2 m c (Proc.devRef .tc b) := by
  unfold W3; exact Pipeline.withArrays_of_ne spec0 c _ _ b hb
theorem W6_arr (c : Dev nD) (w : Fin cfg1.W) :
    W6 m h0 h1 c (Proc.devRef .tc (Pipeline.arrRef spec1 w)) = (h1.dat (En1 m h0) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m h0 h1 c (Proc.devRef .tc b) = W5 m h0 c (Proc.devRef .tc b) := by
  unfold W6; exact Pipeline.withArrays_of_ne spec1 c _ _ b hb
theorem W9_arr (c : Dev nD) (w : Fin cfg2.W) :
    W9 m h0 h1 h2 c (Proc.devRef .tc (Pipeline.arrRef spec2 w)) = (h2.dat (En2 m h0 h1) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m h0 h1 h2 c (Proc.devRef .tc b) = W8 m h0 h1 c (Proc.devRef .tc b) := by
  unfold W9; exact Pipeline.withArrays_of_ne spec2 c _ _ b hb

/-! ### The arguments end as launched: no host stretch writes one, and a region reads it through an input window
    (whose array the region leaves as entered) or bypasses it -/

/-- A buffer neither of the first two host stretches writes holds at region 0's entry what the launch memory holds. -/
theorem W2_of_W0 (c : Dev nD) (r : Ref sig .tc) (hw : r ∉ hostOps0_W ∧ r ∉ hostOps0_1_W) :
    W2 m c (Proc.devRef .tc r) = m ((c : Thread nD τ).loc r) :=
  (StableHlo.after_of_writes_sub hostOps0_1 _ hostOps0_1_writes hw.2).trans <|
    (StableHlo.after_of_writes_sub hostOps0 _ hostOps0_writes hw.1).trans rfl

/-- A buffer no host stretch after region 0 writes and that regions 1 and 2 bypass holds at the return what region 0
    left in it. -/
theorem W12_of_W3 (c : Dev nD) (r : Ref sig .tc)
    (hw : r ∉ hostOps1_W ∧ r ∉ hostOps1_1_W ∧ r ∉ hostOps2_W ∧ r ∉ hostOps2_1_W ∧ r ∉ hostOps3_W ∧ r ∉ hostOps3_1_W ∧ r ∉ hostOps3_2_W)
    (hs1 : ∀ w, Pipeline.arrRef spec1 w ≠ r) (hs2 : ∀ w, Pipeline.arrRef spec2 w ≠ r) :
    W12 m h0 h1 h2 c (Proc.devRef .tc r) = W3 m h0 c (Proc.devRef .tc r) :=
  (StableHlo.after_of_writes_sub hostOps3_2 _ hostOps3_2_writes hw.2.2.2.2.2.2).trans <|
  (StableHlo.after_of_writes_sub hostOps3_1 _ hostOps3_1_writes hw.2.2.2.2.2.1).trans <|
  (StableHlo.after_of_writes_sub hostOps3 _ hostOps3_writes hw.2.2.2.2.1).trans <|
  (W9_of_ne m h0 h1 h2 c r hs2).trans <|
  (StableHlo.after_of_writes_sub hostOps2_1 _ hostOps2_1_writes hw.2.2.2.1).trans <|
  (StableHlo.after_of_writes_sub hostOps2 _ hostOps2_writes hw.2.2.1).trans <|
  (W6_of_ne m h0 h1 c r hs1).trans <|
  (StableHlo.after_of_writes_sub hostOps1_1 _ hostOps1_1_writes hw.2.1).trans <|
  (StableHlo.after_of_writes_sub hostOps1 _ hostOps1_writes hw.1)

/-- The adjacency argument is region 0's first input window: the region leaves an input's array as it found it. -/
theorem W12_main_arg1 (c : Dev nD) : W12 m h0 h1 h2 c (Proc.devRef .tc main_arg1) = m ((c : Thread nD τ).loc main_arg1) :=
  calc W12 m h0 h1 h2 c (Proc.devRef .tc main_arg1)
    _ = W3 m h0 c (Proc.devRef .tc main_arg1) := W12_of_W3 m h0 h1 h2 c main_arg1 (by decide) (by decide) (by decide)
    _ = W2 m c (Proc.devRef .tc main_arg1) :=
        (W3_arr m h0 c 0).trans (((h0.dat (En0 m) c).arrAt_in 0 rfl _).trans (h0.hA (En0 m) c 0))
    _ = m ((c : Thread nD τ).loc main_arg1) := W2_of_W0 m c main_arg1 (by decide)
/-- Every region bypasses this argument. -/
theorem W12_main_arg0 (c : Dev nD) : W12 m h0 h1 h2 c (Proc.devRef .tc main_arg0) = m ((c : Thread nD τ).loc main_arg0) :=
  (W12_of_W3 m h0 h1 h2 c main_arg0 (by decide) (by decide) (by decide)).trans <|
    (W3_of_ne m h0 c main_arg0 (by decide)).trans (W2_of_W0 m c main_arg0 (by decide))
/-- Every region bypasses this argument. -/
theorem W12_main_arg2 (c : Dev nD) : W12 m h0 h1 h2 c (Proc.devRef .tc main_arg2) = m ((c : Thread nD τ).loc main_arg2) :=
  (W12_of_W3 m h0 h1 h2 c main_arg2 (by decide) (by decide) (by decide)).trans <|
    (W3_of_ne m h0 c main_arg2 (by decide)).trans (W2_of_W0 m c main_arg2 (by decide))
/-- Every region bypasses this argument. -/
theorem W12_main_arg3 (c : Dev nD) : W12 m h0 h1 h2 c (Proc.devRef .tc main_arg3) = m ((c : Thread nD τ).loc main_arg3) :=
  (W12_of_W3 m h0 h1 h2 c main_arg3 (by decide) (by decide) (by decide)).trans <|
    (W3_of_ne m h0 c main_arg3 (by decide)).trans (W2_of_W0 m c main_arg3 (by decide))
/-- Every region bypasses this argument. -/
theorem W12_main_arg4 (c : Dev nD) : W12 m h0 h1 h2 c (Proc.devRef .tc main_arg4) = m ((c : Thread nD τ).loc main_arg4) :=
  (W12_of_W3 m h0 h1 h2 c main_arg4 (by decide) (by decide) (by decide)).trans <|
    (W3_of_ne m h0 c main_arg4 (by decide)).trans (W2_of_W0 m c main_arg4 (by decide))
/-- Every region bypasses this argument. -/
theorem W12_main_arg5 (c : Dev nD) : W12 m h0 h1 h2 c (Proc.devRef .tc main_arg5) = m ((c : Thread nD τ).loc main_arg5) :=
  (W12_of_W3 m h0 h1 h2 c main_arg5 (by decide) (by decide) (by decide)).trans <|
    (W3_of_ne m h0 c main_arg5 (by decide)).trans (W2_of_W0 m c main_arg5 (by decide))
/-- Every region bypasses this argument. -/
theorem W12_main_arg6 (c : Dev nD) : W12 m h0 h1 h2 c (Proc.devRef .tc main_arg6) = m ((c : Thread nD τ).loc main_arg6) :=
  (W12_of_W3 m h0 h1 h2 c main_arg6 (by decide) (by decide) (by decide)).trans <|
    (W3_of_ne m h0 c main_arg6 (by decide)).trans (W2_of_W0 m c main_arg6 (by decide))
/-- Every region bypasses this argument. -/
theorem W12_main_arg7 (c : Dev nD) : W12 m h0 h1 h2 c (Proc.devRef .tc main_arg7) = m ((c : Thread nD τ).loc main_arg7) :=
  (W12_of_W3 m h0 h1 h2 c main_arg7 (by decide) (by decide) (by decide)).trans <|
    (W3_of_ne m h0 c main_arg7 (by decide)).trans (W2_of_W0 m c main_arg7 (by decide))
/-- Every region bypasses this argument. -/
theorem W12_main_arg8 (c : Dev nD) : W12 m h0 h1 h2 c (Proc.devRef .tc main_arg8) = m ((c : Thread nD τ).loc main_arg8) :=
  (W12_of_W3 m h0 h1 h2 c main_arg8 (by decide) (by decide) (by decide)).trans <|
    (W3_of_ne m h0 c main_arg8 (by decide)).trans (W2_of_W0 m c main_arg8 (by decide))
/-- Every region bypasses this argument. -/
theorem W12_main_arg9 (c : Dev nD) : W12 m h0 h1 h2 c (Proc.devRef .tc main_arg9) = m ((c : Thread nD τ).loc main_arg9) :=
  (W12_of_W3 m h0 h1 h2 c main_arg9 (by decide) (by decide) (by decide)).trans <|
    (W3_of_ne m h0 c main_arg9 (by decide)).trans (W2_of_W0 m c main_arg9 (by decide))
/-- Every region bypasses this argument. -/
theorem W12_main_arg10 (c : Dev nD) : W12 m h0 h1 h2 c (Proc.devRef .tc main_arg10) = m ((c : Thread nD τ).loc main_arg10) :=
  (W12_of_W3 m h0 h1 h2 c main_arg10 (by decide) (by decide) (by decide)).trans <|
    (W3_of_ne m h0 c main_arg10 (by decide)).trans (W2_of_W0 m c main_arg10 (by decide))
/-- Every region bypasses this argument. -/
theorem W12_main_arg11 (c : Dev nD) : W12 m h0 h1 h2 c (Proc.devRef .tc main_arg11) = m ((c : Thread nD τ).loc main_arg11) :=
  (W12_of_W3 m h0 h1 h2 c main_arg11 (by decide) (by decide) (by decide)).trans <|
    (W3_of_ne m h0 c main_arg11 (by decide)).trans (W2_of_W0 m c main_arg11 (by decide))
/-- Every region bypasses this argument. -/
theorem W12_main_arg12 (c : Dev nD) : W12 m h0 h1 h2 c (Proc.devRef .tc main_arg12) = m ((c : Thread nD τ).loc main_arg12) :=
  (W12_of_W3 m h0 h1 h2 c main_arg12 (by decide) (by decide) (by decide)).trans <|
    (W3_of_ne m h0 c main_arg12 (by decide)).trans (W2_of_W0 m c main_arg12 (by decide))
/-- Every region bypasses this argument. -/
theorem W12_main_arg13 (c : Dev nD) : W12 m h0 h1 h2 c (Proc.devRef .tc main_arg13) = m ((c : Thread nD τ).loc main_arg13) :=
  (W12_of_W3 m h0 h1 h2 c main_arg13 (by decide) (by decide) (by decide)).trans <|
    (W3_of_ne m h0 c main_arg13 (by decide)).trans (W2_of_W0 m c main_arg13 (by decide))
/-- Every region bypasses this argument. -/
theorem W12_main_arg14 (c : Dev nD) : W12 m h0 h1 h2 c (Proc.devRef .tc main_arg14) = m ((c : Thread nD τ).loc main_arg14) :=
  (W12_of_W3 m h0 h1 h2 c main_arg14 (by decide) (by decide) (by decide)).trans <|
    (W3_of_ne m h0 c main_arg14 (by decide)).trans (W2_of_W0 m c main_arg14 (by decide))

/-! ### What each region leaves in its output arrays, by name -/

theorem W3_main_v22_0 (c : Dev nD) : W3 m h0 c (Proc.devRef .tc main_v22_0) = (h0.dat (En0 m) c).arrAt 5 cfg0.N := W3_arr m h0 c 5
theorem W3_main_v22_1 (c : Dev nD) : W3 m h0 c (Proc.devRef .tc main_v22_1) = (h0.dat (En0 m) c).arrAt 6 cfg0.N := W3_arr m h0 c 6
theorem W6_main_v41 (c : Dev nD) : W6 m h0 h1 c (Proc.devRef .tc main_v41) = (h1.dat (En1 m h0) c).arrAt 5 cfg1.N := W6_arr m h0 h1 c 5
theorem W9_main_v60 (c : Dev nD) : W9 m h0 h1 h2 c (Proc.devRef .tc main_v60) = (h2.dat (En2 m h0 h1) c).arrAt 5 cfg2.N := W9_arr m h0 h1 h2 c 5

/-! # The proof data family and the thread state -/

/-- Every pipeline's proof data, each at its region's entry contents: a literal `match`, so that the pinned
    configuration at a numeral reduces to the printed one. -/
def pdats : (p : Fin 3) → (c : Dev nD) → Dat τ (Elt F) Unit ℕ (Pipeline.UD sig nD τ) ℕ (Pipeline.pin (pcfgs (F := F)) adm p) c
  | ⟨0, _⟩ => fun c => h0.dat (En0 m) c
  | ⟨1, _⟩ => fun c => h1.dat (En1 m h0) c
  | ⟨2, _⟩ => fun c => h2.dat (En2 m h0 h1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along: it is left
    at those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator
    register at some state. -/
abbrev Tₙ (c : Dev nD) : sProp 𝕄 := iprop(StableHlo.held (c : Thread nD τ) (Pipeline.ucRefs τ sig) (W12 m h0 h1 h2 c) ∗ ∃ r, prngReg c r)

/-- At a region's exit each of its arrays holds what the write-backs leave and every other buffer what it held at
    entry: the two hypotheses under which the arrays and the bypassing rest make the unscoped buffers again. -/
theorem hF0 (c : Dev nD) (w : Fin cfg0.W) : (h0.dat (En0 m) c).arrAt w cfg0.N = (fun b : Ref sig .tc => W3 m h0 c b) (Pipeline.arrRef spec0 w) :=
  (W3_arr m h0 c w).symm
theorem hrest0 (c : Dev nD) : ∀ b : Ref sig .tc, b ∉ Finset.univ.image (Pipeline.arrRef spec0) → W3 m h0 c b = En0 m c b :=
  fun b hb => W3_of_ne m h0 c b fun w e => hb (Finset.mem_image.mpr ⟨w, Finset.mem_univ _, e⟩)
theorem hF1 (c : Dev nD) (w : Fin cfg1.W) : (h1.dat (En1 m h0) c).arrAt w cfg1.N = (fun b : Ref sig .tc => W6 m h0 h1 c b) (Pipeline.arrRef spec1 w) :=
  (W6_arr m h0 h1 c w).symm
theorem hrest1 (c : Dev nD) : ∀ b : Ref sig .tc, b ∉ Finset.univ.image (Pipeline.arrRef spec1) → W6 m h0 h1 c b = En1 m h0 c b :=
  fun b hb => W6_of_ne m h0 h1 c b fun w e => hb (Finset.mem_image.mpr ⟨w, Finset.mem_univ _, e⟩)
theorem hF2 (c : Dev nD) (w : Fin cfg2.W) : (h2.dat (En2 m h0 h1) c).arrAt w cfg2.N = (fun b : Ref sig .tc => W9 m h0 h1 h2 c b) (Pipeline.arrRef spec2 w) :=
  (W9_arr m h0 h1 h2 c w).symm
theorem hrest2 (c : Dev nD) : ∀ b : Ref sig .tc, b ∉ Finset.univ.image (Pipeline.arrRef spec2) → W9 m h0 h1 h2 c b = En2 m h0 h1 c b :=
  fun b hb => W9_of_ne m h0 h1 h2 c b fun w e => hb (Finset.mem_image.mpr ⟨w, Finset.mem_univ _, e⟩)

-- a library lemma stated over the pinned configuration unifies with the printed one only when unification may unfold
-- plain definitions in a metavariable's type
set_option backward.isDefEq.respectTransparency.types false in
/-- REGION 0 over the thread state: entered from every unscoped buffer at the contents before it, left at the contents
    after it. Its arrays are split out of the unscoped buffers at entry and put back at the exit contents; the generator
    register goes into the region invariant and comes back; nothing is owed; the kernel has no semaphore of its own. -/
def reg0 : Pipeline.RegionSeg (pcfgs (F := F)) adm (pdats m h0 h1 h2) () defs₀ 𝒱₀ L lv 0 where
  win := launch0.win.to₀
  block_pos := launch0.block_pos
  stage_whole := launch0.stage_whole
  K := PEmpty
  osem k := k.elim
  ho := Pipeline.OwnSemFacts.none _
  hbody c := (h0.hbody (En0 m) c).loose
  hwaits := Pipeline.hwaits_of_owed_zero _ _ _ _ L lv 0 fun c t => h0.howed (En0 m) c t
  pre c := iprop(StableHlo.held (c : Thread nD τ) (Pipeline.ucRefs τ sig) (W2 m c) ∗ Rst c)
  post c := iprop(StableHlo.held (c : Thread nD τ) (Pipeline.ucRefs τ sig) (W3 m h0 c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (En0 m c)
  hentry c := by
    rw [Pipeline.ownSems0_none]
    have hsplit := Pipeline.arrays_of_unscopedBufs (p := 0) (pcfgs (F := F)) adm (pdats m h0 h1 h2) launch0.win launch0.arr_whole c
      ((pdats m h0 h1 h2 0 c).share_full fun w => h0.hq (En0 m) c w) (En0 m c) fun w => h0.hA (En0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 0 c).owed 0 = 0 from h0.howed (En0 m) c 0]
      icases HO with ⟨%W, HO⟩; iexists W; isplitr
      · ipureintro; exact fun x _ => Or.inl (by rw [show (pdats m h0 h1 h2 0 c).recorded 0 = Set.univ from h0.hrec (En0 m) c]; exact Set.mem_univ x)
      iexact HO
    isplitl [Hp]; · iexact Hp
    iexact Hrest
  hin c := by
    refine BIBase.Entails.trans ?_ (h0.hin (En0 m) c)
    unfold Pipeline.ΦA
    iintro ⟨Hp, -, Hr⟩
    isplitl [Hr]; · iexact Hr
    iexact Hp
  hout c := by
    refine BIBase.Entails.trans (h0.hout (En0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m h0 h1 h2) ((pdats m h0 h1 h2 0 c).share_full fun w => h0.hq (En0 m) c w)
      (En0 m c) (fun b : Ref sig .tc => W3 m h0 c b) ((pdats m h0 h1 h2 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 0 c).owed (Fin.last (Pipeline.pin (pcfgs (F := F)) adm 0).N) = 0 from h0.howed (En0 m) c (Fin.last _)]
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the contents before it, left at the contents
    after it. Its arrays are split out of the unscoped buffers at entry and put back at the exit contents; the generator
    register goes into the region invariant and comes back; nothing is owed; the kernel has no semaphore of its own. -/
def reg1 : Pipeline.RegionSeg (pcfgs (F := F)) adm (pdats m h0 h1 h2) () defs₀ 𝒱₀ L lv 1 where
  win := launch1.win.to₀
  block_pos := launch1.block_pos
  stage_whole := launch1.stage_whole
  K := PEmpty
  osem k := k.elim
  ho := Pipeline.OwnSemFacts.none _
  hbody c := (h1.hbody (En1 m h0) c).loose
  hwaits := Pipeline.hwaits_of_owed_zero _ _ _ _ L lv 1 fun c t => h1.howed (En1 m h0) c t
  pre c := iprop(StableHlo.held (c : Thread nD τ) (Pipeline.ucRefs τ sig) (W5 m h0 c) ∗ Rst c)
  post c := iprop(StableHlo.held (c : Thread nD τ) (Pipeline.ucRefs τ sig) (W6 m h0 h1 c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (En1 m h0 c)
  hentry c := by
    rw [Pipeline.ownSems0_none]
    have hsplit := Pipeline.arrays_of_unscopedBufs (p := 1) (pcfgs (F := F)) adm (pdats m h0 h1 h2) launch1.win launch1.arr_whole c
      ((pdats m h0 h1 h2 1 c).share_full fun w => h1.hq (En1 m h0) c w) (En1 m h0 c) fun w => h1.hA (En1 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 1 c).owed 0 = 0 from h1.howed (En1 m h0) c 0]
      icases HO with ⟨%W, HO⟩; iexists W; isplitr
      · ipureintro; exact fun x _ => Or.inl (by rw [show (pdats m h0 h1 h2 1 c).recorded 0 = Set.univ from h1.hrec (En1 m h0) c]; exact Set.mem_univ x)
      iexact HO
    isplitl [Hp]; · iexact Hp
    iexact Hrest
  hin c := by
    refine BIBase.Entails.trans ?_ (h1.hin (En1 m h0) c)
    unfold Pipeline.ΦA
    iintro ⟨Hp, -, Hr⟩
    isplitl [Hr]; · iexact Hr
    iexact Hp
  hout c := by
    refine BIBase.Entails.trans (h1.hout (En1 m h0) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m h0 h1 h2) ((pdats m h0 h1 h2 1 c).share_full fun w => h1.hq (En1 m h0) c w)
      (En1 m h0 c) (fun b : Ref sig .tc => W6 m h0 h1 c b) ((pdats m h0 h1 h2 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 1 c).owed (Fin.last (Pipeline.pin (pcfgs (F := F)) adm 1).N) = 0 from h1.howed (En1 m h0) c (Fin.last _)]
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at the contents before it, left at the contents
    after it. Its arrays are split out of the unscoped buffers at entry and put back at the exit contents; the generator
    register goes into the region invariant and comes back; nothing is owed; the kernel has no semaphore of its own. -/
def reg2 : Pipeline.RegionSeg (pcfgs (F := F)) adm (pdats m h0 h1 h2) () defs₀ 𝒱₀ L lv 2 where
  win := launch2.win.to₀
  block_pos := launch2.block_pos
  stage_whole := launch2.stage_whole
  K := PEmpty
  osem k := k.elim
  ho := Pipeline.OwnSemFacts.none _
  hbody c := (h2.hbody (En2 m h0 h1) c).loose
  hwaits := Pipeline.hwaits_of_owed_zero _ _ _ _ L lv 2 fun c t => h2.howed (En2 m h0 h1) c t
  pre c := iprop(StableHlo.held (c : Thread nD τ) (Pipeline.ucRefs τ sig) (W8 m h0 h1 c) ∗ Rst c)
  post c := iprop(StableHlo.held (c : Thread nD τ) (Pipeline.ucRefs τ sig) (W9 m h0 h1 h2 c) ∗ Rst c)
  X c := iprop(∃ r, prngReg c r)
  Y c := iprop(∃ r, prngReg c r)
  Z c := Pipeline.unscopedRest (Ix := Unit) (Name := ℕ) (U := Pipeline.UD sig nD τ) (Lvl := ℕ) spec2 c (En2 m h0 h1 c)
  hentry c := by
    rw [Pipeline.ownSems0_none]
    have hsplit := Pipeline.arrays_of_unscopedBufs (p := 2) (pcfgs (F := F)) adm (pdats m h0 h1 h2) launch2.win launch2.arr_whole c
      ((pdats m h0 h1 h2 2 c).share_full fun w => h2.hq (En2 m h0 h1) c w) (En2 m h0 h1 c) fun w => h2.hA (En2 m h0 h1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 2 c).owed 0 = 0 from h2.howed (En2 m h0 h1) c 0]
      icases HO with ⟨%W, HO⟩; iexists W; isplitr
      · ipureintro; exact fun x _ => Or.inl (by rw [show (pdats m h0 h1 h2 2 c).recorded 0 = Set.univ from h2.hrec (En2 m h0 h1) c]; exact Set.mem_univ x)
      iexact HO
    isplitl [Hp]; · iexact Hp
    iexact Hrest
  hin c := by
    refine BIBase.Entails.trans ?_ (h2.hin (En2 m h0 h1) c)
    unfold Pipeline.ΦA
    iintro ⟨Hp, -, Hr⟩
    isplitl [Hr]; · iexact Hr
    iexact Hp
  hout c := by
    refine BIBase.Entails.trans (h2.hout (En2 m h0 h1) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m h0 h1 h2) ((pdats m h0 h1 h2 2 c).share_full fun w => h2.hq (En2 m h0 h1) c w)
      (En2 m h0 h1 c) (fun b : Ref sig .tc => W9 m h0 h1 h2 c b) ((pdats m h0 h1 h2 2 c).arrAt · cfg2.N) (hF2 m h0 h1 h2 c) (hrest2 m h0 h1 h2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 2 c).owed (Fin.last (Pipeline.pin (pcfgs (F := F)) adm 2).N) = 0 from h2.howed (En2 m h0 h1) c (Fin.last _)]
    icases HO with ⟨%W, -, HO⟩; iexists W; iexact HO

/-! # @main as its twelve items, and the launch -/

/-- @main's items in order: a host segment per stretch from its boundary's contents, a region per kernel call. -/
abbrev segsI : List (Pipeline.Seg (pcfgs (F := F)) adm (pdats m h0 h1 h2) () defs₀ 𝒱₀ L lv) :=
  [ .host (hseg hostOps0 hostOps0_sub hostOps0_fresh (W0 m)),
    .host (hseg hostOps0_1 hostOps0_1_sub hostOps0_1_fresh (W1 m)),
    .region (reg0 m h0 h1 h2),
    .host (hseg hostOps1 hostOps1_sub hostOps1_fresh (W3 m h0)),
    .host (hseg hostOps1_1 hostOps1_1_sub hostOps1_1_fresh (W4 m h0)),
    .region (reg1 m h0 h1 h2),
    .host (hseg hostOps2 hostOps2_sub hostOps2_fresh (W6 m h0 h1)),
    .host (hseg hostOps2_1 hostOps2_1_sub hostOps2_1_fresh (W7 m h0 h1)),
    .region (reg2 m h0 h1 h2),
    .host (hseg hostOps3 hostOps3_sub hostOps3_fresh (W9 m h0 h1 h2)),
    .host (hseg hostOps3_1 hostOps3_1_sub hostOps3_1_fresh (W10 m h0 h1 h2)),
    .host (hseg hostOps3_2 hostOps3_2_sub hostOps3_2_fresh (W11 m h0 h1 h2)) ]

/-- @main IS the run of the items: its chain of stretches and calls, item by item. -/
theorem main_run (c : Dev nD) : main (F := F) c = Pipeline.Seg.run (segsI m h0 h1 h2) := by
  rw [main_chain c, Pipeline.Seg.run_eq_chain]
  rfl

/-- The last host stretch leaves the last thread state beside the core owing nothing: the same three parts, regrouped. -/
theorem last_state (c : Dev nD) :
    iprop(StableHlo.held (c : Thread nD τ) (Pipeline.ucRefs τ sig) (W12 m h0 h1 h2 c) ∗ Rst c)
      ⊢ (iprop(Tₙ m h0 h1 h2 c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN, at any post the final memory's unscoped buffers decide: at the compiled mesh, from any memory with zero
    counters, every weakly fair execution of @main on the TensorCores terminates, nothing faulting, and every final
    memory holds each unscoped buffer at the return's contents `W12`. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W12 m h0 h1 h2 c b) → Q (⟨⟩, s)) :
    θ_run defs (onTc (τ := τ) (main (F := F))) ⟨m, fun _ => 0, ρ⟩ Q :=
  Pipeline.θ_run_regions_kit (pcfgs (F := F)) adm (pdats m h0 h1 h2) () cellOf_inj embL defs₀ 𝒱₀ L lv m ρ main (segsI m h0 h1 h2)
    (fun c Q => by rw [main_run m h0 h1 h2 c])
    (by simp only [segsI, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m h0 h1 h2)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_state m h0 h1 h2 c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m h0 h1 h2 c b)
    (hfin := fun c s' => by
      iintro ⟨⟨Hh, -⟩, HSI⟩
      unfold StableHlo.held
      imodintro
      iapply (pointsTo_read_all (Pipeline.ucRefs τ sig) (fun b => (((c : Thread nD τ)).1, b)) (W12 m h0 h1 h2 c) s')
      isplitl [Hh] <;> iassumption)
    (hQ := hQ)

/-- THE RUN: every final memory holds every unscoped buffer at the return's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m h0 h1 h2 c b) :=
  run_post m ρ h0 h1 h2 fun _ h => h

include h0 h1 h2 in
/-- THE FRAME, as the claim states it, at any `F`: @main runs and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ h0 h1 h2 fun s h c =>
    ⟨(h c _ (mem_uc main_arg0 (by decide))).trans (W12_main_arg0 m h0 h1 h2 c),
     (h c _ (mem_uc main_arg1 (by decide))).trans (W12_main_arg1 m h0 h1 h2 c),
     (h c _ (mem_uc main_arg2 (by decide))).trans (W12_main_arg2 m h0 h1 h2 c),
     (h c _ (mem_uc main_arg3 (by decide))).trans (W12_main_arg3 m h0 h1 h2 c),
     (h c _ (mem_uc main_arg4 (by decide))).trans (W12_main_arg4 m h0 h1 h2 c),
     (h c _ (mem_uc main_arg5 (by decide))).trans (W12_main_arg5 m h0 h1 h2 c),
     (h c _ (mem_uc main_arg6 (by decide))).trans (W12_main_arg6 m h0 h1 h2 c),
     (h c _ (mem_uc main_arg7 (by decide))).trans (W12_main_arg7 m h0 h1 h2 c),
     (h c _ (mem_uc main_arg8 (by decide))).trans (W12_main_arg8 m h0 h1 h2 c),
     (h c _ (mem_uc main_arg9 (by decide))).trans (W12_main_arg9 m h0 h1 h2 c),
     (h c _ (mem_uc main_arg10 (by decide))).trans (W12_main_arg10 m h0 h1 h2 c),
     (h c _ (mem_uc main_arg11 (by decide))).trans (W12_main_arg11 m h0 h1 h2 c),
     (h c _ (mem_uc main_arg12 (by decide))).trans (W12_main_arg12 m h0 h1 h2 c),
     (h c _ (mem_uc main_arg13 (by decide))).trans (W12_main_arg13 m h0 h1 h2 c),
     (h c _ (mem_uc main_arg14 (by decide))).trans (W12_main_arg14 m h0 h1 h2 c)⟩

/-- The result buffer at the return is the last host stretch's result at it, from the contents before that stretch. -/
theorem W12_result (c : Dev nD) :
    W12 m h0 h1 h2 c (Proc.devRef .tc main_v83) = StableHlo.after hostOps3_2 (W11 m h0 h1 h2 c) (Proc.devRef .tc main_v83) := rfl

/-- info: 'Cert.KernelIdeal.Hand.run_all' depends on axioms: [propext, Classical.choice, Quot.sound] -/
#guard_msgs in #print axioms run_all
/-- info: 'Cert.KernelIdeal.Hand.frame_all' depends on axioms: [propext, Classical.choice, Quot.sound] -/
#guard_msgs in #print axioms frame_all

end Cert.KernelIdeal.Hand

end
-- ==== Proof.Halves.lean ====
import proofs.«103405_j58265526337970_2_alg».proof.Proof.LayerData0
import proofs.«103405_j58265526337970_2_alg».proof.Proof.LayerData1
import proofs.«103405_j58265526337970_2_alg».proof.Proof.LayerData2
import proofs.«103405_j58265526337970_2_alg».proof.Proof.RunI

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat BodyObligation)

variable {F : FTy → Type} [FloatOps F]

/-! # The three layers' regions as halves of the run, and the frame -/

/-- The first layer's region: its proof data at any entry contents, the body obligation, the invariant's two ends. -/
def half0 : RegionHalf (F := F) cfg0 :=
  ⟨dat0, A_eq0, body_obligation0, hin0, hout0, fun _ _ _ => rfl, fun _ _ _ => rfl, fun _ _ => rfl⟩
/-- The second layer's region. -/
def half1 : RegionHalf (F := F) cfg1 :=
  ⟨dat1, A_eq1, body_obligation1, hin1, hout1, fun _ _ _ => rfl, fun _ _ _ => rfl, fun _ _ => rfl⟩
/-- The third layer's region. -/
def half2 : RegionHalf (F := F) cfg2 :=
  ⟨dat2, A_eq2, body_obligation2, hin2, hout2, fun _ _ _ => rfl, fun _ _ _ => rfl, fun _ _ => rfl⟩

/-- THE FRAME at any float instance: every weakly fair execution of @main terminates, nothing faults, and every
    argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_all m ρ (half0 (F := F)) half1 half2

/-- THE RUN with every unscoped buffer named at the return. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig,
        r.2.mem ((c : Thread nD τ).1, b) = W12 m (half0 (F := F)) half1 half2 c b) :=
  run_all m ρ (half0 (F := F)) half1 half2

end Cert.KernelIdeal.Hand

end
-- ==== Proof.WLayerRuns0.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's region (pallas_call 0): the body case by case

The grid is (row tile, K tile), the K tile the fast axis, 8 K tiles per row tile. At every point the body also
writes the adjacency tile, changed to the narrow float format, into a second result window (the later layers read
that copy); otherwise it is the layer's body: reset at the first K tile, accumulate at every K tile, combine and
store the row tile of the result at the last. -/

abbrev first0 (i : grid0.Coords) : Prop :=
  (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

abbrev acc0M : Memref sig .tc .vmem S512x128 .f32 := Memref.whole cc0_scratch0
abbrev acc0V : View sig .tc .vmem S512x128 .f32 := (acc0M).view
abbrev res0V : View sig .tc .vmem S512x128 .f32 := (Memref.whole cc0_stg5_0 : Memref sig .tc .vmem S512x128 .f32).view
/-- One staging buffer of the narrow copy's window. -/
abbrev cpy0V : View sig .tc .vmem S512x2048 .bf16 := (Memref.whole cc0_stg6_0 : Memref sig .tc .vmem S512x2048 .bf16).view

set_option maxHeartbeats 4000000 in
/-- FIRST K tile: the adjacency tile at `x0`, the feature matrix at `x1`, the copy's buffer and the accumulator at
    anything; left: the inputs as they were, the copy's buffer with `LB` written, the accumulator with `LS`. -/
noncomputable def run0_first (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) :
    Σ' (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%db, %fb, -, HB⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HB]; · iexists _; iexact HB
    iexists _; iexact HS

set_option maxHeartbeats 4000000 in
/-- A MIDDLE K tile: the accumulator comes in at what the point before left. -/
noncomputable def run0_mid (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) :
    Σ' (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d) ∗ owns (c : Thread nD τ) arg9 fullShare xs
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%db, %fb, -, HB⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HB]; · iexists _; iexact HB
    iexists _; iexact HS

set_option maxHeartbeats 4000000 in
/-- The LAST K tile: every input at its contents, the accumulator at what the point before left, the result buffer
    and the copy's buffer at anything. -/
noncomputable def run0_last (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) :
    Σ' (LR : List (View.Piece (Elt F) S512x128 .f32)) (LB : List (View.Piece (Elt F) S512x2048 .bf16)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LB)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8 arg9 harg9) K } := by
  refine ⟨?_, ?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%db, %fb, -, HB⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HB]; · iexists _; iexact HB
    iexists _; iexact HS

end Cert.Kernel.Hand

end
-- ==== Proof.WLayerData0.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import proofs.«103405_j58265526337970_2_alg».proof.Proof.WLayerRuns0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's region (pallas_call 0): what the buffers hold point by point, the proof data, the body obligation -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .bf16 := win0_6.stage (cfg0.slots t 6)
abbrev hs0_6 (t : Fin cfg0.N) : (ms0_6 t).IsWhole := hstage0_6 ((cfg0.slots t 6).cast nbuf0_6)

theorem idle0_5 : ∀ t : Fin cfg0.N, ¬ t.val % 8 = 7 → cfg0.idle 5 (grid0.coords t) = true := by decide +kernel
theorem live0_5 : ∀ t : Fin cfg0.N, t.val % 8 = 7 → cfg0.idle 5 (grid0.coords t) = false := by decide +kernel
theorem noflush0_5 (t : Fin cfg0.N) (h : ¬ t.val % 8 = 7) : (cfg0.win 5).flush t = false := by
  cases hf : (cfg0.win 5).flush t
  · rfl
  · exact absurd ((flush0_5 t).mp hf) h

/-! ## What the runs leave -/

/-- The accumulator after a first K tile: the run's pieces read back; they cover it (whole-buffer stores). -/
def accFirst0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) : Vec F S512x128 .f32 :=
  acc0V.read (Elt F) (acc0V.writes (Elt F) acc0V.junk (run0_first c i arg2 harg2 arg3 harg3 arg4 harg4 arg5 harg5 arg6 harg6 arg7 harg7 arg8 harg8 arg9 harg9 hc0 hc1 x0 x1).2.1)
theorem accFirst0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) (y : S512x128.Idx) :
    ∃ pc ∈ (run0_first c i arg2 harg2 arg3 harg3 arg4 harg4 arg5 harg5 arg6 harg6 arg7 harg7 arg8 harg8 arg9 harg9 hc0 hc1 x0 x1).2.1, y ∈ pc.1.set :=
  View.cover_of_tiledL (run0_first c i arg2 harg2 arg3 harg3 arg4 harg4 arg5 harg5 arg6 harg6 arg7 harg7 arg8 harg8 arg9 harg9 hc0 hc1 x0 x1).2.1 S512x128.size (by sl_kernel_rfl) y

/-- The narrow copy's buffer after a first K tile. -/
def cpyFirst0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) : Vec F S512x2048 .bf16 :=
  cpy0V.read (Elt F) (cpy0V.writes (Elt F) cpy0V.junk (run0_first c i arg2 harg2 arg3 harg3 arg4 harg4 arg5 harg5 arg6 harg6 arg7 harg7 arg8 harg8 arg9 harg9 hc0 hc1 x0 x1).1)
theorem cpyFirst0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) (y : S512x2048.Idx) :
    ∃ pc ∈ (run0_first c i arg2 harg2 arg3 harg3 arg4 harg4 arg5 harg5 arg6 harg6 arg7 harg7 arg8 harg8 arg9 harg9 hc0 hc1 x0 x1).1, y ∈ pc.1.set :=
  View.cover_of_tiledL (run0_first c i arg2 harg2 arg3 harg3 arg4 harg4 arg5 harg5 arg6 harg6 arg7 harg7 arg8 harg8 arg9 harg9 hc0 hc1 x0 x1).1 S512x2048.size (by sl_kernel_rfl) y

def accMid0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) : Vec F S512x128 .f32 :=
  acc0V.read (Elt F) (acc0V.writes (Elt F) acc0V.junk (run0_mid c i arg2 harg2 arg3 harg3 arg4 harg4 arg5 harg5 arg6 harg6 arg7 harg7 arg8 harg8 arg9 harg9 hc0 hc1 x0 x1 xs).2.1)
theorem accMid0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) (y : S512x128.Idx) :
    ∃ pc ∈ (run0_mid c i arg2 harg2 arg3 harg3 arg4 harg4 arg5 harg5 arg6 harg6 arg7 harg7 arg8 harg8 arg9 harg9 hc0 hc1 x0 x1 xs).2.1, y ∈ pc.1.set :=
  View.cover_of_tiledL (run0_mid c i arg2 harg2 arg3 harg3 arg4 harg4 arg5 harg5 arg6 harg6 arg7 harg7 arg8 harg8 arg9 harg9 hc0 hc1 x0 x1 xs).2.1 S512x128.size (by sl_kernel_rfl) y

def cpyMid0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) : Vec F S512x2048 .bf16 :=
  cpy0V.read (Elt F) (cpy0V.writes (Elt F) cpy0V.junk (run0_mid c i arg2 harg2 arg3 harg3 arg4 harg4 arg5 harg5 arg6 harg6 arg7 harg7 arg8 harg8 arg9 harg9 hc0 hc1 x0 x1 xs).1)
theorem cpyMid0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) (y : S512x2048.Idx) :
    ∃ pc ∈ (run0_mid c i arg2 harg2 arg3 harg3 arg4 harg4 arg5 harg5 arg6 harg6 arg7 harg7 arg8 harg8 arg9 harg9 hc0 hc1 x0 x1 xs).1, y ∈ pc.1.set :=
  View.cover_of_tiledL (run0_mid c i arg2 harg2 arg3 harg3 arg4 harg4 arg5 harg5 arg6 harg6 arg7 harg7 arg8 harg8 arg9 harg9 hc0 hc1 x0 x1 xs).1 S512x2048.size (by sl_kernel_rfl) y

def accLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x128 .f32 :=
  acc0V.read (Elt F) (acc0V.writes (Elt F) acc0V.junk (run0_last c i arg2 harg2 arg3 harg3 arg4 harg4 arg5 harg5 arg6 harg6 arg7 harg7 arg8 harg8 arg9 harg9 hc0 hc1 x0 x1 x2 x3 x4 xs).2.2.1)
theorem accLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x128.Idx) :
    ∃ pc ∈ (run0_last c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).2.2.1 S512x128.size (by sl_kernel_rfl) y

def cpyLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x2048 .bf16 :=
  cpy0V.read (Elt F) (cpy0V.writes (Elt F) cpy0V.junk (run0_last c i arg2 harg2 arg3 harg3 arg4 harg4 arg5 harg5 arg6 harg6 arg7 harg7 arg8 harg8 arg9 harg9 hc0 hc1 x0 x1 x2 x3 x4 xs).2.1)
theorem cpyLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x2048.Idx) :
    ∃ pc ∈ (run0_last c i arg2 harg2 arg3 harg3 arg4 harg4 arg5 harg5 arg6 harg6 arg7 harg7 arg8 harg8 arg9 harg9 hc0 hc1 x0 x1 x2 x3 x4 xs).2.1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).2.1 S512x2048.size (by sl_kernel_rfl) y

/-- The result buffer after a last K tile. -/
def resLast0 (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) : Vec F S512x128 .f32 :=
  res0V.read (Elt F) (res0V.writes (Elt F) res0V.junk (run0_last c i arg2 harg2 arg3 harg3 arg4 harg4 arg5 harg5 arg6 harg6 arg7 harg7 arg8 harg8 arg9 harg9 hc0 hc1 x0 x1 x2 x3 x4 xs).1)
theorem resLast0_cover (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) (y : S512x128.Idx) :
    ∃ pc ∈ (run0_last c i arg2 harg2 arg3 harg3 arg4 harg4 arg5 harg5 arg6 harg6 arg7 harg7 arg8 harg8 arg9 harg9 hc0 hc1 x0 x1 x2 x3 x4 xs).1, y ∈ pc.1.set :=
  View.cover_of_tiledL (run0_last c i arg2 harg2 arg3 harg3 arg4 harg4 arg5 harg5 arg6 harg6 arg7 harg7 arg8 harg8 arg9 harg9 hc0 hc1 x0 x1 x2 x3 x4 xs).1 S512x128.size (by sl_kernel_rfl) y

/-! ## The accumulator point by point -/

def accAt0 (c : Dev nD) : (n : ℕ) → n < cfg0.N → Vec F S512x128 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) acc0M (Memref.isWhole_whole _) ((first0_iff ⟨0, hn⟩).mpr (Nat.zero_mod _)) (fun h => absurd ((last0_iff ⟨0, hn⟩).mp h) (show ¬ (0 % 8 = 7) by decide))
      (blk0 V c 0 ⟨0, hn⟩) (blk0 V c 1 ⟨0, hn⟩)
  | n + 1, hn =>
    if h0 : (n + 1) % 8 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) ((first0_iff ⟨n + 1, hn⟩).mpr h0) (fun h => by have := (last0_iff ⟨n + 1, hn⟩).mp h; (try dsimp only at this); omega)
        (blk0 V c 0 ⟨n + 1, hn⟩) (blk0 V c 1 ⟨n + 1, hn⟩)
    else if h1 : (n + 1) % 8 = 7 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) (fun h => h0 ((first0_iff ⟨n + 1, hn⟩).mp h)) ((last0_iff ⟨n + 1, hn⟩).mpr h1)
        (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (accAt0 c n (Nat.lt_of_succ_lt hn))
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) acc0M (Memref.isWhole_whole _) (fun h => h0 ((first0_iff ⟨n + 1, hn⟩).mp h)) (fun h => h1 ((last0_iff ⟨n + 1, hn⟩).mp h))
        (blk0 V c 0 ⟨n + 1, hn⟩) (blk0 V c 1 ⟨n + 1, hn⟩) (accAt0 c n (Nat.lt_of_succ_lt hn))

theorem accAt0_first (c : Dev nD) (t : Fin cfg0.N) (h0 : t.val % 8 = 0) (h1 : ¬ t.val % 8 = 7) :
    accAt0 V c t.val t.isLt = accFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) ((first0_iff t).mpr h0) (fun h => h1 ((last0_iff t).mp h))
      (blk0 V c 0 t) (blk0 V c 1 t) := by
  obtain ⟨n, hn⟩ := t
  cases n with
  | zero => rfl
  | succ n => exact (dif_pos h0).trans rfl

theorem accAt0_mid (c : Dev nD) (t : Fin cfg0.N) (h0 : ¬ t.val % 8 = 0) (h1 : ¬ t.val % 8 = 7) :
    accAt0 V c t.val t.isLt = accMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) (fun h => h1 ((last0_iff t).mp h))
      (blk0 V c 0 t) (blk0 V c 1 t) (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt0_last (c : Dev nD) (t : Fin cfg0.N) (h0 : ¬ t.val % 8 = 0) (h1 : t.val % 8 = 7) :
    accAt0 V c t.val t.isLt = accLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The result window's buffer after the body at a point (consulted only at a last K tile). -/
def resAt0 (c : Dev nD) (t : Fin cfg0.N) : Vec F S512x128 .f32 :=
  if h1 : t.val % 8 = 7 then
    resLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => by have := (first0_iff t).mp h; omega) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt))
  else res0V.read (Elt F) (res0V.junk)

/-- The narrow copy's buffer after the body at a point: written at every point. -/
def cpyAt0 (c : Dev nD) (t : Fin cfg0.N) : Vec F S512x2048 .bf16 :=
  if h1 : t.val % 8 = 7 then
    cpyLast0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => by have := (first0_iff t).mp h; omega) ((last0_iff t).mpr h1)
      (blk0 V c 0 t) (blk0 V c 1 t) (blk0 V c 2 t) (blk0 V c 3 t) (blk0 V c 4 t) (accAt0 V c (t.val - 1) (Nat.lt_of_le_of_lt (Nat.sub_le _ _) t.isLt))
  else if h0 : t.val % 8 = 0 then
    cpyFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) ((first0_iff t).mpr h0) (fun h => h1 ((last0_iff t).mp h)) (blk0 V c 0 t) (blk0 V c 1 t)
  else
    cpyMid0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) (fun h => h1 ((last0_iff t).mp h)) (blk0 V c 0 t) (blk0 V c 1 t) (accAt0 V c (t.val - 1) (Nat.lt_of_le_of_lt (Nat.sub_le _ _) t.isLt))

/-! ## The invariant -/

def rest0 (c : Dev nD) : sProp 𝕄 :=
  iprop(bigSep ((((Finset.univ.filter fun b : Ref sig .tc => b.isScoped) \ Finset.univ.image (Pipeline.stageRef spec0)).erase cc0_scratch0))
      (fun b => iprop(∃ f : Buf (Elt F) ((c.tc : Thread nD τ).loc b), ((c.tc : Thread nD τ).loc b) ↦{fullShare} f))
    ∗ ∃ r, prngReg c r)

theorem acc0_mem : cc0_scratch0 ∈ ((Finset.univ.filter fun b : Ref sig .tc => b.isScoped) \ Finset.univ.image (Pipeline.stageRef spec0)) := by decide

theorem scoped0_split (c : Dev nD) :
    (Pipeline.scopedRest (Ix := Unit) (Name := ℕ) (U := Pipeline.UD sig nD τ) (Lvl := ℕ) (Val := Elt F) spec0 c : sProp 𝕄)
      = iprop((∃ f : Buf (Elt F) ((c.tc : Thread nD τ).loc cc0_scratch0), ((c.tc : Thread nD τ).loc cc0_scratch0) ↦{fullShare} f)
          ∗ bigSep ((((Finset.univ.filter fun b : Ref sig .tc => b.isScoped) \ Finset.univ.image (Pipeline.stageRef spec0)).erase cc0_scratch0))
              (fun b => iprop(∃ f : Buf (Elt F) ((c.tc : Thread nD τ).loc b), ((c.tc : Thread nD τ).loc b) ↦{fullShare} f))) := by
  unfold Pipeline.scopedRest; exact bigSep_erase acc0_mem

theorem PhiA0_open (c : Dev nD) : (Pipeline.ΦA spec0 c : sProp 𝕄) ⊢ iprop((∃ d, owns (c : Thread nD τ) acc0M fullShare d) ∗ rest0 (F := F) c) := by
  unfold Pipeline.ΦA rest0
  rw [scoped0_split]
  simp only [acc0M, owns_whole]
  iintro ⟨⟨Ha, Hb⟩, Hp⟩
  isplitl [Ha]; · iexact Ha
  isplitl [Hb]; · iexact Hb
  iexact Hp
theorem PhiA0_close (c : Dev nD) : iprop((∃ d, owns (c : Thread nD τ) acc0M fullShare d) ∗ rest0 (F := F) c) ⊢ (Pipeline.ΦA spec0 c : sProp 𝕄) := by
  unfold Pipeline.ΦA rest0
  rw [scoped0_split]
  simp only [acc0M, owns_whole]
  iintro ⟨Ha, Hb, Hp⟩
  isplitl [Ha Hb]
  · isplitl [Ha]; · iexact Ha
    iexact Hb
  iexact Hp

def Inv0 (c : Dev nD) : (n : ℕ) → n ≤ cfg0.N → sProp 𝕄
  | 0, _ => Pipeline.ΦA spec0 c
  | n + 1, hn => iprop(owns (c : Thread nD τ) acc0M fullShare (accAt0 V c n hn) ∗ rest0 (F := F) c)

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(owns (c : Thread nD τ) acc0M fullShare (accAt0 V c n hn) ∗ rest0 (F := F) c) := rfl
theorem Inv0_pos (c : Dev nD) (n : ℕ) (h : n ≤ cfg0.N) (hz : n ≠ 0) :
    Inv0 V c n h = iprop(owns (c : Thread nD τ) acc0M fullShare (accAt0 V c (n - 1) (by omega)) ∗ rest0 (F := F) c) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => resAt0 V c t
    | ⟨6, _⟩ => cpyAt0 V c t
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Inv0_castSucc (c : Dev nD) (t : Fin cfg0.N) :
    (dat0 V c).Φ t.castSucc = Inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = resAt0 V c t := by dsimp only [dat0]
theorem after0_6 (c : Dev nD) (t : Fin cfg0.N) : (dat0 V c).after 6 t = cpyAt0 V c t := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem leaves0_0 (c : Dev nD) (t : Fin cfg0.N) :
    (dat0 V c).leavesExact 0 t = owns (c : Thread nD τ) (ms0_0 t) fullShare (blk0 V c 0 t) := by
  rw [show (dat0 V c).leavesExact 0 t = owns (c : Thread nD τ) (ms0_0 t) fullShare ((dat0 V c).after 0 t) from rfl, after0_0]
theorem leaves0_1 (c : Dev nD) (t : Fin cfg0.N) :
    (dat0 V c).leavesExact 1 t = owns (c : Thread nD τ) (ms0_1 t) fullShare (blk0 V c 1 t) := by
  rw [show (dat0 V c).leavesExact 1 t = owns (c : Thread nD τ) (ms0_1 t) fullShare ((dat0 V c).after 1 t) from rfl, after0_1]
theorem leaves0_2 (c : Dev nD) (t : Fin cfg0.N) :
    (dat0 V c).leavesExact 2 t = owns (c : Thread nD τ) (ms0_2 t) fullShare (blk0 V c 2 t) := by
  rw [show (dat0 V c).leavesExact 2 t = owns (c : Thread nD τ) (ms0_2 t) fullShare ((dat0 V c).after 2 t) from rfl, after0_2]
theorem leaves0_3 (c : Dev nD) (t : Fin cfg0.N) :
    (dat0 V c).leavesExact 3 t = owns (c : Thread nD τ) (ms0_3 t) fullShare (blk0 V c 3 t) := by
  rw [show (dat0 V c).leavesExact 3 t = owns (c : Thread nD τ) (ms0_3 t) fullShare ((dat0 V c).after 3 t) from rfl, after0_3]
theorem leaves0_4 (c : Dev nD) (t : Fin cfg0.N) :
    (dat0 V c).leavesExact 4 t = owns (c : Thread nD τ) (ms0_4 t) fullShare (blk0 V c 4 t) := by
  rw [show (dat0 V c).leavesExact 4 t = owns (c : Thread nD τ) (ms0_4 t) fullShare ((dat0 V c).after 4 t) from rfl, after0_4]
theorem leaves0_6 (c : Dev nD) (t : Fin cfg0.N) :
    (dat0 V c).leavesExact 6 t = owns (c : Thread nD τ) (ms0_6 t) fullShare (cpyAt0 V c t) := by
  rw [show (dat0 V c).leavesExact 6 t = owns (c : Thread nD τ) (ms0_6 t) fullShare ((dat0 V c).after 6 t) from rfl, after0_6]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = Inv0 V c (t.val + 1) t.isLt from rfl, Inv0_succ]
  rw [leaves0_0, leaves0_1, leaves0_2, leaves0_3, leaves0_4, leaves0_6]
  have hN : t.val < 256 := lt_of_lt_of_eq t.isLt (show cfg0.N = 256 from N_0)
  by_cases h1 : t.val % 8 = 7
  · have h0 : ¬ t.val % 8 = 0 := by omega
    have hz : t.val ≠ 0 := by omega
    rw [show (dat0 V c).leavesExact 5 t = owns (c : Thread nD τ) (ms0_5 t) fullShare ((dat0 V c).after 5 t) from by
      unfold Dat.leavesExact; rw [live0_5 t h1], after0_5]
    rw [show resAt0 V c t = _ from dif_pos h1, show cpyAt0 V c t = _ from dif_pos h1]
    rw [accAt0_last V c t h0 h1]
    unfold resLast0 accLast0 cpyLast0; (try dsimp only)
    rw [Inv0_castSucc V c t, Inv0_pos V c _ _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply ((run0_last c (grid0.coords t) _ _ _ _ _ _ _ _ _ _ _ _ _ _ _ _ (fun h => h0 ((first0_iff t).mp h)) ((last0_iff t).mpr h1)
      (blk0 V c 0 t) (blk0 V c 1 t) (blk0 V c 2 t) (blk0 V c 3 t) (blk0 V c 4 t) _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%eb, HB⟩, ⟨%es, HS⟩⟩
    isplitl [HS Hr]
    · isplitl [HS]
      · unfold owns; iexists _; isplitr
        swap; · iexact HS
        ipureintro; exact View.read_writes_of_cover _ _ _ _ _ (accLast0_cover c _ _ _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (resLast0_cover c _ _ _ _ _ _ _ _ _ _ _ _ _ _ _ _ _ _ _ _ _ _ _ _ _)
    unfold owns; iexists _; isplitr
    swap; · iexact HB
    ipureintro; exact View.read_writes_of_cover _ _ _ _ _ (cpyLast0_cover c _ _ _ _ _ _ _ _ _ _ _ _ _ _ _ _ _ _ _ _ _ _ _ _ _)
  · rw [Dat.leavesExact_idle (dat0 V c) 5 t (idle0_5 t h1) (noflush0_5 t h1)]
    rw [show cpyAt0 V c t = _ from dif_neg h1]
    by_cases h0 : t.val % 8 = 0
    · rw [accAt0_first V c t h0 h1, dif_pos h0]
      unfold accFirst0 cpyFirst0; (try dsimp only)
      by_cases hz : t.val = 0
      · rw [Inv0_castSucc V c t, Inv0_zero V c _ _ hz]
        iintro ⟨HΦ, Ho, ⟨%d0, H0⟩, ⟨%d1, H1⟩, ⟨%d2, H2⟩, ⟨%d3, H3⟩, ⟨%d4, H4⟩, H5, ⟨%d6, H6⟩⟩
        ihave HΦ' := (PhiA0_open (F := F) c) $$ HΦ
        icases HΦ' with ⟨HS, Hr⟩
        iapply ((run0_first c (grid0.coords t) _ _ _ _ _ _ _ _ _ _ _ _ _ _ _ _ ((first0_iff t).mpr h0) (fun h => h1 ((last0_iff t).mp h))
          (blk0 V c 0 t) (blk0 V c 1 t)).2.2 Set.univ _)
        isplitl [H0]; · iexact H0
        isplitl [H1]; · iexact H1
        isplitl [H6]; · iexists _; iexact H6
        isplitl [HS]; · iexact HS
        iintro ⟨H0, H1, ⟨%eb, HB⟩, ⟨%es, HS⟩⟩
        isplitl [HS Hr]
        · isplitl [HS]
          · unfold owns; iexists _; isplitr
            swap; · iexact HS
            ipureintro; exact View.read_writes_of_cover _ _ _ _ _ (accFirst0_cover c _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact HB
        ipureintro; exact View.read_writes_of_cover _ _ _ _ _ (cpyFirst0_cover c _ _ _ _ _ _ _ _ _ _ _ _ _ _ _ _ _ _ _ _ _)
      · rw [Inv0_castSucc V c t, Inv0_pos V c _ _ hz]
        iintro ⟨⟨HS, Hr⟩, Ho, ⟨%d0, H0⟩, ⟨%d1, H1⟩, ⟨%d2, H2⟩, ⟨%d3, H3⟩, ⟨%d4, H4⟩, H5, ⟨%d6, H6⟩⟩
        iapply ((run0_first c (grid0.coords t) _ _ _ _ _ _ _ _ _ _ _ _ _ _ _ _ ((first0_iff t).mpr h0) (fun h => h1 ((last0_iff t).mp h))
          (blk0 V c 0 t) (blk0 V c 1 t)).2.2 Set.univ _)
        isplitl [H0]; · iexact H0
        isplitl [H1]; · iexact H1
        isplitl [H6]; · iexists _; iexact H6
        isplitl [HS]; · iexists _; iexact HS
        iintro ⟨H0, H1, ⟨%eb, HB⟩, ⟨%es, HS⟩⟩
        isplitl [HS Hr]
        · isplitl [HS]
          · unfold owns; iexists _; isplitr
            swap; · iexact HS
            ipureintro; exact View.read_writes_of_cover _ _ _ _ _ (accFirst0_cover c _ _ _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact HB
        ipureintro; exact View.read_writes_of_cover _ _ _ _ _ (cpyFirst0_cover c _ _ _ _ _ _ _ _ _ _ _ _ _ _ _ _ _ _ _ _ _)
    · have hz : t.val ≠ 0 := by omega
      rw [accAt0_mid V c t h0 h1, dif_neg h0]
      unfold accMid0 cpyMid0; (try dsimp only)
      rw [Inv0_castSucc V c t, Inv0_pos V c _ _ hz]
      iintro ⟨⟨HS, Hr⟩, Ho, ⟨%d0, H0⟩, ⟨%d1, H1⟩, ⟨%d2, H2⟩, ⟨%d3, H3⟩, ⟨%d4, H4⟩, H5, ⟨%d6, H6⟩⟩
      iapply ((run0_mid c (grid0.coords t) _ _ _ _ _ _ _ _ _ _ _ _ _ _ _ _ (fun h => h0 ((first0_iff t).mp h)) (fun h => h1 ((last0_iff t).mp h))
        (blk0 V c 0 t) (blk0 V c 1 t) _).2.2 Set.univ _)
      isplitl [H0]; · iexact H0
      isplitl [H1]; · iexact H1
      isplitl [H6]; · iexists _; iexact H6
      isplitl [HS]; · iexact HS
      iintro ⟨H0, H1, ⟨%eb, HB⟩, ⟨%es, HS⟩⟩
      isplitl [HS Hr]
      · isplitl [HS]
        · unfold owns; iexists _; isplitr
          swap; · iexact HS
          ipureintro; exact View.read_writes_of_cover _ _ _ _ _ (accMid0_cover c _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact HB
      ipureintro; exact View.read_writes_of_cover _ _ _ _ _ (cpyMid0_cover c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Inv0 V c 0 (Nat.zero_le _) from rfl, Inv0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = Inv0 V c (Fin.last cfg0.N).val (Nat.le_of_lt_succ (Fin.last cfg0.N).isLt) from rfl,
    Inv0_pos V c _ _ hne]
  iintro ⟨HS, Hr⟩
  iapply (PhiA0_close (F := F) c)
  isplitl [HS]; · iexists _; iexact HS
  iexact Hr

end Cert.Kernel.Hand

end
-- ==== Proof.WLayerRuns1.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 1): the body case by case

The grid is (row tile, K tile), the K tile the fast axis, 4 K tiles per row tile. At the first K tile the body
resets the accumulator to zero; at every K tile it adds the product of the adjacency tile with the matching rows of
the resident feature matrix; at the last K tile it combines, multiplies by the layer's weights, adds the bias,
clamps at zero and stores the row tile of the result. -/

/-- The body's first branch (the K tile is the first): the printed scalar chain on the point's coordinates. -/
abbrev first1 (i : grid1.Coords) : Prop :=
  (Scalar.cmpi .ne (Scalar.extui (Scalar.cmpi .eq (BitVec.ofNat 32 (i 1).val) 0#32)) 0#32) = 1#1
/-- It holds exactly at the points whose K tile is 0. -/
theorem first1_iff : ∀ t : Fin cfg1.N, first1 (grid1.coords t) ↔ t.val % 4 = 0 :=
  (by decide +kernel : ∀ t : Fin grid1.N, first1 (grid1.coords t) ↔ t.val % 4 = 0)
/-- The body's second branch (the K tile is the last). -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-- The accumulator scratch, a whole scoped buffer of the kernel's own, and the view its contents are stated through. -/
abbrev acc1M : Memref sig .tc .vmem S512x128 .f32 := Memref.whole cc1_scratch0
abbrev acc1V : View sig .tc .vmem S512x128 .f32 := (acc1M).view
/-- One staging buffer of the result window, through which its contents are stated. -/
abbrev res1V : View sig .tc .vmem S512x128 .f32 := (Memref.whole cc1_stg5_0 : Memref sig .tc .vmem S512x128 .f32).view

set_option maxHeartbeats 4000000 in
/-- FIRST K tile (reset, accumulate, no result): on whole buffers — the adjacency tile at `x0`, the feature matrix at
    `x1`, the accumulator at anything — the body runs and leaves the two inputs as they were and the accumulator with
    the pieces `LS` written; the pieces are what the run finds. -/
noncomputable def run1_first (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, fun E K => ?run⟩
  case run =>
    simp only [cc1__layer_kernel_eq_skeleton]; unfold cc1__layer_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE K tile (accumulate only): the accumulator comes in at what the point before left, `xs`. -/
noncomputable def run1_mid (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, fun E K => ?run⟩
  case run =>
    simp only [cc1__layer_kernel_eq_skeleton]; unfold cc1__layer_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- The LAST K tile (accumulate, then the result): every input at its contents, the accumulator at what the point
    before left, the result buffer at anything; the accumulator is left with `LS` written and the result buffer with
    `LR` written. -/
noncomputable def run1_last (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) :
    Σ' (LR : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS)) -∗ K ⟨⟩))
          ⊢ wp frame (wpE (defs₀ (F := F)) Variants.none c none) E (cc1__layer_kernel i arg2 harg2 arg3 harg3 arg4 harg4 arg5 harg5 arg6 harg6 arg7 harg7 arg8 harg8) K } := by
  refine ⟨?_, ?_, fun E K => ?run⟩
  case run =>
    simp only [cc1__layer_kernel_eq_skeleton]; unfold cc1__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.WLayerData1.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import proofs.«103405_j58265526337970_2_alg».proof.Proof.WLayerRuns1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 1): what the buffers hold point by point, the proof data, the body obligation -/

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: an unfetched
    window's block index has not moved since the point before. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Each window's current staging memref at a point, as the pipeline passes it to the body. -/
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)

/-! ## Where the result window is idle -/

theorem idle1_5 : ∀ t : Fin cfg1.N, ¬ t.val % 4 = 3 → cfg1.idle 5 (grid1.coords t) = true := by decide +kernel
theorem live1_5 : ∀ t : Fin cfg1.N, t.val % 4 = 3 → cfg1.idle 5 (grid1.coords t) = false := by decide +kernel
theorem noflush1_5 (t : Fin cfg1.N) (h : ¬ t.val % 4 = 3) : (cfg1.win 5).flush t = false := by
  cases hf : (cfg1.win 5).flush t
  · rfl
  · exact absurd ((flush1_5 t).mp hf) h

/-! ## What the runs leave -/

/-- The accumulator after a first K tile: the run's pieces read back. -/
def accFirst1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) : Vec F S512x128 .f32 :=
  acc1V.read (Elt F) (acc1V.writes (Elt F) acc1V.junk (run1_first c i arg2 harg2 arg3 harg3 arg4 harg4 arg5 harg5 arg6 harg6 arg7 harg7 arg8 harg8 hc0 hc1 x0 x1).1)
/-- Its pieces cover the accumulator (whole-buffer stores). -/
theorem accFirst1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) (y : S512x128.Idx) :
    ∃ pc ∈ (run1_first c i arg2 harg2 arg3 harg3 arg4 harg4 arg5 harg5 arg6 harg6 arg7 harg7 arg8 harg8 hc0 hc1 x0 x1).1, y ∈ pc.1.set :=
  View.cover_of_tiledL (run1_first c i arg2 harg2 arg3 harg3 arg4 harg4 arg5 harg5 arg6 harg6 arg7 harg7 arg8 harg8 hc0 hc1 x0 x1).1 S512x128.size (by sl_kernel_rfl) y

def accMid1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) : Vec F S512x128 .f32 :=
  acc1V.read (Elt F) (acc1V.writes (Elt F) acc1V.junk (run1_mid c i arg2 harg2 arg3 harg3 arg4 harg4 arg5 harg5 arg6 harg6 arg7 harg7 arg8 harg8 hc0 hc1 x0 x1 xs).1)
theorem accMid1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) (y : S512x128.Idx) :
    ∃ pc ∈ (run1_mid c i arg2 harg2 arg3 harg3 arg4 harg4 arg5 harg5 arg6 harg6 arg7 harg7 arg8 harg8 hc0 hc1 x0 x1 xs).1, y ∈ pc.1.set :=
  View.cover_of_tiledL (run1_mid c i arg2 harg2 arg3 harg3 arg4 harg4 arg5 harg5 arg6 harg6 arg7 harg7 arg8 harg8 hc0 hc1 x0 x1 xs).1 S512x128.size (by sl_kernel_rfl) y

def accLast1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  acc1V.read (Elt F) (acc1V.writes (Elt F) acc1V.junk (run1_last c i arg2 harg2 arg3 harg3 arg4 harg4 arg5 harg5 arg6 harg6 arg7 harg7 arg8 harg8 hc0 hc1 x0 x1 x2 x3 x4 xs).2.1)
theorem accLast1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run1_last c i arg2 harg2 arg3 harg3 arg4 harg4 arg5 harg5 arg6 harg6 arg7 harg7 arg8 harg8 hc0 hc1 x0 x1 x2 x3 x4 xs).2.1, y ∈ pc.1.set :=
  View.cover_of_tiledL (run1_last c i arg2 harg2 arg3 harg3 arg4 harg4 arg5 harg5 arg6 harg6 arg7 harg7 arg8 harg8 hc0 hc1 x0 x1 x2 x3 x4 xs).2.1 S512x128.size (by sl_kernel_rfl) y

/-- The result buffer after a last K tile. -/
def resLast1 (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  res1V.read (Elt F) (res1V.writes (Elt F) res1V.junk (run1_last c i arg2 harg2 arg3 harg3 arg4 harg4 arg5 harg5 arg6 harg6 arg7 harg7 arg8 harg8 hc0 hc1 x0 x1 x2 x3 x4 xs).1)
theorem resLast1_cover (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run1_last c i arg2 harg2 arg3 harg3 arg4 harg4 arg5 harg5 arg6 harg6 arg7 harg7 arg8 harg8 hc0 hc1 x0 x1 x2 x3 x4 xs).1, y ∈ pc.1.set :=
  View.cover_of_tiledL (run1_last c i arg2 harg2 arg3 harg3 arg4 harg4 arg5 harg5 arg6 harg6 arg7 harg7 arg8 harg8 hc0 hc1 x0 x1 x2 x3 x4 xs).1 S512x128.size (by sl_kernel_rfl) y

/-! ## The accumulator point by point -/

/-- What the accumulator holds after the body at position `n`: reset and one product at a first K tile, the point
    before's contents plus one product otherwise. -/
def accAt1 (c : Dev nD) : (n : ℕ) → n < cfg1.N → Vec F S512x128 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) acc1M (Memref.isWhole_whole _) ((first1_iff ⟨0, hn⟩).mpr (Nat.zero_mod _)) (fun h => absurd ((last1_iff ⟨0, hn⟩).mp h) (show ¬ (0 % 4 = 3) by decide))
      (blk1 V c 0 ⟨0, hn⟩) (blk1 V c 1 ⟨0, hn⟩)
  | n + 1, hn =>
    if h0 : (n + 1) % 4 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) ((first1_iff ⟨n + 1, hn⟩).mpr h0) (fun h => by have := (last1_iff ⟨n + 1, hn⟩).mp h; (try dsimp only at this); omega)
        (blk1 V c 0 ⟨n + 1, hn⟩) (blk1 V c 1 ⟨n + 1, hn⟩)
    else if h1 : (n + 1) % 4 = 3 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) (fun h => h0 ((first1_iff ⟨n + 1, hn⟩).mp h)) ((last1_iff ⟨n + 1, hn⟩).mpr h1)
        (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) acc1M (Memref.isWhole_whole _) (fun h => h0 ((first1_iff ⟨n + 1, hn⟩).mp h)) (fun h => h1 ((last1_iff ⟨n + 1, hn⟩).mp h))
        (blk1 V c 0 ⟨n + 1, hn⟩) (blk1 V c 1 ⟨n + 1, hn⟩) (accAt1 c n (Nat.lt_of_succ_lt hn))

theorem accAt1_first (c : Dev nD) (t : Fin cfg1.N) (h0 : t.val % 4 = 0) (h1 : ¬ t.val % 4 = 3) :
    accAt1 V c t.val t.isLt = accFirst1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) ((first1_iff t).mpr h0) (fun h => h1 ((last1_iff t).mp h))
      (blk1 V c 0 t) (blk1 V c 1 t) := by
  obtain ⟨n, hn⟩ := t
  cases n with
  | zero => rfl
  | succ n => exact (dif_pos h0).trans rfl

theorem accAt1_mid (c : Dev nD) (t : Fin cfg1.N) (h0 : ¬ t.val % 4 = 0) (h1 : ¬ t.val % 4 = 3) :
    accAt1 V c t.val t.isLt = accMid1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) (fun h => h1 ((last1_iff t).mp h))
      (blk1 V c 0 t) (blk1 V c 1 t) (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt1_last (c : Dev nD) (t : Fin cfg1.N) (h0 : ¬ t.val % 4 = 0) (h1 : t.val % 4 = 3) :
    accAt1 V c t.val t.isLt = accLast1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) ((last1_iff t).mpr h1)
      (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the result window's buffer holds after the body at a point: at a last K tile the row tile of the result;
    elsewhere the window is idle and nothing consults this. -/
def resAt1 (c : Dev nD) (t : Fin cfg1.N) : Vec F S512x128 .f32 :=
  if h1 : t.val % 4 = 3 then
    resLast1 c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => by have := (first1_iff t).mp h; omega) ((last1_iff t).mpr h1)
      (blk1 V c 0 t) (blk1 V c 1 t) (blk1 V c 2 t) (blk1 V c 3 t) (blk1 V c 4 t) (accAt1 V c (t.val - 1) (Nat.lt_of_le_of_lt (Nat.sub_le _ _) t.isLt))
  else res1V.read (Elt F) (res1V.junk)

/-! ## The invariant: the accumulator named, the other scoped buffers and the generator register at anything -/

/-- The core's scoped buffers that are neither a staging buffer of this region nor its accumulator, each at some
    contents, and the generator register at some state. -/
def rest1 (c : Dev nD) : sProp 𝕄 :=
  iprop(bigSep ((((Finset.univ.filter fun b : Ref sig .tc => b.isScoped) \ Finset.univ.image (Pipeline.stageRef spec1)).erase cc1_scratch0))
      (fun b => iprop(∃ f : Buf (Elt F) ((c.tc : Thread nD τ).loc b), ((c.tc : Thread nD τ).loc b) ↦{fullShare} f))
    ∗ ∃ r, prngReg c r)

theorem acc1_mem : cc1_scratch0 ∈ ((Finset.univ.filter fun b : Ref sig .tc => b.isScoped) \ Finset.univ.image (Pipeline.stageRef spec1)) := by decide

/-- The scoped rest, split at the accumulator. -/
theorem scoped1_split (c : Dev nD) :
    (Pipeline.scopedRest (Ix := Unit) (Name := ℕ) (U := Pipeline.UD sig nD τ) (Lvl := ℕ) (Val := Elt F) spec1 c : sProp 𝕄)
      = iprop((∃ f : Buf (Elt F) ((c.tc : Thread nD τ).loc cc1_scratch0), ((c.tc : Thread nD τ).loc cc1_scratch0) ↦{fullShare} f)
          ∗ bigSep ((((Finset.univ.filter fun b : Ref sig .tc => b.isScoped) \ Finset.univ.image (Pipeline.stageRef spec1)).erase cc1_scratch0))
              (fun b => iprop(∃ f : Buf (Elt F) ((c.tc : Thread nD τ).loc b), ((c.tc : Thread nD τ).loc b) ↦{fullShare} f))) := by
  unfold Pipeline.scopedRest; exact bigSep_erase acc1_mem

/-- The class's invariant hands over the accumulator at some contents beside the rest, -/
theorem PhiA1_open (c : Dev nD) : (Pipeline.ΦA spec1 c : sProp 𝕄) ⊢ iprop((∃ d, owns (c : Thread nD τ) acc1M fullShare d) ∗ rest1 (F := F) c) := by
  unfold Pipeline.ΦA rest1
  rw [scoped1_split]
  simp only [acc1M, owns_whole]
  iintro ⟨⟨Ha, Hb⟩, Hp⟩
  isplitl [Ha]; · iexact Ha
  isplitl [Hb]; · iexact Hb
  iexact Hp
/-- and takes it back at any contents. -/
theorem PhiA1_close (c : Dev nD) : iprop((∃ d, owns (c : Thread nD τ) acc1M fullShare d) ∗ rest1 (F := F) c) ⊢ (Pipeline.ΦA spec1 c : sProp 𝕄) := by
  unfold Pipeline.ΦA rest1
  rw [scoped1_split]
  simp only [acc1M, owns_whole]
  iintro ⟨Ha, Hb, Hp⟩
  isplitl [Ha Hb]
  · isplitl [Ha]; · iexact Ha
    iexact Hb
  iexact Hp

/-- The region's invariant before position `n`: before the first point the class's; afterwards the accumulator at
    what the point before left, beside the rest. -/
def Inv1 (c : Dev nD) : (n : ℕ) → n ≤ cfg1.N → sProp 𝕄
  | 0, _ => Pipeline.ΦA spec1 c
  | n + 1, hn => iprop(owns (c : Thread nD τ) acc1M fullShare (accAt1 V c n hn) ∗ rest1 (F := F) c)

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(owns (c : Thread nD τ) acc1M fullShare (accAt1 V c n hn) ∗ rest1 (F := F) c) := rfl
theorem Inv1_pos (c : Dev nD) (n : ℕ) (h : n ≤ cfg1.N) (hz : n ≠ 0) :
    Inv1 V c n h = iprop(owns (c : Thread nD τ) acc1M fullShare (accAt1 V c (n - 1) (by omega)) ∗ rest1 (F := F) c) := by
  cases n with
  | zero => exact absurd rfl hz
  | succ n => rfl

/-! ## The proof data -/

/-- The region's proof data on core `c`: the arrays as the region finds them; after the body each input's buffer at
    its block, the result's at `resAt`; the invariant `Inv`; nothing owed; full shares. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => resAt1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Inv1_castSucc (c : Dev nD) (t : Fin cfg1.N) :
    (dat1 V c).Φ t.castSucc = Inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = resAt1 V c t := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem leaves1_0 (c : Dev nD) (t : Fin cfg1.N) :
    (dat1 V c).leavesExact 0 t = owns (c : Thread nD τ) (ms1_0 t) fullShare (blk1 V c 0 t) := by
  rw [show (dat1 V c).leavesExact 0 t = owns (c : Thread nD τ) (ms1_0 t) fullShare ((dat1 V c).after 0 t) from rfl, after1_0]
theorem leaves1_1 (c : Dev nD) (t : Fin cfg1.N) :
    (dat1 V c).leavesExact 1 t = owns (c : Thread nD τ) (ms1_1 t) fullShare (blk1 V c 1 t) := by
  rw [show (dat1 V c).leavesExact 1 t = owns (c : Thread nD τ) (ms1_1 t) fullShare ((dat1 V c).after 1 t) from rfl, after1_1]
theorem leaves1_2 (c : Dev nD) (t : Fin cfg1.N) :
    (dat1 V c).leavesExact 2 t = owns (c : Thread nD τ) (ms1_2 t) fullShare (blk1 V c 2 t) := by
  rw [show (dat1 V c).leavesExact 2 t = owns (c : Thread nD τ) (ms1_2 t) fullShare ((dat1 V c).after 2 t) from rfl, after1_2]
theorem leaves1_3 (c : Dev nD) (t : Fin cfg1.N) :
    (dat1 V c).leavesExact 3 t = owns (c : Thread nD τ) (ms1_3 t) fullShare (blk1 V c 3 t) := by
  rw [show (dat1 V c).leavesExact 3 t = owns (c : Thread nD τ) (ms1_3 t) fullShare ((dat1 V c).after 3 t) from rfl, after1_3]
theorem leaves1_4 (c : Dev nD) (t : Fin cfg1.N) :
    (dat1 V c).leavesExact 4 t = owns (c : Thread nD τ) (ms1_4 t) fullShare (blk1 V c 4 t) := by
  rw [show (dat1 V c).leavesExact 4 t = owns (c : Thread nD τ) (ms1_4 t) fullShare ((dat1 V c).after 4 t) from rfl, after1_4]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's K tile says which case it is in; the
    invariant hands the body the accumulator (at anything at the first point, else at what the point before left)
    and takes it back at this point's contents; the result window is handed back untouched where it is idle. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Inv1 V c (t.val + 1) t.isLt from rfl, Inv1_succ]
  rw [leaves1_0, leaves1_1, leaves1_2, leaves1_3, leaves1_4]
  have hN : t.val < 128 := lt_of_lt_of_eq t.isLt (show cfg1.N = 128 from N_1)
  by_cases h1 : t.val % 4 = 3
  · have h0 : ¬ t.val % 4 = 0 := by omega
    have hz : t.val ≠ 0 := by omega
    rw [show (dat1 V c).leavesExact 5 t = owns (c : Thread nD τ) (ms1_5 t) fullShare ((dat1 V c).after 5 t) from by
      unfold Dat.leavesExact; rw [live1_5 t h1], after1_5]
    rw [show resAt1 V c t = _ from dif_pos h1]
    rw [accAt1_last V c t h0 h1]
    unfold resLast1 accLast1; (try dsimp only)
    rw [Inv1_castSucc V c t, Inv1_pos V c _ _ hz]
    iintro ⟨⟨HS, Hr⟩, Ho, ⟨%d0, H0⟩, ⟨%d1, H1⟩, ⟨%d2, H2⟩, ⟨%d3, H3⟩, ⟨%d4, H4⟩, ⟨%d5, H5⟩⟩
    iapply ((run1_last c (grid1.coords t) _ _ _ _ _ _ _ _ _ _ _ _ _ _ (fun h => h0 ((first1_iff t).mp h)) ((last1_iff t).mpr h1)
      (blk1 V c 0 t) (blk1 V c 1 t) (blk1 V c 2 t) (blk1 V c 3 t) (blk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr]
    · isplitl [HS]
      · unfold owns; iexists _; isplitr
        swap; · iexact HS
        ipureintro; exact View.read_writes_of_cover _ _ _ _ _ (accLast1_cover c _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resLast1_cover c _ _ _ _ _ _ _ _ _ _ _ _ _ _ _ _ _ _ _ _ _ _ _)
  · rw [Dat.leavesExact_idle (dat1 V c) 5 t (idle1_5 t h1) (noflush1_5 t h1)]
    by_cases h0 : t.val % 4 = 0
    · rw [accAt1_first V c t h0 h1]
      unfold accFirst1; (try dsimp only)
      by_cases hz : t.val = 0
      · rw [Inv1_castSucc V c t, Inv1_zero V c _ _ hz]
        iintro ⟨HΦ, Ho, ⟨%d0, H0⟩, ⟨%d1, H1⟩, ⟨%d2, H2⟩, ⟨%d3, H3⟩, ⟨%d4, H4⟩, H5⟩
        ihave HΦ' := (PhiA1_open (F := F) c) $$ HΦ
        icases HΦ' with ⟨HS, Hr⟩
        iapply ((run1_first c (grid1.coords t) _ _ _ _ _ _ _ _ _ _ _ _ _ _ ((first1_iff t).mpr h0) (fun h => h1 ((last1_iff t).mp h))
          (blk1 V c 0 t) (blk1 V c 1 t)).2 Set.univ _)
        isplitl [H0]; · iexact H0
        isplitl [H1]; · iexact H1
        isplitl [HS]; · iexact HS
        iintro ⟨H0, H1, ⟨%es, HS⟩⟩
        isplitl [HS Hr]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
      · rw [Inv1_castSucc V c t, Inv1_pos V c _ _ hz]
        iintro ⟨⟨HS, Hr⟩, Ho, ⟨%d0, H0⟩, ⟨%d1, H1⟩, ⟨%d2, H2⟩, ⟨%d3, H3⟩, ⟨%d4, H4⟩, H5⟩
        iapply ((run1_first c (grid1.coords t) _ _ _ _ _ _ _ _ _ _ _ _ _ _ ((first1_iff t).mpr h0) (fun h => h1 ((last1_iff t).mp h))
          (blk1 V c 0 t) (blk1 V c 1 t)).2 Set.univ _)
        isplitl [H0]; · iexact H0
        isplitl [H1]; · iexact H1
        isplitl [HS]; · iexists _; iexact HS
        iintro ⟨H0, H1, ⟨%es, HS⟩⟩
        isplitl [HS Hr]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [accAt1_mid V c t h0 h1]
      unfold accMid1; (try dsimp only)
      rw [Inv1_castSucc V c t, Inv1_pos V c _ _ hz]
      iintro ⟨⟨HS, Hr⟩, Ho, ⟨%d0, H0⟩, ⟨%d1, H1⟩, ⟨%d2, H2⟩, ⟨%d3, H3⟩, ⟨%d4, H4⟩, H5⟩
      iapply ((run1_mid c (grid1.coords t) _ _ _ _ _ _ _ _ _ _ _ _ _ _ (fun h => h0 ((first1_iff t).mp h)) (fun h => h1 ((last1_iff t).mp h))
        (blk1 V c 0 t) (blk1 V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid1_cover c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = Inv1 V c (Fin.last cfg1.N).val (Nat.le_of_lt_succ (Fin.last cfg1.N).isLt) from rfl,
    Inv1_pos V c _ _ hne]
  iintro ⟨HS, Hr⟩
  iapply (PhiA1_close (F := F) c)
  isplitl [HS]; · iexists _; iexact HS
  iexact Hr

end Cert.Kernel.Hand

end
-- ==== Proof.WLayerRuns2.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 2): the body case by case

The grid is (row tile, K tile), the K tile the fast axis, 4 K tiles per row tile. At the first K tile the body
resets the accumulator to zero; at every K tile it adds the product of the adjacency tile with the matching rows of
the resident feature matrix; at the last K tile it combines, multiplies by the layer's weights, adds the bias,
clamps at zero and stores the row tile of the result. -/

/-- The body's first branch (the K tile is the first): the printed scalar chain on the point's coordinates. -/
abbrev first2 (i : grid2.Coords) : Prop :=
  (Scalar.cmpi .ne (Scalar.extui (Scalar.cmpi .eq (BitVec.ofNat 32 (i 1).val) 0#32)) 0#32) = 1#1
/-- It holds exactly at the points whose K tile is 0. -/
theorem first2_iff : ∀ t : Fin cfg2.N, first2 (grid2.coords t) ↔ t.val % 4 = 0 :=
  (by decide +kernel : ∀ t : Fin grid2.N, first2 (grid2.coords t) ↔ t.val % 4 = 0)
/-- The body's second branch (the K tile is the last). -/
abbrev last2 (i : grid2.Coords) : Prop := k2_cond2 i = 1#1
theorem last2_iff : ∀ t : Fin cfg2.N, last2 (grid2.coords t) ↔ t.val % 4 = 3 :=
  (by decide +kernel : ∀ t : Fin grid2.N, last2 (grid2.coords t) ↔ t.val % 4 = 3)

/-- The accumulator scratch, a whole scoped buffer of the kernel's own, and the view its contents are stated through. -/
abbrev acc2M : Memref sig .tc .vmem S512x128 .f32 := Memref.whole cc2_scratch0
abbrev acc2V : View sig .tc .vmem S512x128 .f32 := (acc2M).view
/-- One staging buffer of the result window, through which its contents are stated. -/
abbrev res2V : View sig .tc .vmem S512x128 .f32 := (Memref.whole cc2_stg5_0 : Memref sig .tc .vmem S512x128 .f32).view

set_option maxHeartbeats 4000000 in
/-- FIRST K tile (reset, accumulate, no result): on whole buffers — the adjacency tile at `x0`, the feature matrix at
    `x1`, the accumulator at anything — the body runs and leaves the two inputs as they were and the accumulator with
    the pieces `LS` written; the pieces are what the run finds. -/
noncomputable def run2_first (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, fun E K => ?run⟩
  case run =>
    simp only [cc2__layer_kernel_eq_skeleton]; unfold cc2__layer_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- A MIDDLE K tile (accumulate only): the accumulator comes in at what the point before left, `xs`. -/
noncomputable def run2_mid (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1 ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, fun E K => ?run⟩
  case run =>
    simp only [cc2__layer_kernel_eq_skeleton]; unfold cc2__layer_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 4000000 in
/-- The LAST K tile (accumulate, then the result): every input at its contents, the accumulator at what the point
    before left, the result buffer at anything; the accumulator is left with `LS` written and the result buffer with
    `LR` written. -/
noncomputable def run2_last (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) :
    Σ' (LR : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LR)
                ∗ (∃ f, arg8.view.loc (c : Thread nD τ) ↦[arg8.view.set]{fullShare} arg8.view.writes (Elt F) f LS)) -∗ K ⟨⟩))
          ⊢ wp frame (wpE (defs₀ (F := F)) Variants.none c none) E (cc2__layer_kernel i arg2 harg2 arg3 harg3 arg4 harg4 arg5 harg5 arg6 harg6 arg7 harg7 arg8 harg8) K } := by
  refine ⟨?_, ?_, fun E K => ?run⟩
  case run =>
    simp only [cc2__layer_kernel_eq_skeleton]; unfold cc2__layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.WLayerData2.lean ====
import proofs.«103405_j58265526337970_2_alg».proof.Proof.Gen.Kernel.Skeleton
import proofs.«103405_j58265526337970_2_alg».proof.Proof.Gen.Kernel.Launch
import proofs.«103405_j58265526337970_2_alg».proof.Proof.Gen.Kernel.Points
import proofs.«103405_j58265526337970_2_alg».proof.Proof.WLayerRuns2
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 2): what the buffers hold point by point, the proof data, the body obligation -/

-- the TensorCore's buffer contents when the region is entered
variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not: an unfetched
    window's block index has not moved since the point before. -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-- Each window's current staging memref at a point, as the pipeline passes it to the body. -/
abbrev ms2_0 (t : Fin cfg2.N) : Memref sig .tc .vmem S512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16384x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)

/-! ## Where the result window is idle -/

theorem idle2_5 : ∀ t : Fin cfg2.N, ¬ t.val % 4 = 3 → cfg2.idle 5 (grid2.coords t) = true := by decide +kernel
theorem live2_5 : ∀ t : Fin cfg2.N, t.val % 4 = 3 → cfg2.idle 5 (grid2.coords t) = false := by decide +kernel
theorem noflush2_5 (t : Fin cfg2.N) (h : ¬ t.val % 4 = 3) : (cfg2.win 5).flush t = false := by
  cases hf : (cfg2.win 5).flush t
  · rfl
  · exact absurd ((flush2_5 t).mp hf) h

/-! ## What the runs leave -/

/-- The accumulator after a first K tile: the run's pieces read back. -/
def accFirst2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) : Vec F S512x128 .f32 :=
  acc2V.read (Elt F) (acc2V.writes (Elt F) acc2V.junk (run2_first c i arg2 harg2 arg3 harg3 arg4 harg4 arg5 harg5 arg6 harg6 arg7 harg7 arg8 harg8 hc0 hc1 x0 x1).1)
/-- Its pieces cover the accumulator (whole-buffer stores). -/
theorem accFirst2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) (y : S512x128.Idx) :
    ∃ pc ∈ (run2_first c i arg2 harg2 arg3 harg3 arg4 harg4 arg5 harg5 arg6 harg6 arg7 harg7 arg8 harg8 hc0 hc1 x0 x1).1, y ∈ pc.1.set :=
  View.cover_of_tiledL (run2_first c i arg2 harg2 arg3 harg3 arg4 harg4 arg5 harg5 arg6 harg6 arg7 harg7 arg8 harg8 hc0 hc1 x0 x1).1 S512x128.size (by sl_kernel_rfl) y

def accMid2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) : Vec F S512x128 .f32 :=
  acc2V.read (Elt F) (acc2V.writes (Elt F) acc2V.junk (run2_mid c i arg2 harg2 arg3 harg3 arg4 harg4 arg5 harg5 arg6 harg6 arg7 harg7 arg8 harg8 hc0 hc1 x0 x1 xs).1)
theorem accMid2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) (y : S512x128.Idx) :
    ∃ pc ∈ (run2_mid c i arg2 harg2 arg3 harg3 arg4 harg4 arg5 harg5 arg6 harg6 arg7 harg7 arg8 harg8 hc0 hc1 x0 x1 xs).1, y ∈ pc.1.set :=
  View.cover_of_tiledL (run2_mid c i arg2 harg2 arg3 harg3 arg4 harg4 arg5 harg5 arg6 harg6 arg7 harg7 arg8 harg8 hc0 hc1 x0 x1 xs).1 S512x128.size (by sl_kernel_rfl) y

def accLast2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  acc2V.read (Elt F) (acc2V.writes (Elt F) acc2V.junk (run2_last c i arg2 harg2 arg3 harg3 arg4 harg4 arg5 harg5 arg6 harg6 arg7 harg7 arg8 harg8 hc0 hc1 x0 x1 x2 x3 x4 xs).2.1)
theorem accLast2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run2_last c i arg2 harg2 arg3 harg3 arg4 harg4 arg5 harg5 arg6 harg6 arg7 harg7 arg8 harg8 hc0 hc1 x0 x1 x2 x3 x4 xs).2.1, y ∈ pc.1.set :=
  View.cover_of_tiledL (run2_last c i arg2 harg2 arg3 harg3 arg4 harg4 arg5 harg5 arg6 harg6 arg7 harg7 arg8 harg8 hc0 hc1 x0 x1 x2 x3 x4 xs).2.1 S512x128.size (by sl_kernel_rfl) y

/-- The result buffer after a last K tile. -/
def resLast2 (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) : Vec F S512x128 .f32 :=
  res2V.read (Elt F) (res2V.writes (Elt F) res2V.junk (run2_last c i arg2 harg2 arg3 harg3 arg4 harg4 arg5 harg5 arg6 harg6 arg7 harg7 arg8 harg8 hc0 hc1 x0 x1 x2 x3 x4 xs).1)
theorem resLast2_cover (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) (y : S512x128.Idx) :
    ∃ pc ∈ (run2_last c i arg2 harg2 arg3 harg3 arg4 harg4 arg5 harg5 arg6 harg6 arg7 harg7 arg8 harg8 hc0 hc1 x0 x1 x2 x3 x4 xs).1, y ∈ pc.1.set :=
  View.cover_of_tiledL (run2_last c i arg2 harg2 arg3 harg3 arg4 harg4 arg5 harg5 arg6 harg6 arg7 harg7 arg8 harg8 hc0 hc1 x0 x1 x2 x3 x4 xs).1 S512x128.size (by sl_kernel_rfl) y

/-! ## The accumulator point by point -/

/-- What the accumulator holds after the body at position `n`: reset and one product at a first K tile, the point
    before's contents plus one product otherwise. -/
def accAt2 (c : Dev nD) : (n : ℕ) → n < cfg2.N → Vec F S512x128 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) acc2M (Memref.isWhole_whole _) ((first2_iff ⟨0, hn⟩).mpr (Nat.zero_mod _)) (fun h => absurd ((last2_iff ⟨0, hn⟩).mp h) (show ¬ (0 % 4 = 3) by decide))
      (blk2 V c 0 ⟨0, hn⟩) (blk2 V c 1 ⟨0, hn⟩)
  | n + 1, hn =>
    if h0 : (n + 1) % 4 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) ((first2_iff ⟨n + 1, hn⟩).mpr h0) (fun h => by have := (last2_iff ⟨n + 1, hn⟩).mp h; (try dsimp only at this); omega)
        (blk2 V c 0 ⟨n + 1, hn⟩) (blk2 V c 1 ⟨n + 1, hn⟩)
    else if h1 : (n + 1) % 4 = 3 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) (fun h => h0 ((first2_iff ⟨n + 1, hn⟩).mp h)) ((last2_iff ⟨n + 1, hn⟩).mpr h1)
        (blk2 V c 0 ⟨n + 1, hn⟩) (blk2 V c 1 ⟨n + 1, hn⟩) (blk2 V c 2 ⟨n + 1, hn⟩) (blk2 V c 3 ⟨n + 1, hn⟩) (blk2 V c 4 ⟨n + 1, hn⟩) (accAt2 c n (Nat.lt_of_succ_lt hn))
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) acc2M (Memref.isWhole_whole _) (fun h => h0 ((first2_iff ⟨n + 1, hn⟩).mp h)) (fun h => h1 ((last2_iff ⟨n + 1, hn⟩).mp h))
        (blk2 V c 0 ⟨n + 1, hn⟩) (blk2 V c 1 ⟨n + 1, hn⟩) (accAt2 c n (Nat.lt_of_succ_lt hn))

theorem accAt2_first (c : Dev nD) (t : Fin cfg2.N) (h0 : t.val % 4 = 0) (h1 : ¬ t.val % 4 = 3) :
    accAt2 V c t.val t.isLt = accFirst2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) ((first2_iff t).mpr h0) (fun h => h1 ((last2_iff t).mp h))
      (blk2 V c 0 t) (blk2 V c 1 t) := by
  obtain ⟨n, hn⟩ := t
  cases n with
  | zero => rfl
  | succ n => exact (dif_pos h0).trans rfl

theorem accAt2_mid (c : Dev nD) (t : Fin cfg2.N) (h0 : ¬ t.val % 4 = 0) (h1 : ¬ t.val % 4 = 3) :
    accAt2 V c t.val t.isLt = accMid2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) (fun h => h1 ((last2_iff t).mp h))
      (blk2 V c 0 t) (blk2 V c 1 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt2_last (c : Dev nD) (t : Fin cfg2.N) (h0 : ¬ t.val % 4 = 0) (h1 : t.val % 4 = 3) :
    accAt2 V c t.val t.isLt = accLast2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) ((last2_iff t).mpr h1)
      (blk2 V c 0 t) (blk2 V c 1 t) (blk2 V c 2 t) (blk2 V c 3 t) (blk2 V c 4 t) (accAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the result window's buffer holds after the body at a point: at a last K tile the row tile of the result;
    elsewhere the window is idle and nothing consults this. -/
def resAt2 (c : Dev nD) (t : Fin cfg2.N) : Vec F S512x128 .f32 :=
  if h1 : t.val % 4 = 3 then
    resLast2 c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => by have := (first2_iff t).mp h; omega) ((last2_iff t).mpr h1)
      (blk2 V c 0 t) (blk2 V c 1 t) (blk2 V c 2 t) (blk2 V c 3 t) (blk2 V c 4 t) (accAt2 V c (t.val - 1) (Nat.lt_of_le_of_lt (Nat.sub_le _ _) t.isLt))
  else res2V.read (Elt F) (res2V.junk)

/-! ## The invariant: the accumulator named, the other scoped buffers and the generator register at anything -/

/-- The core's scoped buffers that are neither a staging buffer of this region nor its accumulator, each at some
    contents, and the generator register at some state. -/
def rest2 (c : Dev nD) : sProp 𝕄 :=
  iprop(bigSep ((((Finset.univ.filter fun b : Ref sig .tc => b.isScoped) \ Finset.univ.image (Pipeline.stageRef spec2)).erase cc2_scratch0))
      (fun b => iprop(∃ f : Buf (Elt F) ((c.tc : Thread nD τ).loc b), ((c.tc : Thread nD τ).loc b) ↦{fullShare} f))
    ∗ ∃ r, prngReg c r)

theorem acc2_mem : cc2_scratch0 ∈ ((Finset.univ.filter fun b : Ref sig .tc => b.isScoped) \ Finset.univ.image (Pipeline.stageRef spec2)) := by decide

/-- The scoped rest, split at the accumulator. -/
theorem scoped2_split (c : Dev nD) :
    (Pipeline.scopedRest (Ix := Unit) (Name := ℕ) (U := Pipeline.UD sig nD τ) (Lvl := ℕ) (Val := Elt F) spec2 c : sProp 𝕄)
      = iprop((∃ f : Buf (Elt F) ((c.tc : Thread nD τ).loc cc2_scratch0), ((c.tc : Thread nD τ).loc cc2_scratch0) ↦{fullShare} f)
          ∗ bigSep ((((Finset.univ.filter fun b : Ref sig .tc => b.isScoped) \ Finset.univ.image (Pipeline.stageRef spec2)).erase cc2_scratch0))
              (fun b => iprop(∃ f : Buf (Elt F) ((c.tc : Thread nD τ).loc b), ((c.tc : Thread nD τ).loc b) ↦{fullShare} f))) := by
  unfold Pipeline.scopedRest; exact bigSep_erase acc2_mem

/-- The class's invariant hands over the accumulator at some contents beside the rest, -/
theorem PhiA2_open (c : Dev nD) : (Pipeline.ΦA spec2 c : sProp 𝕄) ⊢ iprop((∃ d, owns (c : Thread nD τ) acc2M fullShare d) ∗ rest2 (F := F) c) := by
  unfold Pipeline.ΦA rest2
  rw [scoped2_split]
  simp only [acc2M, owns_whole]
  iintro ⟨⟨Ha, Hb⟩, Hp⟩
  isplitl [Ha]; · iexact Ha
  isplitl [Hb]; · iexact Hb
  iexact Hp
/-- and takes it back at any contents. -/
theorem PhiA2_close (c : Dev nD) : iprop((∃ d, owns (c : Thread nD τ) acc2M fullShare d) ∗ rest2 (F := F) c) ⊢ (Pipeline.ΦA spec2 c : sProp 𝕄) := by
  unfold Pipeline.ΦA rest2
  rw [scoped2_split]
  simp only [acc2M, owns_whole]
  iintro ⟨Ha, Hb, Hp⟩
  isplitl [Ha Hb]
  · isplitl [Ha]; · iexact Ha
    iexact Hb
  iexact Hp

/-- The region's invariant before position `n`: before the first point the class's; afterwards the accumulator at
    what the point before left, beside the rest. -/
def Inv2 (c : Dev nD) : (n : ℕ) → n ≤ cfg2.N → sProp 𝕄
  | 0, _ => Pipeline.ΦA spec2 c
  | n + 1, hn => iprop(owns (c : Thread nD τ) acc2M fullShare (accAt2 V c n hn) ∗ rest2 (F := F) c)

theorem Inv2_zero (c : Dev nD) (n : ℕ) (h : n ≤ cfg2.N) (hz : n = 0) : Inv2 V c n h = Pipeline.ΦA spec2 c := by
  subst hz; rfl
theorem Inv2_succ (c : Dev nD) (n : ℕ) (hn : n < cfg2.N) :
    Inv2 V c (n + 1) hn = iprop(owns (c : Thread nD τ) acc2M fullShare (accAt2 V c n hn) ∗ rest2 (F := F) c) := rfl
theorem Inv2_pos (c : Dev nD) (n : ℕ) (h : n ≤ cfg2.N) (hz : n ≠ 0) :
    Inv2 V c n h = iprop(owns (c : Thread nD τ) acc2M fullShare (accAt2 V c (n - 1) (by omega)) ∗ rest2 (F := F) c) := by
  cases n with
  | zero => exact absurd rfl hz
  | succ n => rfl

/-! ## The proof data -/

/-- The region's proof data on core `c`: the arrays as the region finds them; after the body each input's buffer at
    its block, the result's at `resAt`; the invariant `Inv`; nothing owed; full shares. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => resAt2 V c t
  Φ t := Inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Inv2_castSucc (c : Dev nD) (t : Fin cfg2.N) :
    (dat2 V c).Φ t.castSucc = Inv2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = resAt2 V c t := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem leaves2_0 (c : Dev nD) (t : Fin cfg2.N) :
    (dat2 V c).leavesExact 0 t = owns (c : Thread nD τ) (ms2_0 t) fullShare (blk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (blk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (blk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (blk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (blk2 V c 4 t) := by
  rw [show (dat2 V c).leavesExact 4 t = owns (c : Thread nD τ) (ms2_4 t) fullShare ((dat2 V c).after 4 t) from rfl, after2_4]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t)

set_option maxHeartbeats 4800000 in
/-- The body at any point: the inputs' memrefs hold their blocks; the point's K tile says which case it is in; the
    invariant hands the body the accumulator (at anything at the first point, else at what the point before left)
    and takes it back at this point's contents; the result window is handed back untouched where it is idle. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Inv2 V c (t.val + 1) t.isLt from rfl, Inv2_succ]
  rw [leaves2_0, leaves2_1, leaves2_2, leaves2_3, leaves2_4]
  have hN : t.val < 128 := lt_of_lt_of_eq t.isLt (show cfg2.N = 128 from N_2)
  by_cases h1 : t.val % 4 = 3
  · have h0 : ¬ t.val % 4 = 0 := by omega
    have hz : t.val ≠ 0 := by omega
    rw [show (dat2 V c).leavesExact 5 t = owns (c : Thread nD τ) (ms2_5 t) fullShare ((dat2 V c).after 5 t) from by
      unfold Dat.leavesExact; rw [live2_5 t h1], after2_5]
    rw [show resAt2 V c t = _ from dif_pos h1]
    rw [accAt2_last V c t h0 h1]
    unfold resLast2 accLast2; (try dsimp only)
    rw [Inv2_castSucc V c t, Inv2_pos V c _ _ hz]
    iintro ⟨⟨HS, Hr⟩, Ho, ⟨%d0, H0⟩, ⟨%d1, H1⟩, ⟨%d2, H2⟩, ⟨%d3, H3⟩, ⟨%d4, H4⟩, ⟨%d5, H5⟩⟩
    iapply ((run2_last c (grid2.coords t) _ _ _ _ _ _ _ _ _ _ _ _ _ _ (fun h => h0 ((first2_iff t).mp h)) ((last2_iff t).mpr h1)
      (blk2 V c 0 t) (blk2 V c 1 t) (blk2 V c 2 t) (blk2 V c 3 t) (blk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hr]
    · isplitl [HS]
      · unfold owns; iexists _; isplitr
        swap; · iexact HS
        ipureintro; exact View.read_writes_of_cover _ _ _ _ _ (accLast2_cover c _ _ _ _ _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (resLast2_cover c _ _ _ _ _ _ _ _ _ _ _ _ _ _ _ _ _ _ _ _ _ _ _)
  · rw [Dat.leavesExact_idle (dat2 V c) 5 t (idle2_5 t h1) (noflush2_5 t h1)]
    by_cases h0 : t.val % 4 = 0
    · rw [accAt2_first V c t h0 h1]
      unfold accFirst2; (try dsimp only)
      by_cases hz : t.val = 0
      · rw [Inv2_castSucc V c t, Inv2_zero V c _ _ hz]
        iintro ⟨HΦ, Ho, ⟨%d0, H0⟩, ⟨%d1, H1⟩, ⟨%d2, H2⟩, ⟨%d3, H3⟩, ⟨%d4, H4⟩, H5⟩
        ihave HΦ' := (PhiA2_open (F := F) c) $$ HΦ
        icases HΦ' with ⟨HS, Hr⟩
        iapply ((run2_first c (grid2.coords t) _ _ _ _ _ _ _ _ _ _ _ _ _ _ ((first2_iff t).mpr h0) (fun h => h1 ((last2_iff t).mp h))
          (blk2 V c 0 t) (blk2 V c 1 t)).2 Set.univ _)
        isplitl [H0]; · iexact H0
        isplitl [H1]; · iexact H1
        isplitl [HS]; · iexact HS
        iintro ⟨H0, H1, ⟨%es, HS⟩⟩
        isplitl [HS Hr]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
      · rw [Inv2_castSucc V c t, Inv2_pos V c _ _ hz]
        iintro ⟨⟨HS, Hr⟩, Ho, ⟨%d0, H0⟩, ⟨%d1, H1⟩, ⟨%d2, H2⟩, ⟨%d3, H3⟩, ⟨%d4, H4⟩, H5⟩
        iapply ((run2_first c (grid2.coords t) _ _ _ _ _ _ _ _ _ _ _ _ _ _ ((first2_iff t).mpr h0) (fun h => h1 ((last2_iff t).mp h))
          (blk2 V c 0 t) (blk2 V c 1 t)).2 Set.univ _)
        isplitl [H0]; · iexact H0
        isplitl [H1]; · iexact H1
        isplitl [HS]; · iexists _; iexact HS
        iintro ⟨H0, H1, ⟨%es, HS⟩⟩
        isplitl [HS Hr]
        · isplitl [HS]
          · unfold owns; iexists _; isplitr
            swap; · iexact HS
            ipureintro; exact View.read_writes_of_cover _ _ _ _ _ (accFirst2_cover c _ _ _ _ _ _ _ _ _ _ _ _ _ _ _ _ _ _ _)
          iexact Hr
        isplitl [Ho]; · iexact Ho
        isplitl [H0]; · iexact H0
        isplitl [H1]; · iexact H1
        isplitl [H2]; · iexact H2
        isplitl [H3]; · iexact H3
        isplitl [H4]; · iexact H4
        iexact H5
    · have hz : t.val ≠ 0 := by omega
      rw [accAt2_mid V c t h0 h1]
      unfold accMid2; (try dsimp only)
      rw [Inv2_castSucc V c t, Inv2_pos V c _ _ hz]
      iintro ⟨⟨HS, Hr⟩, Ho, ⟨%d0, H0⟩, ⟨%d1, H1⟩, ⟨%d2, H2⟩, ⟨%d3, H3⟩, ⟨%d4, H4⟩, H5⟩
      iapply ((run2_mid c (grid2.coords t) _ _ _ _ _ _ _ _ _ _ _ _ _ _ (fun h => h0 ((first2_iff t).mp h)) (fun h => h1 ((last2_iff t).mp h))
        (blk2 V c 0 t) (blk2 V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid2_cover c _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Inv2 V c 0 (Nat.zero_le _) from rfl, Inv2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 128 := N_2; omega
  rw [show (dat2 V c).Φ (Fin.last cfg2.N) = Inv2 V c (Fin.last cfg2.N).val (Nat.le_of_lt_succ (Fin.last cfg2.N).isLt) from rfl,
    Inv2_pos V c _ _ hne]
  iintro ⟨HS, Hr⟩
  iapply (PhiA2_close (F := F) c)
  isplitl [HS]; · iexists _; iexact HS
  iexact Hr

end Cert.Kernel.Hand

end
-- ==== Proof.WRunI.lean ====
/- THE RUN of @main over its twelve items, at any float instance `F` and for ANY three region halves.

   @main is: two host stretches, kernel call 0, two host stretches, kernel call 1, two host stretches, kernel call 2,
   three host stretches. Between two items every unscoped buffer of a core is held whole at known contents: the launch
   memory `W0`, then after a host stretch the stretch's results over the contents before it (`StableHlo.after`), and
   after a region the contents before it with the region's arrays replaced by what its write-backs leave
   (`Pipeline.withArrays` of `Dat.arrAt … N`). The fold ends at `W12`, the contents at the return.

   A region's half (`RegionHalf`) is a parameter: its proof data at any entry contents, with the arrays' entry contents
   read off those contents, the body obligation, the invariant at the two ends of the grid against the scoped rest and
   the generator register, every input array whole, nothing owed. From three halves: each region as a segment of the run
   (its arrays split out of the unscoped buffers at entry, put back at the exit contents), the run itself (`run_all`:
   every final memory holds every unscoped buffer at `W12`), each argument read back through the fold to the launch
   memory (`W12_main_argJ`: no host stretch writes an argument; the adjacency argument is region 0's first input window,
   whose array an input window never writes back; every other argument bypasses all three regions), and the frame
   statement (`frame_all`). -/
import proofs.«103405_j58265526337970_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents on every core, read at the TensorCore's references: what a region's half is
    stated at (the contents the region is entered from). -/
abbrev Ent : Type := (c : Dev nD) → (b : Ref sig .tc) → Buf (Elt F) ((c : Thread nD τ).loc b)

/-- ONE REGION'S HALF, at any entry contents `V`: its proof data, the arrays' entry contents read off `V`, the body
    obligation, the invariant at the two ends of the grid against the region invariant (the scoped rest and the
    generator register), every input array held whole, nothing owed at any point, no bound on
    the recorded pairs at the first point. -/
structure RegionHalf (cfg : Pipeline.Cfg sig Λ₀) where
  dat : Ent (F := F) → (c : Dev nD) → Dat τ (Elt F) Unit ℕ (Pipeline.UD sig nD τ) ℕ cfg c
  hA : ∀ V c w, (dat V c).A w = V c (Pipeline.arrRef cfg.spec w)
  hbody : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)
  hq : ∀ V c w, (dat V c).q w = fullShare
  howed : ∀ V c t, (dat V c).owed t = 0
  hrec : ∀ V c, (dat V c).recorded 0 = Set.univ

variable (m : (ℓ : Loc nD τ sig) → Buf (Elt F) ℓ) (ρ : Dev nD → PrngReg)
variable (h0 : RegionHalf (F := F) cfg0) (h1 : RegionHalf (F := F) cfg1) (h2 : RegionHalf (F := F) cfg2)

/-! # The buffer contents at each boundary between two items of @main: a fold from the launch memory -/

/-- Core `c`'s buffers at launch. -/
abbrev W0 (c : Dev nD) : Valuation τ sig (Elt F) := fun b => m (c, b)
/-- After the first host stretch. -/
abbrev W1 (c : Dev nD) : Valuation τ sig (Elt F) := StableHlo.after hostOps0 (W0 m c)
/-- After the second host stretch: what region 0 is entered from. -/
abbrev W2 (c : Dev nD) : Valuation τ sig (Elt F) := StableHlo.after hostOps0_1 (W1 m c)
/-- Region 0's entry contents at the TensorCore's references. -/
abbrev En0 : Ent (F := F) := fun c b => W2 m c b
/-- At region 0's exit: its arrays at what the write-backs leave, every other buffer as entered. -/
def W3 (c : Dev nD) : Valuation τ sig (Elt F) :=
  Pipeline.withArrays spec0 c (W2 m c) fun w => (h0.dat (En0 m) c).arrAt w cfg0.N
abbrev W4 (c : Dev nD) : Valuation τ sig (Elt F) := StableHlo.after hostOps1 (W3 m h0 c)
/-- What region 1 is entered from. -/
abbrev W5 (c : Dev nD) : Valuation τ sig (Elt F) := StableHlo.after hostOps1_1 (W4 m h0 c)
abbrev En1 : Ent (F := F) := fun c b => W5 m h0 c b
/-- At region 1's exit. -/
def W6 (c : Dev nD) : Valuation τ sig (Elt F) :=
  Pipeline.withArrays spec1 c (W5 m h0 c) fun w => (h1.dat (En1 m h0) c).arrAt w cfg1.N
abbrev W7 (c : Dev nD) : Valuation τ sig (Elt F) := StableHlo.after hostOps2 (W6 m h0 h1 c)
/-- What region 2 is entered from. -/
abbrev W8 (c : Dev nD) : Valuation τ sig (Elt F) := StableHlo.after hostOps2_1 (W7 m h0 h1 c)
abbrev En2 : Ent (F := F) := fun c b => W8 m h0 h1 c b
/-- At region 2's exit. -/
def W9 (c : Dev nD) : Valuation τ sig (Elt F) :=
  Pipeline.withArrays spec2 c (W8 m h0 h1 c) fun w => (h2.dat (En2 m h0 h1) c).arrAt w cfg2.N
abbrev W10 (c : Dev nD) : Valuation τ sig (Elt F) := StableHlo.after hostOps3 (W9 m h0 h1 h2 c)
abbrev W11 (c : Dev nD) : Valuation τ sig (Elt F) := StableHlo.after hostOps3_1 (W10 m h0 h1 h2 c)
/-- At the return: the last host stretch's results, the result buffer among them. -/
abbrev W12 (c : Dev nD) : Valuation τ sig (Elt F) := StableHlo.after hostOps3_2 (W11 m h0 h1 h2 c)

theorem W3_arr (c : Dev nD) (w : Fin cfg0.W) :
    W3 m h0 c (Proc.devRef .tc (Pipeline.arrRef spec0 w)) = (h0.dat (En0 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m h0 c (Proc.devRef .tc b) = W2 m c (Proc.devRef .tc b) := by
  unfold W3; exact Pipeline.withArrays_of_ne spec0 c _ _ b hb
theorem W6_arr (c : Dev nD) (w : Fin cfg1.W) :
    W6 m h0 h1 c (Proc.devRef .tc (Pipeline.arrRef spec1 w)) = (h1.dat (En1 m h0) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m h0 h1 c (Proc.devRef .tc b) = W5 m h0 c (Proc.devRef .tc b) := by
  unfold W6; exact Pipeline.withArrays_of_ne spec1 c _ _ b hb
theorem W9_arr (c : Dev nD) (w : Fin cfg2.W) :
    W9 m h0 h1 h2 c (Proc.devRef .tc (Pipeline.arrRef spec2 w)) = (h2.dat (En2 m h0 h1) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m h0 h1 h2 c (Proc.devRef .tc b) = W8 m h0 h1 c (Proc.devRef .tc b) := by
  unfold W9; exact Pipeline.withArrays_of_ne spec2 c _ _ b hb

/-! ### The arguments end as launched: no host stretch writes one, and a region reads it through an input window
    (whose array the region leaves as entered) or bypasses it -/

/-- A buffer neither of the first two host stretches writes holds at region 0's entry what the launch memory holds. -/
theorem W2_of_W0 (c : Dev nD) (r : Ref sig .tc) (hw : r ∉ hostOps0_W ∧ r ∉ hostOps0_1_W) :
    W2 m c (Proc.devRef .tc r) = m ((c : Thread nD τ).loc r) :=
  (StableHlo.after_of_writes_sub hostOps0_1 _ hostOps0_1_writes hw.2).trans <|
    (StableHlo.after_of_writes_sub hostOps0 _ hostOps0_writes hw.1).trans rfl

/-- A buffer no host stretch after region 0 writes and that regions 1 and 2 bypass holds at the return what region 0
    left in it. -/
theorem W12_of_W3 (c : Dev nD) (r : Ref sig .tc)
    (hw : r ∉ hostOps1_W ∧ r ∉ hostOps1_1_W ∧ r ∉ hostOps2_W ∧ r ∉ hostOps2_1_W ∧ r ∉ hostOps3_W ∧ r ∉ hostOps3_1_W ∧ r ∉ hostOps3_2_W)
    (hs1 : ∀ w, Pipeline.arrRef spec1 w ≠ r) (hs2 : ∀ w, Pipeline.arrRef spec2 w ≠ r) :
    W12 m h0 h1 h2 c (Proc.devRef .tc r) = W3 m h0 c (Proc.devRef .tc r) :=
  (StableHlo.after_of_writes_sub hostOps3_2 _ hostOps3_2_writes hw.2.2.2.2.2.2).trans <|
  (StableHlo.after_of_writes_sub hostOps3_1 _ hostOps3_1_writes hw.2.2.2.2.2.1).trans <|
  (StableHlo.after_of_writes_sub hostOps3 _ hostOps3_writes hw.2.2.2.2.1).trans <|
  (W9_of_ne m h0 h1 h2 c r hs2).trans <|
  (StableHlo.after_of_writes_sub hostOps2_1 _ hostOps2_1_writes hw.2.2.2.1).trans <|
  (StableHlo.after_of_writes_sub hostOps2 _ hostOps2_writes hw.2.2.1).trans <|
  (W6_of_ne m h0 h1 c r hs1).trans <|
  (StableHlo.after_of_writes_sub hostOps1_1 _ hostOps1_1_writes hw.2.1).trans <|
  (StableHlo.after_of_writes_sub hostOps1 _ hostOps1_writes hw.1)

/-- The adjacency argument is region 0's first input window: the region leaves an input's array as it found it. -/
theorem W12_main_arg1 (c : Dev nD) : W12 m h0 h1 h2 c (Proc.devRef .tc main_arg1) = m ((c : Thread nD τ).loc main_arg1) :=
  calc W12 m h0 h1 h2 c (Proc.devRef .tc main_arg1)
    _ = W3 m h0 c (Proc.devRef .tc main_arg1) := W12_of_W3 m h0 h1 h2 c main_arg1 (by decide) (by decide) (by decide)
    _ = W2 m c (Proc.devRef .tc main_arg1) :=
        (W3_arr m h0 c 0).trans (((h0.dat (En0 m) c).arrAt_in 0 rfl _).trans (h0.hA (En0 m) c 0))
    _ = m ((c : Thread nD τ).loc main_arg1) := W2_of_W0 m c main_arg1 (by decide)
/-- Every region bypasses this argument. -/
theorem W12_main_arg0 (c : Dev nD) : W12 m h0 h1 h2 c (Proc.devRef .tc main_arg0) = m ((c : Thread nD τ).loc main_arg0) :=
  (W12_of_W3 m h0 h1 h2 c main_arg0 (by decide) (by decide) (by decide)).trans <|
    (W3_of_ne m h0 c main_arg0 (by decide)).trans (W2_of_W0 m c main_arg0 (by decide))
/-- Every region bypasses this argument. -/
theorem W12_main_arg2 (c : Dev nD) : W12 m h0 h1 h2 c (Proc.devRef .tc main_arg2) = m ((c : Thread nD τ).loc main_arg2) :=
  (W12_of_W3 m h0 h1 h2 c main_arg2 (by decide) (by decide) (by decide)).trans <|
    (W3_of_ne m h0 c main_arg2 (by decide)).trans (W2_of_W0 m c main_arg2 (by decide))
/-- Every region bypasses this argument. -/
theorem W12_main_arg3 (c : Dev nD) : W12 m h0 h1 h2 c (Proc.devRef .tc main_arg3) = m ((c : Thread nD τ).loc main_arg3) :=
  (W12_of_W3 m h0 h1 h2 c main_arg3 (by decide) (by decide) (by decide)).trans <|
    (W3_of_ne m h0 c main_arg3 (by decide)).trans (W2_of_W0 m c main_arg3 (by decide))
/-- Every region bypasses this argument. -/
theorem W12_main_arg4 (c : Dev nD) : W12 m h0 h1 h2 c (Proc.devRef .tc main_arg4) = m ((c : Thread nD τ).loc main_arg4) :=
  (W12_of_W3 m h0 h1 h2 c main_arg4 (by decide) (by decide) (by decide)).trans <|
    (W3_of_ne m h0 c main_arg4 (by decide)).trans (W2_of_W0 m c main_arg4 (by decide))
/-- Every region bypasses this argument. -/
theorem W12_main_arg5 (c : Dev nD) : W12 m h0 h1 h2 c (Proc.devRef .tc main_arg5) = m ((c : Thread nD τ).loc main_arg5) :=
  (W12_of_W3 m h0 h1 h2 c main_arg5 (by decide) (by decide) (by decide)).trans <|
    (W3_of_ne m h0 c main_arg5 (by decide)).trans (W2_of_W0 m c main_arg5 (by decide))
/-- Every region bypasses this argument. -/
theorem W12_main_arg6 (c : Dev nD) : W12 m h0 h1 h2 c (Proc.devRef .tc main_arg6) = m ((c : Thread nD τ).loc main_arg6) :=
  (W12_of_W3 m h0 h1 h2 c main_arg6 (by decide) (by decide) (by decide)).trans <|
    (W3_of_ne m h0 c main_arg6 (by decide)).trans (W2_of_W0 m c main_arg6 (by decide))
/-- Every region bypasses this argument. -/
theorem W12_main_arg7 (c : Dev nD) : W12 m h0 h1 h2 c (Proc.devRef .tc main_arg7) = m ((c : Thread nD τ).loc main_arg7) :=
  (W12_of_W3 m h0 h1 h2 c main_arg7 (by decide) (by decide) (by decide)).trans <|
    (W3_of_ne m h0 c main_arg7 (by decide)).trans (W2_of_W0 m c main_arg7 (by decide))
/-- Every region bypasses this argument. -/
theorem W12_main_arg8 (c : Dev nD) : W12 m h0 h1 h2 c (Proc.devRef .tc main_arg8) = m ((c : Thread nD τ).loc main_arg8) :=
  (W12_of_W3 m h0 h1 h2 c main_arg8 (by decide) (by decide) (by decide)).trans <|
    (W3_of_ne m h0 c main_arg8 (by decide)).trans (W2_of_W0 m c main_arg8 (by decide))
/-- Every region bypasses this argument. -/
theorem W12_main_arg9 (c : Dev nD) : W12 m h0 h1 h2 c (Proc.devRef .tc main_arg9) = m ((c : Thread nD τ).loc main_arg9) :=
  (W12_of_W3 m h0 h1 h2 c main_arg9 (by decide) (by decide) (by decide)).trans <|
    (W3_of_ne m h0 c main_arg9 (by decide)).trans (W2_of_W0 m c main_arg9 (by decide))
/-- Every region bypasses this argument. -/
theorem W12_main_arg10 (c : Dev nD) : W12 m h0 h1 h2 c (Proc.devRef .tc main_arg10) = m ((c : Thread nD τ).loc main_arg10) :=
  (W12_of_W3 m h0 h1 h2 c main_arg10 (by decide) (by decide) (by decide)).trans <|
    (W3_of_ne m h0 c main_arg10 (by decide)).trans (W2_of_W0 m c main_arg10 (by decide))
/-- Every region bypasses this argument. -/
theorem W12_main_arg11 (c : Dev nD) : W12 m h0 h1 h2 c (Proc.devRef .tc main_arg11) = m ((c : Thread nD τ).loc main_arg11) :=
  (W12_of_W3 m h0 h1 h2 c main_arg11 (by decide) (by decide) (by decide)).trans <|
    (W3_of_ne m h0 c main_arg11 (by decide)).trans (W2_of_W0 m c main_arg11 (by decide))
/-- Every region bypasses this argument. -/
theorem W12_main_arg12 (c : Dev nD) : W12 m h0 h1 h2 c (Proc.devRef .tc main_arg12) = m ((c : Thread nD τ).loc main_arg12) :=
  (W12_of_W3 m h0 h1 h2 c main_arg12 (by decide) (by decide) (by decide)).trans <|
    (W3_of_ne m h0 c main_arg12 (by decide)).trans (W2_of_W0 m c main_arg12 (by decide))
/-- Every region bypasses this argument. -/
theorem W12_main_arg13 (c : Dev nD) : W12 m h0 h1 h2 c (Proc.devRef .tc main_arg13) = m ((c : Thread nD τ).loc main_arg13) :=
  (W12_of_W3 m h0 h1 h2 c main_arg13 (by decide) (by decide) (by decide)).trans <|
    (W3_of_ne m h0 c main_arg13 (by decide)).trans (W2_of_W0 m c main_arg13 (by decide))
/-- Every region bypasses this argument. -/
theorem W12_main_arg14 (c : Dev nD) : W12 m h0 h1 h2 c (Proc.devRef .tc main_arg14) = m ((c : Thread nD τ).loc main_arg14) :=
  (W12_of_W3 m h0 h1 h2 c main_arg14 (by decide) (by decide) (by decide)).trans <|
    (W3_of_ne m h0 c main_arg14 (by decide)).trans (W2_of_W0 m c main_arg14 (by decide))

/-! ### What each region leaves in its output arrays, by name -/

theorem W3_main_v22_0 (c : Dev nD) : W3 m h0 c (Proc.devRef .tc main_v22_0) = (h0.dat (En0 m) c).arrAt 5 cfg0.N := W3_arr m h0 c 5
theorem W3_main_v22_1 (c : Dev nD) : W3 m h0 c (Proc.devRef .tc main_v22_1) = (h0.dat (En0 m) c).arrAt 6 cfg0.N := W3_arr m h0 c 6
theorem W6_main_v41 (c : Dev nD) : W6 m h0 h1 c (Proc.devRef .tc main_v41) = (h1.dat (En1 m h0) c).arrAt 5 cfg1.N := W6_arr m h0 h1 c 5
theorem W9_main_v60 (c : Dev nD) : W9 m h0 h1 h2 c (Proc.devRef .tc main_v60) = (h2.dat (En2 m h0 h1) c).arrAt 5 cfg2.N := W9_arr m h0 h1 h2 c 5

/-! # The proof data family and the thread state -/

/-- Every pipeline's proof data, each at its region's entry contents: a literal `match`, so that the pinned
    configuration at a numeral reduces to the printed one. -/
def pdats : (p : Fin 3) → (c : Dev nD) → Dat τ (Elt F) Unit ℕ (Pipeline.UD sig nD τ) ℕ (Pipeline.pin (pcfgs (F := F)) adm p) c
  | ⟨0, _⟩ => fun c => h0.dat (En0 m) c
  | ⟨1, _⟩ => fun c => h1.dat (En1 m h0) c
  | ⟨2, _⟩ => fun c => h2.dat (En2 m h0 h1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev Rst (c : Dev nD) : sProp 𝕄 := iprop((∃ r, prngReg c r) ∗ ∃ W, owes (c : Thread nD τ) (0 : CellTallies nD τ sig Unit) W)
/-- A host stretch as a segment over the unscoped references from the contents `W`, `Rst` riding along: it is left
    at those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator
    register at some state. -/
abbrev Tₙ (c : Dev nD) : sProp 𝕄 := iprop(StableHlo.held (c : Thread nD τ) (Pipeline.ucRefs τ sig) (W12 m h0 h1 h2 c) ∗ ∃ r, prngReg c r)

/-- At a region's exit each of its arrays holds what the write-backs leave and every other buffer what it held at
    entry: the two hypotheses under which the arrays and the bypassing rest make the unscoped buffers again. -/
theorem hF0 (c : Dev nD) (w : Fin cfg0.W) : (h0.dat (En0 m) c).arrAt w cfg0.N = (fun b : Ref sig .tc => W3 m h0 c b) (Pipeline.arrRef spec0 w) :=
  (W3_arr m h0 c w).symm
theorem hrest0 (c : Dev nD) : ∀ b : Ref sig .tc, b ∉ Finset.univ.image (Pipeline.arrRef spec0) → W3 m h0 c b = En0 m c b :=
  fun b hb => W3_of_ne m h0 c b fun w e => hb (Finset.mem_image.mpr ⟨w, Finset.mem_univ _, e⟩)
theorem hF1 (c : Dev nD) (w : Fin cfg1.W) : (h1.dat (En1 m h0) c).arrAt w cfg1.N = (fun b : Ref sig .tc => W6 m h0 h1 c b) (Pipeline.arrRef spec1 w) :=
  (W6_arr m h0 h1 c w).symm
theorem hrest1 (c : Dev nD) : ∀ b : Ref sig .tc, b ∉ Finset.univ.image (Pipeline.arrRef spec1) → W6 m h0 h1 c b = En1 m h0 c b :=
  fun b hb => W6_of_ne m h0 h1 c b fun w e => hb (Finset.mem_image.mpr ⟨w, Finset.mem_univ _, e⟩)
theorem hF2 (c : Dev nD) (w : Fin cfg2.W) : (h2.dat (En2 m h0 h1) c).arrAt w cfg2.N = (fun b : Ref sig .tc => W9 m h0 h1 h2 c b) (Pipeline.arrRef spec2 w) :=
  (W9_arr m h0 h1 h2 c w).symm
theorem hrest2 (c : Dev nD) : ∀ b : Ref sig .tc, b ∉ Finset.univ.image (Pipeline.arrRef spec2) → W9 m h0 h1 h2 c b = En2 m h0 h1 c b :=
  fun b hb => W9_of_ne m h0 h1 h2 c b fun w e => hb (Finset.mem_image.mpr ⟨w, Finset.mem_univ _, e⟩)

-- a library lemma stated over the pinned configuration unifies with the printed one only when unification may unfold
-- plain definitions in a metavariable's type
set_option backward.isDefEq.respectTransparency.types false in
/-- REGION 0 over the thread state: entered from every unscoped buffer at the contents before it, left at the contents
    after it. Its arrays are split out of the unscoped buffers at entry and put back at the exit contents; the generator
    register goes into the region invariant and comes back; nothing is owed; the kernel has no semaphore of its own. -/
def reg0 : Pipeline.RegionSeg (pcfgs (F := F)) adm (pdats m h0 h1 h2) () defs₀ 𝒱₀ L lv 0 where
  win := launch0.win.to₀
  block_pos := launch0.block_pos
  stage_whole := launch0.stage_whole
  K := PEmpty
  osem k := k.elim
  ho := Pipeline.OwnSemFacts.none _
  hbody c := (h0.hbody (En0 m) c).loose
  hwaits := Pipeline.hwaits_of_owed_zero _ _ _ _ L lv 0 fun c t => h0.howed (En0 m) c t
  pre c := iprop(StableHlo.held (c : Thread nD τ) (Pipeline.ucRefs τ sig) (W2 m c) ∗ Rst c)
  post c := iprop(StableHlo.held (c : Thread nD τ) (Pipeline.ucRefs τ sig) (W3 m h0 c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (En0 m c)
  hentry c := by
    rw [Pipeline.ownSems0_none]
    have hsplit := Pipeline.arrays_of_unscopedBufs (p := 0) (pcfgs (F := F)) adm (pdats m h0 h1 h2) launch0.win launch0.arr_whole c
      ((pdats m h0 h1 h2 0 c).share_full fun w => h0.hq (En0 m) c w) (En0 m c) fun w => h0.hA (En0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 0 c).owed 0 = 0 from h0.howed (En0 m) c 0]
      icases HO with ⟨%W, HO⟩; iexists W; isplitr
      · ipureintro; exact fun x _ => Or.inl (by rw [show (pdats m h0 h1 h2 0 c).recorded 0 = Set.univ from h0.hrec (En0 m) c]; exact Set.mem_univ x)
      iexact HO
    isplitl [Hp]; · iexact Hp
    iexact Hrest
  hin c := by
    refine BIBase.Entails.trans ?_ (h0.hin (En0 m) c)
    unfold Pipeline.ΦA
    iintro ⟨Hp, -, Hr⟩
    isplitl [Hr]; · iexact Hr
    iexact Hp
  hout c := by
    refine BIBase.Entails.trans (h0.hout (En0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m h0 h1 h2) ((pdats m h0 h1 h2 0 c).share_full fun w => h0.hq (En0 m) c w)
      (En0 m c) (fun b : Ref sig .tc => W3 m h0 c b) ((pdats m h0 h1 h2 0 c).arrAt · cfg0.N) (hF0 m h0 c) (hrest0 m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 0 c).owed (Fin.last (Pipeline.pin (pcfgs (F := F)) adm 0).N) = 0 from h0.howed (En0 m) c (Fin.last _)]
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the contents before it, left at the contents
    after it. Its arrays are split out of the unscoped buffers at entry and put back at the exit contents; the generator
    register goes into the region invariant and comes back; nothing is owed; the kernel has no semaphore of its own. -/
def reg1 : Pipeline.RegionSeg (pcfgs (F := F)) adm (pdats m h0 h1 h2) () defs₀ 𝒱₀ L lv 1 where
  win := launch1.win.to₀
  block_pos := launch1.block_pos
  stage_whole := launch1.stage_whole
  K := PEmpty
  osem k := k.elim
  ho := Pipeline.OwnSemFacts.none _
  hbody c := (h1.hbody (En1 m h0) c).loose
  hwaits := Pipeline.hwaits_of_owed_zero _ _ _ _ L lv 1 fun c t => h1.howed (En1 m h0) c t
  pre c := iprop(StableHlo.held (c : Thread nD τ) (Pipeline.ucRefs τ sig) (W5 m h0 c) ∗ Rst c)
  post c := iprop(StableHlo.held (c : Thread nD τ) (Pipeline.ucRefs τ sig) (W6 m h0 h1 c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (En1 m h0 c)
  hentry c := by
    rw [Pipeline.ownSems0_none]
    have hsplit := Pipeline.arrays_of_unscopedBufs (p := 1) (pcfgs (F := F)) adm (pdats m h0 h1 h2) launch1.win launch1.arr_whole c
      ((pdats m h0 h1 h2 1 c).share_full fun w => h1.hq (En1 m h0) c w) (En1 m h0 c) fun w => h1.hA (En1 m h0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 1 c).owed 0 = 0 from h1.howed (En1 m h0) c 0]
      icases HO with ⟨%W, HO⟩; iexists W; isplitr
      · ipureintro; exact fun x _ => Or.inl (by rw [show (pdats m h0 h1 h2 1 c).recorded 0 = Set.univ from h1.hrec (En1 m h0) c]; exact Set.mem_univ x)
      iexact HO
    isplitl [Hp]; · iexact Hp
    iexact Hrest
  hin c := by
    refine BIBase.Entails.trans ?_ (h1.hin (En1 m h0) c)
    unfold Pipeline.ΦA
    iintro ⟨Hp, -, Hr⟩
    isplitl [Hr]; · iexact Hr
    iexact Hp
  hout c := by
    refine BIBase.Entails.trans (h1.hout (En1 m h0) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m h0 h1 h2) ((pdats m h0 h1 h2 1 c).share_full fun w => h1.hq (En1 m h0) c w)
      (En1 m h0 c) (fun b : Ref sig .tc => W6 m h0 h1 c b) ((pdats m h0 h1 h2 1 c).arrAt · cfg1.N) (hF1 m h0 h1 c) (hrest1 m h0 h1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 1 c).owed (Fin.last (Pipeline.pin (pcfgs (F := F)) adm 1).N) = 0 from h1.howed (En1 m h0) c (Fin.last _)]
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at the contents before it, left at the contents
    after it. Its arrays are split out of the unscoped buffers at entry and put back at the exit contents; the generator
    register goes into the region invariant and comes back; nothing is owed; the kernel has no semaphore of its own. -/
def reg2 : Pipeline.RegionSeg (pcfgs (F := F)) adm (pdats m h0 h1 h2) () defs₀ 𝒱₀ L lv 2 where
  win := launch2.win.to₀
  block_pos := launch2.block_pos
  stage_whole := launch2.stage_whole
  K := PEmpty
  osem k := k.elim
  ho := Pipeline.OwnSemFacts.none _
  hbody c := (h2.hbody (En2 m h0 h1) c).loose
  hwaits := Pipeline.hwaits_of_owed_zero _ _ _ _ L lv 2 fun c t => h2.howed (En2 m h0 h1) c t
  pre c := iprop(StableHlo.held (c : Thread nD τ) (Pipeline.ucRefs τ sig) (W8 m h0 h1 c) ∗ Rst c)
  post c := iprop(StableHlo.held (c : Thread nD τ) (Pipeline.ucRefs τ sig) (W9 m h0 h1 h2 c) ∗ Rst c)
  X c := iprop(∃ r, prngReg c r)
  Y c := iprop(∃ r, prngReg c r)
  Z c := Pipeline.unscopedRest (Ix := Unit) (Name := ℕ) (U := Pipeline.UD sig nD τ) (Lvl := ℕ) spec2 c (En2 m h0 h1 c)
  hentry c := by
    rw [Pipeline.ownSems0_none]
    have hsplit := Pipeline.arrays_of_unscopedBufs (p := 2) (pcfgs (F := F)) adm (pdats m h0 h1 h2) launch2.win launch2.arr_whole c
      ((pdats m h0 h1 h2 2 c).share_full fun w => h2.hq (En2 m h0 h1) c w) (En2 m h0 h1 c) fun w => h2.hA (En2 m h0 h1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m h0 h1 h2 2 c).owed 0 = 0 from h2.howed (En2 m h0 h1) c 0]
      icases HO with ⟨%W, HO⟩; iexists W; isplitr
      · ipureintro; exact fun x _ => Or.inl (by rw [show (pdats m h0 h1 h2 2 c).recorded 0 = Set.univ from h2.hrec (En2 m h0 h1) c]; exact Set.mem_univ x)
      iexact HO
    isplitl [Hp]; · iexact Hp
    iexact Hrest
  hin c := by
    refine BIBase.Entails.trans ?_ (h2.hin (En2 m h0 h1) c)
    unfold Pipeline.ΦA
    iintro ⟨Hp, -, Hr⟩
    isplitl [Hr]; · iexact Hr
    iexact Hp
  hout c := by
    refine BIBase.Entails.trans (h2.hout (En2 m h0 h1) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m h0 h1 h2) ((pdats m h0 h1 h2 2 c).share_full fun w => h2.hq (En2 m h0 h1) c w)
      (En2 m h0 h1 c) (fun b : Ref sig .tc => W9 m h0 h1 h2 c b) ((pdats m h0 h1 h2 2 c).arrAt · cfg2.N) (hF2 m h0 h1 h2 c) (hrest2 m h0 h1 h2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m h0 h1 h2 2 c).owed (Fin.last (Pipeline.pin (pcfgs (F := F)) adm 2).N) = 0 from h2.howed (En2 m h0 h1) c (Fin.last _)]
    icases HO with ⟨%W, -, HO⟩; iexists W; iexact HO

/-! # @main as its twelve items, and the launch -/

/-- @main's items in order: a host segment per stretch from its boundary's contents, a region per kernel call. -/
abbrev segsI : List (Pipeline.Seg (pcfgs (F := F)) adm (pdats m h0 h1 h2) () defs₀ 𝒱₀ L lv) :=
  [ .host (hseg hostOps0 hostOps0_sub hostOps0_fresh (W0 m)),
    .host (hseg hostOps0_1 hostOps0_1_sub hostOps0_1_fresh (W1 m)),
    .region (reg0 m h0 h1 h2),
    .host (hseg hostOps1 hostOps1_sub hostOps1_fresh (W3 m h0)),
    .host (hseg hostOps1_1 hostOps1_1_sub hostOps1_1_fresh (W4 m h0)),
    .region (reg1 m h0 h1 h2),
    .host (hseg hostOps2 hostOps2_sub hostOps2_fresh (W6 m h0 h1)),
    .host (hseg hostOps2_1 hostOps2_1_sub hostOps2_1_fresh (W7 m h0 h1)),
    .region (reg2 m h0 h1 h2),
    .host (hseg hostOps3 hostOps3_sub hostOps3_fresh (W9 m h0 h1 h2)),
    .host (hseg hostOps3_1 hostOps3_1_sub hostOps3_1_fresh (W10 m h0 h1 h2)),
    .host (hseg hostOps3_2 hostOps3_2_sub hostOps3_2_fresh (W11 m h0 h1 h2)) ]

/-- @main IS the run of the items: its chain of stretches and calls, item by item. -/
theorem main_run (c : Dev nD) : main (F := F) c = Pipeline.Seg.run (segsI m h0 h1 h2) := by
  rw [main_chain c, Pipeline.Seg.run_eq_chain]
  rfl

/-- The last host stretch leaves the last thread state beside the core owing nothing: the same three parts, regrouped. -/
theorem last_state (c : Dev nD) :
    iprop(StableHlo.held (c : Thread nD τ) (Pipeline.ucRefs τ sig) (W12 m h0 h1 h2 c) ∗ Rst c)
      ⊢ (iprop(Tₙ m h0 h1 h2 c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN, at any post the final memory's unscoped buffers decide: at the compiled mesh, from any memory with zero
    counters, every weakly fair execution of @main on the TensorCores terminates, nothing faulting, and every final
    memory holds each unscoped buffer at the return's contents `W12`. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W12 m h0 h1 h2 c b) → Q (⟨⟩, s)) :
    θ_run defs (onTc (τ := τ) (main (F := F))) ⟨m, fun _ => 0, ρ⟩ Q :=
  Pipeline.θ_run_regions_kit (pcfgs (F := F)) adm (pdats m h0 h1 h2) () cellOf_inj embL defs₀ 𝒱₀ L lv m ρ main (segsI m h0 h1 h2)
    (fun c Q => by rw [main_run m h0 h1 h2 c])
    (by simp only [segsI, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m h0 h1 h2)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_state m h0 h1 h2 c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m h0 h1 h2 c b)
    (hfin := fun c s' => by
      iintro ⟨⟨Hh, -⟩, HSI⟩
      unfold StableHlo.held
      imodintro
      iapply (pointsTo_read_all (Pipeline.ucRefs τ sig) (fun b => (((c : Thread nD τ)).1, b)) (W12 m h0 h1 h2 c) s')
      isplitl [Hh] <;> iassumption)
    (hQ := hQ)

/-- THE RUN: every final memory holds every unscoped buffer at the return's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m h0 h1 h2 c b) :=
  run_post m ρ h0 h1 h2 fun _ h => h

include h0 h1 h2 in
/-- THE FRAME, as the claim states it, at any `F`: @main runs and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_post m ρ h0 h1 h2 fun s h c =>
    ⟨(h c _ (mem_uc main_arg0 (by decide))).trans (W12_main_arg0 m h0 h1 h2 c),
     (h c _ (mem_uc main_arg1 (by decide))).trans (W12_main_arg1 m h0 h1 h2 c),
     (h c _ (mem_uc main_arg2 (by decide))).trans (W12_main_arg2 m h0 h1 h2 c),
     (h c _ (mem_uc main_arg3 (by decide))).trans (W12_main_arg3 m h0 h1 h2 c),
     (h c _ (mem_uc main_arg4 (by decide))).trans (W12_main_arg4 m h0 h1 h2 c),
     (h c _ (mem_uc main_arg5 (by decide))).trans (W12_main_arg5 m h0 h1 h2 c),
     (h c _ (mem_uc main_arg6 (by decide))).trans (W12_main_arg6 m h0 h1 h2 c),
     (h c _ (mem_uc main_arg7 (by decide))).trans (W12_main_arg7 m h0 h1 h2 c),
     (h c _ (mem_uc main_arg8 (by decide))).trans (W12_main_arg8 m h0 h1 h2 c),
     (h c _ (mem_uc main_arg9 (by decide))).trans (W12_main_arg9 m h0 h1 h2 c),
     (h c _ (mem_uc main_arg10 (by decide))).trans (W12_main_arg10 m h0 h1 h2 c),
     (h c _ (mem_uc main_arg11 (by decide))).trans (W12_main_arg11 m h0 h1 h2 c),
     (h c _ (mem_uc main_arg12 (by decide))).trans (W12_main_arg12 m h0 h1 h2 c),
     (h c _ (mem_uc main_arg13 (by decide))).trans (W12_main_arg13 m h0 h1 h2 c),
     (h c _ (mem_uc main_arg14 (by decide))).trans (W12_main_arg14 m h0 h1 h2 c)⟩

/-- The result buffer at the return is the last host stretch's result at it, from the contents before that stretch. -/
theorem W12_result (c : Dev nD) :
    W12 m h0 h1 h2 c (Proc.devRef .tc main_v83) = StableHlo.after hostOps3_2 (W11 m h0 h1 h2 c) (Proc.devRef .tc main_v83) := rfl

/-- info: 'Cert.Kernel.Hand.run_all' depends on axioms: [propext, Classical.choice, Quot.sound] -/
#guard_msgs in #print axioms run_all
/-- info: 'Cert.Kernel.Hand.frame_all' depends on axioms: [propext, Classical.choice, Quot.sound] -/
#guard_msgs in #print axioms frame_all

end Cert.Kernel.Hand

end
-- ==== Proof.WHalves.lean ====
import proofs.«103405_j58265526337970_2_alg».proof.Proof.WLayerData0
import proofs.«103405_j58265526337970_2_alg».proof.Proof.WLayerData1
import proofs.«103405_j58265526337970_2_alg».proof.Proof.WLayerData2
import proofs.«103405_j58265526337970_2_alg».proof.Proof.WRunI

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat BodyObligation)

variable {F : FTy → Type} [FloatOps F]

/-! # The three layers' regions as halves of the run, and the frame -/

/-- The first layer's region: its proof data at any entry contents, the body obligation, the invariant's two ends. -/
def half0 : RegionHalf (F := F) cfg0 :=
  ⟨dat0, A_eq0, body_obligation0, hin0, hout0, fun _ _ _ => rfl, fun _ _ _ => rfl, fun _ _ => rfl⟩
/-- The second layer's region. -/
def half1 : RegionHalf (F := F) cfg1 :=
  ⟨dat1, A_eq1, body_obligation1, hin1, hout1, fun _ _ _ => rfl, fun _ _ _ => rfl, fun _ _ => rfl⟩
/-- The third layer's region. -/
def half2 : RegionHalf (F := F) cfg2 :=
  ⟨dat2, A_eq2, body_obligation2, hin2, hout2, fun _ _ _ => rfl, fun _ _ _ => rfl, fun _ _ => rfl⟩

/-- THE FRAME at any float instance: every weakly fair execution of @main terminates, nothing faults, and every
    argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_all m ρ (half0 (F := F)) half1 half2

/-- THE RUN with every unscoped buffer named at the return. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig,
        r.2.mem ((c : Thread nD τ).1, b) = W12 m (half0 (F := F)) half1 half2 c b) :=
  run_all m ρ (half0 (F := F)) half1 half2

end Cert.Kernel.Hand

end
-- ==== Proof.Spec.lean ====
/-
  One gated message-passing layer as a function on extended reals, and the two regroupings of a finite sum that a
  blocked accumulation of a matrix product uses. Nothing here mentions a program.

  * `sum_blocks`: a sum over `B * T` indices is the sum over the `B` blocks of the sums over the `T` positions in a
    block, the index of position `t` of block `b` being `b * T + t`.
  * `accAt`: the value a running sum holds after step `n` when it is reset to zero before step `0` and step `i` adds
    `s i`: `((0 + s 0) + s 1) + … + s n`. It is the sum of `s` over `0 … n` (`accAt_eq_sum_range`,
    `accAt_eq_sum_fin`): only commutativity and associativity of `+` and `0 + x = x` are used, so the statement holds
    in every additive commutative monoid, the extended reals among them (no distributivity, no finiteness).
  * `acc_blocks`: both together — accumulating, block after block, the block sums of `f` gives the sum of `f`; stated
    at 16384 = 8 · 2048 and 16384 = 4 · 4096.
  * `layer`: the layer, index by index:
    `relu (∑ₖ (attn r · h r k + (1 − attn r) · ∑ⱼ adj r j · h j k) · wl k c + bl c)`, with `relu x = max x 0`.
-/
import Idealize.ShloMosaic.Lib.ValueIdx
import Idealize.ShloMosaic.Lib.IdealHost

noncomputable section

open scoped BigOperators

namespace Cert.Spec

/-! ## A sum over `B * T` indices, block by block -/

/-- A sum over `N = B * T` indices is the double sum over blocks `b` and positions `t`, for any way `g` of writing the
    index `b * T + t`. -/
theorem sum_blocks {M : Type*} [AddCommMonoid M] {B T N : ℕ} (hN : B * T = N) (f : Fin N → M)
    (g : Fin B → Fin T → Fin N) (hg : ∀ b t, (g b t).val = b.val * T + t.val) :
    ∑ i, f i = ∑ b, ∑ t, f (g b t) := by
  subst hN
  rw [← Equiv.sum_comp finProdFinEquiv f, Fintype.sum_prod_type]
  refine Finset.sum_congr rfl fun b _ => Finset.sum_congr rfl fun t _ => congrArg f (Fin.ext ?_)
  rw [hg]
  show t.val + T * b.val = b.val * T + t.val
  rw [Nat.mul_comm, Nat.add_comm]

/-! ## A running sum, reset before its first step -/

/-- The running sum after step `n`: zero, then `s 0`, …, `s n` added one after the other, each on the right. -/
def accAt {M : Type*} [AddCommMonoid M] (s : ℕ → M) : ℕ → M
  | 0 => 0 + s 0
  | n + 1 => accAt s n + s (n + 1)

theorem accAt_zero {M : Type*} [AddCommMonoid M] (s : ℕ → M) : accAt s 0 = 0 + s 0 := rfl
theorem accAt_succ {M : Type*} [AddCommMonoid M] (s : ℕ → M) (n : ℕ) : accAt s (n + 1) = accAt s n + s (n + 1) := rfl

/-- The running sum after step `n` is the sum of the first `n + 1` terms. -/
theorem accAt_eq_sum_range {M : Type*} [AddCommMonoid M] (s : ℕ → M) (n : ℕ) :
    accAt s n = ∑ i ∈ Finset.range (n + 1), s i := by
  induction n with
  | zero => rw [accAt_zero, zero_add, Finset.sum_range_one]
  | succ n ih => rw [accAt_succ, ih, Finset.sum_range_succ _ (n + 1)]

/-- After the last of `B` steps the running sum is the sum over the `B` steps. -/
theorem accAt_eq_sum_fin {M : Type*} [AddCommMonoid M] {B : ℕ} (hB : 0 < B) (s : ℕ → M) (s' : Fin B → M)
    (hs : ∀ b : Fin B, s b.val = s' b) : accAt s (B - 1) = ∑ b, s' b := by
  rw [accAt_eq_sum_range, Nat.sub_add_cancel hB, Finset.sum_range]
  exact Finset.sum_congr rfl fun b _ => hs b

/-- Accumulating the block sums of `f`, block after block, gives the sum of `f`. -/
theorem acc_blocks {M : Type*} [AddCommMonoid M] {B T N : ℕ} (hB : 0 < B) (hN : B * T = N) (s : ℕ → M) (f : Fin N → M)
    (g : Fin B → Fin T → Fin N) (hg : ∀ b t, (g b t).val = b.val * T + t.val)
    (hs : ∀ b : Fin B, s b.val = ∑ t, f (g b t)) : accAt s (B - 1) = ∑ j, f j := by
  rw [accAt_eq_sum_fin hB s (fun b => ∑ t, f (g b t)) hs, sum_blocks hN f g hg]

/-- 16384 = 8 · 2048: eight blocks of 2048. -/
theorem acc_blocks_8_2048 (s : ℕ → EReal) (f : Fin 16384 → EReal) (g : Fin 8 → Fin 2048 → Fin 16384)
    (hg : ∀ b t, (g b t).val = b.val * 2048 + t.val) (hs : ∀ b : Fin 8, s b.val = ∑ t, f (g b t)) :
    accAt s 7 = ∑ j, f j :=
  acc_blocks (B := 8) (by decide) (by decide) s f g hg hs

/-- 16384 = 4 · 4096: four blocks of 4096. -/
theorem acc_blocks_4_4096 (s : ℕ → EReal) (f : Fin 16384 → EReal) (g : Fin 4 → Fin 4096 → Fin 16384)
    (hg : ∀ b t, (g b t).val = b.val * 4096 + t.val) (hs : ∀ b : Fin 4, s b.val = ∑ t, f (g b t)) :
    accAt s 3 = ∑ j, f j :=
  acc_blocks (B := 4) (by decide) (by decide) s f g hg hs

/-- The same two as plain sums. -/
theorem sum_blocks_8_2048 (f : Fin 16384 → EReal) (g : Fin 8 → Fin 2048 → Fin 16384)
    (hg : ∀ b t, (g b t).val = b.val * 2048 + t.val) : ∑ j, f j = ∑ b, ∑ t, f (g b t) :=
  sum_blocks (by decide) f g hg
theorem sum_blocks_4_4096 (f : Fin 16384 → EReal) (g : Fin 4 → Fin 4096 → Fin 16384)
    (hg : ∀ b t, (g b t).val = b.val * 4096 + t.val) : ∑ j, f j = ∑ b, ∑ t, f (g b t) :=
  sum_blocks (by decide) f g hg

/-! ## The layer -/

/-- The neighbours' message at node `r`, feature `k`: `∑ⱼ adj r j · h j k`. -/
def msg (adj : Fin 16384 → Fin 16384 → EReal) (h : Fin 16384 → Fin 128 → EReal) : Fin 16384 → Fin 128 → EReal :=
  fun r k => ∑ j : Fin 16384, adj r j * h j k

/-- The gated combination: `attn r · h r k + (1 − attn r) · msg r k`. -/
def comb (h m : Fin 16384 → Fin 128 → EReal) (attn : Fin 16384 → EReal) : Fin 16384 → Fin 128 → EReal :=
  fun r k => attn r * h r k + (1 - attn r) * m r k

/-- One layer, index by index: the gated combination of a node's features with its neighbours' message, through the
    linear map `wl` with bias `bl`, then `relu` (the maximum with zero, zero second). -/
def layer (adj : Fin 16384 → Fin 16384 → EReal) (h : Fin 16384 → Fin 128 → EReal) (attn : Fin 16384 → EReal)
    (wl : Fin 128 → Fin 128 → EReal) (bl : Fin 128 → EReal) : Fin 16384 → Fin 128 → EReal :=
  fun r c => max ((∑ k : Fin 128, (attn r * h r k + (1 - attn r) * ∑ j : Fin 16384, adj r j * h j k) * wl k c) + bl c) 0

/-- The layer through its two named pieces. -/
theorem layer_eq (adj : Fin 16384 → Fin 16384 → EReal) (h : Fin 16384 → Fin 128 → EReal) (attn : Fin 16384 → EReal)
    (wl : Fin 128 → Fin 128 → EReal) (bl : Fin 128 → EReal) (r : Fin 16384) (c : Fin 128) :
    layer adj h attn wl bl r c = max ((∑ k : Fin 128, comb h (msg adj h) attn r k * wl k c) + bl c) 0 := rfl

end Cert.Spec

end
-- ==== Proof.RefLayer.lean ====
/-
  One layer of the reference, as the host computes it from its five operand arrays, read at an index.

  `layerHost adj h attn wl bl` is the chain of host operations the reference applies in each of its three layers,
  written over variables for the operands: the product `adj · h`, the gate `attn` (one column) broadcast along the
  features, the products `attn · h` and `(1 − attn) · (adj · h)`, their sum, the product with `wl`, the bias `bl`
  broadcast along the nodes, and the maximum with zero. `layerHost_apply`: at node `r` and feature `c` it is
  `Cert.Spec.layer` of the operands read at their indices. The three layers differ only in which slice of the stacked
  weights they use, so the already sliced `wl` and `bl` are the variables.
-/
import proofs.«103405_j58265526337970_2_alg».proof.Proof.Gen.ReferenceIdeal.Read
import proofs.«103405_j58265526337970_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable {F : FTy → Type} [FloatOps F]

/-! ## The layer's host operations over variables -/

/-- The neighbours' message, `adj · h`, as the host's product. -/
def msgHost (adj : FVec F S16384x16384 .f32) (h : FVec F S16384x128 .f32) : FVec F S16384x128 .f32 :=
  Host.dotGeneral dot_S16384x16384_S16384x128_S16384x128_1_0_0_1_n_n none adj h

/-- The gated combination `attn · h + (1 − attn) · (adj · h)`, the gate a column broadcast along the features and
    `1 − attn` formed on the column before it is broadcast. -/
def combHost (adj : FVec F S16384x16384 .f32) (h : FVec F S16384x128 .f32) (attn : FVec F S16384x1 .f32) :
    FVec F S16384x128 .f32 :=
  addf (mulf (broadcastInDim S16384x128 ![0, 1] bcast_S16384x1_S16384x128_0_1 attn) h)
    (mulf (broadcastInDim S16384x128 ![0, 1] bcast_S16384x1_S16384x128_0_1
        (subf (broadcastInDim S16384x1 ![] bcast_S_S16384x1 (constant S_ .f32 0x3F800000#32)) attn))
      (msgHost adj h))

/-- The whole layer: the combination through `wl`, plus the bias broadcast along the nodes, then the maximum with
    zero. -/
def layerHost (adj : FVec F S16384x16384 .f32) (h : FVec F S16384x128 .f32) (attn : FVec F S16384x1 .f32)
    (wl : FVec F S128x128 .f32) (bl : FVec F S128 .f32) : FVec F S16384x128 .f32 :=
  maximumf
    (addf (Host.dotGeneral dot_S16384x128_S128x128_S16384x128_1_0_0_1_n_n none (combHost adj h attn) wl)
      (broadcastInDim S16384x128 ![0, 1] bcast_S1x128_S16384x128_0_1 (broadcastInDim S1x128 ![1] bcast_S128_S1x128_1 bl)))
    (broadcastInDim S16384x128 ![] bcast_S_S16384x128 (constant S_ .f32 0x00000000#32))

/-! ## The broadcasts at an index -/

/-- A column broadcast along the features reads the column at the node. -/
theorem bcastCol_apply {α : Type} (y : S16384x1.Idx → α) (r : Fin 16384) (c : Fin 128) :
    broadcastInDim S16384x128 ![0, 1] bcast_S16384x1_S16384x128_0_1 y (ix2 r c) = y (ix2 r 0) :=
  broadcastInDim_apply _ bcast_S16384x1_S16384x128_0_1 y (ix2 r c) (ix2 r 0) (fun a => match a with
    | ⟨0, _⟩ => by show r.val = if (16384 : Nat) = 1 then 0 else r.val; rw [if_neg (by decide)]
    | ⟨1, _⟩ => by show 0 = if (1 : Nat) = 1 then 0 else c.val; rw [if_pos rfl])

/-- A scalar broadcast to a column reads the scalar. -/
theorem bcastScalarCol_apply {α : Type} (y : S_.Idx → α) (i : S16384x1.Idx) :
    broadcastInDim S16384x1 ![] bcast_S_S16384x1 y i = y ix0 :=
  broadcastInDim_apply _ bcast_S_S16384x1 y i ix0 (fun a => a.elim0)

/-- A scalar broadcast to the whole array reads the scalar. -/
theorem bcastScalar_apply {α : Type} (y : S_.Idx → α) (i : S16384x128.Idx) :
    broadcastInDim S16384x128 ![] bcast_S_S16384x128 y i = y ix0 :=
  broadcastInDim_apply _ bcast_S_S16384x128 y i ix0 (fun a => a.elim0)

/-- The bias, a row broadcast along the nodes, reads the bias at the feature. -/
theorem bcastBias_apply {α : Type} (y : S128.Idx → α) (r : Fin 16384) (c : Fin 128) :
    broadcastInDim S16384x128 ![0, 1] bcast_S1x128_S16384x128_0_1 (broadcastInDim S1x128 ![1] bcast_S128_S1x128_1 y) (ix2 r c)
      = y (ix1 c) := by
  rw [broadcastInDim_apply _ bcast_S1x128_S16384x128_0_1 _ (ix2 r c) (ix2 0 c) (fun a => match a with
    | ⟨0, _⟩ => by show 0 = if (1 : Nat) = 1 then 0 else r.val; rw [if_pos rfl]
    | ⟨1, _⟩ => by show c.val = if (128 : Nat) = 1 then 0 else c.val; rw [if_neg (by decide)])]
  exact broadcastInDim_apply _ bcast_S128_S1x128_1 y (ix2 0 c) (ix1 c) (fun a => match a with
    | ⟨0, _⟩ => by show c.val = if (128 : Nat) = 1 then 0 else c.val; rw [if_neg (by decide)])

/-! ## The two products at an index -/

/-- `adj · h` at node `r`, feature `k`: the sum over the nodes `j` of `adj r j · h j k`. -/
theorem msgHost_apply (adj : FVec Ideal S16384x16384 .f32) (h : FVec Ideal S16384x128 .f32) (r : Fin 16384) (k : Fin 128) :
    msgHost (F := Ideal) adj h (ix2 r k) = ∑ j : Fin 16384, adj (ix2 r j) * h (ix2 j k) := by
  unfold msgHost
  simp only [Host.dotGeneral]
  rw [Ideal.dotGeneral_apply, ← Equiv.sum_comp (ValueIdx.contrEquiv1 dot_S16384x16384_S16384x128_S16384x128_1_0_0_1_n_n 16384 rfl rfl).symm]
  refine Finset.sum_congr rfl fun j _ => ?_
  have hj := ValueIdx.contrEquiv1_symm_val dot_S16384x16384_S16384x128_S16384x128_1_0_0_1_n_n 16384 rfl rfl j
  have el : dot_S16384x16384_S16384x128_S16384x128_1_0_0_1_n_n.lhsIdx (ix2 r k) ((ValueIdx.contrEquiv1 dot_S16384x16384_S16384x128_S16384x128_1_0_0_1_n_n 16384 rfl rfl).symm j) = ix2 r j := funext fun a => Fin.ext (by
    match a with
    | ⟨0, _⟩ => exact lhs_main_v18_0 _ _
    | ⟨1, _⟩ => exact (lhs_main_v18_1 _ _).trans hj)
  have er : dot_S16384x16384_S16384x128_S16384x128_1_0_0_1_n_n.rhsIdx (ix2 r k) ((ValueIdx.contrEquiv1 dot_S16384x16384_S16384x128_S16384x128_1_0_0_1_n_n 16384 rfl rfl).symm j) = ix2 j k := funext fun a => Fin.ext (by
    match a with
    | ⟨0, _⟩ => exact (rhs_main_v18_0 _ _).trans hj
    | ⟨1, _⟩ => exact rhs_main_v18_1 _ _)
  rw [el, er]

/-- `x · wl` at node `r`, feature `c`: the sum over the features `k` of `x r k · wl k c`. -/
theorem dotWl_apply (x : FVec Ideal S16384x128 .f32) (wl : FVec Ideal S128x128 .f32) (r : Fin 16384) (c : Fin 128) :
    (Host.dotGeneral dot_S16384x128_S128x128_S16384x128_1_0_0_1_n_n none x wl : FVec Ideal S16384x128 .f32) (ix2 r c)
      = ∑ k : Fin 128, x (ix2 r k) * wl (ix2 k c) := by
  simp only [Host.dotGeneral]
  rw [Ideal.dotGeneral_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 r c) ((ValueIdx.contrEquiv1 dot_S16384x128_S128x128_S16384x128_1_0_0_1_n_n 128 rfl rfl).symm k) = ix2 r k := funext fun a => Fin.ext (by
    match a with
    | ⟨0, _⟩ => exact lhs_main_v28_0 _ _
    | ⟨1, _⟩ => exact (lhs_main_v28_1 _ _).trans hk)
  have er : dot_S16384x128_S128x128_S16384x128_1_0_0_1_n_n.rhsIdx (ix2 r c) ((ValueIdx.contrEquiv1 dot_S16384x128_S128x128_S16384x128_1_0_0_1_n_n 128 rfl rfl).symm k) = ix2 k c := funext fun a => Fin.ext (by
    match a with
    | ⟨0, _⟩ => exact (rhs_main_v28_0 _ _).trans hk
    | ⟨1, _⟩ => exact rhs_main_v28_1 _ _)
  rw [el, er]

/-! ## The layer at an index -/

/-- The gated combination at node `r`, feature `k`. -/
theorem combHost_apply (adj : FVec Ideal S16384x16384 .f32) (h : FVec Ideal S16384x128 .f32) (attn : FVec Ideal S16384x1 .f32)
    (r : Fin 16384) (k : Fin 128) :
    combHost (F := Ideal) adj h attn (ix2 r k)
      = attn (ix2 r 0) * h (ix2 r k) + (1 - attn (ix2 r 0)) * ∑ j : Fin 16384, adj (ix2 r j) * h (ix2 j k) := by
  unfold combHost
  rw [addf_apply, mulf_apply, mulf_apply, bcastCol_apply, bcastCol_apply, subf_apply, bcastScalarCol_apply, constant_apply,
    Ideal.ofBits_one_f32, msgHost_apply]

/-- THE LAYER READ AT AN INDEX: at node `r` and feature `c` the host's layer is `Cert.Spec.layer` of its operands read
    at their indices — the gate at `(r, 0)`, the bias at `c`. -/
theorem layerHost_apply (adj : FVec Ideal S16384x16384 .f32) (h : FVec Ideal S16384x128 .f32) (attn : FVec Ideal S16384x1 .f32)
    (wl : FVec Ideal S128x128 .f32) (bl : FVec Ideal S128 .f32) (r : Fin 16384) (c : Fin 128) :
    layerHost (F := Ideal) adj h attn wl bl (ix2 r c)
      = Cert.Spec.layer (fun r j => adj (ix2 r j)) (fun r k => h (ix2 r k)) (fun r => attn (ix2 r 0))
          (fun k c => wl (ix2 k c)) (fun c => bl (ix1 c)) r c := by
  unfold layerHost Cert.Spec.layer
  rw [maximumf_apply, addf_apply, dotWl_apply, bcastBias_apply, bcastScalar_apply, constant_apply, Ideal.ofBits_zero_f32]
  simp only [combHost_apply]

/-- The same for a whole index: every index of the result is `ix2` of its coordinates. -/
theorem layerHost_apply' (adj : FVec Ideal S16384x16384 .f32) (h : FVec Ideal S16384x128 .f32) (attn : FVec Ideal S16384x1 .f32)
    (wl : FVec Ideal S128x128 .f32) (bl : FVec Ideal S128 .f32) (i : S16384x128.Idx) :
    layerHost (F := Ideal) adj h attn wl bl i
      = Cert.Spec.layer (fun r j => adj (ix2 r j)) (fun r k => h (ix2 r k)) (fun r => attn (ix2 r 0))
          (fun k c => wl (ix2 k c)) (fun c => bl (ix1 c)) (i 0) (i 1) := by
  rw [eq_ix2 i]
  exact layerHost_apply adj h attn wl bl (i 0) (i 1)

end Cert.ReferenceIdeal.RefValue

end
-- ==== Proof.RefRun.lean ====
/-
  The reference's result as a composition of whole-array functions of its arguments:
  `tailHost (step (step (step (encHost x We be) …layer 0…) …layer 1…) …layer 2…) …`, where
  `encHost` is the node encoder `x · We + be`, `step adj h wa ba wl bl = layerHost adj h (gateHost h wa ba) wl bl` is one
  layer with its gate `gateHost h wa ba = 1 / (1 + exp (−(h · wa + ba)))`, the `…At l` functions take layer `l`'s row of a
  stacked weight array, and `tailHost` is the per-graph mean (two accumulating scatters and a quotient) followed by the
  two-stage classifier. The gate, the encoder and the tail are kept as whole-array terms: they are never read at an index,
  a second program that applies the same operations to the same arrays has the same terms. `refResult_eq` and
  `run_refResult`: every weakly fair execution of the reference ends with its result at this composition.
-/
import proofs.«103405_j58265526337970_2_alg».proof.Proof.Gen.ReferenceIdeal.Read
import proofs.«103405_j58265526337970_2_alg».proof.Proof.RefLayer

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-! ## The pieces -/

/-- The node encoder `x · We + be`, the bias broadcast along the nodes. -/
def encHost (x : FVec F S16384x64 .f32) (we : FVec F S64x128 .f32) (be : FVec F S128 .f32) : FVec F S16384x128 .f32 :=
  addf (Host.dotGeneral dot_S16384x64_S64x128_S16384x128_1_0_0_1_n_n none x we)
    (broadcastInDim S16384x128 ![0, 1] bcast_S1x128_S16384x128_0_1 (broadcastInDim S1x128 ![1] bcast_S128_S1x128_1 be))

/-- The gate `1 / (1 + exp (−(h · wa + ba)))`, a column. -/
def gateHost (h : FVec F S16384x128 .f32) (wa : FVec F S128x1 .f32) (ba : FVec F S1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x128_S128x1_S16384x1_1_0_0_1_n_n none h wa)
        (broadcastInDim S16384x1 ![0, 1] bcast_S1x1_S16384x1_0_1 (broadcastInDim S1x1 ![1] bcast_S1_S1x1_1 ba))))))

/-- One layer with its gate. -/
def step (adj : FVec F S16384x16384 .f32) (h : FVec F S16384x128 .f32) (wa : FVec F S128x1 .f32) (ba : FVec F S1 .f32)
    (wl : FVec F S128x128 .f32) (bl : FVec F S128 .f32) : FVec F S16384x128 .f32 :=
  layerHost adj h (gateHost h wa ba) wl bl

/-- Layer 0's gate weights: row 0 of the stacked `[3, 128, 1]` array, as a `[128, 1]` matrix. -/
def waAt0 (wa : FVec F S3x128x1 .f32) : FVec F S128x1 .f32 :=
  shapeCast _ (extractStridedSlice S1x128x1 ![0, 0, 0] wa slices_S3x128x1_S1x128x1_0_0_0) shapeCasts_S1x128x1_S128x1
/-- Layer 0's gate bias: row 0 of the stacked `[3, 1]` array, as a vector of length one. -/
def baAt0 (ba : FVec F S3x1 .f32) : FVec F S1 .f32 :=
  shapeCast _ (extractStridedSlice S1x1 ![0, 0] ba slices_S3x1_S1x1_0_0) shapeCasts_S1x1_S1
/-- Layer 0's linear map: row 0 of the stacked `[3, 128, 128]` array, as a `[128, 128]` matrix. -/
def wlAt0 (wl : FVec F S3x128x128 .f32) : FVec F S128x128 .f32 :=
  shapeCast _ (extractStridedSlice S1x128x128 ![0, 0, 0] wl slices_S3x128x128_S1x128x128_0_0_0) shapeCasts_S1x128x128_S128x128
/-- Layer 0's bias: row 0 of the stacked `[3, 128]` array, as a vector of length 128. -/
def blAt0 (bl : FVec F S3x128 .f32) : FVec F S128 .f32 :=
  shapeCast _ (extractStridedSlice S1x128 ![0, 0] bl slices_S3x128_S1x128_0_0) shapeCasts_S1x128_S128

/-- Layer 1's gate weights: row 1 of the stacked `[3, 128, 1]` array, as a `[128, 1]` matrix. -/
def waAt1 (wa : FVec F S3x128x1 .f32) : FVec F S128x1 .f32 :=
  shapeCast _ (extractStridedSlice S1x128x1 ![1, 0, 0] wa slices_S3x128x1_S1x128x1_1_0_0) shapeCasts_S1x128x1_S128x1
/-- Layer 1's gate bias: row 1 of the stacked `[3, 1]` array, as a vector of length one. -/
def baAt1 (ba : FVec F S3x1 .f32) : FVec F S1 .f32 :=
  shapeCast _ (extractStridedSlice S1x1 ![1, 0] ba slices_S3x1_S1x1_1_0) shapeCasts_S1x1_S1
/-- Layer 1's linear map: row 1 of the stacked `[3, 128, 128]` array, as a `[128, 128]` matrix. -/
def wlAt1 (wl : FVec F S3x128x128 .f32) : FVec F S128x128 .f32 :=
  shapeCast _ (extractStridedSlice S1x128x128 ![1, 0, 0] wl slices_S3x128x128_S1x128x128_1_0_0) shapeCasts_S1x128x128_S128x128
/-- Layer 1's bias: row 1 of the stacked `[3, 128]` array, as a vector of length 128. -/
def blAt1 (bl : FVec F S3x128 .f32) : FVec F S128 .f32 :=
  shapeCast _ (extractStridedSlice S1x128 ![1, 0] bl slices_S3x128_S1x128_1_0) shapeCasts_S1x128_S128

/-- Layer 2's gate weights: row 2 of the stacked `[3, 128, 1]` array, as a `[128, 1]` matrix. -/
def waAt2 (wa : FVec F S3x128x1 .f32) : FVec F S128x1 .f32 :=
  shapeCast _ (extractStridedSlice S1x128x1 ![2, 0, 0] wa slices_S3x128x1_S1x128x1_2_0_0) shapeCasts_S1x128x1_S128x1
/-- Layer 2's gate bias: row 2 of the stacked `[3, 1]` array, as a vector of length one. -/
def baAt2 (ba : FVec F S3x1 .f32) : FVec F S1 .f32 :=
  shapeCast _ (extractStridedSlice S1x1 ![2, 0] ba slices_S3x1_S1x1_2_0) shapeCasts_S1x1_S1
/-- Layer 2's linear map: row 2 of the stacked `[3, 128, 128]` array, as a `[128, 128]` matrix. -/
def wlAt2 (wl : FVec F S3x128x128 .f32) : FVec F S128x128 .f32 :=
  shapeCast _ (extractStridedSlice S1x128x128 ![2, 0, 0] wl slices_S3x128x128_S1x128x128_2_0_0) shapeCasts_S1x128x128_S128x128
/-- Layer 2's bias: row 2 of the stacked `[3, 128]` array, as a vector of length 128. -/
def blAt2 (bl : FVec F S3x128 .f32) : FVec F S128 .f32 :=
  shapeCast _ (extractStridedSlice S1x128 ![2, 0] bl slices_S3x128_S1x128_2_0) shapeCasts_S1x128_S128

/-- After the layers: the per-graph sums of the node features and of ones (two accumulating scatters at the graph ids), their
    quotient, `tanh` of a linear map of it, then a linear map, the maximum with zero, and a last linear map. -/
def tailHost (h : FVec F S16384x128 .f32) (batch : IVec S16384 32) (wp : FVec F S128x128 .f32) (bp : FVec F S128 .f32)
    (wc1 : FVec F S128x64 .f32) (bc1 : FVec F S64 .f32) (wc2 : FVec F S64x2 .f32) (bc2 : FVec F S2 .f32) : FVec F S64x2 .f32 :=
  addf (Host.dotGeneral dot_S64x64_S64x2_S64x2_1_0_0_1_n_n none
      (maximumf
        (addf (Host.dotGeneral dot_S64x128_S128x64_S64x64_1_0_0_1_n_n none
            (Host.tanh
              (addf (Host.dotGeneral dot_S64x128_S128x128_S64x128_1_0_0_1_n_n none
                  (Host.divf
                    (Host.scatterAdd scatter_S64x128_S16384x1_S16384x128_1_0_0_1
                      (broadcastInDim S64x128 ![] bcast_S_S64x128 (constant S_ .f32 0x00000000#32))
                      (broadcastInDim S16384x1 ![0] bcast_S16384_S16384x1_0 batch) h)
                    (broadcastInDim S64x128 ![0, 1] bcast_S64x1_S64x128_0_1
                      (Host.scatterAdd scatter_S64x1_S16384x1_S16384x1_1_0_0_1
                        (broadcastInDim S64x1 ![] bcast_S_S64x1 (constant S_ .f32 0x00000000#32))
                        (broadcastInDim S16384x1 ![0] bcast_S16384_S16384x1_0 batch)
                        (broadcastInDim S16384x1 ![] bcast_S_S16384x1 (constant S_ .f32 0x3F800000#32)))))
                  wp)
                (broadcastInDim S64x128 ![0, 1] bcast_S1x128_S64x128_0_1 (broadcastInDim S1x128 ![1] bcast_S128_S1x128_1 bp))))
            wc1)
          (broadcastInDim S64x64 ![0, 1] bcast_S1x64_S64x64_0_1 (broadcastInDim S1x64 ![1] bcast_S64_S1x64_1 bc1)))
        (broadcastInDim S64x64 ![] bcast_S_S64x64 (constant S_ .f32 0x00000000#32)))
      wc2)
    (broadcastInDim S64x2 ![0, 1] bcast_S1x2_S64x2_0_1 (broadcastInDim S1x2 ![1] bcast_S2_S1x2_1 bc2))

/-- The node features after layer 0, 1 and 2. -/
def h1 (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) : FVec F S16384x128 .f32 :=
  step x1 (encHost x0 x3 x4) (waAt0 x7) (baAt0 x8) (wlAt0 x5) (blAt0 x6)
def h2 (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) : FVec F S16384x128 .f32 :=
  step x1 (h1 x0 x1 x3 x4 x5 x6 x7 x8) (waAt1 x7) (baAt1 x8) (wlAt1 x5) (blAt1 x6)
def h3 (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) : FVec F S16384x128 .f32 :=
  step x1 (h2 x0 x1 x3 x4 x5 x6 x7 x8) (waAt2 x7) (baAt2 x8) (wlAt2 x5) (blAt2 x6)

/-- The reference's result as a function of its fifteen arguments. -/
def refResult (x0 : FVec F S16384x64 .f32) (x1 : FVec F S16384x16384 .f32) (x2 : IVec S16384 32) (x3 : FVec F S64x128 .f32) (x4 : FVec F S128 .f32) (x5 : FVec F S3x128x128 .f32) (x6 : FVec F S3x128 .f32) (x7 : FVec F S3x128x1 .f32) (x8 : FVec F S3x1 .f32) (x9 : FVec F S128x128 .f32) (x10 : FVec F S128 .f32) (x11 : FVec F S128x64 .f32) (x12 : FVec F S64 .f32) (x13 : FVec F S64x2 .f32) (x14 : FVec F S2 .f32) : FVec F S64x2 .f32 :=
  tailHost (h3 x0 x1 x3 x4 x5 x6 x7 x8) x2 x9 x10 x11 x12 x13 x14

/-! ## The generated stages are these pieces -/

theorem val_main_v3_eq (x0 : FVec F S16384x64 .f32) (x3 : FVec F S64x128 .f32) (x4 : FVec F S128 .f32) :
    val_main_v3 (F := F) x0 x3 x4 = encHost x0 x3 x4 := rfl

theorem val_main_v34_eq (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) :
    val_main_v34 (F := F) x0 x1 x3 x4 x5 x6 x7 x8 = h1 x0 x1 x3 x4 x5 x6 x7 x8 := rfl

theorem val_main_v65_eq (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) :
    val_main_v65 (F := F) x0 x1 x3 x4 x5 x6 x7 x8 = h2 x0 x1 x3 x4 x5 x6 x7 x8 := rfl

theorem val_main_v96_eq (x0 : FVec F S16384x64 .f32) (x1 : FVec F S16384x16384 .f32) (x3 : FVec F S64x128 .f32) (x4 : FVec F S128 .f32) (x5 : FVec F S3x128x128 .f32) (x6 : FVec F S3x128 .f32) (x7 : FVec F S3x128x1 .f32) (x8 : FVec F S3x1 .f32) :
    val_main_v96 (F := F) x0 x1 x3 x4 x5 x6 x7 x8 = h3 x0 x1 x3 x4 x5 x6 x7 x8 := rfl

theorem val_main_v119_eq_refResult (x0 : FVec F S16384x64 .f32) (x1 : FVec F S16384x16384 .f32) (x2 : IVec S16384 32) (x3 : FVec F S64x128 .f32) (x4 : FVec F S128 .f32) (x5 : FVec F S3x128x128 .f32) (x6 : FVec F S3x128 .f32) (x7 : FVec F S3x128x1 .f32) (x8 : FVec F S3x1 .f32) (x9 : FVec F S128x128 .f32) (x10 : FVec F S128 .f32) (x11 : FVec F S128x64 .f32) (x12 : FVec F S64 .f32) (x13 : FVec F S64x2 .f32) (x14 : FVec F S2 .f32) :
    val_main_v119 (F := F) x0 x1 x2 x3 x4 x5 x6 x7 x8 x9 x10 x11 x12 x13 x14
      = refResult x0 x1 x2 x3 x4 x5 x6 x7 x8 x9 x10 x11 x12 x13 x14 := rfl

/-- The term the reference's run ends at is the composition. -/
theorem refResult_eq (m : (ℓ : Loc nD τ sig) → Buf (Elt F) ℓ) (c : Dev nD) :
    Cert.ReferenceIdeal.Value.res_main_v119 m c = refResult (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (val_main_v119_eq m c).trans (val_main_v119_eq_refResult ..)

/-- Every weakly fair execution of the reference, from any memory with zero counters, terminates with its result at
    `refResult` of the arguments' launch contents and the arguments unchanged. -/
theorem run_refResult (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = refResult (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (refResult_eq m c), (h c).2⟩)
    (Cert.ReferenceIdeal.Value.run (F := F) m ρ)

end Cert.ReferenceIdeal.RefValue

end
-- ==== Proof.KernelHost.lean ====
/-
  The host operations of the program with the three layer kernels, stretch by stretch, read as whole-array functions.

  Between its kernels the program applies the very operations the reference applies: the node encoder, each layer's gate
  `1 / (1 + exp (−(h · wa + ba)))`, the rows of the stacked weights, and after the last layer the per-graph mean and the
  classifier. Each lemma below says, for ARBITRARY contents before a stretch, what one buffer holds after it, as one of
  the functions `encHost`, `gateHost`, `waAt…`, `tailHost` of the contents before — or that a buffer the stretch does not
  write is unchanged.
-/
import proofs.«103405_j58265526337970_2_alg».proof.Proof.Gen.KernelIdeal.Launch
import proofs.«103405_j58265526337970_2_alg».proof.Proof.RefRun
import Idealize.ShloMosaic.Lib.StableHlo.Run

noncomputable section

namespace Cert.KernelIdeal.Hand

open Cert.KernelIdeal Cert.KernelIdeal.Gen Cert.ReferenceIdeal.RefValue Idealize.ShloMosaic Idealize.ShloMosaic.TcCoe
  Idealize.SL.Sem Idealize.ShloMosaic.StableHlo

variable {F : FTy → Type} [FloatOps F]

/-! ## Before the first kernel: the encoder, layer 0's gate and weights -/

/-- The encoder's output. -/
theorem pre0_v3 (W : Valuation τ sig (Elt F)) :
    (StableHlo.after hostOps0_1 (StableHlo.after hostOps0 W) (Proc.devRef .tc main_v3) : FVec F S16384x128 .f32)
      = encHost (W (Proc.devRef .tc main_arg0)) (W (Proc.devRef .tc main_arg3)) (W (Proc.devRef .tc main_arg4)) := by
  after_results; rfl

/-- Layer 0's gate, of the encoder's output. -/
theorem pre0_v17 (W : Valuation τ sig (Elt F)) :
    (StableHlo.after hostOps0_1 (StableHlo.after hostOps0 W) (Proc.devRef .tc main_v17) : FVec F S16384x1 .f32)
      = gateHost (encHost (W (Proc.devRef .tc main_arg0)) (W (Proc.devRef .tc main_arg3)) (W (Proc.devRef .tc main_arg4)))
          (waAt0 (W (Proc.devRef .tc main_arg7))) (baAt0 (W (Proc.devRef .tc main_arg8))) := by
  after_results; rfl

/-- Layer 0's linear map. -/
theorem pre0_v19 (W : Valuation τ sig (Elt F)) :
    (StableHlo.after hostOps0_1 (StableHlo.after hostOps0 W) (Proc.devRef .tc main_v19) : FVec F S128x128 .f32)
      = wlAt0 (W (Proc.devRef .tc main_arg5)) := by
  after_results; rfl

/-- Layer 0's bias, as a `[1, 128]` array. -/
theorem pre0_call0_v0 (W : Valuation τ sig (Elt F)) :
    (StableHlo.after hostOps0_1 (StableHlo.after hostOps0 W) (Proc.devRef .tc main_call0_v0) : FVec F S1x128 .f32)
      = shapeCast S1x128 (blAt0 (W (Proc.devRef .tc main_arg6))) shapeCasts_S128_S1x128 := by
  after_results; rfl

/-- The adjacency matrix is not written. -/
theorem pre0_arg1 (W : Valuation τ sig (Elt F)) :
    StableHlo.after hostOps0_1 (StableHlo.after hostOps0 W) (Proc.devRef .tc main_arg1) = W (Proc.devRef .tc main_arg1) := by
  after_results

/-! ## Between kernel 0 and kernel 1: layer 1's gate and weights -/

/-- Layer 1's gate, of the previous kernel's output. -/
theorem pre1_v36 (W : Valuation τ sig (Elt F)) :
    (StableHlo.after hostOps1_1 (StableHlo.after hostOps1 W) (Proc.devRef .tc main_v36) : FVec F S16384x1 .f32)
      = gateHost (W (Proc.devRef .tc main_v22_0)) (waAt1 (W (Proc.devRef .tc main_arg7))) (baAt1 (W (Proc.devRef .tc main_arg8))) := by
  after_results; rfl

/-- Layer 1's linear map. -/
theorem pre1_v38 (W : Valuation τ sig (Elt F)) :
    (StableHlo.after hostOps1_1 (StableHlo.after hostOps1 W) (Proc.devRef .tc main_v38) : FVec F S128x128 .f32)
      = wlAt1 (W (Proc.devRef .tc main_arg5)) := by
  after_results; rfl

/-- Layer 1's bias, as a `[1, 128]` array. -/
theorem pre1_call1_v0 (W : Valuation τ sig (Elt F)) :
    (StableHlo.after hostOps1_1 (StableHlo.after hostOps1 W) (Proc.devRef .tc main_call1_v0) : FVec F S1x128 .f32)
      = shapeCast S1x128 (blAt1 (W (Proc.devRef .tc main_arg6))) shapeCasts_S128_S1x128 := by
  after_results; rfl

/-- `main_v22_0` is not written. -/
theorem pre1_v22_0 (W : Valuation τ sig (Elt F)) :
    StableHlo.after hostOps1_1 (StableHlo.after hostOps1 W) (Proc.devRef .tc main_v22_0) = W (Proc.devRef .tc main_v22_0) := by
  after_results

/-- `main_v22_1` is not written. -/
theorem pre1_v22_1 (W : Valuation τ sig (Elt F)) :
    StableHlo.after hostOps1_1 (StableHlo.after hostOps1 W) (Proc.devRef .tc main_v22_1) = W (Proc.devRef .tc main_v22_1) := by
  after_results

/-! ## Between kernel 1 and kernel 2: layer 2's gate and weights -/

/-- Layer 2's gate, of the previous kernel's output. -/
theorem pre2_v55 (W : Valuation τ sig (Elt F)) :
    (StableHlo.after hostOps2_1 (StableHlo.after hostOps2 W) (Proc.devRef .tc main_v55) : FVec F S16384x1 .f32)
      = gateHost (W (Proc.devRef .tc main_v41)) (waAt2 (W (Proc.devRef .tc main_arg7))) (baAt2 (W (Proc.devRef .tc main_arg8))) := by
  after_results; rfl

/-- Layer 2's linear map. -/
theorem pre2_v57 (W : Valuation τ sig (Elt F)) :
    (StableHlo.after hostOps2_1 (StableHlo.after hostOps2 W) (Proc.devRef .tc main_v57) : FVec F S128x128 .f32)
      = wlAt2 (W (Proc.devRef .tc main_arg5)) := by
  after_results; rfl

/-- Layer 2's bias, as a `[1, 128]` array. -/
theorem pre2_call2_v0 (W : Valuation τ sig (Elt F)) :
    (StableHlo.after hostOps2_1 (StableHlo.after hostOps2 W) (Proc.devRef .tc main_call2_v0) : FVec F S1x128 .f32)
      = shapeCast S1x128 (blAt2 (W (Proc.devRef .tc main_arg6))) shapeCasts_S128_S1x128 := by
  after_results; rfl

/-- `main_v41` is not written. -/
theorem pre2_v41 (W : Valuation τ sig (Elt F)) :
    StableHlo.after hostOps2_1 (StableHlo.after hostOps2 W) (Proc.devRef .tc main_v41) = W (Proc.devRef .tc main_v41) := by
  after_results

/-- `main_v22_1` is not written. -/
theorem pre2_v22_1 (W : Valuation τ sig (Elt F)) :
    StableHlo.after hostOps2_1 (StableHlo.after hostOps2 W) (Proc.devRef .tc main_v22_1) = W (Proc.devRef .tc main_v22_1) := by
  after_results

/-! ## After the last kernel: the per-graph mean and the classifier -/

/-- The program's result, of the last kernel's output. -/
theorem post_v83 (W : Valuation τ sig (Elt F)) :
    (StableHlo.after hostOps3_2 (StableHlo.after hostOps3_1 (StableHlo.after hostOps3 W)) (Proc.devRef .tc main_v83) : FVec F S64x2 .f32)
      = tailHost (W (Proc.devRef .tc main_v60)) (W (Proc.devRef .tc main_arg2)) (W (Proc.devRef .tc main_arg9)) (W (Proc.devRef .tc main_arg10))
          (W (Proc.devRef .tc main_arg11)) (W (Proc.devRef .tc main_arg12)) (W (Proc.devRef .tc main_arg13)) (W (Proc.devRef .tc main_arg14)) := by
  after_results_simp; rfl

end Cert.KernelIdeal.Hand

end
-- ==== Proof.KernelPay.lean ====
/-
  What the three layer kernels store, read at an index, on extended reals.

  Each kernel stores three things. A zero block into its accumulator at the first step along the contraction axis; at
  every step the accumulator plus the product of the step's block of the adjacency matrix with the matching rows of the
  node features; and at the last step the layer's output block
  `relu (∑ₖ (attn p · h p k + (1 − attn p) · acc p k) · wl k q + bl q)`. On extended reals a change of float format is the
  identity and a matrix product into a zero accumulator is the sum of the products, so these are the formulas below; the
  first kernel also stores its block of the adjacency matrix in the narrower format, unchanged.
-/
import proofs.«103405_j58265526337970_2_alg».proof.Proof.Gen.KernelIdeal.Skeleton
import proofs.«103405_j58265526337970_2_alg».proof.Proof.Spec
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Hand

open Cert.KernelIdeal Cert.KernelIdeal.Gen Idealize.ShloMosaic Idealize.SL.Sem Idealize.ShloMosaic.ValueIdx

/-! ## A column broadcast along the rows' features -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products at an index -/

theorem mm2048_lhs0 (i : S512x128.Idx) (c : dot_S512x2048_S2048x128_S512x128_1_0_0_1_n_n.contr.Idx) : (dot_S512x2048_S2048x128_S512x128_1_0_0_1_n_n.lhsIdx i c 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem mm2048_lhs1 (i : S512x128.Idx) (c : dot_S512x2048_S2048x128_S512x128_1_0_0_1_n_n.contr.Idx) : (dot_S512x2048_S2048x128_S512x128_1_0_0_1_n_n.lhsIdx i c 1).val = (c ⟨0, by decide⟩).val :=
  dot_S512x2048_S2048x128_S512x128_1_0_0_1_n_n.lhsIdx_val_of_single rfl i c
theorem mm2048_rhs0 (i : S512x128.Idx) (c : dot_S512x2048_S2048x128_S512x128_1_0_0_1_n_n.contr.Idx) : (dot_S512x2048_S2048x128_S512x128_1_0_0_1_n_n.rhsIdx i c 0).val = (c ⟨0, by decide⟩).val :=
  dot_S512x2048_S2048x128_S512x128_1_0_0_1_n_n.rhsIdx_val_of_single rfl i c
theorem mm2048_rhs1 (i : S512x128.Idx) (c : dot_S512x2048_S2048x128_S512x128_1_0_0_1_n_n.contr.Idx) : (dot_S512x2048_S2048x128_S512x128_1_0_0_1_n_n.rhsIdx i c 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product of a `[512, 2048]` block with a `[2048, 128]` block into a zero accumulator, at row `p`, column `q`:
    the sum over the 2048 positions of the products. -/
theorem mm2048_apply (x : FVec Ideal S512x2048 .bf16) (y : FVec Ideal S2048x128 .bf16) (p : Fin 512) (q : Fin 128) :
    (matmul dot_S512x2048_S2048x128_S512x128_1_0_0_1_n_n none x y (constant (F := Ideal) S512x128 .f32 0x00000000#32) : FVec Ideal S512x128 .f32) (ix2 p q)
      = ∑ k : Fin 2048, x (ix2 p k) * y (ix2 k q) := by
  simp only [matmul]
  rw [Ideal.matmul_constant_zero_apply, ← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 p q) ((ValueIdx.contrEquiv1 dot_S512x2048_S2048x128_S512x128_1_0_0_1_n_n 2048 rfl rfl).symm k) = ix2 p k := funext fun a => Fin.ext (by
    match a with
    | ⟨0, _⟩ => exact mm2048_lhs0 _ _
    | ⟨1, _⟩ => exact (mm2048_lhs1 _ _).trans hk)
  have er : dot_S512x2048_S2048x128_S512x128_1_0_0_1_n_n.rhsIdx (ix2 p q) ((ValueIdx.contrEquiv1 dot_S512x2048_S2048x128_S512x128_1_0_0_1_n_n 2048 rfl rfl).symm k) = ix2 k q := funext fun a => Fin.ext (by
    match a with
    | ⟨0, _⟩ => exact (mm2048_rhs0 _ _).trans hk
    | ⟨1, _⟩ => exact mm2048_rhs1 _ _)
  rw [el, er]

theorem mm4096_lhs0 (i : S512x128.Idx) (c : dot_S512x4096_S4096x128_S512x128_1_0_0_1_n_n.contr.Idx) : (dot_S512x4096_S4096x128_S512x128_1_0_0_1_n_n.lhsIdx i c 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem mm4096_lhs1 (i : S512x128.Idx) (c : dot_S512x4096_S4096x128_S512x128_1_0_0_1_n_n.contr.Idx) : (dot_S512x4096_S4096x128_S512x128_1_0_0_1_n_n.lhsIdx i c 1).val = (c ⟨0, by decide⟩).val :=
  dot_S512x4096_S4096x128_S512x128_1_0_0_1_n_n.lhsIdx_val_of_single rfl i c
theorem mm4096_rhs0 (i : S512x128.Idx) (c : dot_S512x4096_S4096x128_S512x128_1_0_0_1_n_n.contr.Idx) : (dot_S512x4096_S4096x128_S512x128_1_0_0_1_n_n.rhsIdx i c 0).val = (c ⟨0, by decide⟩).val :=
  dot_S512x4096_S4096x128_S512x128_1_0_0_1_n_n.rhsIdx_val_of_single rfl i c
theorem mm4096_rhs1 (i : S512x128.Idx) (c : dot_S512x4096_S4096x128_S512x128_1_0_0_1_n_n.contr.Idx) : (dot_S512x4096_S4096x128_S512x128_1_0_0_1_n_n.rhsIdx i c 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The product of a `[512, 4096]` block with a `[4096, 128]` block into a zero accumulator, at row `p`, column `q`:
    the sum over the 4096 positions of the products. -/
theorem mm4096_apply (x : FVec Ideal S512x4096 .bf16) (y : FVec Ideal S4096x128 .bf16) (p : Fin 512) (q : Fin 128) :
    (matmul dot_S512x4096_S4096x128_S512x128_1_0_0_1_n_n none x y (constant (F := Ideal) S512x128 .f32 0x00000000#32) : FVec Ideal S512x128 .f32) (ix2 p q)
      = ∑ k : Fin 4096, x (ix2 p k) * y (ix2 k q) := by
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p q) ((ValueIdx.contrEquiv1 dot_S512x4096_S4096x128_S512x128_1_0_0_1_n_n 4096 rfl rfl).symm k) = ix2 p k := funext fun a => Fin.ext (by
    match a with
    | ⟨0, _⟩ => exact mm4096_lhs0 _ _
    | ⟨1, _⟩ => exact (mm4096_lhs1 _ _).trans hk)
  have er : dot_S512x4096_S4096x128_S512x128_1_0_0_1_n_n.rhsIdx (ix2 p q) ((ValueIdx.contrEquiv1 dot_S512x4096_S4096x128_S512x128_1_0_0_1_n_n 4096 rfl rfl).symm k) = ix2 k q := funext fun a => Fin.ext (by
    match a with
    | ⟨0, _⟩ => exact (mm4096_rhs0 _ _).trans hk
    | ⟨1, _⟩ => exact mm4096_rhs1 _ _)
  rw [el, er]

theorem mm128_lhs0 (i : S512x128.Idx) (c : dot_S512x128_S128x128_S512x128_1_0_0_1_n_n.contr.Idx) : (dot_S512x128_S128x128_S512x128_1_0_0_1_n_n.lhsIdx i c 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mm128_lhs1 (i : S512x128.Idx) (c : dot_S512x128_S128x128_S512x128_1_0_0_1_n_n.contr.Idx) : (dot_S512x128_S128x128_S512x128_1_0_0_1_n_n.lhsIdx i c 1).val = (c ⟨0, by decide⟩).val :=
  dot_S512x128_S128x128_S512x128_1_0_0_1_n_n.lhsIdx_val_of_single rfl i c
theorem mm128_rhs0 (i : S512x128.Idx) (c : dot_S512x128_S128x128_S512x128_1_0_0_1_n_n.contr.Idx) : (dot_S512x128_S128x128_S512x128_1_0_0_1_n_n.rhsIdx i c 0).val = (c ⟨0, by decide⟩).val :=
  dot_S512x128_S128x128_S512x128_1_0_0_1_n_n.rhsIdx_val_of_single rfl i c
theorem mm128_rhs1 (i : S512x128.Idx) (c : dot_S512x128_S128x128_S512x128_1_0_0_1_n_n.contr.Idx) : (dot_S512x128_S128x128_S512x128_1_0_0_1_n_n.rhsIdx i c 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product of a `[512, 128]` block with a `[128, 128]` block into a zero accumulator, at row `p`, column `q`:
    the sum over the 128 positions of the products. -/
theorem mm128_apply (x : FVec Ideal S512x128 .bf16) (y : FVec Ideal S128x128 .bf16) (p : Fin 512) (q : Fin 128) :
    (matmul dot_S512x128_S128x128_S512x128_1_0_0_1_n_n none x y (constant (F := Ideal) S512x128 .f32 0x00000000#32) : FVec Ideal S512x128 .f32) (ix2 p q)
      = ∑ k : Fin 128, x (ix2 p k) * y (ix2 k q) := by
  simp only [matmul]
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k := funext fun a => Fin.ext (by
    match a with
    | ⟨0, _⟩ => exact mm128_lhs0 _ _
    | ⟨1, _⟩ => exact (mm128_lhs1 _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q := funext fun a => Fin.ext (by
    match a with
    | ⟨0, _⟩ => exact (mm128_rhs0 _ _).trans hk
    | ⟨1, _⟩ => exact mm128_rhs1 _ _)
  rw [el, er]

/-! ## The first kernel (adjacency blocks of 2048 columns) -/

/-- The accumulator's reset: a zero block. -/
theorem k0_pay1_apply (p : Fin 512) (q : Fin 128) : k0_pay1 (F := Ideal) (ix2 p q) = 0 := by
  unfold k0_pay1
  simp only [shapeCast_self]
  exact Ideal.ofBits_zero_f32

/-- The adjacency block in the narrower format is the block. -/
theorem k0_pay2_apply (x : Vec Ideal S512x2048 .f32) (p : Fin 512) (j : Fin 2048) :
    k0_pay2 (F := Ideal) x (ix2 p j) = x (ix2 p j) := rfl

/-- One step of the accumulation at row `p`, feature `q`: the accumulator plus the sum over the step's 2048 columns of
    the adjacency block times the matching rows of the node features. -/
theorem k0_pay3_apply (x : Vec Ideal S512x2048 .f32) (hs : Vec Ideal S2048x128 .f32) (a : Vec Ideal S512x128 .f32)
    (p : Fin 512) (q : Fin 128) :
    k0_pay3 (F := Ideal) x hs a (ix2 p q) = a (ix2 p q) + ∑ j : Fin 2048, x (ix2 p j) * hs (ix2 j q) := by
  unfold k0_pay3 k0_pay2
  simp only [shapeCast_self]
  refine (addf_apply _ _ (ix2 p q)).trans ?_
  refine congrArg (a (ix2 p q) + ·) ?_
  exact mm2048_apply _ _ p q

/-- The layer's output block at row `p`, feature `q`, from the rows `hr` of the node features, the gate's column `g`,
    the accumulated message `acc`, the linear map `wl` and the bias row `bl`. -/
theorem k0_pay4_apply (hr : Vec Ideal S512x128 .f32) (g : Vec Ideal S512x1 .f32) (acc : Vec Ideal S512x128 .f32)
    (wl : Vec Ideal S128x128 .f32) (bl : Vec Ideal S1x128 .f32) (p : Fin 512) (q : Fin 128) :
    k0_pay4 (F := Ideal) hr g acc wl bl (ix2 p q)
      = max ((∑ k : Fin 128, (g (ix2 p 0) * hr (ix2 p k) + (1 - g (ix2 p 0)) * acc (ix2 p k)) * wl (ix2 k q)) + bl (ix2 0 q)) 0 := by
  unfold k0_pay4
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply bl broadcasts_S1x128_S512x128 p q)
  refine (mm128_apply _ _ p q).trans ?_
  refine Finset.sum_congr rfl fun k _ => ?_
  refine congrArg₂ (· * ·) ?_ rfl
  show broadcastTo S512x128 g broadcasts_S512x1_S512x128 (ix2 p k) * hr (ix2 p k)
      + (Ideal.ofBits .f32 0x3F800000#32 - broadcastTo S512x128 g broadcasts_S512x1_S512x128 (ix2 p k)) * acc (ix2 p k) = _
  rw [broadcastTo_a1_ab_apply g broadcasts_S512x1_S512x128 p k, Ideal.ofBits_one_f32]

/-! ## The second kernel (adjacency blocks of 4096 columns) -/

/-- The accumulator's reset: a zero block. -/
theorem k1_pay1_apply (p : Fin 512) (q : Fin 128) : k1_pay1 (F := Ideal) (ix2 p q) = 0 := by
  unfold k1_pay1
  simp only [shapeCast_self]
  exact Ideal.ofBits_zero_f32

/-- One step of the accumulation at row `p`, feature `q`: the accumulator plus the sum over the step's 4096 columns of
    the adjacency block times the matching rows of the node features. -/
theorem k1_pay2_apply (x : Vec Ideal S512x4096 .bf16) (hs : Vec Ideal S4096x128 .f32) (a : Vec Ideal S512x128 .f32)
    (p : Fin 512) (q : Fin 128) :
    k1_pay2 (F := Ideal) x hs a (ix2 p q) = a (ix2 p q) + ∑ j : Fin 4096, x (ix2 p j) * hs (ix2 j q) := by
  unfold k1_pay2
  simp only [shapeCast_self]
  refine (addf_apply _ _ (ix2 p q)).trans ?_
  refine congrArg (a (ix2 p q) + ·) ?_
  exact mm4096_apply _ _ p q

/-- The layer's output block at row `p`, feature `q`, from the rows `hr` of the node features, the gate's column `g`,
    the accumulated message `acc`, the linear map `wl` and the bias row `bl`. -/
theorem k1_pay3_apply (hr : Vec Ideal S512x128 .f32) (g : Vec Ideal S512x1 .f32) (acc : Vec Ideal S512x128 .f32)
    (wl : Vec Ideal S128x128 .f32) (bl : Vec Ideal S1x128 .f32) (p : Fin 512) (q : Fin 128) :
    k1_pay3 (F := Ideal) hr g acc wl bl (ix2 p q)
      = max ((∑ k : Fin 128, (g (ix2 p 0) * hr (ix2 p k) + (1 - g (ix2 p 0)) * acc (ix2 p k)) * wl (ix2 k q)) + bl (ix2 0 q)) 0 := by
  unfold k1_pay3
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply bl broadcasts_S1x128_S512x128 p q)
  refine (mm128_apply _ _ p q).trans ?_
  refine Finset.sum_congr rfl fun k _ => ?_
  refine congrArg₂ (· * ·) ?_ rfl
  show broadcastTo S512x128 g broadcasts_S512x1_S512x128 (ix2 p k) * hr (ix2 p k)
      + (Ideal.ofBits .f32 0x3F800000#32 - broadcastTo S512x128 g broadcasts_S512x1_S512x128 (ix2 p k)) * acc (ix2 p k) = _
  rw [broadcastTo_a1_ab_apply g broadcasts_S512x1_S512x128 p k, Ideal.ofBits_one_f32]

/-! ## The third kernel (the same text as the second) -/

/-- The accumulator's reset: a zero block. -/
theorem k2_pay1_apply (p : Fin 512) (q : Fin 128) : k2_pay1 (F := Ideal) (ix2 p q) = 0 := by
  unfold k2_pay1
  simp only [shapeCast_self]
  exact Ideal.ofBits_zero_f32

/-- One step of the accumulation at row `p`, feature `q`: the accumulator plus the sum over the step's 4096 columns of
    the adjacency block times the matching rows of the node features. -/
theorem k2_pay2_apply (x : Vec Ideal S512x4096 .bf16) (hs : Vec Ideal S4096x128 .f32) (a : Vec Ideal S512x128 .f32)
    (p : Fin 512) (q : Fin 128) :
    k2_pay2 (F := Ideal) x hs a (ix2 p q) = a (ix2 p q) + ∑ j : Fin 4096, x (ix2 p j) * hs (ix2 j q) := by
  unfold k2_pay2
  simp only [shapeCast_self]
  refine (addf_apply _ _ (ix2 p q)).trans ?_
  refine congrArg (a (ix2 p q) + ·) ?_
  exact mm4096_apply _ _ p q

/-- The layer's output block at row `p`, feature `q`, from the rows `hr` of the node features, the gate's column `g`,
    the accumulated message `acc`, the linear map `wl` and the bias row `bl`. -/
theorem k2_pay3_apply (hr : Vec Ideal S512x128 .f32) (g : Vec Ideal S512x1 .f32) (acc : Vec Ideal S512x128 .f32)
    (wl : Vec Ideal S128x128 .f32) (bl : Vec Ideal S1x128 .f32) (p : Fin 512) (q : Fin 128) :
    k2_pay3 (F := Ideal) hr g acc wl bl (ix2 p q)
      = max ((∑ k : Fin 128, (g (ix2 p 0) * hr (ix2 p k) + (1 - g (ix2 p 0)) * acc (ix2 p k)) * wl (ix2 k q)) + bl (ix2 0 q)) 0 := by
  unfold k2_pay3
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply bl broadcasts_S1x128_S512x128 p q)
  refine (mm128_apply _ _ p q).trans ?_
  refine Finset.sum_congr rfl fun k _ => ?_
  refine congrArg₂ (· * ·) ?_ rfl
  show broadcastTo S512x128 g broadcasts_S512x1_S512x128 (ix2 p k) * hr (ix2 p k)
      + (Ideal.ofBits .f32 0x3F800000#32 - broadcastTo S512x128 g broadcasts_S512x1_S512x128 (ix2 p k)) * acc (ix2 p k) = _
  rw [broadcastTo_a1_ab_apply g broadcasts_S512x1_S512x128 p k, Ideal.ofBits_one_f32]

end Cert.KernelIdeal.Hand

end
-- ==== Proof.BiasRow.lean ====
/-
  The bias row: a vector of length 128 reshaped to a `[1, 128]` array reads, at `(0, q)`, the vector at `q`.
-/
import proofs.«103405_j58265526337970_2_alg».proof.Proof.Gen.KernelIdeal
import Idealize.ShloMosaic.Lib.ValueLayout

noncomputable section

namespace Cert.KernelIdeal.Hand

open Cert.KernelIdeal Cert.KernelIdeal.Gen Idealize.ShloMosaic Idealize.ShloMosaic.ValueIdx

/-- The reshape of a bias vector to a one-row array, at `(0, q)`. -/
theorem biasRow_apply {F : FTy → Type} [FloatOps F] (v : FVec F S128 .f32) (q : Fin 128) :
    (shapeCast S1x128 v shapeCasts_S128_S1x128 : FVec F S1x128 .f32) (ix2 0 q) = v (ix1 q) :=
  shapeCast_a_1a_apply v shapeCasts_S128_S1x128 0 q

end Cert.KernelIdeal.Hand

end
-- ==== Proof.LayerPieces0.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerData0
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's region (pallas_call 0): what the runs' pieces are, as the body's arithmetic -/

theorem hz2_0 : (![0, 0] : Fin 2 → Nat) = fun _ => 0 := funext fun a => by fin_cases a <;> rfl

abbrev kRows0 (i : grid0.Coords) : Rect S16384x128 := Rect.unit (s := S16384x128) (k0_off1 i) S2048x128.size (k0_off1_inb i)
abbrev tRows0 (i : grid0.Coords) (h : last0 i) : Rect S16384x128 := Rect.unit (s := S16384x128) (k0_off2 i) S512x128.size (k0_off2_inb i h)

theorem accMid0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) :
    accMid0 c i arg2 harg2 arg3 harg3 arg4 harg4 arg5 harg5 arg6 harg6 arg7 harg7 arg8 harg8 arg9 harg9 hc0 hc1 x0 x1 xs = k0_pay3 x0 (View.ld x1 (kRows0 i)) xs := by
  unfold accMid0
  rw [View.read_writes_eq_canon _ _ _ (accMid0_cover c i arg2 harg2 arg3 harg3 arg4 harg4 arg5 harg5 arg6 harg6 arg7 harg7 arg8 harg8 arg9 harg9 hc0 hc1 x0 x1 xs)]
  unfold run0_mid
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

theorem accFirst0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) :
    accFirst0 c i arg2 harg2 arg3 harg3 arg4 harg4 arg5 harg5 arg6 harg6 arg7 harg7 arg8 harg8 arg9 harg9 hc0 hc1 x0 x1 = k0_pay3 x0 (View.ld x1 (kRows0 i)) (k0_pay1 (F := F)) := by
  unfold accFirst0
  rw [View.read_writes_eq_canon _ _ _ (accFirst0_cover c i arg2 harg2 arg3 harg3 arg4 harg4 arg5 harg5 arg6 harg6 arg7 harg7 arg8 harg8 arg9 harg9 hc0 hc1 x0 x1)]
  unfold run0_first
  dsimp only
  sl_unfold_words
  rw [View.canon_cons_unit_zero (S := S512x128) hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

theorem accLast0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) :
    accLast0 c i arg2 harg2 arg3 harg3 arg4 harg4 arg5 harg5 arg6 harg6 arg7 harg7 arg8 harg8 arg9 harg9 hc0 hc1 x0 x1 x2 x3 x4 xs = k0_pay3 x0 (View.ld x1 (kRows0 i)) xs := by
  unfold accLast0
  rw [View.read_writes_eq_canon _ _ _ (accLast0_cover c i arg2 harg2 arg3 harg3 arg4 harg4 arg5 harg5 arg6 harg6 arg7 harg7 arg8 harg8 arg9 harg9 hc0 hc1 x0 x1 x2 x3 x4 xs)]
  unfold run0_last
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

theorem resLast0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) :
    resLast0 c i arg2 harg2 arg3 harg3 arg4 harg4 arg5 harg5 arg6 harg6 arg7 harg7 arg8 harg8 arg9 harg9 hc0 hc1 x0 x1 x2 x3 x4 xs = k0_pay4 (View.ld x1 (tRows0 i hc1)) x2 (k0_pay3 x0 (View.ld x1 (kRows0 i)) xs) x3 x4 := by
  unfold resLast0
  rw [View.read_writes_eq_canon _ _ _ (resLast0_cover c i arg2 harg2 arg3 harg3 arg4 harg4 arg5 harg5 arg6 harg6 arg7 harg7 arg8 harg8 arg9 harg9 hc0 hc1 x0 x1 x2 x3 x4 xs)]
  unfold run0_last
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

/-- The narrow copy's buffer holds the adjacency tile changed of format, at every point. -/
theorem cpyFirst0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : first0 i) (hc1 : ¬last0 i)
    (x0 : Vec F S512x2048 .f32) (x1 : Vec F S16384x128 .f32) :
    cpyFirst0 c i arg2 harg2 arg3 harg3 arg4 harg4 arg5 harg5 arg6 harg6 arg7 harg7 arg8 harg8 arg9 harg9 hc0 hc1 x0 x1 = k0_pay2 x0 := by
  unfold cpyFirst0
  rw [View.read_writes_eq_canon _ _ _ (cpyFirst0_cover c i arg2 harg2 arg3 harg3 arg4 harg4 arg5 harg5 arg6 harg6 arg7 harg7 arg8 harg8 arg9 harg9 hc0 hc1 x0 x1)]
  unfold run0_first
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

theorem cpyMid0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : ¬last0 i)
    (x0 : Vec F S512x2048 .f32) (x1 : Vec F S16384x128 .f32) (xs : Vec F S512x128 .f32) :
    cpyMid0 c i arg2 harg2 arg3 harg3 arg4 harg4 arg5 harg5 arg6 harg6 arg7 harg7 arg8 harg8 arg9 harg9 hc0 hc1 x0 x1 xs = k0_pay2 x0 := by
  unfold cpyMid0
  rw [View.read_writes_eq_canon _ _ _ (cpyMid0_cover c i arg2 harg2 arg3 harg3 arg4 harg4 arg5 harg5 arg6 harg6 arg7 harg7 arg8 harg8 arg9 harg9 hc0 hc1 x0 x1 xs)]
  unfold run0_mid
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

theorem cpyLast0_eq (c : Dev nD) (i : grid0.Coords) (arg2 : Memref sig .tc .vmem S512x2048 .f32) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x2048 .bf16) (harg8 : arg8.IsWhole) (arg9 : Memref sig .tc .vmem S512x128 .f32) (harg9 : arg9.IsWhole) (hc0 : ¬first0 i) (hc1 : last0 i)
    (x0 : Vec F S512x2048 .f32) (x1 : Vec F S16384x128 .f32) (x2 : Vec F S512x1 .f32) (x3 : Vec F S128x128 .f32) (x4 : Vec F S1x128 .f32) (xs : Vec F S512x128 .f32) :
    cpyLast0 c i arg2 harg2 arg3 harg3 arg4 harg4 arg5 harg5 arg6 harg6 arg7 harg7 arg8 harg8 arg9 harg9 hc0 hc1 x0 x1 x2 x3 x4 xs = k0_pay2 x0 := by
  unfold cpyLast0
  rw [View.read_writes_eq_canon _ _ _ (cpyLast0_cover c i arg2 harg2 arg3 harg3 arg4 harg4 arg5 harg5 arg6 harg6 arg7 harg7 arg8 harg8 arg9 harg9 hc0 hc1 x0 x1 x2 x3 x4 xs)]
  unfold run0_last
  dsimp only
  sl_unfold_words
  rw [View.canon_unit_zero hz2_0]
  simp only [View.readCov_unit_zero (S := S512x128) _ hz2_0, View.readAt_eq_ld, harg2.read_unread, harg3.read_unread, harg4.read_unread, harg5.read_unread, harg6.read_unread, harg9.read_unread,
    View.ld_unit_zero (S := S512x2048) hz2_0, View.ld_unit_zero (S := S512x128) hz2_0, View.ld_unit_zero (S := S512x1) hz2_0,
    View.ld_unit_zero (S := S128x128) hz2_0, View.ld_unit_zero (S := S1x128) hz2_0]
  try rfl

end Cert.KernelIdeal.Hand

end
-- ==== Proof.CopyValue0.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerPieces0
import Idealize.ShloMosaic.Lib.Pipeline.Value
import Idealize.ShloMosaic.PureOps.Ideal
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first layer's second result: the adjacency matrix in the narrow format

At the exact instance a change of float format is the identity, so what each point writes back into the copy is the
adjacency tile it was handed; the copy's blocks sit where the adjacency's do and tile the matrix, so the copy ends
holding the adjacency matrix, entry by entry. -/

variable (V : (c : Dev nD) → (b : Ref sig .tc) → Buf (Elt Ideal) ((c : Thread nD τ).loc b))

/-- The printed index maps, decided over the grid: the copy's block moves with the adjacency's, at (row tile, K tile). -/
theorem idx_copy0 : ∀ t : Fin cfg0.N, win0_0.index t (0 : Fin 2) = win0_6.index t (0 : Fin 2)
    ∧ win0_0.index t (1 : Fin 2) = win0_6.index t (1 : Fin 2)
    ∧ win0_6.index t (0 : Fin 2) ≤ 31 ∧ win0_6.index t (1 : Fin 2) ≤ 7 :=
  (by decide +kernel : ∀ t : Fin grid0.N, _)

/-- Every block of the matrix is some point's. -/
theorem idx_onto_copy0 : ∀ (q0 : Fin 32) (q1 : Fin 8), ∃ t : Fin cfg0.N, win0_6.index t = ![q0.val, q1.val] :=
  (by decide +kernel : ∀ (q0 : Fin 32) (q1 : Fin 8), ∃ t : Fin grid0.N, win0_6.index t = ![q0.val, q1.val])

/-- What the copy's buffer holds after any point is the adjacency tile of that point, entry by entry. -/
theorem cpyAt0_apply (c : Dev nD) (t : Fin cfg0.N) (j : S512x2048.Idx) :
    (cpyAt0 (F := Ideal) V c t j : EReal) = (blk0 (F := Ideal) V c 0 t j : EReal) := by
  unfold cpyAt0
  split_ifs with h1 h0
  · rw [cpyLast0_eq]; rfl
  · rw [cpyFirst0_eq]; rfl
  · rw [cpyMid0_eq]; rfl

/-- What the copy's array ends holding: the adjacency matrix as the region finds it. -/
abbrev copyOf (c : Dev nD) : Buf (Elt Ideal) ((cfg0.win 6).arr.view.loc (c.tc : Thread nD τ)) :=
  fun i => (V c (Pipeline.arrRef spec0 0) i : EReal)

/-- WHAT POINT `t` WRITES BACK is block `t` of the adjacency matrix. -/
theorem flushed_copy0 (c : Dev nD) (t : Fin cfg0.N) :
    (dat0 (F := Ideal) V c).flushed 6 t = ((cfg0.win 6).blk t).view.read (Elt Ideal) (copyOf V c) := by
  show (cfg0.win 6).cut (grid0.coords t) ((dat0 (F := Ideal) V c).after 6 t) = _
  rw [after0_6]
  obtain ⟨e0, e1, -, -⟩ := idx_copy0 t
  funext j
  show (cpyAt0 (F := Ideal) V c t j : EReal) = (V c (Pipeline.arrRef spec0 0) (((cfg0.win 6).blk t).view.emb j) : EReal)
  rw [cpyAt0_apply]
  show (V c (Pipeline.arrRef spec0 0) (((cfg0.win 0).blk t).view.emb j) : EReal) = V c (Pipeline.arrRef spec0 0) (((cfg0.win 6).blk t).view.emb j)
  have h0 : ((cfg0.win 0).blk t).view.emb j = ((cfg0.win 6).blk t).view.emb j := by
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 2048 + 1 * (j 1).val = win0_6.index t (1 : Fin 2) * 2048 + 1 * (j 1).val; omega
  rw [h0]

/-- An index of the matrix is in point `t`'s block iff each coordinate is in the block's range on its axis. -/
theorem mem_copy0 (t : Fin cfg0.N) (i : S16384x16384.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v22_1).slice (win0_6.rect t)).set ↔ _
  rw [View.set_slice_whole, Rect.mem_set_unit]
  exact Iff.rfl

/-- Every index is in some point's block: the blocks tile the matrix. -/
theorem cover_copy0 (i : S16384x16384.Idx) :
    ∃ t : Fin cfg0.N, (cfg0.win 6).flush t = true ∧ i ∈ ((cfg0.win 6).blk t).view.set := by
  have hi0 : (i 0).val < 16384 := (i 0).isLt
  have hi1 : (i 1).val < 16384 := (i 1).isLt
  obtain ⟨t, ht⟩ := idx_onto_copy0 ⟨(i 0).val / 512, by omega⟩ ⟨(i 1).val / 2048, by omega⟩
  have q0 : win0_6.index t (0 : Fin 2) = (i 0).val / 512 := congrFun ht 0
  have q1 : win0_6.index t (1 : Fin 2) = (i 1).val / 2048 := congrFun ht 1
  refine ⟨t, flush0_6 t, ?_⟩
  rw [mem_copy0]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- THE COPY after the region: the adjacency matrix. -/
theorem copy0_value (c : Dev nD) : (dat0 (F := Ideal) V c).arrAt 6 cfg0.N = copyOf V c :=
  (dat0 (F := Ideal) V c).arrAt_eq_of_cover 6 (copyOf V c) (fun t _ => flushed_copy0 V c t) (cover_copy0)

end Cert.KernelIdeal.Hand

end
-- ==== Proof.KernelValue.lean ====
import proofs.«103405_j58265526337970_2_alg».proof.Proof.Halves
import proofs.«103405_j58265526337970_2_alg».proof.Proof.KernelHost
import proofs.«103405_j58265526337970_2_alg».proof.Proof.KernelPay
import proofs.«103405_j58265526337970_2_alg».proof.Proof.BiasRow
import proofs.«103405_j58265526337970_2_alg».proof.Proof.CopyValue0

set_option maxRecDepth 16384

noncomputable section

namespace Cert.KernelIdeal.Hand

open Cert.KernelIdeal Cert.KernelIdeal.Gen Cert.ReferenceIdeal.RefValue
open Idealize.ShloMosaic Idealize.ShloMosaic.TcCoe Idealize.ShloMosaic.ValueIdx
open Idealize.SL Idealize.SL.Sem
open Idealize.ShloMosaic.Pipeline (Dat)

/-! # The kernel program's result, at the exact instance

Each region leaves in its result array one layer of the network applied to the arrays it was entered with; the host
stretches between the regions compute the encoder, each layer's gate and the slices of the weights, and after the
last region the per-graph mean and the classifier. Composed along the run's contents fold, the result buffer ends at
the same composition of whole-array functions the reference's run ends at. -/

/-- One layer from whole arrays, the bias as the `[1, 128]` row a region is handed: entry `(r, c)` is
    `max (∑ₖ (g r · h r k + (1 − g r) · ∑ⱼ adj r j · h j k) · wl k c + bl c) 0`. -/
def layerOf (adj : S16384x16384.Idx → EReal) (h : S16384x128.Idx → EReal) (g : S16384x1.Idx → EReal)
    (wl : S128x128.Idx → EReal) (bl : S1x128.Idx → EReal) : S16384x128.Idx → EReal :=
  fun i => Cert.Spec.layer (fun r j => adj (ix2 r j)) (fun r k => h (ix2 r k)) (fun r => g (ix2 r 0))
    (fun k q => wl (ix2 k q)) (fun q => bl (ix2 0 q)) (i 0) (i 1)

/-- With the bias row a reshaped vector, that is the host's layer of the same arrays. -/
theorem layerOf_host (adj : FVec Ideal S16384x16384 .f32) (h : FVec Ideal S16384x128 .f32) (g : FVec Ideal S16384x1 .f32)
    (wl : FVec Ideal S128x128 .f32) (b : FVec Ideal S128 .f32) :
    layerOf adj h g wl (shapeCast S1x128 b shapeCasts_S128_S1x128) = layerHost (F := Ideal) adj h g wl b := by
  funext i
  rw [layerHost_apply']
  unfold layerOf
  congr 1
  funext q
  exact biasRow_apply b q

variable (m : (ℓ : Loc nD τ sig) → Buf (Elt Ideal) ℓ)

/-! ## A buffer no item up to a boundary writes holds there what the launch memory holds -/

theorem keep3 (c : Dev nD) (r : Ref sig .tc) (g0 : r ∉ hostOps0_W ∧ r ∉ hostOps0_1_W) (s0 : ∀ w, Pipeline.arrRef spec0 w ≠ r) :
    W3 m (half0 (F := Ideal)) c (Proc.devRef .tc r) = m ((c : Thread nD τ).loc r) :=
  (W3_of_ne m half0 c r s0).trans (W2_of_W0 m c r g0)

theorem keep6 (c : Dev nD) (r : Ref sig .tc) (g0 : r ∉ hostOps0_W ∧ r ∉ hostOps0_1_W) (s0 : ∀ w, Pipeline.arrRef spec0 w ≠ r)
    (ga : r ∉ hostOps1_W) (gb : r ∉ hostOps1_1_W) (s1 : ∀ w, Pipeline.arrRef spec1 w ≠ r) :
    W6 m (half0 (F := Ideal)) half1 c (Proc.devRef .tc r) = m ((c : Thread nD τ).loc r) :=
  (W6_of_ne m half0 half1 c r s1).trans <| (StableHlo.after_of_writes_sub hostOps1_1 _ hostOps1_1_writes gb).trans <|
    (StableHlo.after_of_writes_sub hostOps1 _ hostOps1_writes ga).trans (keep3 m c r g0 s0)

theorem keep9 (c : Dev nD) (r : Ref sig .tc) (g0 : r ∉ hostOps0_W ∧ r ∉ hostOps0_1_W) (s0 : ∀ w, Pipeline.arrRef spec0 w ≠ r)
    (ga : r ∉ hostOps1_W) (gb : r ∉ hostOps1_1_W) (s1 : ∀ w, Pipeline.arrRef spec1 w ≠ r)
    (gc : r ∉ hostOps2_W) (gd : r ∉ hostOps2_1_W) (s2 : ∀ w, Pipeline.arrRef spec2 w ≠ r) :
    W9 m (half0 (F := Ideal)) half1 half2 c (Proc.devRef .tc r) = m ((c : Thread nD τ).loc r) :=
  (W9_of_ne m half0 half1 half2 c r s2).trans <| (StableHlo.after_of_writes_sub hostOps2_1 _ hostOps2_1_writes gd).trans <|
    (StableHlo.after_of_writes_sub hostOps2 _ hostOps2_writes gc).trans (keep6 m c r g0 s0 ga gb s1)

/-! ## The first region -/

set_option maxHeartbeats 2000000 in
/-- The first region leaves the first layer of the encoder's output in its result array, -/
theorem out0 (hv0 : ∀ (V : (c : Dev nD) → (b : Ref sig .tc) → Buf (Elt Ideal) ((c : Thread nD τ).loc b)) (c : Dev nD),
      (dat0 (F := Ideal) V c).arrAt 5 cfg0.N = layerOf (V c (Pipeline.arrRef spec0 0)) (V c (Pipeline.arrRef spec0 1)) (V c (Pipeline.arrRef spec0 2)) (V c (Pipeline.arrRef spec0 3)) (V c (Pipeline.arrRef spec0 4))) (c : Dev nD) :
    (W3 m (half0 (F := Ideal)) c (Proc.devRef .tc main_v22_0) : FVec Ideal S16384x128 .f32) = h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have a0 : (En0 m c (Pipeline.arrRef spec0 0) : FVec Ideal S16384x16384 .f32) = (m ((c.tc : Thread nD τ).loc main_arg1)) := pre0_arg1 (W0 m c)
  have a1 : (En0 m c (Pipeline.arrRef spec0 1) : FVec Ideal S16384x128 .f32) = encHost (F := Ideal) (m ((c.tc : Thread nD τ).loc main_arg0)) (m ((c.tc : Thread nD τ).loc main_arg3)) (m ((c.tc : Thread nD τ).loc main_arg4)) := pre0_v3 (W0 m c)
  have a2 : (En0 m c (Pipeline.arrRef spec0 2) : FVec Ideal S16384x1 .f32)
      = gateHost (F := Ideal) (encHost (F := Ideal) (m ((c.tc : Thread nD τ).loc main_arg0)) (m ((c.tc : Thread nD τ).loc main_arg3)) (m ((c.tc : Thread nD τ).loc main_arg4))) (waAt0 (F := Ideal) (m ((c.tc : Thread nD τ).loc main_arg7))) (baAt0 (F := Ideal) (m ((c.tc : Thread nD τ).loc main_arg8))) := pre0_v17 (W0 m c)
  have a3 : (En0 m c (Pipeline.arrRef spec0 3) : FVec Ideal S128x128 .f32) = wlAt0 (F := Ideal) (m ((c.tc : Thread nD τ).loc main_arg5)) := pre0_v19 (W0 m c)
  have a4 : (En0 m c (Pipeline.arrRef spec0 4) : FVec Ideal S1x128 .f32) = shapeCast S1x128 (blAt0 (F := Ideal) (m ((c.tc : Thread nD τ).loc main_arg6))) shapeCasts_S128_S1x128 := pre0_call0_v0 (W0 m c)
  exact (W3_main_v22_0 m half0 c).trans <| (hv0 (En0 m) c).trans <|
    (congr (congr (congr (congr (congrArg layerOf a0) a1) a2) a3) a4).trans (layerOf_host _ _ _ _ _)

/-- and the adjacency matrix in its second. -/
theorem out0c (c : Dev nD) :
    (W3 m (half0 (F := Ideal)) c (Proc.devRef .tc main_v22_1) : FVec Ideal S16384x16384 .f32) = (m ((c.tc : Thread nD τ).loc main_arg1)) :=
  (W3_main_v22_1 m half0 c).trans <| (copy0_value (En0 m) c).trans (pre0_arg1 (W0 m c))

/-! ## The second region -/

set_option maxHeartbeats 2000000 in
theorem out1 (hv0 : ∀ (V : (c : Dev nD) → (b : Ref sig .tc) → Buf (Elt Ideal) ((c : Thread nD τ).loc b)) (c : Dev nD),
      (dat0 (F := Ideal) V c).arrAt 5 cfg0.N = layerOf (V c (Pipeline.arrRef spec0 0)) (V c (Pipeline.arrRef spec0 1)) (V c (Pipeline.arrRef spec0 2)) (V c (Pipeline.arrRef spec0 3)) (V c (Pipeline.arrRef spec0 4))) (hv1 : ∀ (V : (c : Dev nD) → (b : Ref sig .tc) → Buf (Elt Ideal) ((c : Thread nD τ).loc b)) (c : Dev nD),
      (dat1 (F := Ideal) V c).arrAt 5 cfg1.N = layerOf (V c (Pipeline.arrRef spec1 0)) (V c (Pipeline.arrRef spec1 1)) (V c (Pipeline.arrRef spec1 2)) (V c (Pipeline.arrRef spec1 3)) (V c (Pipeline.arrRef spec1 4))) (c : Dev nD) :
    (W6 m (half0 (F := Ideal)) half1 c (Proc.devRef .tc main_v41) : FVec Ideal S16384x128 .f32) = h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have b0 : (En1 m (half0 (F := Ideal)) c (Pipeline.arrRef spec1 0) : FVec Ideal S16384x16384 .f32) = (m ((c.tc : Thread nD τ).loc main_arg1)) := (pre1_v22_1 (W3 m half0 c)).trans (out0c m c)
  have b1 : (En1 m (half0 (F := Ideal)) c (Pipeline.arrRef spec1 1) : FVec Ideal S16384x128 .f32) = h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (pre1_v22_0 (W3 m half0 c)).trans (out0 m hv0 c)
  have b2 : (En1 m (half0 (F := Ideal)) c (Pipeline.arrRef spec1 2) : FVec Ideal S16384x1 .f32) = gateHost (F := Ideal) (h1 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (waAt1 (F := Ideal) (m ((c.tc : Thread nD τ).loc main_arg7))) (baAt1 (F := Ideal) (m ((c.tc : Thread nD τ).loc main_arg8))) :=
    (pre1_v36 (W3 m half0 c)).trans (congr (congr (congrArg (gateHost (F := Ideal)) (out0 m hv0 c))
      (congrArg (waAt1 (F := Ideal)) (keep3 m c main_arg7 (by decide) (by decide)))) (congrArg (baAt1 (F := Ideal)) (keep3 m c main_arg8 (by decide) (by decide))))
  have b3 : (En1 m (half0 (F := Ideal)) c (Pipeline.arrRef spec1 3) : FVec Ideal S128x128 .f32) = wlAt1 (F := Ideal) (m ((c.tc : Thread nD τ).loc main_arg5)) :=
    (pre1_v38 (W3 m half0 c)).trans (congrArg (wlAt1 (F := Ideal)) (keep3 m c main_arg5 (by decide) (by decide)))
  have b4 : (En1 m (half0 (F := Ideal)) c (Pipeline.arrRef spec1 4) : FVec Ideal S1x128 .f32) = shapeCast S1x128 (blAt1 (F := Ideal) (m ((c.tc : Thread nD τ).loc main_arg6))) shapeCasts_S128_S1x128 :=
    (pre1_call1_v0 (W3 m half0 c)).trans (congrArg (fun v => shapeCast S1x128 (blAt1 (F := Ideal) v) shapeCasts_S128_S1x128) (keep3 m c main_arg6 (by decide) (by decide)))
  exact (W6_main_v41 m half0 half1 c).trans <| (hv1 (En1 m half0) c).trans <|
    (congr (congr (congr (congr (congrArg layerOf b0) b1) b2) b3) b4).trans (layerOf_host _ _ _ _ _)

/-- The second region reads the adjacency copy through an input window and leaves it as it found it. -/
theorem out1c (c : Dev nD) :
    (W6 m (half0 (F := Ideal)) half1 c (Proc.devRef .tc main_v22_1) : FVec Ideal S16384x16384 .f32) = (m ((c.tc : Thread nD τ).loc main_arg1)) :=
  ((W6_arr m half0 half1 c 0).trans ((((half1 (F := Ideal)).dat (En1 m half0) c).arrAt_in 0 rfl _).trans ((half1 (F := Ideal)).hA (En1 m half0) c 0))).trans
    ((pre1_v22_1 (W3 m half0 c)).trans (out0c m c))

/-! ## The third region -/

set_option maxHeartbeats 2000000 in
theorem out2 (hv0 : ∀ (V : (c : Dev nD) → (b : Ref sig .tc) → Buf (Elt Ideal) ((c : Thread nD τ).loc b)) (c : Dev nD),
      (dat0 (F := Ideal) V c).arrAt 5 cfg0.N = layerOf (V c (Pipeline.arrRef spec0 0)) (V c (Pipeline.arrRef spec0 1)) (V c (Pipeline.arrRef spec0 2)) (V c (Pipeline.arrRef spec0 3)) (V c (Pipeline.arrRef spec0 4)))
    (hv1 : ∀ (V : (c : Dev nD) → (b : Ref sig .tc) → Buf (Elt Ideal) ((c : Thread nD τ).loc b)) (c : Dev nD),
      (dat1 (F := Ideal) V c).arrAt 5 cfg1.N = layerOf (V c (Pipeline.arrRef spec1 0)) (V c (Pipeline.arrRef spec1 1)) (V c (Pipeline.arrRef spec1 2)) (V c (Pipeline.arrRef spec1 3)) (V c (Pipeline.arrRef spec1 4)))
    (hv2 : ∀ (V : (c : Dev nD) → (b : Ref sig .tc) → Buf (Elt Ideal) ((c : Thread nD τ).loc b)) (c : Dev nD),
      (dat2 (F := Ideal) V c).arrAt 5 cfg2.N = layerOf (V c (Pipeline.arrRef spec2 0)) (V c (Pipeline.arrRef spec2 1)) (V c (Pipeline.arrRef spec2 2)) (V c (Pipeline.arrRef spec2 3)) (V c (Pipeline.arrRef spec2 4))) (c : Dev nD) :
    (W9 m (half0 (F := Ideal)) half1 half2 c (Proc.devRef .tc main_v60) : FVec Ideal S16384x128 .f32) = h3 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have c0 : (En2 m (half0 (F := Ideal)) half1 c (Pipeline.arrRef spec2 0) : FVec Ideal S16384x16384 .f32) = (m ((c.tc : Thread nD τ).loc main_arg1)) := (pre2_v22_1 (W6 m half0 half1 c)).trans (out1c m c)
  have c1 : (En2 m (half0 (F := Ideal)) half1 c (Pipeline.arrRef spec2 1) : FVec Ideal S16384x128 .f32) = h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (pre2_v41 (W6 m half0 half1 c)).trans (out1 m hv0 hv1 c)
  have c2 : (En2 m (half0 (F := Ideal)) half1 c (Pipeline.arrRef spec2 2) : FVec Ideal S16384x1 .f32) = gateHost (F := Ideal) (h2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (waAt2 (F := Ideal) (m ((c.tc : Thread nD τ).loc main_arg7))) (baAt2 (F := Ideal) (m ((c.tc : Thread nD τ).loc main_arg8))) :=
    (pre2_v55 (W6 m half0 half1 c)).trans (congr (congr (congrArg (gateHost (F := Ideal)) (out1 m hv0 hv1 c))
      (congrArg (waAt2 (F := Ideal)) (keep6 m c main_arg7 (by decide) (by decide) (by decide) (by decide) (by decide))))
      (congrArg (baAt2 (F := Ideal)) (keep6 m c main_arg8 (by decide) (by decide) (by decide) (by decide) (by decide))))
  have c3 : (En2 m (half0 (F := Ideal)) half1 c (Pipeline.arrRef spec2 3) : FVec Ideal S128x128 .f32) = wlAt2 (F := Ideal) (m ((c.tc : Thread nD τ).loc main_arg5)) :=
    (pre2_v57 (W6 m half0 half1 c)).trans (congrArg (wlAt2 (F := Ideal)) (keep6 m c main_arg5 (by decide) (by decide) (by decide) (by decide) (by decide)))
  have c4 : (En2 m (half0 (F := Ideal)) half1 c (Pipeline.arrRef spec2 4) : FVec Ideal S1x128 .f32) = shapeCast S1x128 (blAt2 (F := Ideal) (m ((c.tc : Thread nD τ).loc main_arg6))) shapeCasts_S128_S1x128 :=
    (pre2_call2_v0 (W6 m half0 half1 c)).trans (congrArg (fun v => shapeCast S1x128 (blAt2 (F := Ideal) v) shapeCasts_S128_S1x128) (keep6 m c main_arg6 (by decide) (by decide) (by decide) (by decide) (by decide)))
  exact (W9_main_v60 m half0 half1 half2 c).trans <| (hv2 (En2 m half0 half1) c).trans <|
    (congr (congr (congr (congr (congrArg layerOf c0) c1) c2) c3) c4).trans (layerOf_host _ _ _ _ _)

/-! ## The return -/

set_option maxHeartbeats 2000000 in
/-- THE RESULT BUFFER AT THE RETURN is the reference's composition of the arguments' launch contents, given what each
    region's result array holds (one layer of its entry arrays). -/
theorem result_value (hv0 : ∀ (V : (c : Dev nD) → (b : Ref sig .tc) → Buf (Elt Ideal) ((c : Thread nD τ).loc b)) (c : Dev nD),
      (dat0 (F := Ideal) V c).arrAt 5 cfg0.N = layerOf (V c (Pipeline.arrRef spec0 0)) (V c (Pipeline.arrRef spec0 1)) (V c (Pipeline.arrRef spec0 2)) (V c (Pipeline.arrRef spec0 3)) (V c (Pipeline.arrRef spec0 4)))
    (hv1 : ∀ (V : (c : Dev nD) → (b : Ref sig .tc) → Buf (Elt Ideal) ((c : Thread nD τ).loc b)) (c : Dev nD),
      (dat1 (F := Ideal) V c).arrAt 5 cfg1.N = layerOf (V c (Pipeline.arrRef spec1 0)) (V c (Pipeline.arrRef spec1 1)) (V c (Pipeline.arrRef spec1 2)) (V c (Pipeline.arrRef spec1 3)) (V c (Pipeline.arrRef spec1 4)))
    (hv2 : ∀ (V : (c : Dev nD) → (b : Ref sig .tc) → Buf (Elt Ideal) ((c : Thread nD τ).loc b)) (c : Dev nD),
      (dat2 (F := Ideal) V c).arrAt 5 cfg2.N = layerOf (V c (Pipeline.arrRef spec2 0)) (V c (Pipeline.arrRef spec2 1)) (V c (Pipeline.arrRef spec2 2)) (V c (Pipeline.arrRef spec2 3)) (V c (Pipeline.arrRef spec2 4))) (c : Dev nD) :
    (W12 m (half0 (F := Ideal)) half1 half2 c (Proc.devRef .tc main_v83) : FVec Ideal S64x2 .f32)
      = refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (post_v83 (W9 m half0 half1 half2 c)).trans <|
    congr (congr (congr (congr (congr (congr (congr (congrArg (tailHost (F := Ideal)) (out2 m hv0 hv1 hv2 c))
      (keep9 m c main_arg2 (by decide) (by decide) (by decide) (by decide) (by decide) (by decide) (by decide) (by decide)))
      (keep9 m c main_arg9 (by decide) (by decide) (by decide) (by decide) (by decide) (by decide) (by decide) (by decide)))
      (keep9 m c main_arg10 (by decide) (by decide) (by decide) (by decide) (by decide) (by decide) (by decide) (by decide)))
      (keep9 m c main_arg11 (by decide) (by decide) (by decide) (by decide) (by decide) (by decide) (by decide) (by decide)))
      (keep9 m c main_arg12 (by decide) (by decide) (by decide) (by decide) (by decide) (by decide) (by decide) (by decide)))
      (keep9 m c main_arg13 (by decide) (by decide) (by decide) (by decide) (by decide) (by decide) (by decide) (by decide)))
      (keep9 m c main_arg14 (by decide) (by decide) (by decide) (by decide) (by decide) (by decide) (by decide) (by decide))

end Cert.KernelIdeal.Hand

end
-- ==== Proof.LayerValue0.lean ====
/-
  The value of one layer's region: after its run the result array holds the layer of the five arrays the region found.

  The grid has 32 row tiles of 512 rows and, within each, eight steps along the contraction axis, 2048 columns of the
  adjacency matrix each; point `t` is step `t % 8` of row tile `t / 8`.
  * The blocks: at point `t` the adjacency window holds rows `512 (t / 8) + p`, columns `2048 (t % 8) + j`; the gate's
    window rows `512 (t / 8) + p`; the features, the linear map and the bias row are whole at every point.
  * The accumulator: after the body at point `t` it holds, at `(p, q)`, the running sum `((0 + s 0) + s 1) + … + s (t % 8)`
    of the steps `s b = ∑ⱼ adj (row, 2048 b + j) · h (2048 b + j, q)` of the message at the tile's row `p` — by induction on
    the point: a first step resets it, a later one adds to what the point before left.
  * The result block: at a last step (`t % 8 = 7`) the body stores
    `relu (∑ₖ (attn · h + (1 − attn) · acc) · wl + bl)` with the accumulator complete, and the eight steps' running sum
    is the whole sum over the 16384 = 8 · 2048 columns: the layer at the tile's rows.
  * The array: each last step writes its block back, the 32 blocks tile the result's rows, so the array ends at the
    layer, index by index.
-/
import proofs.«103405_j58265526337970_2_alg».proof.Proof.LayerPieces0
import proofs.«103405_j58265526337970_2_alg».proof.Proof.KernelPay
import proofs.«103405_j58265526337970_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where a point's blocks sit in their arrays -/

theorem idx0_0 : ∀ t : Fin cfg0.N, win0_0.index t 0 = t.val / 8 ∧ win0_0.index t 1 = t.val % 8 := by decide +kernel
theorem idx0_1 : ∀ t : Fin cfg0.N, win0_1.index t 0 = 0 ∧ win0_1.index t 1 = 0 := by decide +kernel
theorem idx0_2 : ∀ t : Fin cfg0.N, win0_2.index t 0 = t.val / 8 ∧ win0_2.index t 1 = 0 := by decide +kernel
theorem idx0_3 : ∀ t : Fin cfg0.N, win0_3.index t 0 = 0 ∧ win0_3.index t 1 = 0 := by decide +kernel
theorem idx0_4 : ∀ t : Fin cfg0.N, win0_4.index t 0 = 0 ∧ win0_4.index t 1 = 0 := by decide +kernel
theorem idx0_5 : ∀ t : Fin cfg0.N, win0_5.index t 0 = t.val / 8 ∧ win0_5.index t 1 = 0 := by decide +kernel
/-- The first row of the feature matrix a point's step along the contraction axis meets, -/
theorem off0_1 : ∀ t : Fin cfg0.N, k0_off1 (grid0.coords t) 0 = 2048 * (t.val % 8) ∧ k0_off1 (grid0.coords t) 1 = 0 := by decide +kernel
/-- and the first row under its row tile. -/
theorem off0_2 : ∀ t : Fin cfg0.N, k0_off2 (grid0.coords t) 0 = 512 * (t.val / 8) ∧ k0_off2 (grid0.coords t) 1 = 0 := by decide +kernel

/-- Row `p` of the row tile of point `t`, as a row of the whole arrays. -/
abbrev rowIx0 (t : Fin cfg0.N) (p : Fin 512) : Fin 16384 :=
  ⟨512 * (t.val / 8) + p.val, by have h := t.isLt; have hN : cfg0.N = 256 := N_0; have := p.isLt; omega⟩
/-- Position `j` of step `b` along the contraction axis, as a column of the adjacency matrix (a row of the features). -/
abbrev colIx0 (b : ℕ) (hb : b < 8) (j : Fin 2048) : Fin 16384 := ⟨2048 * b + j.val, by have := j.isLt; omega⟩

/-- The adjacency block of point `t` at `(p, j)`. -/
theorem blk0_0_apply (c : Dev nD) (t : Fin cfg0.N) (p : Fin 512) (j : Fin 2048) (k : S16384x16384.Idx)
    (hk0 : (k 0).val = 512 * (t.val / 8) + p.val) (hk1 : (k 1).val = 2048 * (t.val % 8) + j.val) :
    (blk0 V c 0 t : Vec Ideal S512x2048 .f32) (ix2 p j) = (V c (Pipeline.arrRef spec0 0) : S16384x16384.Idx → EReal) k := by
  have hi := idx0_0 t
  unfold blk0
  rw [View.read_apply]
  show V c (Pipeline.arrRef spec0 0) _ = V c (Pipeline.arrRef spec0 0) _
  congr 1
  funext a
  apply Fin.ext
  match a with
  | ⟨0, _⟩ => show win0_0.index t 0 * 512 + 1 * p.val = (k 0).val; rw [hi.1, hk0]; omega
  | ⟨1, _⟩ => show win0_0.index t 1 * 2048 + 1 * j.val = (k 1).val; rw [hi.2, hk1]; omega

/-- The features' window is the whole array at every point. -/
theorem blk0_1_eq (c : Dev nD) (t : Fin cfg0.N) :
    (blk0 V c 1 t : Vec Ideal S16384x128 .f32) = (V c (Pipeline.arrRef spec0 1) : S16384x128.Idx → EReal) := by
  have hi := idx0_1 t
  funext y
  unfold blk0
  rw [View.read_apply]
  show V c (Pipeline.arrRef spec0 1) _ = V c (Pipeline.arrRef spec0 1) _
  congr 1
  funext a
  apply Fin.ext
  match a with
  | ⟨0, _⟩ => show win0_1.index t 0 * 16384 + 1 * (y 0).val = (y 0).val; rw [hi.1]; omega
  | ⟨1, _⟩ => show win0_1.index t 1 * 128 + 1 * (y 1).val = (y 1).val; rw [hi.2]; omega

/-- The gate's block of point `t` at `(p, 0)`. -/
theorem blk0_2_apply (c : Dev nD) (t : Fin cfg0.N) (p : Fin 512) (k : S16384x1.Idx)
    (hk0 : (k 0).val = 512 * (t.val / 8) + p.val) (hk1 : (k 1).val = 0) :
    (blk0 V c 2 t : Vec Ideal S512x1 .f32) (ix2 p 0) = (V c (Pipeline.arrRef spec0 2) : S16384x1.Idx → EReal) k := by
  have hi := idx0_2 t
  unfold blk0
  rw [View.read_apply]
  show V c (Pipeline.arrRef spec0 2) _ = V c (Pipeline.arrRef spec0 2) _
  congr 1
  funext a
  apply Fin.ext
  match a with
  | ⟨0, _⟩ => show win0_2.index t 0 * 512 + 1 * p.val = (k 0).val; rw [hi.1, hk0]; omega
  | ⟨1, _⟩ => show win0_2.index t 1 * 1 + 1 * 0 = (k 1).val; rw [hi.2, hk1]

/-- The linear map's window is the whole array at every point. -/
theorem blk0_3_eq (c : Dev nD) (t : Fin cfg0.N) :
    (blk0 V c 3 t : Vec Ideal S128x128 .f32) = (V c (Pipeline.arrRef spec0 3) : S128x128.Idx → EReal) := by
  have hi := idx0_3 t
  funext y
  unfold blk0
  rw [View.read_apply]
  show V c (Pipeline.arrRef spec0 3) _ = V c (Pipeline.arrRef spec0 3) _
  congr 1
  funext a
  apply Fin.ext
  match a with
  | ⟨0, _⟩ => show win0_3.index t 0 * 128 + 1 * (y 0).val = (y 0).val; rw [hi.1]; omega
  | ⟨1, _⟩ => show win0_3.index t 1 * 128 + 1 * (y 1).val = (y 1).val; rw [hi.2]; omega

/-- So is the bias row's. -/
theorem blk0_4_eq (c : Dev nD) (t : Fin cfg0.N) :
    (blk0 V c 4 t : Vec Ideal S1x128 .f32) = (V c (Pipeline.arrRef spec0 4) : S1x128.Idx → EReal) := by
  have hi := idx0_4 t
  funext y
  unfold blk0
  rw [View.read_apply]
  show V c (Pipeline.arrRef spec0 4) _ = V c (Pipeline.arrRef spec0 4) _
  congr 1
  funext a
  apply Fin.ext
  match a with
  | ⟨0, _⟩ => show win0_4.index t 0 * 1 + 1 * (y 0).val = (y 0).val; rw [hi.1]; omega
  | ⟨1, _⟩ => show win0_4.index t 1 * 128 + 1 * (y 1).val = (y 1).val; rw [hi.2]; omega

/-! ## The arrays the region finds, and one step of the accumulation on them -/

/-- The five operand arrays as the region finds them on core `c`. -/
abbrev adjA0 (c : Dev nD) : S16384x16384.Idx → EReal := V c (Pipeline.arrRef spec0 0)
abbrev hA0 (c : Dev nD) : S16384x128.Idx → EReal := V c (Pipeline.arrRef spec0 1)
abbrev gA0 (c : Dev nD) : S16384x1.Idx → EReal := V c (Pipeline.arrRef spec0 2)
abbrev wlA0 (c : Dev nD) : S128x128.Idx → EReal := V c (Pipeline.arrRef spec0 3)
abbrev blA0 (c : Dev nD) : S1x128.Idx → EReal := V c (Pipeline.arrRef spec0 4)

/-- Step `b` of the message's sum at row `r`, feature `q`: the 2048 products of the step's columns of the adjacency
    matrix with the matching rows of the features (zero past the last step). -/
def sAt0 (adj : S16384x16384.Idx → EReal) (h : S16384x128.Idx → EReal) (r : Fin 16384) (q : Fin 128) (b : ℕ) : EReal :=
  if hb : b < 8 then ∑ j : Fin 2048, adj (ix2 r (colIx0 b hb j)) * h (ix2 (colIx0 b hb j) q) else 0

/-- The body's accumulation step over variables: the accumulator plus the products of the adjacency block with the
    rows of the features that the step meets, those rows named by the step's number `b`. -/
theorem pay2_rows0 (x0 : Vec Ideal S512x2048 .f32) (x1 : Vec Ideal S16384x128 .f32) (xs : Vec Ideal S512x128 .f32)
    (i : grid0.Coords) (b : ℕ) (hb : b < 8) (ho0 : k0_off1 i 0 = 2048 * b) (ho1 : k0_off1 i 1 = 0) (p : Fin 512) (q : Fin 128) :
    k0_pay3 (F := Ideal) x0 (View.ld x1 (kRows0 i)) xs (ix2 p q)
      = xs (ix2 p q) + ∑ j : Fin 2048, x0 (ix2 p j) * x1 (ix2 (colIx0 b hb j) q) := by
  refine (k0_pay3_apply x0 (View.ld x1 (kRows0 i)) xs p q).trans ?_
  refine congrArg (xs (ix2 p q) + ·) (Finset.sum_congr rfl fun j _ => congrArg (x0 (ix2 p j) * ·) ?_)
  show x1 ((kRows0 i).idx (ix2 j q)) = x1 (ix2 (colIx0 b hb j) q)
  congr 1
  funext a
  apply Fin.ext
  match a with
  | ⟨0, _⟩ => show k0_off1 i 0 + 1 * j.val = 2048 * b + j.val; rw [ho0]; omega
  | ⟨1, _⟩ => show k0_off1 i 1 + 1 * q.val = q.val; rw [ho1]; omega

/-- The products of point `t`'s adjacency block with the features are step `t % 8` of the sum at the point's rows. -/
theorem step_eq0 (c : Dev nD) (t : Fin cfg0.N) (p : Fin 512) (q : Fin 128)
    (x0 : Vec Ideal S512x2048 .f32) (x1 : Vec Ideal S16384x128 .f32) (hx0 : x0 = blk0 V c 0 t) (hx1 : x1 = blk0 V c 1 t) :
    (∑ j : Fin 2048, x0 (ix2 p j) * x1 (ix2 (colIx0 (t.val % 8) (Nat.mod_lt _ (by decide)) j) q))
      = sAt0 (adjA0 V c) (hA0 V c) (rowIx0 t p) q (t.val % 8) := by
  subst hx0 hx1
  unfold sAt0
  rw [dif_pos (Nat.mod_lt _ (by decide))]
  refine Finset.sum_congr rfl fun j _ => ?_
  rw [blk0_0_apply V c t p j (ix2 (rowIx0 t p) (colIx0 (t.val % 8) (Nat.mod_lt _ (by decide)) j)) rfl rfl, blk0_1_eq V c t]

/-- At a first step the accumulator is reset and holds the step's products. -/
theorem acc_first0 (c : Dev nD) (t : Fin cfg0.N) (h0 : t.val % 8 = 0) (p : Fin 512) (q : Fin 128) :
    (accAt0 V c t.val t.isLt : Vec Ideal S512x128 .f32) (ix2 p q) = 0 + sAt0 (adjA0 V c) (hA0 V c) (rowIx0 t p) q (t.val % 8) := by
  have h1 : ¬ t.val % 8 = 7 := by omega
  refine (congrFun (accAt0_first V c t h0 h1) (ix2 p q)).trans ?_
  refine (congrFun (accFirst0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) ((first0_iff t).mpr h0) (fun h => h1 ((last0_iff t).mp h)) (blk0 V c 0 t) (blk0 V c 1 t)) (ix2 p q)).trans ?_
  refine (pay2_rows0 (blk0 V c 0 t) (blk0 V c 1 t) (k0_pay1 (F := Ideal)) (grid0.coords t) (t.val % 8) (Nat.mod_lt _ (by decide)) (off0_1 t).1 (off0_1 t).2 p q).trans ?_
  exact congrArg₂ (· + ·) (k0_pay1_apply p q) (step_eq0 V c t p q (blk0 V c 0 t) (blk0 V c 1 t) rfl rfl)

/-- At a later step it holds what the point before left plus the step's products. -/
theorem acc_next0 (c : Dev nD) (m : ℕ) (hm : m + 1 < cfg0.N) (h0 : ¬ (m + 1) % 8 = 0) (p : Fin 512) (q : Fin 128) :
    (accAt0 V c (m + 1) hm : Vec Ideal S512x128 .f32) (ix2 p q)
      = (accAt0 V c m (Nat.lt_of_succ_lt hm) : Vec Ideal S512x128 .f32) (ix2 p q)
          + sAt0 (adjA0 V c) (hA0 V c) (rowIx0 ⟨m + 1, hm⟩ p) q ((m + 1) % 8) := by
  have key : (accAt0 V c (m + 1) hm : Vec Ideal S512x128 .f32)
      = k0_pay3 (F := Ideal) (blk0 V c 0 ⟨m + 1, hm⟩) (View.ld (blk0 V c 1 ⟨m + 1, hm⟩) (kRows0 (grid0.coords ⟨m + 1, hm⟩))) (accAt0 V c m (Nat.lt_of_succ_lt hm)) := by
    by_cases h1 : (m + 1) % 8 = 7
    · exact (accAt0_last V c ⟨m + 1, hm⟩ h0 h1).trans
        (accLast0_eq c (grid0.coords ⟨m + 1, hm⟩) (ms0_0 ⟨m + 1, hm⟩) (hs0_0 ⟨m + 1, hm⟩) (ms0_1 ⟨m + 1, hm⟩) (hs0_1 ⟨m + 1, hm⟩) (ms0_2 ⟨m + 1, hm⟩) (hs0_2 ⟨m + 1, hm⟩) (ms0_3 ⟨m + 1, hm⟩) (hs0_3 ⟨m + 1, hm⟩) (ms0_4 ⟨m + 1, hm⟩) (hs0_4 ⟨m + 1, hm⟩) (ms0_5 ⟨m + 1, hm⟩) (hs0_5 ⟨m + 1, hm⟩) (ms0_6 ⟨m + 1, hm⟩) (hs0_6 ⟨m + 1, hm⟩) acc0M (Memref.isWhole_whole _) (fun h => h0 ((first0_iff ⟨m + 1, hm⟩).mp h)) ((last0_iff ⟨m + 1, hm⟩).mpr h1)
          (blk0 V c 0 ⟨m + 1, hm⟩) (blk0 V c 1 ⟨m + 1, hm⟩) (blk0 V c 2 ⟨m + 1, hm⟩) (blk0 V c 3 ⟨m + 1, hm⟩) (blk0 V c 4 ⟨m + 1, hm⟩) (accAt0 V c m (Nat.lt_of_succ_lt hm)))
    · exact (accAt0_mid V c ⟨m + 1, hm⟩ h0 h1).trans
        (accMid0_eq c (grid0.coords ⟨m + 1, hm⟩) (ms0_0 ⟨m + 1, hm⟩) (hs0_0 ⟨m + 1, hm⟩) (ms0_1 ⟨m + 1, hm⟩) (hs0_1 ⟨m + 1, hm⟩) (ms0_2 ⟨m + 1, hm⟩) (hs0_2 ⟨m + 1, hm⟩) (ms0_3 ⟨m + 1, hm⟩) (hs0_3 ⟨m + 1, hm⟩) (ms0_4 ⟨m + 1, hm⟩) (hs0_4 ⟨m + 1, hm⟩) (ms0_5 ⟨m + 1, hm⟩) (hs0_5 ⟨m + 1, hm⟩) (ms0_6 ⟨m + 1, hm⟩) (hs0_6 ⟨m + 1, hm⟩) acc0M (Memref.isWhole_whole _) (fun h => h0 ((first0_iff ⟨m + 1, hm⟩).mp h)) (fun h => h1 ((last0_iff ⟨m + 1, hm⟩).mp h))
          (blk0 V c 0 ⟨m + 1, hm⟩) (blk0 V c 1 ⟨m + 1, hm⟩) (accAt0 V c m (Nat.lt_of_succ_lt hm)))
  refine (congrFun key (ix2 p q)).trans ?_
  refine (pay2_rows0 (blk0 V c 0 ⟨m + 1, hm⟩) (blk0 V c 1 ⟨m + 1, hm⟩) (accAt0 V c m (Nat.lt_of_succ_lt hm)) (grid0.coords ⟨m + 1, hm⟩) ((m + 1) % 8) (Nat.mod_lt _ (by decide)) (off0_1 ⟨m + 1, hm⟩).1 (off0_1 ⟨m + 1, hm⟩).2 p q).trans ?_
  exact congrArg (fun z => (accAt0 V c m (Nat.lt_of_succ_lt hm) : Vec Ideal S512x128 .f32) (ix2 p q) + z)
    (step_eq0 V c ⟨m + 1, hm⟩ p q (blk0 V c 0 ⟨m + 1, hm⟩) (blk0 V c 1 ⟨m + 1, hm⟩) rfl rfl)

/-- THE ACCUMULATOR: after the body at position `n` it holds, at row `p`, feature `q`, the running sum of the steps
    `0 … n % 8` of the message at the point's rows. -/
theorem accAt0_eq (c : Dev nD) : ∀ (n : ℕ) (hn : n < cfg0.N) (p : Fin 512) (q : Fin 128),
    (accAt0 V c n hn : Vec Ideal S512x128 .f32) (ix2 p q)
      = Cert.Spec.accAt (sAt0 (adjA0 V c) (hA0 V c) (rowIx0 ⟨n, hn⟩ p) q) (n % 8)
  | 0, hn, p, q => acc_first0 V c ⟨0, hn⟩ rfl p q
  | m + 1, hn, p, q => by
    by_cases h0 : (m + 1) % 8 = 0
    · refine (acc_first0 V c ⟨m + 1, hn⟩ h0 p q).trans ?_
      show 0 + sAt0 _ _ _ _ ((m + 1) % 8) = Cert.Spec.accAt _ ((m + 1) % 8)
      rw [h0]; rfl
    · refine (acc_next0 V c m hn h0 p q).trans ?_
      rw [accAt0_eq c m (Nat.lt_of_succ_lt hn) p q]
      have hmod : (m + 1) % 8 = m % 8 + 1 := by omega
      have hrow : rowIx0 ⟨m, Nat.lt_of_succ_lt hn⟩ p = rowIx0 ⟨m + 1, hn⟩ p :=
        Fin.ext (by show 512 * (m / 8) + p.val = 512 * ((m + 1) / 8) + p.val; omega)
      rw [hrow, hmod]
      rfl

/-! ## The layer's output rows at a last step -/

/-- The layer on the arrays the region finds, index by index. -/
def layerG0 (c : Dev nD) : S16384x128.Idx → EReal := fun i =>
  Cert.Spec.layer (fun r j => adjA0 V c (ix2 r j)) (fun r k => hA0 V c (ix2 r k)) (fun r => gA0 V c (ix2 r 0))
    (fun k q => wlA0 V c (ix2 k q)) (fun q => blA0 V c (ix2 0 q)) (i 0) (i 1)

/-- The eight steps' running sum is the whole message: 16384 = 8 · 2048. -/
theorem msg_total0 (adj : S16384x16384.Idx → EReal) (h : S16384x128.Idx → EReal) (r : Fin 16384) (k : Fin 128) :
    Cert.Spec.accAt (sAt0 adj h r k) 7 = ∑ j : Fin 16384, adj (ix2 r j) * h (ix2 j k) :=
  Cert.Spec.acc_blocks_8_2048 (sAt0 adj h r k) (fun j => adj (ix2 r j) * h (ix2 j k)) (fun b j => colIx0 b.val b.isLt j)
    (fun b j => by show 2048 * b.val + j.val = b.val * 2048 + j.val; omega)
    (fun b => by unfold sAt0; rw [dif_pos b.isLt])

/-- The body's last payload over variables, the rows of the features under the row tile named by their first row. -/
theorem pay3_rows0 (x1 : Vec Ideal S16384x128 .f32) (x2 : Vec Ideal S512x1 .f32) (acc : Vec Ideal S512x128 .f32)
    (x3 : Vec Ideal S128x128 .f32) (x4 : Vec Ideal S1x128 .f32) (i : grid0.Coords) (hl : last0 i) (r0 : ℕ) (hr0 : r0 + 512 ≤ 16384)
    (ho0 : k0_off2 i 0 = r0) (ho1 : k0_off2 i 1 = 0) (p : Fin 512) (q : Fin 128) :
    k0_pay4 (F := Ideal) (View.ld x1 (tRows0 i hl)) x2 acc x3 x4 (ix2 p q)
      = max ((∑ k : Fin 128, (x2 (ix2 p 0) * x1 (ix2 (⟨r0 + p.val, by have := p.isLt; omega⟩ : Fin 16384) k)
          + (1 - x2 (ix2 p 0)) * acc (ix2 p k)) * x3 (ix2 k q)) + x4 (ix2 0 q)) 0 := by
  have e : ∀ k : Fin 128, (View.ld x1 (tRows0 i hl) : Vec Ideal S512x128 .f32) (ix2 p k)
      = x1 (ix2 (⟨r0 + p.val, by have := p.isLt; omega⟩ : Fin 16384) k) := fun k => by
    show x1 ((tRows0 i hl).idx (ix2 p k)) = _
    congr 1
    funext a
    apply Fin.ext
    match a with
    | ⟨0, _⟩ => show k0_off2 i 0 + 1 * p.val = r0 + p.val; rw [ho0]; omega
    | ⟨1, _⟩ => show k0_off2 i 1 + 1 * k.val = k.val; rw [ho1]; omega
  refine (k0_pay4_apply (View.ld x1 (tRows0 i hl)) x2 acc x3 x4 p q).trans ?_
  simp only [e]

/-- THE RESULT BLOCK: at a last step the result window's buffer holds, at row `p`, feature `q`, the layer at the row
    tile's row `p`. -/
theorem res_last0 (c : Dev nD) (t : Fin cfg0.N) (h1 : t.val % 8 = 7) (p : Fin 512) (q : Fin 128) :
    (resAt0 V c t : Vec Ideal S512x128 .f32) (ix2 p q) = layerG0 V c (ix2 (rowIx0 t p) q) := by
  have h0 : ¬ t.val % 8 = 0 := by omega
  have hl : last0 (grid0.coords t) := (last0_iff t).mpr h1
  have hN : cfg0.N = 256 := N_0
  have hacc : (accAt0 V c t.val t.isLt : Vec Ideal S512x128 .f32)
      = k0_pay3 (F := Ideal) (blk0 V c 0 t) (View.ld (blk0 V c 1 t) (kRows0 (grid0.coords t))) (accAt0 V c (t.val - 1) (Nat.lt_of_le_of_lt (Nat.sub_le _ _) t.isLt)) :=
    (accAt0_last V c t h0 h1).trans
      (accLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) hl
        (blk0 V c 0 t) (blk0 V c 1 t) (blk0 V c 2 t) (blk0 V c 3 t) (blk0 V c 4 t) (accAt0 V c (t.val - 1) (Nat.lt_of_le_of_lt (Nat.sub_le _ _) t.isLt)))
  have hres : (resAt0 V c t : Vec Ideal S512x128 .f32)
      = k0_pay4 (F := Ideal) (View.ld (blk0 V c 1 t) (tRows0 (grid0.coords t) hl)) (blk0 V c 2 t) (accAt0 V c t.val t.isLt) (blk0 V c 3 t) (blk0 V c 4 t) :=
    ((dif_pos h1 : resAt0 V c t = _).trans
      (resLast0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) acc0M (Memref.isWhole_whole _) (fun h => h0 ((first0_iff t).mp h)) hl
        (blk0 V c 0 t) (blk0 V c 1 t) (blk0 V c 2 t) (blk0 V c 3 t) (blk0 V c 4 t) (accAt0 V c (t.val - 1) (Nat.lt_of_le_of_lt (Nat.sub_le _ _) t.isLt)))).trans
      (congrArg (fun z => k0_pay4 (F := Ideal) (View.ld (blk0 V c 1 t) (tRows0 (grid0.coords t) hl)) (blk0 V c 2 t) z (blk0 V c 3 t) (blk0 V c 4 t)) hacc.symm)
  refine (congrFun hres (ix2 p q)).trans ?_
  refine (pay3_rows0 (blk0 V c 1 t) (blk0 V c 2 t) (accAt0 V c t.val t.isLt) (blk0 V c 3 t) (blk0 V c 4 t) (grid0.coords t) hl
    (512 * (t.val / 8)) (by have := t.isLt; omega) (off0_2 t).1 (off0_2 t).2 p q).trans ?_
  rw [blk0_2_apply V c t p (ix2 (rowIx0 t p) 0) rfl rfl, blk0_1_eq V c t, blk0_3_eq V c t, blk0_4_eq V c t]
  unfold layerG0 Cert.Spec.layer
  refine congrArg₂ max (congrArg₂ (· + ·) (Finset.sum_congr rfl fun k _ => ?_) rfl) rfl
  rw [accAt0_eq V c t.val t.isLt p k, h1, msg_total0]

/-! ## From the flushed blocks to the result array -/

/-- What a last step writes back is the layer read through the step's block of the result. -/
theorem flushed0_eq (c : Dev nD) (t : Fin cfg0.N) (hf : (cfg0.win 5).flush t = true) :
    (dat0 V c).flushed 5 t = ((cfg0.win 5).blk t).view.read (Elt Ideal) (layerG0 V c) := by
  have h1 : t.val % 8 = 7 := (flush0_5 t).mp hf
  have hi := idx0_5 t
  show (cfg0.win 5).cut (grid0.coords t) ((dat0 V c).after 5 t) = _
  rw [after0_5]
  funext y
  have hp : (y 0).val < 512 := (y 0).isLt
  have hq : (y 1).val < 128 := (y 1).isLt
  have hx : (cfg0.win 5).xinj (grid0.coords t) y = (ix2 (⟨(y 0).val, hp⟩ : Fin 512) (⟨(y 1).val, hq⟩ : Fin 128) : S512x128.Idx) :=
    funext fun a => match a with
      | ⟨0, _⟩ => rfl
      | ⟨1, _⟩ => rfl
  refine ((congrArg (resAt0 V c t : Vec Ideal S512x128 .f32) hx).trans (res_last0 V c t h1 ⟨(y 0).val, hp⟩ ⟨(y 1).val, hq⟩)).trans ?_
  rw [View.read_apply]
  show layerG0 V c _ = layerG0 V c _
  refine congrArg (layerG0 V c) (funext fun a => Fin.ext ?_)
  match a with
  | ⟨0, _⟩ => show 512 * (t.val / 8) + (y 0).val = win0_5.index t 0 * 512 + 1 * (y 0).val; rw [hi.1]; omega
  | ⟨1, _⟩ => show (y 1).val = win0_5.index t 1 * 128 + 1 * (y 1).val; rw [hi.2]; omega

/-- Every row of the result lies in the block of the last step of its row tile. -/
theorem cover0 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 256 := N_0
  have h0 : (i 0 : Nat) < 16384 := (i 0).isLt
  have h1 : (i 1 : Nat) < 128 := (i 1).isLt
  obtain ⟨t, ht⟩ : ∃ t : Fin cfg0.N, t.val = 8 * ((i 0 : Nat) / 512) + 7 := ⟨⟨8 * ((i 0 : Nat) / 512) + 7, by omega⟩, rfl⟩
  have hi := idx0_5 t
  refine ⟨t, (flush0_5 t).mpr (by omega), ?_⟩
  show i ∈ ((View.whole main_v22_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [hi.1]; omega
  | ⟨1, _⟩ =>
    show win0_5.index t 1 * 128 ≤ (i 1 : Nat) ∧ (i 1 : Nat) < win0_5.index t 1 * 128 + 128
    rw [hi.2]; omega

/-- THE REGION'S VALUE: after the run the result array holds the layer of the five arrays the region found, index by
    index. -/
theorem layer0_value (c : Dev nD) :
    (dat0 (F := Ideal) V c).arrAt 5 cfg0.N
      = fun i => Cert.Spec.layer (fun r j => adjA0 V c (ix2 r j)) (fun r k => hA0 V c (ix2 r k)) (fun r => gA0 V c (ix2 r 0))
          (fun k q => wlA0 V c (ix2 k q)) (fun q => blA0 V c (ix2 0 q)) (i 0) (i 1) :=
  (dat0 V c).arrAt_eq_of_cover 5 (layerG0 V c) (flushed0_eq V c) (cover0 c)

end Cert.KernelIdeal.Hand

end
-- ==== Proof.LayerPieces1.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerData1
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 1): what the runs' pieces are, as the body's arithmetic -/

theorem hz2_1 : (![0, 0] : Fin 2 → Nat) = fun _ => 0 := funext fun a => by fin_cases a <;> rfl

/-- The rows of the resident feature matrix the point's K tile meets. -/
abbrev kRows1 (i : grid1.Coords) : Rect S16384x128 := Rect.unit (s := S16384x128) (k1_off1 i) S4096x128.size (k1_off1_inb i)
/-- The rows of the feature matrix under the point's row tile (read at the last K tile). -/
abbrev tRows1 (i : grid1.Coords) (h : last1 i) : Rect S16384x128 := Rect.unit (s := S16384x128) (k1_off2 i) S512x128.size (k1_off2_inb i h)

/-- A middle K tile leaves the accumulator at its contents plus the tile's product. -/
theorem accMid1_eq (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : ¬last1 i)
    (x0 : Vec F S512x4096 .bf16) (x1 : Vec F S16384x128 .f32) (xs : Vec F S512x128 .f32) :
    accMid1 c i arg2 harg2 arg3 harg3 arg4 harg4 arg5 harg5 arg6 harg6 arg7 harg7 arg8 harg8 hc0 hc1 x0 x1 xs = k1_pay2 x0 (View.ld x1 (kRows1 i)) xs := by
  unfold accMid1
  rw [View.read_writes_eq_canon _ _ _ (accMid1_cover c i arg2 harg2 arg3 harg3 arg4 harg4 arg5 harg5 arg6 harg6 arg7 harg7 arg8 harg8 hc0 hc1 x0 x1 xs)]
  unfold run1_mid
  dsimp only
  rw [View.canon_unit_zero hz2_1]
  simp only [View.readAt_eq_ld, harg2.read_unread, harg3.read_unread, harg8.read_unread,
    View.ld_unit_zero (S := S512x4096) hz2_1, View.ld_unit_zero (S := S512x128) hz2_1]

/-- A first K tile leaves the zero block plus the tile's product. -/
theorem accFirst1_eq (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first1 i) (hc1 : ¬last1 i)
    (x0 : Vec F S512x4096 .bf16) (x1 : Vec F S16384x128 .f32) :
    accFirst1 c i arg2 harg2 arg3 harg3 arg4 harg4 arg5 harg5 arg6 harg6 arg7 harg7 arg8 harg8 hc0 hc1 x0 x1 = k1_pay2 x0 (View.ld x1 (kRows1 i)) (k1_pay1 (F := F)) := by
  unfold accFirst1
  rw [View.read_writes_eq_canon _ _ _ (accFirst1_cover c i arg2 harg2 arg3 harg3 arg4 harg4 arg5 harg5 arg6 harg6 arg7 harg7 arg8 harg8 hc0 hc1 x0 x1)]
  unfold run1_first
  dsimp only
  sl_unfold_words
  rw [View.canon_cons_unit_zero (S := S512x128) hz2_1]
  simp only [View.readCov_unit_zero (S := S512x128) _ hz2_1, View.readAt_eq_ld, harg2.read_unread, harg3.read_unread,
    View.ld_unit_zero (S := S512x4096) hz2_1, View.ld_unit_zero (S := S512x128) hz2_1]
  rfl

/-- The last K tile leaves the accumulator as a middle one does, -/
theorem accLast1_eq (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) :
    accLast1 c i arg2 harg2 arg3 harg3 arg4 harg4 arg5 harg5 arg6 harg6 arg7 harg7 arg8 harg8 hc0 hc1 x0 x1 x2 x3 x4 xs = k1_pay2 x0 (View.ld x1 (kRows1 i)) xs := by
  unfold accLast1
  rw [View.read_writes_eq_canon _ _ _ (accLast1_cover c i arg2 harg2 arg3 harg3 arg4 harg4 arg5 harg5 arg6 harg6 arg7 harg7 arg8 harg8 hc0 hc1 x0 x1 x2 x3 x4 xs)]
  unfold run1_last
  dsimp only
  sl_unfold_words
  rw [View.canon_unit_zero hz2_1]
  simp only [View.readAt_eq_ld, harg2.read_unread, harg3.read_unread, harg8.read_unread,
    View.ld_unit_zero (S := S512x4096) hz2_1, View.ld_unit_zero (S := S512x128) hz2_1]
  rfl

/-- and the result buffer at the layer's output rows: the gate's column, the tile's rows of the features, the full
    accumulator, the weights and the bias through the body's last payload. -/
theorem resLast1_eq (c : Dev nD) (i : grid1.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first1 i) (hc1 : last1 i)
    (x0 : Vec F S512x4096 .bf16) (x1 : Vec F S16384x128 .f32) (x2 : Vec F S512x1 .f32) (x3 : Vec F S128x128 .f32) (x4 : Vec F S1x128 .f32) (xs : Vec F S512x128 .f32) :
    resLast1 c i arg2 harg2 arg3 harg3 arg4 harg4 arg5 harg5 arg6 harg6 arg7 harg7 arg8 harg8 hc0 hc1 x0 x1 x2 x3 x4 xs
      = k1_pay3 (View.ld x1 (tRows1 i hc1)) x2 (k1_pay2 x0 (View.ld x1 (kRows1 i)) xs) x3 x4 := by
  unfold resLast1
  rw [View.read_writes_eq_canon _ _ _ (resLast1_cover c i arg2 harg2 arg3 harg3 arg4 harg4 arg5 harg5 arg6 harg6 arg7 harg7 arg8 harg8 hc0 hc1 x0 x1 x2 x3 x4 xs)]
  unfold run1_last
  dsimp only
  sl_unfold_words
  rw [View.canon_unit_zero hz2_1]
  simp only [View.readCov_unit_zero (S := S512x128) _ hz2_1, View.readAt_eq_ld, harg2.read_unread, harg3.read_unread, harg4.read_unread, harg5.read_unread, harg6.read_unread, harg8.read_unread,
    View.ld_unit_zero (S := S512x4096) hz2_1, View.ld_unit_zero (S := S512x128) hz2_1, View.ld_unit_zero (S := S512x1) hz2_1,
    View.ld_unit_zero (S := S128x128) hz2_1, View.ld_unit_zero (S := S1x128) hz2_1]
  rfl

end Cert.KernelIdeal.Hand

end
-- ==== Proof.LayerValue1.lean ====
/-
  The value of one layer's region: after its run the result array holds the layer of the five arrays the region found.

  The grid has 32 row tiles of 512 rows and, within each, four steps along the contraction axis, 4096 columns of the
  adjacency matrix each; point `t` is step `t % 4` of row tile `t / 4`.
  * The blocks: at point `t` the adjacency window holds rows `512 (t / 4) + p`, columns `4096 (t % 4) + j`; the gate's
    window rows `512 (t / 4) + p`; the features, the linear map and the bias row are whole at every point.
  * The accumulator: after the body at point `t` it holds, at `(p, q)`, the running sum `((0 + s 0) + s 1) + … + s (t % 4)`
    of the steps `s b = ∑ⱼ adj (row, 4096 b + j) · h (4096 b + j, q)` of the message at the tile's row `p` — by induction on
    the point: a first step resets it, a later one adds to what the point before left.
  * The result block: at a last step (`t % 4 = 3`) the body stores
    `relu (∑ₖ (attn · h + (1 − attn) · acc) · wl + bl)` with the accumulator complete, and the four steps' running sum
    is the whole sum over the 16384 = 4 · 4096 columns: the layer at the tile's rows.
  * The array: each last step writes its block back, the 32 blocks tile the result's rows, so the array ends at the
    layer, index by index.
-/
import proofs.«103405_j58265526337970_2_alg».proof.Proof.LayerPieces1
import proofs.«103405_j58265526337970_2_alg».proof.Proof.KernelPay
import proofs.«103405_j58265526337970_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where a point's blocks sit in their arrays -/

theorem idx1_0 : ∀ t : Fin cfg1.N, win1_0.index t 0 = t.val / 4 ∧ win1_0.index t 1 = t.val % 4 := by decide +kernel
theorem idx1_1 : ∀ t : Fin cfg1.N, win1_1.index t 0 = 0 ∧ win1_1.index t 1 = 0 := by decide +kernel
theorem idx1_2 : ∀ t : Fin cfg1.N, win1_2.index t 0 = t.val / 4 ∧ win1_2.index t 1 = 0 := by decide +kernel
theorem idx1_3 : ∀ t : Fin cfg1.N, win1_3.index t 0 = 0 ∧ win1_3.index t 1 = 0 := by decide +kernel
theorem idx1_4 : ∀ t : Fin cfg1.N, win1_4.index t 0 = 0 ∧ win1_4.index t 1 = 0 := by decide +kernel
theorem idx1_5 : ∀ t : Fin cfg1.N, win1_5.index t 0 = t.val / 4 ∧ win1_5.index t 1 = 0 := by decide +kernel
/-- The first row of the feature matrix a point's step along the contraction axis meets, -/
theorem off1_1 : ∀ t : Fin cfg1.N, k1_off1 (grid1.coords t) 0 = 4096 * (t.val % 4) ∧ k1_off1 (grid1.coords t) 1 = 0 := by decide +kernel
/-- and the first row under its row tile. -/
theorem off1_2 : ∀ t : Fin cfg1.N, k1_off2 (grid1.coords t) 0 = 512 * (t.val / 4) ∧ k1_off2 (grid1.coords t) 1 = 0 := by decide +kernel

/-- Row `p` of the row tile of point `t`, as a row of the whole arrays. -/
abbrev rowIx (t : Fin cfg1.N) (p : Fin 512) : Fin 16384 :=
  ⟨512 * (t.val / 4) + p.val, by have h := t.isLt; have hN : cfg1.N = 128 := N_1; have := p.isLt; omega⟩
/-- Position `j` of step `b` along the contraction axis, as a column of the adjacency matrix (a row of the features). -/
abbrev colIx (b : ℕ) (hb : b < 4) (j : Fin 4096) : Fin 16384 := ⟨4096 * b + j.val, by have := j.isLt; omega⟩

/-- The adjacency block of point `t` at `(p, j)`. -/
theorem blk1_0_apply (c : Dev nD) (t : Fin cfg1.N) (p : Fin 512) (j : Fin 4096) (k : S16384x16384.Idx)
    (hk0 : (k 0).val = 512 * (t.val / 4) + p.val) (hk1 : (k 1).val = 4096 * (t.val % 4) + j.val) :
    (blk1 V c 0 t : Vec Ideal S512x4096 .bf16) (ix2 p j) = (V c (Pipeline.arrRef spec1 0) : S16384x16384.Idx → EReal) k := by
  have hi := idx1_0 t
  unfold blk1
  rw [View.read_apply]
  show V c (Pipeline.arrRef spec1 0) _ = V c (Pipeline.arrRef spec1 0) _
  congr 1
  funext a
  apply Fin.ext
  match a with
  | ⟨0, _⟩ => show win1_0.index t 0 * 512 + 1 * p.val = (k 0).val; rw [hi.1, hk0]; omega
  | ⟨1, _⟩ => show win1_0.index t 1 * 4096 + 1 * j.val = (k 1).val; rw [hi.2, hk1]; omega

/-- The features' window is the whole array at every point. -/
theorem blk1_1_eq (c : Dev nD) (t : Fin cfg1.N) :
    (blk1 V c 1 t : Vec Ideal S16384x128 .f32) = (V c (Pipeline.arrRef spec1 1) : S16384x128.Idx → EReal) := by
  have hi := idx1_1 t
  funext y
  unfold blk1
  rw [View.read_apply]
  show V c (Pipeline.arrRef spec1 1) _ = V c (Pipeline.arrRef spec1 1) _
  congr 1
  funext a
  apply Fin.ext
  match a with
  | ⟨0, _⟩ => show win1_1.index t 0 * 16384 + 1 * (y 0).val = (y 0).val; rw [hi.1]; omega
  | ⟨1, _⟩ => show win1_1.index t 1 * 128 + 1 * (y 1).val = (y 1).val; rw [hi.2]; omega

/-- The gate's block of point `t` at `(p, 0)`. -/
theorem blk1_2_apply (c : Dev nD) (t : Fin cfg1.N) (p : Fin 512) (k : S16384x1.Idx)
    (hk0 : (k 0).val = 512 * (t.val / 4) + p.val) (hk1 : (k 1).val = 0) :
    (blk1 V c 2 t : Vec Ideal S512x1 .f32) (ix2 p 0) = (V c (Pipeline.arrRef spec1 2) : S16384x1.Idx → EReal) k := by
  have hi := idx1_2 t
  unfold blk1
  rw [View.read_apply]
  show V c (Pipeline.arrRef spec1 2) _ = V c (Pipeline.arrRef spec1 2) _
  congr 1
  funext a
  apply Fin.ext
  match a with
  | ⟨0, _⟩ => show win1_2.index t 0 * 512 + 1 * p.val = (k 0).val; rw [hi.1, hk0]; omega
  | ⟨1, _⟩ => show win1_2.index t 1 * 1 + 1 * 0 = (k 1).val; rw [hi.2, hk1]

/-- The linear map's window is the whole array at every point. -/
theorem blk1_3_eq (c : Dev nD) (t : Fin cfg1.N) :
    (blk1 V c 3 t : Vec Ideal S128x128 .f32) = (V c (Pipeline.arrRef spec1 3) : S128x128.Idx → EReal) := by
  have hi := idx1_3 t
  funext y
  unfold blk1
  rw [View.read_apply]
  show V c (Pipeline.arrRef spec1 3) _ = V c (Pipeline.arrRef spec1 3) _
  congr 1
  funext a
  apply Fin.ext
  match a with
  | ⟨0, _⟩ => show win1_3.index t 0 * 128 + 1 * (y 0).val = (y 0).val; rw [hi.1]; omega
  | ⟨1, _⟩ => show win1_3.index t 1 * 128 + 1 * (y 1).val = (y 1).val; rw [hi.2]; omega

/-- So is the bias row's. -/
theorem blk1_4_eq (c : Dev nD) (t : Fin cfg1.N) :
    (blk1 V c 4 t : Vec Ideal S1x128 .f32) = (V c (Pipeline.arrRef spec1 4) : S1x128.Idx → EReal) := by
  have hi := idx1_4 t
  funext y
  unfold blk1
  rw [View.read_apply]
  show V c (Pipeline.arrRef spec1 4) _ = V c (Pipeline.arrRef spec1 4) _
  congr 1
  funext a
  apply Fin.ext
  match a with
  | ⟨0, _⟩ => show win1_4.index t 0 * 1 + 1 * (y 0).val = (y 0).val; rw [hi.1]; omega
  | ⟨1, _⟩ => show win1_4.index t 1 * 128 + 1 * (y 1).val = (y 1).val; rw [hi.2]; omega

/-! ## The arrays the region finds, and one step of the accumulation on them -/

/-- The five operand arrays as the region finds them on core `c`. -/
abbrev adjA (c : Dev nD) : S16384x16384.Idx → EReal := V c (Pipeline.arrRef spec1 0)
abbrev hA (c : Dev nD) : S16384x128.Idx → EReal := V c (Pipeline.arrRef spec1 1)
abbrev gA (c : Dev nD) : S16384x1.Idx → EReal := V c (Pipeline.arrRef spec1 2)
abbrev wlA (c : Dev nD) : S128x128.Idx → EReal := V c (Pipeline.arrRef spec1 3)
abbrev blA (c : Dev nD) : S1x128.Idx → EReal := V c (Pipeline.arrRef spec1 4)

/-- Step `b` of the message's sum at row `r`, feature `q`: the 4096 products of the step's columns of the adjacency
    matrix with the matching rows of the features (zero past the last step). -/
def sAt (adj : S16384x16384.Idx → EReal) (h : S16384x128.Idx → EReal) (r : Fin 16384) (q : Fin 128) (b : ℕ) : EReal :=
  if hb : b < 4 then ∑ j : Fin 4096, adj (ix2 r (colIx b hb j)) * h (ix2 (colIx b hb j) q) else 0

/-- The body's accumulation step over variables: the accumulator plus the products of the adjacency block with the
    rows of the features that the step meets, those rows named by the step's number `b`. -/
theorem pay2_rows (x0 : Vec Ideal S512x4096 .bf16) (x1 : Vec Ideal S16384x128 .f32) (xs : Vec Ideal S512x128 .f32)
    (i : grid1.Coords) (b : ℕ) (hb : b < 4) (ho0 : k1_off1 i 0 = 4096 * b) (ho1 : k1_off1 i 1 = 0) (p : Fin 512) (q : Fin 128) :
    k1_pay2 (F := Ideal) x0 (View.ld x1 (kRows1 i)) xs (ix2 p q)
      = xs (ix2 p q) + ∑ j : Fin 4096, x0 (ix2 p j) * x1 (ix2 (colIx b hb j) q) := by
  refine (k1_pay2_apply x0 (View.ld x1 (kRows1 i)) xs p q).trans ?_
  refine congrArg (xs (ix2 p q) + ·) (Finset.sum_congr rfl fun j _ => congrArg (x0 (ix2 p j) * ·) ?_)
  show x1 ((kRows1 i).idx (ix2 j q)) = x1 (ix2 (colIx b hb j) q)
  congr 1
  funext a
  apply Fin.ext
  match a with
  | ⟨0, _⟩ => show k1_off1 i 0 + 1 * j.val = 4096 * b + j.val; rw [ho0]; omega
  | ⟨1, _⟩ => show k1_off1 i 1 + 1 * q.val = q.val; rw [ho1]; omega

/-- The products of point `t`'s adjacency block with the features are step `t % 4` of the sum at the point's rows. -/
theorem step_eq (c : Dev nD) (t : Fin cfg1.N) (p : Fin 512) (q : Fin 128)
    (x0 : Vec Ideal S512x4096 .bf16) (x1 : Vec Ideal S16384x128 .f32) (hx0 : x0 = blk1 V c 0 t) (hx1 : x1 = blk1 V c 1 t) :
    (∑ j : Fin 4096, x0 (ix2 p j) * x1 (ix2 (colIx (t.val % 4) (Nat.mod_lt _ (by decide)) j) q))
      = sAt (adjA V c) (hA V c) (rowIx t p) q (t.val % 4) := by
  subst hx0 hx1
  unfold sAt
  rw [dif_pos (Nat.mod_lt _ (by decide))]
  refine Finset.sum_congr rfl fun j _ => ?_
  rw [blk1_0_apply V c t p j (ix2 (rowIx t p) (colIx (t.val % 4) (Nat.mod_lt _ (by decide)) j)) rfl rfl, blk1_1_eq V c t]

/-- At a first step the accumulator is reset and holds the step's products. -/
theorem acc_first (c : Dev nD) (t : Fin cfg1.N) (h0 : t.val % 4 = 0) (p : Fin 512) (q : Fin 128) :
    (accAt1 V c t.val t.isLt : Vec Ideal S512x128 .f32) (ix2 p q) = 0 + sAt (adjA V c) (hA V c) (rowIx t p) q (t.val % 4) := by
  have h1 : ¬ t.val % 4 = 3 := by omega
  refine (congrFun (accAt1_first V c t h0 h1) (ix2 p q)).trans ?_
  refine (congrFun (accFirst1_eq c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) ((first1_iff t).mpr h0) (fun h => h1 ((last1_iff t).mp h)) (blk1 V c 0 t) (blk1 V c 1 t)) (ix2 p q)).trans ?_
  refine (pay2_rows (blk1 V c 0 t) (blk1 V c 1 t) (k1_pay1 (F := Ideal)) (grid1.coords t) (t.val % 4) (Nat.mod_lt _ (by decide)) (off1_1 t).1 (off1_1 t).2 p q).trans ?_
  exact congrArg₂ (· + ·) (k1_pay1_apply p q) (step_eq V c t p q (blk1 V c 0 t) (blk1 V c 1 t) rfl rfl)

/-- At a later step it holds what the point before left plus the step's products. -/
theorem acc_next (c : Dev nD) (m : ℕ) (hm : m + 1 < cfg1.N) (h0 : ¬ (m + 1) % 4 = 0) (p : Fin 512) (q : Fin 128) :
    (accAt1 V c (m + 1) hm : Vec Ideal S512x128 .f32) (ix2 p q)
      = (accAt1 V c m (Nat.lt_of_succ_lt hm) : Vec Ideal S512x128 .f32) (ix2 p q)
          + sAt (adjA V c) (hA V c) (rowIx ⟨m + 1, hm⟩ p) q ((m + 1) % 4) := by
  have key : (accAt1 V c (m + 1) hm : Vec Ideal S512x128 .f32)
      = k1_pay2 (F := Ideal) (blk1 V c 0 ⟨m + 1, hm⟩) (View.ld (blk1 V c 1 ⟨m + 1, hm⟩) (kRows1 (grid1.coords ⟨m + 1, hm⟩))) (accAt1 V c m (Nat.lt_of_succ_lt hm)) := by
    by_cases h1 : (m + 1) % 4 = 3
    · exact (accAt1_last V c ⟨m + 1, hm⟩ h0 h1).trans
        (accLast1_eq c (grid1.coords ⟨m + 1, hm⟩) (ms1_0 ⟨m + 1, hm⟩) (hs1_0 ⟨m + 1, hm⟩) (ms1_1 ⟨m + 1, hm⟩) (hs1_1 ⟨m + 1, hm⟩) (ms1_2 ⟨m + 1, hm⟩) (hs1_2 ⟨m + 1, hm⟩) (ms1_3 ⟨m + 1, hm⟩) (hs1_3 ⟨m + 1, hm⟩) (ms1_4 ⟨m + 1, hm⟩) (hs1_4 ⟨m + 1, hm⟩) (ms1_5 ⟨m + 1, hm⟩) (hs1_5 ⟨m + 1, hm⟩) acc1M (Memref.isWhole_whole _) (fun h => h0 ((first1_iff ⟨m + 1, hm⟩).mp h)) ((last1_iff ⟨m + 1, hm⟩).mpr h1)
          (blk1 V c 0 ⟨m + 1, hm⟩) (blk1 V c 1 ⟨m + 1, hm⟩) (blk1 V c 2 ⟨m + 1, hm⟩) (blk1 V c 3 ⟨m + 1, hm⟩) (blk1 V c 4 ⟨m + 1, hm⟩) (accAt1 V c m (Nat.lt_of_succ_lt hm)))
    · exact (accAt1_mid V c ⟨m + 1, hm⟩ h0 h1).trans
        (accMid1_eq c (grid1.coords ⟨m + 1, hm⟩) (ms1_0 ⟨m + 1, hm⟩) (hs1_0 ⟨m + 1, hm⟩) (ms1_1 ⟨m + 1, hm⟩) (hs1_1 ⟨m + 1, hm⟩) (ms1_2 ⟨m + 1, hm⟩) (hs1_2 ⟨m + 1, hm⟩) (ms1_3 ⟨m + 1, hm⟩) (hs1_3 ⟨m + 1, hm⟩) (ms1_4 ⟨m + 1, hm⟩) (hs1_4 ⟨m + 1, hm⟩) (ms1_5 ⟨m + 1, hm⟩) (hs1_5 ⟨m + 1, hm⟩) acc1M (Memref.isWhole_whole _) (fun h => h0 ((first1_iff ⟨m + 1, hm⟩).mp h)) (fun h => h1 ((last1_iff ⟨m + 1, hm⟩).mp h))
          (blk1 V c 0 ⟨m + 1, hm⟩) (blk1 V c 1 ⟨m + 1, hm⟩) (accAt1 V c m (Nat.lt_of_succ_lt hm)))
  refine (congrFun key (ix2 p q)).trans ?_
  refine (pay2_rows (blk1 V c 0 ⟨m + 1, hm⟩) (blk1 V c 1 ⟨m + 1, hm⟩) (accAt1 V c m (Nat.lt_of_succ_lt hm)) (grid1.coords ⟨m + 1, hm⟩) ((m + 1) % 4) (Nat.mod_lt _ (by decide)) (off1_1 ⟨m + 1, hm⟩).1 (off1_1 ⟨m + 1, hm⟩).2 p q).trans ?_
  exact congrArg (fun z => (accAt1 V c m (Nat.lt_of_succ_lt hm) : Vec Ideal S512x128 .f32) (ix2 p q) + z)
    (step_eq V c ⟨m + 1, hm⟩ p q (blk1 V c 0 ⟨m + 1, hm⟩) (blk1 V c 1 ⟨m + 1, hm⟩) rfl rfl)

/-- THE ACCUMULATOR: after the body at position `n` it holds, at row `p`, feature `q`, the running sum of the steps
    `0 … n % 4` of the message at the point's rows. -/
theorem accAt1_eq (c : Dev nD) : ∀ (n : ℕ) (hn : n < cfg1.N) (p : Fin 512) (q : Fin 128),
    (accAt1 V c n hn : Vec Ideal S512x128 .f32) (ix2 p q)
      = Cert.Spec.accAt (sAt (adjA V c) (hA V c) (rowIx ⟨n, hn⟩ p) q) (n % 4)
  | 0, hn, p, q => acc_first V c ⟨0, hn⟩ rfl p q
  | m + 1, hn, p, q => by
    by_cases h0 : (m + 1) % 4 = 0
    · refine (acc_first V c ⟨m + 1, hn⟩ h0 p q).trans ?_
      show 0 + sAt _ _ _ _ ((m + 1) % 4) = Cert.Spec.accAt _ ((m + 1) % 4)
      rw [h0]; rfl
    · refine (acc_next V c m hn h0 p q).trans ?_
      rw [accAt1_eq c m (Nat.lt_of_succ_lt hn) p q]
      have hmod : (m + 1) % 4 = m % 4 + 1 := by omega
      have hrow : rowIx ⟨m, Nat.lt_of_succ_lt hn⟩ p = rowIx ⟨m + 1, hn⟩ p :=
        Fin.ext (by show 512 * (m / 4) + p.val = 512 * ((m + 1) / 4) + p.val; omega)
      rw [hrow, hmod]
      rfl

/-! ## The layer's output rows at a last step -/

/-- The layer on the arrays the region finds, index by index. -/
def layerG (c : Dev nD) : S16384x128.Idx → EReal := fun i =>
  Cert.Spec.layer (fun r j => adjA V c (ix2 r j)) (fun r k => hA V c (ix2 r k)) (fun r => gA V c (ix2 r 0))
    (fun k q => wlA V c (ix2 k q)) (fun q => blA V c (ix2 0 q)) (i 0) (i 1)

/-- The four steps' running sum is the whole message: 16384 = 4 · 4096. -/
theorem msg_total (adj : S16384x16384.Idx → EReal) (h : S16384x128.Idx → EReal) (r : Fin 16384) (k : Fin 128) :
    Cert.Spec.accAt (sAt adj h r k) 3 = ∑ j : Fin 16384, adj (ix2 r j) * h (ix2 j k) :=
  Cert.Spec.acc_blocks_4_4096 (sAt adj h r k) (fun j => adj (ix2 r j) * h (ix2 j k)) (fun b j => colIx b.val b.isLt j)
    (fun b j => by show 4096 * b.val + j.val = b.val * 4096 + j.val; omega)
    (fun b => by unfold sAt; rw [dif_pos b.isLt])

/-- The body's last payload over variables, the rows of the features under the row tile named by their first row. -/
theorem pay3_rows (x1 : Vec Ideal S16384x128 .f32) (x2 : Vec Ideal S512x1 .f32) (acc : Vec Ideal S512x128 .f32)
    (x3 : Vec Ideal S128x128 .f32) (x4 : Vec Ideal S1x128 .f32) (i : grid1.Coords) (hl : last1 i) (r0 : ℕ) (hr0 : r0 + 512 ≤ 16384)
    (ho0 : k1_off2 i 0 = r0) (ho1 : k1_off2 i 1 = 0) (p : Fin 512) (q : Fin 128) :
    k1_pay3 (F := Ideal) (View.ld x1 (tRows1 i hl)) x2 acc x3 x4 (ix2 p q)
      = max ((∑ k : Fin 128, (x2 (ix2 p 0) * x1 (ix2 (⟨r0 + p.val, by have := p.isLt; omega⟩ : Fin 16384) k)
          + (1 - x2 (ix2 p 0)) * acc (ix2 p k)) * x3 (ix2 k q)) + x4 (ix2 0 q)) 0 := by
  have e : ∀ k : Fin 128, (View.ld x1 (tRows1 i hl) : Vec Ideal S512x128 .f32) (ix2 p k)
      = x1 (ix2 (⟨r0 + p.val, by have := p.isLt; omega⟩ : Fin 16384) k) := fun k => by
    show x1 ((tRows1 i hl).idx (ix2 p k)) = _
    congr 1
    funext a
    apply Fin.ext
    match a with
    | ⟨0, _⟩ => show k1_off2 i 0 + 1 * p.val = r0 + p.val; rw [ho0]; omega
    | ⟨1, _⟩ => show k1_off2 i 1 + 1 * k.val = k.val; rw [ho1]; omega
  refine (k1_pay3_apply (View.ld x1 (tRows1 i hl)) x2 acc x3 x4 p q).trans ?_
  simp only [e]

/-- THE RESULT BLOCK: at a last step the result window's buffer holds, at row `p`, feature `q`, the layer at the row
    tile's row `p`. -/
theorem res_last (c : Dev nD) (t : Fin cfg1.N) (h1 : t.val % 4 = 3) (p : Fin 512) (q : Fin 128) :
    (resAt1 V c t : Vec Ideal S512x128 .f32) (ix2 p q) = layerG V c (ix2 (rowIx t p) q) := by
  have h0 : ¬ t.val % 4 = 0 := by omega
  have hl : last1 (grid1.coords t) := (last1_iff t).mpr h1
  have hN : cfg1.N = 128 := N_1
  have hacc : (accAt1 V c t.val t.isLt : Vec Ideal S512x128 .f32)
      = k1_pay2 (F := Ideal) (blk1 V c 0 t) (View.ld (blk1 V c 1 t) (kRows1 (grid1.coords t))) (accAt1 V c (t.val - 1) (Nat.lt_of_le_of_lt (Nat.sub_le _ _) t.isLt)) :=
    (accAt1_last V c t h0 h1).trans
      (accLast1_eq c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) hl
        (blk1 V c 0 t) (blk1 V c 1 t) (blk1 V c 2 t) (blk1 V c 3 t) (blk1 V c 4 t) (accAt1 V c (t.val - 1) (Nat.lt_of_le_of_lt (Nat.sub_le _ _) t.isLt)))
  have hres : (resAt1 V c t : Vec Ideal S512x128 .f32)
      = k1_pay3 (F := Ideal) (View.ld (blk1 V c 1 t) (tRows1 (grid1.coords t) hl)) (blk1 V c 2 t) (accAt1 V c t.val t.isLt) (blk1 V c 3 t) (blk1 V c 4 t) :=
    ((dif_pos h1 : resAt1 V c t = _).trans
      (resLast1_eq c (grid1.coords t) (ms1_0 t) (hs1_0 t) (ms1_1 t) (hs1_1 t) (ms1_2 t) (hs1_2 t) (ms1_3 t) (hs1_3 t) (ms1_4 t) (hs1_4 t) (ms1_5 t) (hs1_5 t) acc1M (Memref.isWhole_whole _) (fun h => h0 ((first1_iff t).mp h)) hl
        (blk1 V c 0 t) (blk1 V c 1 t) (blk1 V c 2 t) (blk1 V c 3 t) (blk1 V c 4 t) (accAt1 V c (t.val - 1) (Nat.lt_of_le_of_lt (Nat.sub_le _ _) t.isLt)))).trans
      (congrArg (fun z => k1_pay3 (F := Ideal) (View.ld (blk1 V c 1 t) (tRows1 (grid1.coords t) hl)) (blk1 V c 2 t) z (blk1 V c 3 t) (blk1 V c 4 t)) hacc.symm)
  refine (congrFun hres (ix2 p q)).trans ?_
  refine (pay3_rows (blk1 V c 1 t) (blk1 V c 2 t) (accAt1 V c t.val t.isLt) (blk1 V c 3 t) (blk1 V c 4 t) (grid1.coords t) hl
    (512 * (t.val / 4)) (by have := t.isLt; omega) (off1_2 t).1 (off1_2 t).2 p q).trans ?_
  rw [blk1_2_apply V c t p (ix2 (rowIx t p) 0) rfl rfl, blk1_1_eq V c t, blk1_3_eq V c t, blk1_4_eq V c t]
  unfold layerG Cert.Spec.layer
  refine congrArg₂ max (congrArg₂ (· + ·) (Finset.sum_congr rfl fun k _ => ?_) rfl) rfl
  rw [accAt1_eq V c t.val t.isLt p k, h1, msg_total]

/-! ## From the flushed blocks to the result array -/

/-- What a last step writes back is the layer read through the step's block of the result. -/
theorem flushed1_eq (c : Dev nD) (t : Fin cfg1.N) (hf : (cfg1.win 5).flush t = true) :
    (dat1 V c).flushed 5 t = ((cfg1.win 5).blk t).view.read (Elt Ideal) (layerG V c) := by
  have h1 : t.val % 4 = 3 := (flush1_5 t).mp hf
  have hi := idx1_5 t
  show (cfg1.win 5).cut (grid1.coords t) ((dat1 V c).after 5 t) = _
  rw [after1_5]
  funext y
  have hp : (y 0).val < 512 := (y 0).isLt
  have hq : (y 1).val < 128 := (y 1).isLt
  have hx : (cfg1.win 5).xinj (grid1.coords t) y = (ix2 (⟨(y 0).val, hp⟩ : Fin 512) (⟨(y 1).val, hq⟩ : Fin 128) : S512x128.Idx) :=
    funext fun a => match a with
      | ⟨0, _⟩ => rfl
      | ⟨1, _⟩ => rfl
  refine ((congrArg (resAt1 V c t : Vec Ideal S512x128 .f32) hx).trans (res_last V c t h1 ⟨(y 0).val, hp⟩ ⟨(y 1).val, hq⟩)).trans ?_
  rw [View.read_apply]
  show layerG V c _ = layerG V c _
  refine congrArg (layerG V c) (funext fun a => Fin.ext ?_)
  match a with
  | ⟨0, _⟩ => show 512 * (t.val / 4) + (y 0).val = win1_5.index t 0 * 512 + 1 * (y 0).val; rw [hi.1]; omega
  | ⟨1, _⟩ => show (y 1).val = win1_5.index t 1 * 128 + 1 * (y 1).val; rw [hi.2]; omega

/-- Every row of the result lies in the block of the last step of its row tile. -/
theorem cover1 (c : Dev nD) (i : ((cfg1.win 5).arr.view.loc (c.tc : Thread nD τ)).2.ty.Idx) :
    ∃ t : Fin cfg1.N, (cfg1.win 5).flush t = true ∧ i ∈ ((cfg1.win 5).blk t).view.set := by
  have hN : cfg1.N = 128 := N_1
  have h0 : (i 0 : Nat) < 16384 := (i 0).isLt
  have h1 : (i 1 : Nat) < 128 := (i 1).isLt
  obtain ⟨t, ht⟩ : ∃ t : Fin cfg1.N, t.val = 4 * ((i 0 : Nat) / 512) + 3 := ⟨⟨4 * ((i 0 : Nat) / 512) + 3, by omega⟩, rfl⟩
  have hi := idx1_5 t
  refine ⟨t, (flush1_5 t).mpr (by omega), ?_⟩
  show i ∈ ((View.whole main_v41).slice (win1_5.rect t)).set
  rw [View.set_slice_whole, Rect.mem_set_unit]
  intro a
  match a with
  | ⟨0, _⟩ =>
    show win1_5.index t 0 * 512 ≤ (i 0 : Nat) ∧ (i 0 : Nat) < win1_5.index t 0 * 512 + 512
    rw [hi.1]; omega
  | ⟨1, _⟩ =>
    show win1_5.index t 1 * 128 ≤ (i 1 : Nat) ∧ (i 1 : Nat) < win1_5.index t 1 * 128 + 128
    rw [hi.2]; omega

/-- THE REGION'S VALUE: after the run the result array holds the layer of the five arrays the region found, index by
    index. -/
theorem layer1_value (c : Dev nD) :
    (dat1 (F := Ideal) V c).arrAt 5 cfg1.N
      = fun i => Cert.Spec.layer (fun r j => adjA V c (ix2 r j)) (fun r k => hA V c (ix2 r k)) (fun r => gA V c (ix2 r 0))
          (fun k q => wlA V c (ix2 k q)) (fun q => blA V c (ix2 0 q)) (i 0) (i 1) :=
  (dat1 V c).arrAt_eq_of_cover 5 (layerG V c) (flushed1_eq V c) (cover1 c)

end Cert.KernelIdeal.Hand

end
-- ==== Proof.LayerPieces2.lean ====
import proofs.«103405_j58265526337970_2_alg».proof.Proof.Gen.KernelIdeal.Skeleton
import proofs.«103405_j58265526337970_2_alg».proof.Proof.Gen.KernelIdeal.Launch
import proofs.«103405_j58265526337970_2_alg».proof.Proof.Gen.KernelIdeal.Points
import proofs.«103405_j58265526337970_2_alg».proof.Proof.LayerData2
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # One layer's region (pallas_call 2): what the runs' pieces are, as the body's arithmetic -/

theorem hz2_2 : (![0, 0] : Fin 2 → Nat) = fun _ => 0 := funext fun a => by fin_cases a <;> rfl

/-- The rows of the resident feature matrix the point's K tile meets. -/
abbrev kRows2 (i : grid2.Coords) : Rect S16384x128 := Rect.unit (s := S16384x128) (k2_off1 i) S4096x128.size (k2_off1_inb i)
/-- The rows of the feature matrix under the point's row tile (read at the last K tile). -/
abbrev tRows2 (i : grid2.Coords) (h : last2 i) : Rect S16384x128 := Rect.unit (s := S16384x128) (k2_off2 i) S512x128.size (k2_off2_inb i h)

/-- A middle K tile leaves the accumulator at its contents plus the tile's product. -/
theorem accMid2_eq (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : ¬last2 i)
    (x0 : Vec F S512x4096 .bf16) (x1 : Vec F S16384x128 .f32) (xs : Vec F S512x128 .f32) :
    accMid2 c i arg2 harg2 arg3 harg3 arg4 harg4 arg5 harg5 arg6 harg6 arg7 harg7 arg8 harg8 hc0 hc1 x0 x1 xs = k2_pay2 x0 (View.ld x1 (kRows2 i)) xs := by
  unfold accMid2
  rw [View.read_writes_eq_canon _ _ _ (accMid2_cover c i arg2 harg2 arg3 harg3 arg4 harg4 arg5 harg5 arg6 harg6 arg7 harg7 arg8 harg8 hc0 hc1 x0 x1 xs)]
  unfold run2_mid
  dsimp only
  rw [View.canon_unit_zero hz2_2]
  simp only [View.readAt_eq_ld, harg2.read_unread, harg3.read_unread, harg8.read_unread,
    View.ld_unit_zero (S := S512x4096) hz2_2, View.ld_unit_zero (S := S512x128) hz2_2]

/-- A first K tile leaves the zero block plus the tile's product. -/
theorem accFirst2_eq (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : first2 i) (hc1 : ¬last2 i)
    (x0 : Vec F S512x4096 .bf16) (x1 : Vec F S16384x128 .f32) :
    accFirst2 c i arg2 harg2 arg3 harg3 arg4 harg4 arg5 harg5 arg6 harg6 arg7 harg7 arg8 harg8 hc0 hc1 x0 x1 = k2_pay2 x0 (View.ld x1 (kRows2 i)) (k2_pay1 (F := F)) := by
  unfold accFirst2
  rw [View.read_writes_eq_canon _ _ _ (accFirst2_cover c i arg2 harg2 arg3 harg3 arg4 harg4 arg5 harg5 arg6 harg6 arg7 harg7 arg8 harg8 hc0 hc1 x0 x1)]
  unfold run2_first
  dsimp only
  sl_unfold_words
  rw [View.canon_cons_unit_zero (S := S512x128) hz2_2]
  simp only [View.readCov_unit_zero (S := S512x128) _ hz2_2, View.readAt_eq_ld, harg2.read_unread, harg3.read_unread,
    View.ld_unit_zero (S := S512x4096) hz2_2, View.ld_unit_zero (S := S512x128) hz2_2]
  rfl

/-- The last K tile leaves the accumulator as a middle one does, -/
theorem accLast2_eq (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) :
    accLast2 c i arg2 harg2 arg3 harg3 arg4 harg4 arg5 harg5 arg6 harg6 arg7 harg7 arg8 harg8 hc0 hc1 x0 x1 x2 x3 x4 xs = k2_pay2 x0 (View.ld x1 (kRows2 i)) xs := by
  unfold accLast2
  rw [View.read_writes_eq_canon _ _ _ (accLast2_cover c i arg2 harg2 arg3 harg3 arg4 harg4 arg5 harg5 arg6 harg6 arg7 harg7 arg8 harg8 hc0 hc1 x0 x1 x2 x3 x4 xs)]
  unfold run2_last
  dsimp only
  sl_unfold_words
  rw [View.canon_unit_zero hz2_2]
  simp only [View.readAt_eq_ld, harg2.read_unread, harg3.read_unread, harg8.read_unread,
    View.ld_unit_zero (S := S512x4096) hz2_2, View.ld_unit_zero (S := S512x128) hz2_2]
  rfl

/-- and the result buffer at the layer's output rows: the gate's column, the tile's rows of the features, the full
    accumulator, the weights and the bias through the body's last payload. -/
theorem resLast2_eq (c : Dev nD) (i : grid2.Coords) (arg2 : Memref sig .tc .vmem S512x4096 .bf16) (harg2 : arg2.IsWhole) (arg3 : Memref sig .tc .vmem S16384x128 .f32) (harg3 : arg3.IsWhole) (arg4 : Memref sig .tc .vmem S512x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S512x128 .f32) (harg8 : arg8.IsWhole) (hc0 : ¬first2 i) (hc1 : last2 i)
    (x0 : Vec F S512x4096 .bf16) (x1 : Vec F S16384x128 .f32) (x2 : Vec F S512x1 .f32) (x3 : Vec F S128x128 .f32) (x4 : Vec F S1x128 .f32) (xs : Vec F S512x128 .f32) :
    resLast2 c i arg2 harg2 arg3 harg3 arg4 harg4 arg5 harg5 arg6 harg6 arg7 harg7 arg8 harg8 hc0 hc1 x0 x1 x2 x3 x4 xs
      = k2_pay3 (View.ld x1 (tRows2 i hc1)) x2 (k2_pay2 x0 (View.ld x1 (kRows2 i)) xs) x3 x4 := by
  unfold resLast2
  rw [View.read_writes_eq_canon _ _ _ (resLast2_cover c i arg2 harg2 arg3 harg3 arg4 harg4 arg5 harg5 arg6 harg6 arg7 harg7 arg8 harg8 hc0 hc1 x0 x1 x2 x3 x4 xs)]
  unfold run2_last
  dsimp only
  sl_unfold_words
  rw [View.canon_unit_zero hz2_2]
  simp only [View.readCov_unit_zero (S := S512x128) _ hz2_2, View.readAt_eq_ld, harg2.read_unread, harg3.read_unread, harg4.read_unread, harg5.read_unread, harg6.read_unread, harg8.read_unread,
    View.ld_unit_zero (S := S512x4096) hz2_2, View.ld_unit_zero (S := S512x128) hz2_2, View.ld_unit_zero (S := S512x1) hz2_2,
    View.ld_unit_zero (S := S128x128) hz2_2, View.ld_unit_zero (S := S1x128) hz2_2]
  rfl

end Cert.KernelIdeal.Hand

end
-- ==== Proof.LayerValue2.lean ====
/-
  The value of one layer's region: after its run the result array holds the layer of the five arrays the region found.

  The grid has 32 row tiles of 512 rows and, within each, four steps along the contraction axis, 4096 columns of the
  adjacency matrix each; point `t` is step `t % 4` of row tile `t / 4`.
  * The blocks: at point `t` the adjacency window holds rows `512 (t / 4) + p`, columns `4096 (t % 4) + j`; the gate's
    window rows `512 (t / 4) + p`; the features, the linear map and the bias row are whole at every point.
  * The accumulator: after the body at point `t` it holds, at `(p, q)`, the running sum `((0 + s 0) + s 1) + … + s (t % 4)`
    of the steps `s b = ∑ⱼ adj (row, 4096 b + j) · h (4096 b + j, q)` of the message at the tile's row `p` — by induction on
    the point: a first step resets it, a later one adds to what the point before left.
  * The result block: at a last step (`t % 4 = 3`) the body stores
    `relu (∑ₖ (attn · h + (1 − attn) · acc) · wl + bl)` with the accumulator complete, and the four steps' running sum
    is the whole sum over the 16384 = 4 · 4096 columns: the layer at the tile's rows.
  * The array: each last step writes its block back, the 32 blocks tile the result's rows, so the array ends at the
    layer, index by index.
-/
import proofs.«103405_j58265526337970_2_alg».proof.Proof.LayerPieces2
import proofs.«103405_j58265526337970_2_alg».proof.Proof.KernelPay
import proofs.«103405_j58265526337970_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where a point's blocks sit in their arrays -/

theorem idx2_0 : ∀ t : Fin cfg2.N, win2_0.index t 0 = t.val / 4 ∧ win2_0.index t 1 = t.val % 4 := by decide +kernel
theorem idx2_1 : ∀ t : Fin cfg2.N, win2_1.index t 0 = 0 ∧ win2_1.index t 1 = 0 := by decide +kernel
theorem idx2_2 : ∀ t : Fin cfg2.N, win2_2.index t 0 = t.val / 4 ∧ win2_2.index t 1 = 0 := by decide +kernel
theorem idx2_3 : ∀ t : Fin cfg2.N, win2_3.index t 0 = 0 ∧ win2_3.index t 1 = 0 := by decide +kernel
theorem idx2_4 : ∀ t : Fin cfg2.N, win2_4.index t 0 = 0 ∧ win2_4.index t 1 = 0 := by decide +kernel
theorem idx2_5 : ∀ t : Fin cfg2.N, win2_5.index t 0 = t.val / 4 ∧ win2_5.index t 1 = 0 := by decide +kernel
/-- The first row of the feature matrix a point's step along the contraction axis meets, -/
theorem off2_1 : ∀ t : Fin cfg2.N, k2_off1 (grid2.coords t) 0 = 4096 * (t.val % 4) ∧ k2_off1 (grid2.coords t) 1 = 0 := by decide +kernel
/-- and the first row under its row tile. -/
theorem off2_2 : ∀ t : Fin cfg2.N, k2_off2 (grid2.coords t) 0 = 512 * (t.val / 4) ∧ k2_off2 (grid2.coords t) 1 = 0 := by decide +kernel

/-- Row `p` of the row tile of point `t`, as a row of the whole arrays. -/
abbrev rowIx2 (t : Fin cfg2.N) (p : Fin 512) : Fin 16384 :=
  ⟨512 * (t.val / 4) + p.val, by have h := t.isLt; have hN : cfg2.N = 128 := N_2; have := p.isLt; omega⟩
/-- Position `j` of step `b` along the contraction axis, as a column of the adjacency matrix (a row of the features). -/
abbrev colIx2 (b : ℕ) (hb : b < 4) (j : Fin 4096) : Fin 16384 := ⟨4096 * b + j.val, by have := j.isLt; omega⟩

/-- The adjacency block of point `t` at `(p, j)`. -/
theorem blk2_0_apply (c : Dev nD) (t : Fin cfg2.N) (p : Fin 512) (j : Fin 4096) (k : S16384x16384.Idx)
    (hk0 : (k 0).val = 512 * (t.val / 4) + p.val) (hk1 : (k 1).val = 4096 * (t.val % 4) + j.val) :
    (blk2 V c 0 t : Vec Ideal S512x4096 .bf16) (ix2 p j) = (V c (Pipeline.arrRef spec2 0) : S16384x16384.Idx → EReal) k := by
  have hi := idx2_0 t
  unfold blk2
  rw [View.read_apply]
  show V c (Pipeline.arrRef spec2 0) _ = V c (Pipeline.arrRef spec2 0) _
  congr 1
  funext a
  apply Fin.ext
  match a with
  | ⟨0, _⟩ => show win2_0.index t 0 * 512 + 1 * p.val = (k 0).val; rw [hi.1, hk0]; omega
  | ⟨1, _⟩ => show win2_0.index t 1 * 4096 + 1 * j.val = (k 1).val; rw [hi.2, hk1]; omega

/-- The features' window is the whole array at every point. -/
theorem blk2_1_eq (c : Dev nD) (t : Fin cfg2.N) :
    (blk2 V c 1 t : Vec Ideal S16384x128 .f32) = (V c (Pipeline.arrRef spec2 1) : S16384x128.Idx → EReal) := by
  have hi := idx2_1 t
  funext y
  unfold blk2
  rw [View.read_apply]
  show V c (Pipeline.arrRef spec2 1) _ = V c (Pipeline.arrRef spec2 1) _
  congr 1
  funext a
  apply Fin.ext
  match a with
  | ⟨0, _⟩ => show win2_1.index t 0 * 16384 + 1 * (y 0).val = (y 0).val; rw [hi.1]; omega
  | ⟨1, _⟩ => show win2_1.index t 1 * 128 + 1 * (y 1).val = (y 1).val; rw [hi.2]; omega

/-- The gate's block of point `t` at `(p, 0)`. -/
theorem blk2_2_apply (c : Dev nD) (t : Fin cfg2.N) (p : Fin 512) (k : S16384x1.Idx)
    (hk0 : (k 0).val = 512 * (t.val / 4) + p.val) (hk1 : (k 1).val = 0) :
    (blk2 V c 2 t : Vec Ideal S512x1 .f32) (ix2 p 0) = (V c (Pipeline.arrRef spec2 2) : S16384x1.Idx → EReal) k := by
  have hi := idx2_2 t
  unfold blk2
  rw [View.read_apply]
  show V c (Pipeline.arrRef spec2 2) _ = V c (Pipeline.arrRef spec2 2) _
  congr 1
  funext a
  apply Fin.ext
  match a with
  | ⟨0, _⟩ => show win2_2.index t 0 * 512 + 1 * p.val = (k 0).val; rw [hi.1, hk0]; omega
  | ⟨1, _⟩ => show win2_2.index t 1 * 1 + 1 * 0 = (k 1).val; rw [hi.2, hk1]

/-- The linear map's window is the whole array at every point. -/
theorem blk2_3_eq (c : Dev nD) (t : Fin cfg2.N) :
    (blk2 V c 3 t : Vec Ideal S128x128 .f32) = (V c (Pipeline.arrRef spec2 3) : S128x128.Idx → EReal) := by
  have hi := idx2_3 t
  funext y
  unfold blk2
  rw [View.read_apply]
  show V c (Pipeline.arrRef spec2 3) _ = V c (Pipeline.arrRef spec2 3) _
  congr 1
  funext a
  apply Fin.ext
  match a with
  | ⟨0, _⟩ => show win2_3.index t 0 * 128 + 1 * (y 0).val = (y 0).val; rw [hi.1]; omega
  | ⟨1, _⟩ => show win2_3.index t 1 * 128 + 1 * (y 1).val = (y 1).val; rw [hi.2]; omega

/-- So is the bias row's. -/
theorem blk2_4_eq (c : Dev nD) (t : Fin cfg2.N) :
    (blk2 V c 4 t : Vec Ideal S1x128 .f32) = (V c (Pipeline.arrRef spec2 4) : S1x128.Idx → EReal) := by
  have hi := idx2_4 t
  funext y
  unfold blk2
  rw [View.read_apply]
  show V c (Pipeline.arrRef spec2 4) _ = V c (Pipeline.arrRef spec2 4) _
  congr 1
  funext a
  apply Fin.ext
  match a with
  | ⟨0, _⟩ => show win2_4.index t 0 * 1 + 1 * (y 0).val = (y 0).val; rw [hi.1]; omega
  | ⟨1, _⟩ => show win2_4.index t 1 * 128 + 1 * (y 1).val = (y 1).val; rw [hi.2]; omega

/-! ## The arrays the region finds, and one step of the accumulation on them -/

/-- The five operand arrays as the region finds them on core `c`. -/
abbrev adjA2 (c : Dev nD) : S16384x16384.Idx → EReal := V c (Pipeline.arrRef spec2 0)
abbrev hA2 (c : Dev nD) : S16384x128.Idx → EReal := V c (Pipeline.arrRef spec2 1)
abbrev gA2 (c : Dev nD) : S16384x1.Idx → EReal := V c (Pipeline.arrRef spec2 2)
abbrev wlA2 (c : Dev nD) : S128x128.Idx → EReal := V c (Pipeline.arrRef spec2 3)
abbrev blA2 (c : Dev nD) : S1x128.Idx → EReal := V c (Pipeline.arrRef spec2 4)

/-- Step `b` of the message's sum at row `r`, feature `q`: the 4096 products of the step's columns of the adjacency
    matrix with the matching rows of the features (zero past the last step). -/
def sAt2 (adj : S16384x16384.Idx → EReal) (h : S16384x128.Idx → EReal) (r : Fin 16384) (q : Fin 128) (b : ℕ) : EReal :=
  if hb : b < 4 then ∑ j : Fin 4096, adj (ix2 r (colIx2 b hb j)) * h (ix2 (colIx2 b hb j) q) else 0

/-- The body's accumulation step over variables: the accumulator plus the products of the adjacency block with the
    rows of the features that the step meets, those rows named by the step's number `b`. -/
theorem pay2_rows2 (x0 : Vec Ideal S512x4096 .bf16) (x1 : Vec Ideal S16384x128 .f32) (xs : Vec Ideal S512x128 .f32)
    (i : grid2.Coords) (b : ℕ) (hb : b < 4) (ho0 : k2_off1 i 0 = 4096 * b) (ho1 : k2_off1 i 1 = 0) (p : Fin 512) (q : Fin 128) :
    k2_pay2 (F := Ideal) x0 (View.ld x1 (kRows2 i)) xs (ix2 p q)
      = xs (ix2 p q) + ∑ j : Fin 4096, x0 (ix2 p j) * x1 (ix2 (colIx2 b hb j) q) := by
  refine (k2_pay2_apply x0 (View.ld x1 (kRows2 i)) xs p q).trans ?_
  refine congrArg (xs (ix2 p q) + ·) (Finset.sum_congr rfl fun j _ => congrArg (x0 (ix2 p j) * ·) ?_)
  show x1 ((kRows2 i).idx (ix2 j q)) = x1 (ix2 (colIx2 b hb j) q)
  congr 1
  funext a
  apply Fin.ext
  match a with
  | ⟨0, _⟩ => show k2_off1 i 0 + 1 * j.val = 4096 * b + j.val; rw [ho0]; omega
  | ⟨1, _⟩ => show k2_off1 i 1 + 1 * q.val = q.val; rw [ho1]; omega

/-- The products of point `t`'s adjacency block with the features are step `t % 4` of the sum at the point's rows. -/
theorem step_eq2 (c : Dev nD) (t : Fin cfg2.N) (p : Fin 512) (q : Fin 128)
    (x0 : Vec Ideal S512x4096 .bf16) (x1 : Vec Ideal S16384x128 .f32) (hx0 : x0 = blk2 V c 0 t) (hx1 : x1 = blk2 V c 1 t) :
    (∑ j : Fin 4096, x0 (ix2 p j) * x1 (ix2 (colIx2 (t.val % 4) (Nat.mod_lt _ (by decide)) j) q))
      = sAt2 (adjA2 V c) (hA2 V c) (rowIx2 t p) q (t.val % 4) := by
  subst hx0 hx1
  unfold sAt2
  rw [dif_pos (Nat.mod_lt _ (by decide))]
  refine Finset.sum_congr rfl fun j _ => ?_
  rw [blk2_0_apply V c t p j (ix2 (rowIx2 t p) (colIx2 (t.val % 4) (Nat.mod_lt _ (by decide)) j)) rfl rfl, blk2_1_eq V c t]

/-- At a first step the accumulator is reset and holds the step's products. -/
theorem acc_first2 (c : Dev nD) (t : Fin cfg2.N) (h0 : t.val % 4 = 0) (p : Fin 512) (q : Fin 128) :
    (accAt2 V c t.val t.isLt : Vec Ideal S512x128 .f32) (ix2 p q) = 0 + sAt2 (adjA2 V c) (hA2 V c) (rowIx2 t p) q (t.val % 4) := by
  have h1 : ¬ t.val % 4 = 3 := by omega
  refine (congrFun (accAt2_first V c t h0 h1) (ix2 p q)).trans ?_
  refine (congrFun (accFirst2_eq c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) ((first2_iff t).mpr h0) (fun h => h1 ((last2_iff t).mp h)) (blk2 V c 0 t) (blk2 V c 1 t)) (ix2 p q)).trans ?_
  refine (pay2_rows2 (blk2 V c 0 t) (blk2 V c 1 t) (k2_pay1 (F := Ideal)) (grid2.coords t) (t.val % 4) (Nat.mod_lt _ (by decide)) (off2_1 t).1 (off2_1 t).2 p q).trans ?_
  exact congrArg₂ (· + ·) (k2_pay1_apply p q) (step_eq2 V c t p q (blk2 V c 0 t) (blk2 V c 1 t) rfl rfl)

/-- At a later step it holds what the point before left plus the step's products. -/
theorem acc_next2 (c : Dev nD) (m : ℕ) (hm : m + 1 < cfg2.N) (h0 : ¬ (m + 1) % 4 = 0) (p : Fin 512) (q : Fin 128) :
    (accAt2 V c (m + 1) hm : Vec Ideal S512x128 .f32) (ix2 p q)
      = (accAt2 V c m (Nat.lt_of_succ_lt hm) : Vec Ideal S512x128 .f32) (ix2 p q)
          + sAt2 (adjA2 V c) (hA2 V c) (rowIx2 ⟨m + 1, hm⟩ p) q ((m + 1) % 4) := by
  have key : (accAt2 V c (m + 1) hm : Vec Ideal S512x128 .f32)
      = k2_pay2 (F := Ideal) (blk2 V c 0 ⟨m + 1, hm⟩) (View.ld (blk2 V c 1 ⟨m + 1, hm⟩) (kRows2 (grid2.coords ⟨m + 1, hm⟩))) (accAt2 V c m (Nat.lt_of_succ_lt hm)) := by
    by_cases h1 : (m + 1) % 4 = 3
    · exact (accAt2_last V c ⟨m + 1, hm⟩ h0 h1).trans
        (accLast2_eq c (grid2.coords ⟨m + 1, hm⟩) (ms2_0 ⟨m + 1, hm⟩) (hs2_0 ⟨m + 1, hm⟩) (ms2_1 ⟨m + 1, hm⟩) (hs2_1 ⟨m + 1, hm⟩) (ms2_2 ⟨m + 1, hm⟩) (hs2_2 ⟨m + 1, hm⟩) (ms2_3 ⟨m + 1, hm⟩) (hs2_3 ⟨m + 1, hm⟩) (ms2_4 ⟨m + 1, hm⟩) (hs2_4 ⟨m + 1, hm⟩) (ms2_5 ⟨m + 1, hm⟩) (hs2_5 ⟨m + 1, hm⟩) acc2M (Memref.isWhole_whole _) (fun h => h0 ((first2_iff ⟨m + 1, hm⟩).mp h)) ((last2_iff ⟨m + 1, hm⟩).mpr h1)
          (blk2 V c 0 ⟨m + 1, hm⟩) (blk2 V c 1 ⟨m + 1, hm⟩) (blk2 V c 2 ⟨m + 1, hm⟩) (blk2 V c 3 ⟨m + 1, hm⟩) (blk2 V c 4 ⟨m + 1, hm⟩) (accAt2 V c m (Nat.lt_of_succ_lt hm)))
    · exact (accAt2_mid V c ⟨m + 1, hm⟩ h0 h1).trans
        (accMid2_eq c (grid2.coords ⟨m + 1, hm⟩) (ms2_0 ⟨m + 1, hm⟩) (hs2_0 ⟨m + 1, hm⟩) (ms2_1 ⟨m + 1, hm⟩) (hs2_1 ⟨m + 1, hm⟩) (ms2_2 ⟨m + 1, hm⟩) (hs2_2 ⟨m + 1, hm⟩) (ms2_3 ⟨m + 1, hm⟩) (hs2_3 ⟨m + 1, hm⟩) (ms2_4 ⟨m + 1, hm⟩) (hs2_4 ⟨m + 1, hm⟩) (ms2_5 ⟨m + 1, hm⟩) (hs2_5 ⟨m + 1, hm⟩) acc2M (Memref.isWhole_whole _) (fun h => h0 ((first2_iff ⟨m + 1, hm⟩).mp h)) (fun h => h1 ((last2_iff ⟨m + 1, hm⟩).mp h))
          (blk2 V c 0 ⟨m + 1, hm⟩) (blk2 V c 1 ⟨m + 1, hm⟩) (accAt2 V c m (Nat.lt_of_succ_lt hm)))
  refine (congrFun key (ix2 p q)).trans ?_
  refine (pay2_rows2 (blk2 V c 0 ⟨m + 1, hm⟩) (blk2 V c 1 ⟨m + 1, hm⟩) (accAt2 V c m (Nat.lt_of_succ_lt hm)) (grid2.coords ⟨m + 1, hm⟩) ((m + 1) % 4) (Nat.mod_lt _ (by decide)) (off2_1 ⟨m + 1, hm⟩).1 (off2_1 ⟨m + 1, hm⟩).2 p q).trans ?_
  exact congrArg (fun z => (accAt2 V c m (Nat.lt_of_succ_lt hm) : Vec Ideal S512x128 .f32) (ix2 p q) + z)
    (step_eq2 V c ⟨m + 1, hm⟩ p q (blk2 V c 0 ⟨m + 1, hm⟩) (blk2 V c 1 ⟨m + 1, hm⟩) rfl rfl)

/-- THE ACCUMULATOR: after the body at position `n` it holds, at row `p`, feature `q`, the running sum of the steps
    `0 … n % 4` of the message at the point's rows. -/
theorem accAt2_eq (c : Dev nD) : ∀ (n : ℕ) (hn : n < cfg2.N) (p : Fin 512) (q : Fin 128),
    (accAt2 V c n hn : Vec Ideal S512x128 .f32) (ix2 p q)
      = Cert.Spec.accAt (sAt2 (adjA2 V c) (hA2 V c) (rowIx2 ⟨n, hn⟩ p) q) (n % 4)
  | 0, hn, p, q => acc_first2 V c ⟨0, hn⟩ rfl p q
  | m + 1, hn, p, q => by
    by_cases h0 : (m + 1) % 4 = 0
    · refine (acc_first2 V c ⟨m + 1, hn⟩ h0 p q).trans ?_
      show 0 + sAt2 _ _ _ _ ((m + 1) % 4) = Cert.Spec.accAt _ ((m + 1) % 4)
      rw [h0]; rfl
    · refine (acc_next2 V c m hn h0 p q).trans ?_
      rw [accAt2_eq c m (Nat.lt_of_succ_lt hn) p q]
      have hmod : (m + 1) % 4 = m % 4 + 1 := by omega
      have hrow : rowIx2 ⟨m, Nat.lt_of_succ_lt hn⟩ p = rowIx2 ⟨m + 1, hn⟩ p :=
        Fin.ext (by show 512 * (m / 4) + p.val = 512 * ((m + 1) / 4) + p.val; omega)
      rw [hrow, hmod]
      rfl

/-! ## The layer's output rows at a last step -/

/-- The layer on the arrays the region finds, index by index. -/
def layerG2 (c : Dev nD) : S16384x128.Idx → EReal := fun i =>
  Cert.Spec.layer (fun r j => adjA2 V c (ix2 r j)) (fun r k => hA2 V c (ix2 r k)) (fun r => gA2 V c (ix2 r 0))
    (fun k q => wlA2 V c (ix2 k q)) (fun q => blA2 V c (ix2 0 q)) (i 0) (i 1)

/-- The four steps' running sum is the whole message: 16384 = 4 · 4096. -/
theorem msg_total2 (adj : S16384x16384.Idx → EReal) (h : S16384x128.Idx → EReal) (r : Fin 16384) (k : Fin 128) :
    Cert.Spec.accAt (sAt2 adj h r k) 3 = ∑ j : Fin 16384, adj (ix2 r j) * h (ix2 j k) :=
  Cert.Spec.acc_blocks_4_4096 (sAt2 adj h r k) (fun j => adj (ix2 r j) * h (ix2 j k)) (fun b j => colIx2 b.val b.isLt j)
    (fun b j => by show 4096 * b.val + j.val = b.val * 4096 + j.val; omega)
    (fun b => by unfold sAt2; rw [dif_pos b.isLt])

/-- The body's last payload over variables, the rows of the features under the row tile named by their first row. -/
theorem pay3_rows2 (x1 : Vec Ideal S16384x128 .f32) (x2 : Vec Ideal S512x1 .f32) (acc : Vec Ideal S512x128 .f32)
    (x3 : Vec Ideal S128x128 .f32) (x4 : Vec Ideal S1x128 .f32) (i : grid2.Coords) (hl : last2 i) (r0 : ℕ) (hr0 : r0 + 512 ≤ 16384)
    (ho0 : k2_off2 i 0 = r0) (ho1 : k2_off2 i 1 = 0) (p : Fin 512) (q : Fin 128) :
    k2_pay3 (F := Ideal) (View.ld x1 (tRows2 i hl)) x2 acc x3 x4 (ix2 p q)
      = max ((∑ k : Fin 128, (x2 (ix2 p 0) * x1 (ix2 (⟨r0 + p.val, by have := p.isLt; omega⟩ : Fin 16384) k)
          + (1 - x2 (ix2 p 0)) * acc (ix2 p k)) * x3 (ix2 k q)) + x4 (ix2 0 q)) 0 := by
  have e : ∀ k : Fin 128, (View.ld x1 (tRows2 i hl) : Vec Ideal S512x128 .f32) (ix2 p k)
      = x1 (ix2 (⟨r0 + p.val, by have := p.isLt; omega⟩ : Fin 16384) k) := fun k => by
    show x1 ((tRows2 i hl).idx (ix2 p k)) = _
    congr 1
    funext a
    apply Fin.ext
    match a with
    | ⟨0, _⟩ => show k2_off2 i 0 + 1 * p.val = r0 + p.val; rw [ho0]; omega
    | ⟨1, _⟩ => show k2_off2 i 1 + 1 * k.val = k.val; rw [ho1]; omega
  refine (k2_pay3_apply (View.ld x1 (tRows2 i hl)) x2 acc x3 x4 p q).trans ?_
  simp only [e]

/-- THE RESULT BLOCK: at a last step the result window's buffer holds, at row `p`, feature `q`, the layer at the row
    tile's row `p`. -/
theorem res_last2 (c : Dev nD) (t : Fin cfg2.N) (h1 : t.val % 4 = 3) (p : Fin 512) (q : Fin 128) :
    (resAt2 V c t : Vec Ideal S512x128 .f32) (ix2 p q) = layerG2 V c (ix2 (rowIx2 t p) q) := by
  have h0 : ¬ t.val % 4 = 0 := by omega
  have hl : last2 (grid2.coords t) := (last2_iff t).mpr h1
  have hN : cfg2.N = 128 := N_2
  have hacc : (accAt2 V c t.val t.isLt : Vec Ideal S512x128 .f32)
      = k2_pay2 (F := Ideal) (blk2 V c 0 t) (View.ld (blk2 V c 1 t) (kRows2 (grid2.coords t))) (accAt2 V c (t.val - 1) (Nat.lt_of_le_of_lt (Nat.sub_le _ _) t.isLt)) :=
    (accAt2_last V c t h0 h1).trans
      (accLast2_eq c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) hl
        (blk2 V c 0 t) (blk2 V c 1 t) (blk2 V c 2 t) (blk2 V c 3 t) (blk2 V c 4 t) (accAt2 V c (t.val - 1) (Nat.lt_of_le_of_lt (Nat.sub_le _ _) t.isLt)))
  have hres : (resAt2 V c t : Vec Ideal S512x128 .f32)
      = k2_pay3 (F := Ideal) (View.ld (blk2 V c 1 t) (tRows2 (grid2.coords t) hl)) (blk2 V c 2 t) (accAt2 V c t.val t.isLt) (blk2 V c 3 t) (blk2 V c 4 t) :=
    ((dif_pos h1 : resAt2 V c t = _).trans
      (resLast2_eq c (grid2.coords t) (ms2_0 t) (hs2_0 t) (ms2_1 t) (hs2_1 t) (ms2_2 t) (hs2_2 t) (ms2_3 t) (hs2_3 t) (ms2_4 t) (hs2_4 t) (ms2_5 t) (hs2_5 t) acc2M (Memref.isWhole_whole _) (fun h => h0 ((first2_iff t).mp h)) hl
        (blk2 V c 0 t) (blk2 V c 1 t) (blk2 V c 2 t) (blk2 V c 3 t) (blk2 V c 4 t) (accAt2 V c (t.val - 1) (Nat.lt_of_le_of_lt (Nat.sub_le _ _) t.isLt)))).trans
      (congrArg (fun z => k2_pay3 (F := Ideal) (View.ld (blk2 V c 1 t) (tRows2 (grid2.coords t) hl)) (blk2 V c 2 t) z (blk2 V c 3 t) (blk2 V c 4 t)) hacc.symm)
  refine (congrFun hres (ix2 p q)).trans ?_
  refine (pay3_rows2 (blk2 V c 1 t) (blk2 V c 2 t) (accAt2 V c t.val t.isLt) (blk2 V c 3 t) (blk2 V c 4 t) (grid2.coords t) hl
    (512 * (t.val / 4)) (by have := t.isLt; omega) (off2_2 t).1 (off2_2 t).2 p q).trans ?_
  rw [blk2_2_apply V c t p (ix2 (rowIx2 t p) 0) rfl rfl, blk2_1_eq V c t, blk2_3_eq V c t, blk2_4_eq V c t]
  unfold layerG2 Cert.Spec.layer
  refine congrArg₂ max (congrArg₂ (· + ·) (Finset.sum_congr rfl fun k _ => ?_) rfl) rfl
  rw [accAt2_eq V c t.val t.isLt p k, h1, msg_total2]

/-! ## From the flushed blocks to the result array -/

/-- What a last step writes back is the layer read through the step's block of the result. -/
theorem flushed2_eq (c : Dev nD) (t : Fin cfg2.N) (hf : (cfg2.win 5).flush t = true) :
    (dat2 V c).flushed 5 t = ((cfg2.win 5).blk t).view.read (Elt Ideal) (layerG2 V c) := by
  have h1 : t.val % 4 = 3 := (flush2_5 t).mp hf
  have hi := idx2_5 t
  show (cfg2.win 5).cut (grid2.coords t) ((dat2 V c).after 5 t) = _
  rw [after2_5]
  funext y
  have hp : (y 0).val < 512 := (y 0).isLt
  have hq : (y 1).val < 128 := (y 1).isLt
  have hx : (cfg2.win 5).xinj (grid2.coords t) y = (ix2 (⟨(y 0).val, hp⟩ : Fin 512) (⟨(y 1).val, hq⟩ : Fin 128) : S512x128.Idx) :=
    funext fun a => match a with
      | ⟨0, _⟩ => rfl
      | ⟨1, _⟩ => rfl
  refine ((congrArg (resAt2 V c t : Vec Ideal S512x128 .f32) hx).trans (res_last2 V c t h1 ⟨(y 0).val, hp⟩ ⟨(y 1).val, hq⟩)).trans ?_
  rw [View.read_apply]
  show layerG2 V c _ = layerG2 V c _
  refine congrArg (layerG2 V c) (funext fun a => Fin.ext ?_)
  match a with
  | ⟨0, _⟩ => show 512 * (t.val / 4) + (y 0).val = win2_5.index t 0 * 512 + 1 * (y 0).val; rw [hi.1]; omega
  | ⟨1, _⟩ => show (y 1).val = win2_5.index t 1 * 128 + 1 * (y 1).val; rw [hi.2]; omega

/-- Every row of the result lies in the block of the last step of its row tile. -/
theorem cover2 (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 128 := N_2
  have h0 : (i 0 : Nat) < 16384 := (i 0).isLt
  have h1 : (i 1 : Nat) < 128 := (i 1).isLt
  obtain ⟨t, ht⟩ : ∃ t : Fin cfg2.N, t.val = 4 * ((i 0 : Nat) / 512) + 3 := ⟨⟨4 * ((i 0 : Nat) / 512) + 3, by omega⟩, rfl⟩
  have hi := idx2_5 t
  refine ⟨t, (flush2_5 t).mpr (by omega), ?_⟩
  show i ∈ ((View.whole main_v60).slice (win2_5.rect t)).set
  rw [View.set_slice_whole, Rect.mem_set_unit]
  intro a
  match a with
  | ⟨0, _⟩ =>
    show win2_5.index t 0 * 512 ≤ (i 0 : Nat) ∧ (i 0 : Nat) < win2_5.index t 0 * 512 + 512
    rw [hi.1]; omega
  | ⟨1, _⟩ =>
    show win2_5.index t 1 * 128 ≤ (i 1 : Nat) ∧ (i 1 : Nat) < win2_5.index t 1 * 128 + 128
    rw [hi.2]; omega

/-- THE REGION'S VALUE: after the run the result array holds the layer of the five arrays the region found, index by
    index. -/
theorem layer2_value (c : Dev nD) :
    (dat2 (F := Ideal) V c).arrAt 5 cfg2.N
      = fun i => Cert.Spec.layer (fun r j => adjA2 V c (ix2 r j)) (fun r k => hA2 V c (ix2 r k)) (fun r => gA2 V c (ix2 r 0))
          (fun k q => wlA2 V c (ix2 k q)) (fun q => blA2 V c (ix2 0 q)) (i 0) (i 1) :=
  (dat2 V c).arrAt_eq_of_cover 5 (layerG2 V c) (flushed2_eq V c) (cover2 c)

end Cert.KernelIdeal.Hand

end
-- ==== Proof.Algebraic.lean ====
import proofs.«103405_j58265526337970_2_alg».proof.Defs
import proofs.«103405_j58265526337970_2_alg».proof.Proof.KernelValue
import proofs.«103405_j58265526337970_2_alg».proof.Proof.LayerValue0
import proofs.«103405_j58265526337970_2_alg».proof.Proof.LayerValue1
import proofs.«103405_j58265526337970_2_alg».proof.Proof.LayerValue2
import proofs.«103405_j58265526337970_2_alg».proof.Proof.RefRun
import proofs.«103405_j58265526337970_2_alg».proof.Proof.Gen.KernelIdeal
import proofs.«103405_j58265526337970_2_alg».proof.Proof.Gen.ReferenceIdeal
import proofs.«103405_j58265526337970_2_alg».proof.Proof.Gen.Pre_finite_inputs

set_option maxRecDepth 16384

noncomputable section

namespace Cert.Proof.Layers

open Idealize.ShloMosaic Idealize.ShloMosaic.TcCoe Idealize.SL.Sem
open Cert.KernelIdeal Cert.KernelIdeal.Gen Cert.KernelIdeal.Hand

/-! # The two idealized programs end with equal results

Both runs end with the result buffer at ONE composition of whole-array functions of the fifteen arguments: the
encoder, three gated message-passing layers, the per-graph mean and the classifier. The kernel program reaches it
through its three regions (each layer's K-tiled accumulation is the plain sum over all sixteen thousand columns,
regrouped; the narrow copy of the adjacency matrix is the matrix itself), the reference directly. The law joining the
two sides is the regrouping of a finite sum of extended reals, which holds without any finiteness of the inputs. -/

/-- The three regions' result arrays, in the form the assembly takes them. -/
theorem hv0 (V : (c : Dev nD) → (b : Ref sig .tc) → Buf (Elt Ideal) ((c : Thread nD τ).loc b)) (c : Dev nD) :
    (dat0 (F := Ideal) V c).arrAt 5 cfg0.N = layerOf (V c (Pipeline.arrRef spec0 0)) (V c (Pipeline.arrRef spec0 1)) (V c (Pipeline.arrRef spec0 2)) (V c (Pipeline.arrRef spec0 3)) (V c (Pipeline.arrRef spec0 4)) :=
  layer0_value V c
theorem hv1 (V : (c : Dev nD) → (b : Ref sig .tc) → Buf (Elt Ideal) ((c : Thread nD τ).loc b)) (c : Dev nD) :
    (dat1 (F := Ideal) V c).arrAt 5 cfg1.N = layerOf (V c (Pipeline.arrRef spec1 0)) (V c (Pipeline.arrRef spec1 1)) (V c (Pipeline.arrRef spec1 2)) (V c (Pipeline.arrRef spec1 3)) (V c (Pipeline.arrRef spec1 4)) :=
  layer1_value V c
theorem hv2 (V : (c : Dev nD) → (b : Ref sig .tc) → Buf (Elt Ideal) ((c : Thread nD τ).loc b)) (c : Dev nD) :
    (dat2 (F := Ideal) V c).arrAt 5 cfg2.N = layerOf (V c (Pipeline.arrRef spec2 0)) (V c (Pipeline.arrRef spec2 1)) (V c (Pipeline.arrRef spec2 2)) (V c (Pipeline.arrRef spec2 3)) (V c (Pipeline.arrRef spec2 4)) :=
  layer2_value V c

/-- At the exact instance, from memories agreeing on the arguments, both programs run and end with equal results
    and unchanged arguments. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.ReferenceIdeal.RefValue.refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)), ?_, ?_⟩
  · refine run_post m ρ (half0 (F := Ideal)) half1 half2 (fun s h c => ⟨?_, (h c _ (mem_uc main_arg0 (by decide))).trans (W12_main_arg0 m half0 half1 half2 c),
      (h c _ (mem_uc main_arg1 (by decide))).trans (W12_main_arg1 m half0 half1 half2 c),
      (h c _ (mem_uc main_arg2 (by decide))).trans (W12_main_arg2 m half0 half1 half2 c),
      (h c _ (mem_uc main_arg3 (by decide))).trans (W12_main_arg3 m half0 half1 half2 c),
      (h c _ (mem_uc main_arg4 (by decide))).trans (W12_main_arg4 m half0 half1 half2 c),
      (h c _ (mem_uc main_arg5 (by decide))).trans (W12_main_arg5 m half0 half1 half2 c),
      (h c _ (mem_uc main_arg6 (by decide))).trans (W12_main_arg6 m half0 half1 half2 c),
      (h c _ (mem_uc main_arg7 (by decide))).trans (W12_main_arg7 m half0 half1 half2 c),
      (h c _ (mem_uc main_arg8 (by decide))).trans (W12_main_arg8 m half0 half1 half2 c),
      (h c _ (mem_uc main_arg9 (by decide))).trans (W12_main_arg9 m half0 half1 half2 c),
      (h c _ (mem_uc main_arg10 (by decide))).trans (W12_main_arg10 m half0 half1 half2 c),
      (h c _ (mem_uc main_arg11 (by decide))).trans (W12_main_arg11 m half0 half1 half2 c),
      (h c _ (mem_uc main_arg12 (by decide))).trans (W12_main_arg12 m half0 half1 half2 c),
      (h c _ (mem_uc main_arg13 (by decide))).trans (W12_main_arg13 m half0 half1 half2 c),
      (h c _ (mem_uc main_arg14 (by decide))).trans (W12_main_arg14 m half0 half1 half2 c)⟩)
    exact (h c _ (mem_uc main_v83 (by decide))).trans (result_value m hv0 hv1 hv2 c)
  · refine (θ_run Cert.ReferenceIdeal.defs _ _).mono (fun _ h c => ⟨(h c).1.trans ?_, (h c).2⟩)
      (Cert.ReferenceIdeal.RefValue.run_refResult (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

end Cert.Proof.Layers

end
-- ==== Proof.lean ====
/-
  A three-layer gated message-passing network over a dense 16384-node graph: the node encoder, per layer a sigmoid
  gate, the neighbour sum `adj · h`, the gated combination, a linear map and a clamp at zero, then a per-graph mean,
  a tanh layer and a two-class classifier. The kernel program runs each layer as one tiled region: the adjacency
  matrix streamed in (row tile, K tile) blocks, the products with the matching rows of the resident features added
  into an accumulator across the K tiles of a row tile, and at the last K tile the gate, the linear map, the bias and
  the clamp applied to the row tile; the first region also writes the adjacency matrix in the narrow float format,
  which the later regions stream instead. The reference computes the same layers with whole-array operations.

  The frames: every region is run point by point, the accumulator's contents carried in the region's invariant
  (what the point before left), the body once per case of its two branches (first K tile, a middle one, the last);
  @main is the regions between stretches of host operations, the buffers' contents folded from the launch to the
  return. The same text proves the frame at the word level and at the exact instance.
  The value: at the exact instance a change of format is the identity and a matrix product into the zero
  accumulator is the plain sum, so a row tile's accumulator after its last K tile is the sum over ALL columns,
  regrouped tile by tile — the one algebraic law used, valid for extended reals with no finiteness assumed —; each
  region's result array is therefore one layer of its entry arrays, the host stretches are the reference's own
  operations, and the two programs end at one composition of the arguments.
-/
import proofs.«103405_j58265526337970_2_alg».proof.Defs
import proofs.«103405_j58265526337970_2_alg».proof.Proof.Gen.Kernel
import proofs.«103405_j58265526337970_2_alg».proof.Proof.Gen.KernelIdeal
import proofs.«103405_j58265526337970_2_alg».proof.Proof.Gen.ReferenceIdeal
import proofs.«103405_j58265526337970_2_alg».proof.Proof.Gen.ReferenceIdeal.Run
import proofs.«103405_j58265526337970_2_alg».proof.Proof.Gen.ReferenceIdeal.Read
import proofs.«103405_j58265526337970_2_alg».proof.Proof.Gen.Pre_finite_inputs
import proofs.«103405_j58265526337970_2_alg».proof.Proof.Halves
import proofs.«103405_j58265526337970_2_alg».proof.Proof.WHalves
import proofs.«103405_j58265526337970_2_alg».proof.Proof.Algebraic
import Idealize.ShloMosaic.Adequacy
import Idealize.ShloMosaic.Init

noncomputable section

namespace Cert.Proof

open Idealize.ShloMosaic Idealize.SL.Sem

/-- The word-level program runs and leaves its arguments unchanged. -/
theorem frame_kernel [Cert.Kernel.Facts] [Cert.Pre_finite_inputs.Facts] : Cert.frame_Kernel :=
  fun m ρ _ => Cert.Kernel.Hand.frame m ρ
/-- So does its idealization. -/
theorem frame_kernelIdeal [Cert.KernelIdeal.Facts] [Cert.Pre_finite_inputs.Facts] : Cert.frame_KernelIdeal :=
  fun m ρ _ => Cert.KernelIdeal.Hand.frame m ρ
/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Layers.algebraic⟩

end Cert.Proof

end
